-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S2x800000 : Shape := ⟨2, ![2, 800000]⟩
abbrev S2x64x64 : Shape := ⟨3, ![2, 64, 64]⟩
abbrev S2x64 : Shape := ⟨2, ![2, 64]⟩
abbrev S2x64x128 : Shape := ⟨3, ![2, 64, 128]⟩
abbrev S2x128 : Shape := ⟨2, ![2, 128]⟩
abbrev S2x128x64 : Shape := ⟨3, ![2, 128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x128 : S_.BroadcastsInDim S2x64x128 (![] : Fin 0 → Fin S2x64x128.rank)
  reducesTo_S2x64x128_S_d0_1_2 : S2x64x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x64 : S_.BroadcastsInDim S2x128x64 (![] : Fin 0 → Fin S2x128x64.rank)
  reducesTo_S2x128x64_S_d0_1_2 : S2x128x64.ReducesTo [0, 1, 2] S_

variable [Facts]

def fn_part4 {F : FTy → Type} [FloatOps F] (main_arg15 : FVec F S2x64 .f32) (main_arg16 : FVec F S2x64 .f32) (main_v63 : IVec S_ 1) (main_v67 : IVec S_ 1) : IVec S_ 1 :=
  let main_v68 : IVec S_ 1 := andi main_v63 main_v67
  let main_v69 : FVec F S2x64 .f32 := Host.absf main_arg15
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S2x64 .f32 := Host.absf main_arg16
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  main_v78

def fn_part3 {F : FTy → Type} [FloatOps F] (main_arg12 : FVec F S2x128 .f32) (main_arg13 : FVec F S2x128x64 .f32) (main_arg14 : FVec F S2x64 .f32) (main_arg15 : FVec F S2x64 .f32) (main_arg16 : FVec F S2x64 .f32) (main_v48 : IVec S_ 1) (main_v49 : FVec F S2x64x128 .f32) (main_v50 : FVec F S2x64x128 .f32) : IVec S_ 1 :=
  let main_v51 : IVec S2x64x128 1 := cmpf .olt main_v49 main_v50
  let main_c_19 : IVec S_ 1 := constantI S_ 1 1#1
  let main_v52 : IVec S_ 1 := (fun x v => Host.reduce IntOp.andi x v reducesTo_S2x64x128_S_d0_1_2 h_S_) main_v51 main_c_19
  let main_v53 : IVec S_ 1 := andi main_v48 main_v52
  let main_v54 : FVec F S2x128 .f32 := Host.absf main_arg12
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128x64 .f32 := Host.absf main_arg13
  let main_cst_22 : FVec F S_ .f32 := constant S_ .f32 0x7F800000#32
  let main_v60 : FVec F S2x128x64 .f32 := broadcastInDim S2x128x64 ![] bcast_S_S2x128x64 main_cst_22
  let main_v61 : IVec S2x128x64 1 := cmpf .olt main_v59 main_v60
  let main_c_23 : IVec S_ 1 := constantI S_ 1 1#1
  let main_v62 : IVec S_ 1 := (fun x v => Host.reduce IntOp.andi x v reducesTo_S2x128x64_S_d0_1_2 h_S_) main_v61 main_c_23
  let main_v63 : IVec S_ 1 := andi main_v58 main_v62
  let main_v64 : FVec F S2x64 .f32 := Host.absf main_arg14
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg15 main_arg16 main_v63 main_v67

def fn_part2 {F : FTy → Type} [FloatOps F] (main_arg8 : FVec F S2x64 .f32) (main_arg9 : FVec F S2x64 .f32) (main_arg10 : FVec F S2x64 .f32) (main_arg11 : FVec F S2x64x128 .f32) (main_arg12 : FVec F S2x128 .f32) (main_arg13 : FVec F S2x128x64 .f32) (main_arg14 : FVec F S2x64 .f32) (main_arg15 : FVec F S2x64 .f32) (main_arg16 : FVec F S2x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg9
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64x128 .f32 := Host.absf main_arg11
  let main_cst_18 : FVec F S_ .f32 := constant S_ .f32 0x7F800000#32
  let main_v50 : FVec F S2x64x128 .f32 := broadcastInDim S2x64x128 ![] bcast_S_S2x64x128 main_cst_18
  fn_part3 (F := F) main_arg12 main_arg13 main_arg14 main_arg15 main_arg16 main_v48 main_v49 main_v50

def fn_part1 {F : FTy → Type} [FloatOps F] (main_arg5 : FVec F S2x64x64 .f32) (main_arg6 : FVec F S2x64x64 .f32) (main_arg7 : FVec F S2x64x64 .f32) (main_arg8 : FVec F S2x64 .f32) (main_arg9 : FVec F S2x64 .f32) (main_arg10 : FVec F S2x64 .f32) (main_arg11 : FVec F S2x64x128 .f32) (main_arg12 : FVec F S2x128 .f32) (main_arg13 : FVec F S2x128x64 .f32) (main_arg14 : FVec F S2x64 .f32) (main_arg15 : FVec F S2x64 .f32) (main_arg16 : FVec F S2x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64x64 .f32 := Host.absf main_arg5
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64x64 .f32 := Host.absf main_arg6
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64x64 .f32 := Host.absf main_arg7
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x64 .f32) (main_arg1 : FVec F S800000x64 .f32) (main_arg2 : IVec S2x800000 32) (main_arg3 : FVec F S2x64x64 .f32) (main_arg4 : FVec F S2x64x64 .f32) (main_arg5 : FVec F S2x64x64 .f32) (main_arg6 : FVec F S2x64x64 .f32) (main_arg7 : FVec F S2x64x64 .f32) (main_arg8 : FVec F S2x64 .f32) (main_arg9 : FVec F S2x64 .f32) (main_arg10 : FVec F S2x64 .f32) (main_arg11 : FVec F S2x64x128 .f32) (main_arg12 : FVec F S2x128 .f32) (main_arg13 : FVec F S2x128x64 .f32) (main_arg14 : FVec F S2x64 .f32) (main_arg15 : FVec F S2x64 .f32) (main_arg16 : FVec F S2x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S2x64x64 .f32 := Host.absf main_arg3
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S800000x64 : Shape := ⟨2, ![800000, 64]⟩
abbrev S2x800000 : Shape := ⟨2, ![2, 800000]⟩
abbrev S2x64x64 : Shape := ⟨3, ![2, 64, 64]⟩
abbrev S2x64 : Shape := ⟨2, ![2, 64]⟩
abbrev S2x64x128 : Shape := ⟨3, ![2, 64, 128]⟩
abbrev S2x128 : Shape := ⟨2, ![2, 128]⟩
abbrev S2x128x64 : Shape := ⟨3, ![2, 128, 64]⟩
abbrev S64x4 : Shape := ⟨2, ![64, 4]⟩
abbrev S4x64 : Shape := ⟨2, ![4, 64]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S5000x64 : Shape := ⟨2, ![5000, 64]⟩
abbrev S_ : Shape := ⟨0, ![]⟩
abbrev S800000x1 : Shape := ⟨2, ![800000, 1]⟩
abbrev S6400x64 : Shape := ⟨2, ![6400, 64]⟩
abbrev S6400x4 : Shape := ⟨2, ![6400, 4]⟩
abbrev S1x64 : Shape := ⟨2, ![1, 64]⟩
abbrev S64 : Shape := ⟨1, ![64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S5000 : Shape := ⟨1, ![5000]⟩
abbrev S5000x1 : Shape := ⟨2, ![5000, 1]⟩
abbrev S5000x128 : Shape := ⟨2, ![5000, 128]⟩

abbrev nBuf : Space → Nat
  | .hbm => 161
  | .vmem => 88
  | .smem => 0
  | _ => 0

abbrev hbmTy0_0 (i : Nat) : BufTy := match i % 128 with
  | 0 => ⟨S50000x64, .f32⟩
  | 1 => ⟨S800000x64, .f32⟩
  | 2 => ⟨S2x800000, .i32⟩
  | 3 => ⟨S2x64x64, .f32⟩
  | 4 => ⟨S2x64x64, .f32⟩
  | 5 => ⟨S2x64x64, .f32⟩
  | 6 => ⟨S2x64x64, .f32⟩
  | 7 => ⟨S2x64x64, .f32⟩
  | 8 => ⟨S2x64, .f32⟩
  | 9 => ⟨S2x64, .f32⟩
  | 10 => ⟨S2x64, .f32⟩
  | 11 => ⟨S2x64x128, .f32⟩
  | 12 => ⟨S2x128, .f32⟩
  | 13 => ⟨S2x128x64, .f32⟩
  | 14 => ⟨S2x64, .f32⟩
  | 15 => ⟨S2x64, .f32⟩
  | 16 => ⟨S2x64, .f32⟩
  | 17 => ⟨S64x4, .f32⟩
  | 18 => ⟨S4x64, .f32⟩
  | 19 => ⟨S1x800000, .i32⟩
  | 20 => ⟨S800000, .i32⟩
  | 21 => ⟨S1x800000, .i32⟩
  | 22 => ⟨S800000, .i32⟩
  | 23 => ⟨S1x64x64, .f32⟩
  | 24 => ⟨S64x64, .f32⟩
  | 25 => ⟨S1x64x64, .f32⟩
  | 26 => ⟨S64x64, .f32⟩
  | 27 => ⟨S1x64x64, .f32⟩
  | 28 => ⟨S64x64, .f32⟩
  | 29 => ⟨S50000x64, .f32⟩
  | 30 => ⟨S50000x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S1x64x64, .f32⟩
  | 60 => ⟨S64x64, .f32⟩
  | 61 => ⟨S800000x64, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S_, .f32⟩
  | 68 => ⟨S50000x64, .f32⟩
  | 69 => ⟨S800000x1, .i32⟩
  | 70 => ⟨S50000x64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S64, .f32⟩
  | 79 => ⟨S1x64x128, .f32⟩
  | 80 => ⟨S64x128, .f32⟩
  | 81 => ⟨S1x128, .f32⟩
  | 82 => ⟨S128, .f32⟩
  | 83 => ⟨S1x128x64, .f32⟩
  | 84 => ⟨S128x64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S50000x64, .f32⟩
  | 92 => ⟨S1x64x64, .f32⟩
  | 93 => ⟨S64x64, .f32⟩
  | 94 => ⟨S1x64x64, .f32⟩
  | 95 => ⟨S64x64, .f32⟩
  | 96 => ⟨S1x64x64, .f32⟩
  | 97 => ⟨S64x64, .f32⟩
  | 98 => ⟨S50000x64, .f32⟩
  | 99 => ⟨S50000x64, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x64, .f32⟩

abbrev hbmTy0_1 (i : Nat) : BufTy := match i % 128 with
  | 0 => ⟨S1x64x64, .f32⟩
  | 1 => ⟨S64x64, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S_, .f32⟩
  | 9 => ⟨S50000x64, .f32⟩
  | 10 => ⟨S800000x1, .i32⟩
  | 11 => ⟨S50000x64, .f32⟩
  | 12 => ⟨S1x64x64, .f32⟩
  | 13 => ⟨S64x64, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S1x64x128, .f32⟩
  | 21 => ⟨S64x128, .f32⟩
  | 22 => ⟨S1x128, .f32⟩
  | 23 => ⟨S128, .f32⟩
  | 24 => ⟨S1x128x64, .f32⟩
  | 25 => ⟨S128x64, .f32⟩
  | 26 => ⟨S1x64, .f32⟩
  | 27 => ⟨S64, .f32⟩
  | 28 => ⟨S1x64, .f32⟩
  | 29 => ⟨S64, .f32⟩
  | 30 => ⟨S1x64, .f32⟩
  | 31 => ⟨S64, .f32⟩
  | 32 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S6400x64, .f32⟩
  | .local _ .vmem, ⟨12, _⟩ => ⟨S6400x64, .f32⟩
  | .local _ .vmem, ⟨13, _⟩ => ⟨S6400x64, .f32⟩
  | .local _ .vmem, ⟨14, _⟩ => ⟨S6400x64, .f32⟩
  | .local _ .vmem, ⟨15, _⟩ => ⟨S6400x64, .f32⟩
  | .local _ .vmem, ⟨16, _⟩ => ⟨S6400x64, .f32⟩
  | .local _ .vmem, ⟨17, _⟩ => ⟨S6400x64, .f32⟩
  | .local _ .vmem, ⟨18, _⟩ => ⟨S6400x64, .f32⟩
  | .local _ .vmem, ⟨19, _⟩ => ⟨S64x64, .f32⟩
  | .local _ .vmem, ⟨20, _⟩ => ⟨S64x4, .f32⟩
  | .local _ .vmem, ⟨21, _⟩ => ⟨S4x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S6400x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S64x128, .f32⟩
  | .local _ .vmem, ⟨37, _⟩ => ⟨S128, .f32⟩
  | .local _ .vmem, ⟨38, _⟩ => ⟨S128x64, .f32⟩
  | .local _ .vmem, ⟨39, _⟩ => ⟨S64, .f32⟩
  | .local _ .vmem, ⟨40, _⟩ => ⟨S64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S64x64, .f32⟩
  | .local _ .vmem, ⟨48, _⟩ => ⟨S64x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S6400x64, .f32⟩
  | .local _ .vmem, ⟨56, _⟩ => ⟨S6400x64, .f32⟩
  | .local _ .vmem, ⟨57, _⟩ => ⟨S6400x64, .f32⟩
  | .local _ .vmem, ⟨58, _⟩ => ⟨S6400x64, .f32⟩
  | .local _ .vmem, ⟨59, _⟩ => ⟨S6400x64, .f32⟩
  | .local _ .vmem, ⟨60, _⟩ => ⟨S6400x64, .f32⟩
  | .local _ .vmem, ⟨61, _⟩ => ⟨S6400x64, .f32⟩
  | .local _ .vmem, ⟨62, _⟩ => ⟨S6400x64, .f32⟩
  | .local _ .vmem, ⟨63, _⟩ => ⟨S64x64, .f32⟩
  | .local _ .vmem, ⟨64, _⟩ => ⟨S64x4, .f32⟩
  | .local _ .vmem, ⟨65, _⟩ => ⟨S4x64, .f32⟩
  | .local _ .vmem, ⟨66, _⟩ => ⟨S6400x64, .f32⟩
  | .local _ .vmem, ⟨67, _⟩ => ⟨S6400x64, .f32⟩
  | .local _ .vmem, ⟨68, _⟩ => ⟨S6400x64, .f32⟩
  | .local _ .vmem, ⟨69, _⟩ => ⟨S6400x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S64x64, .f32⟩
  | .local _ .vmem, ⟨77, _⟩ => ⟨S64, .f32⟩
  | .local _ .vmem, ⟨78, _⟩ => ⟨S64, .f32⟩
  | .local _ .vmem, ⟨79, _⟩ => ⟨S64, .f32⟩
  | .local _ .vmem, ⟨80, _⟩ => ⟨S64x128, .f32⟩
  | .local _ .vmem, ⟨81, _⟩ => ⟨S128, .f32⟩
  | .local _ .vmem, ⟨82, _⟩ => ⟨S128x64, .f32⟩
  | .local _ .vmem, ⟨83, _⟩ => ⟨S64, .f32⟩
  | .local _ .vmem, ⟨84, _⟩ => ⟨S64, .f32⟩
  | .local _ .vmem, ⟨85, _⟩ => ⟨S64, .f32⟩
  | .local _ .vmem, ⟨86, _⟩ => ⟨S5000x64, .f32⟩
  | .local _ .vmem, ⟨87, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34_0 : Ref sig .tc := ⟨.hbm, 61, rfl⟩
abbrev main_v34_1 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68_0 : Ref sig .tc := ⟨.hbm, 98, rfl⟩
abbrev main_v68_1 : Ref sig .tc := ⟨.hbm, 99, rfl⟩
abbrev main_v68_2 : Ref sig .tc := ⟨.hbm, 100, rfl⟩
abbrev main_c_8 : Ref sig .tc := ⟨.hbm, 101, rfl⟩
abbrev main_v69 : Ref sig .tc := ⟨.hbm, 102, rfl⟩
abbrev main_v70 : Ref sig .tc := ⟨.hbm, 103, rfl⟩
abbrev main_c_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_10 : Ref sig .tc := ⟨.hbm, 110, rfl⟩
abbrev main_v76 : Ref sig .tc := ⟨.hbm, 111, rfl⟩
abbrev main_v77 : Ref sig .tc := ⟨.hbm, 112, rfl⟩
abbrev main_c_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_12 : Ref sig .tc := ⟨.hbm, 119, rfl⟩
abbrev main_v83 : Ref sig .tc := ⟨.hbm, 120, rfl⟩
abbrev main_v84 : Ref sig .tc := ⟨.hbm, 121, rfl⟩
abbrev main_c_13 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92_0 : Ref sig .tc := ⟨.hbm, 130, rfl⟩
abbrev main_v92_1 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_15 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg9_0 : Ref sig .tc := ⟨.vmem, 38, rfl⟩
abbrev cc2_stg10_0 : Ref sig .tc := ⟨.vmem, 39, rfl⟩
abbrev cc2_stg11_0 : Ref sig .tc := ⟨.vmem, 40, rfl⟩
abbrev cc2_stg12_0 : Ref sig .tc := ⟨.vmem, 41, rfl⟩
abbrev cc2_stg13_0 : Ref sig .tc := ⟨.vmem, 42, rfl⟩
abbrev cc2_stg13_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg4_1 : Ref sig .tc := ⟨.vmem, 50, rfl⟩
abbrev cc3_stg5_0 : Ref sig .tc := ⟨.vmem, 51, rfl⟩
abbrev cc3_stg5_1 : Ref sig .tc := ⟨.vmem, 52, rfl⟩
abbrev cc3_stg6_0 : Ref sig .tc := ⟨.vmem, 53, rfl⟩
abbrev cc3_stg6_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg1_1 : Ref sig .tc := ⟨.vmem, 58, rfl⟩
abbrev cc4_stg2_0 : Ref sig .tc := ⟨.vmem, 59, rfl⟩
abbrev cc4_stg2_1 : Ref sig .tc := ⟨.vmem, 60, rfl⟩
abbrev cc4_stg3_0 : Ref sig .tc := ⟨.vmem, 61, rfl⟩
abbrev cc4_stg3_1 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg6_0 : Ref sig .tc := ⟨.vmem, 65, rfl⟩
abbrev cc4_stg7_0 : Ref sig .tc := ⟨.vmem, 66, rfl⟩
abbrev cc4_stg7_1 : Ref sig .tc := ⟨.vmem, 67, rfl⟩
abbrev cc4_stg8_0 : Ref sig .tc := ⟨.vmem, 68, rfl⟩
abbrev cc4_stg8_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg4_0 : Ref sig .tc := ⟨.vmem, 77, rfl⟩
abbrev cc5_stg5_0 : Ref sig .tc := ⟨.vmem, 78, rfl⟩
abbrev cc5_stg6_0 : Ref sig .tc := ⟨.vmem, 79, rfl⟩
abbrev cc5_stg7_0 : Ref sig .tc := ⟨.vmem, 80, rfl⟩
abbrev cc5_stg8_0 : Ref sig .tc := ⟨.vmem, 81, rfl⟩
abbrev cc5_stg9_0 : Ref sig .tc := ⟨.vmem, 82, rfl⟩
abbrev cc5_stg10_0 : Ref sig .tc := ⟨.vmem, 83, rfl⟩
abbrev cc5_stg11_0 : Ref sig .tc := ⟨.vmem, 84, rfl⟩
abbrev cc5_stg12_0 : Ref sig .tc := ⟨.vmem, 85, rfl⟩
abbrev cc5_stg13_0 : Ref sig .tc := ⟨.vmem, 86, rfl⟩
abbrev cc5_stg13_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem10_0 : DmaSem sig := 39
abbrev cc2_sem11_0 : DmaSem sig := 40
abbrev cc2_sem12_0 : DmaSem sig := 41
abbrev cc2_sem13_0 : DmaSem sig := 42
abbrev cc2_sem13_1 : DmaSem sig := 43
abbrev cc3_sem0_0 : DmaSem sig := 44
abbrev cc3_sem0_1 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem4_1 : DmaSem sig := 50
abbrev cc3_sem5_0 : DmaSem sig := 51
abbrev cc3_sem5_1 : DmaSem sig := 52
abbrev cc3_sem6_0 : DmaSem sig := 53
abbrev cc3_sem6_1 : DmaSem sig := 54
abbrev cc4_sem0_0 : DmaSem sig := 55
abbrev cc4_sem0_1 : DmaSem sig := 56
abbrev cc4_sem1_0 : DmaSem sig := 57
abbrev cc4_sem1_1 : DmaSem sig := 58
abbrev cc4_sem2_0 : DmaSem sig := 59
abbrev cc4_sem2_1 : DmaSem sig := 60
abbrev cc4_sem3_0 : DmaSem sig := 61
abbrev cc4_sem3_1 : DmaSem sig := 62
abbrev cc4_sem4_0 : DmaSem sig := 63
abbrev cc4_sem5_0 : DmaSem sig := 64
abbrev cc4_sem6_0 : DmaSem sig := 65
abbrev cc4_sem7_0 : DmaSem sig := 66
abbrev cc4_sem7_1 : DmaSem sig := 67
abbrev cc4_sem8_0 : DmaSem sig := 68
abbrev cc4_sem8_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem2_1 : DmaSem sig := 75
abbrev cc5_sem3_0 : DmaSem sig := 76
abbrev cc5_sem4_0 : DmaSem sig := 77
abbrev cc5_sem5_0 : DmaSem sig := 78
abbrev cc5_sem6_0 : DmaSem sig := 79
abbrev cc5_sem7_0 : DmaSem sig := 80
abbrev cc5_sem8_0 : DmaSem sig := 81
abbrev cc5_sem9_0 : DmaSem sig := 82
abbrev cc5_sem10_0 : DmaSem sig := 83
abbrev cc5_sem11_0 : DmaSem sig := 84
abbrev cc5_sem12_0 : DmaSem sig := 85
abbrev cc5_sem13_0 : DmaSem sig := 86
abbrev cc5_sem13_1 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S6400x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S5000x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6400x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S6400x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x4 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S4x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S6400x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S6400x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_12 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S64 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S64 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S5000x64 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x64x64_S1x64x64_0_0_0 : S2x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S800000 : S_.BroadcastsInDim S800000 (![] : Fin 0 → Fin S800000.rank)
  bcast_S800000_S800000x1_0 : S800000.BroadcastsInDim S800000x1 (![0] : Fin 1 → Fin S800000x1.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x4_S64x4_0_0 : ∀ a, (![0, 0] : Fin 2 → Nat) a + S64x4.size a ≤ S64x4.size a
  h_S64x4 : 0 < S64x4.numel
  inb_S4x64_S4x64_0_0 : ∀ a, (![0, 0] : Fin 2 → Nat) a + S4x64.size a ≤ S4x64.size a
  h_S4x64 : 0 < S4x64.numel
  bcast_S_S50000x64 : S_.BroadcastsInDim S50000x64 (![] : Fin 0 → Fin S50000x64.rank)
  slices_S2x64_S1x64_0_0 : S2x64.Slices ![0, 0] S1x64
  shapeCasts_S1x64_S64 : S1x64.ShapeCasts S64
  slices_S2x64x128_S1x64x128_0_0_0 : S2x64x128.Slices ![0, 0, 0] S1x64x128
  shapeCasts_S1x64x128_S64x128 : S1x64x128.ShapeCasts S64x128
  slices_S2x128_S1x128_0_0 : S2x128.Slices ![0, 0] S1x128
  shapeCasts_S1x128_S128 : S1x128.ShapeCasts S128
  slices_S2x128x64_S1x128x64_0_0_0 : S2x128x64.Slices ![0, 0, 0] S1x128x64
  shapeCasts_S1x128x64_S128x64 : S1x128x64.ShapeCasts S128x64
  shapeCasts_S5000x64_S5000x64 : S5000x64.ShapeCasts S5000x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  slices_S2x64x64_S1x64x64_1_0_0 : S2x64x64.Slices ![1, 0, 0] S1x64x64
  slices_S2x64_S1x64_1_0 : S2x64.Slices ![1, 0] S1x64
  slices_S2x64x128_S1x64x128_1_0_0 : S2x64x128.Slices ![1, 0, 0] S1x64x128
  slices_S2x128_S1x128_1_0 : S2x128.Slices ![1, 0] S1x128
  slices_S2x128x64_S1x128x64_1_0_0 : S2x128x64.Slices ![1, 0, 0] S1x128x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S6400x64_S64x64_S6400x64_1_0_0_1_n_n_wf : DotDims.WF S6400x64 S64x64 S6400x64 [1] [0] [0] [1] [] []
  dot_S6400x64_S64x4_S6400x4_1_0_0_1_n_n_wf : DotDims.WF S6400x64 S64x4 S6400x4 [1] [0] [0] [1] [] []
  dot_S6400x4_S4x64_S6400x64_1_0_0_1_n_n_wf : DotDims.WF S6400x4 S4x64 S6400x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S800000x64.size a
  hwx1_0 : ∀ i : grid1.Coords, EltTy.bits .f32 = 32 ∨ (Rect.block (s := S800000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S800000x64.size a
  hwx1_1 : ∀ i : grid1.Coords, EltTy.bits .f32 = 32 ∨ (Rect.block (s := S800000x64) S6400x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S800000x64.size a
  hwx1_2 : ∀ i : grid1.Coords, EltTy.bits .f32 = 32 ∨ (Rect.block (s := S800000x64) S6400x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x64.size a ≤ S800000x64.size a
  hwx1_3 : ∀ i : grid1.Coords, EltTy.bits .f32 = 32 ∨ (Rect.block (s := S800000x64) S6400x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x4.size a ≤ S64x4.size a
  hwx1_5 : ∀ i : grid1.Coords, EltTy.bits .f32 = 32 ∨ (Rect.block (s := S64x4) S64x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x64.size a ≤ S4x64.size a
  hwx1_6 : ∀ i : grid1.Coords, EltTy.bits .f32 = 32 ∨ (Rect.block (s := S4x64) S4x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x64.size a ≤ S800000x64.size a
  hwx1_7 : ∀ i : grid1.Coords, EltTy.bits .f32 = 32 ∨ (Rect.block (s := S800000x64) S6400x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S6400x64.size a ≤ S800000x64.size a
  hwx1_8 : ∀ i : grid1.Coords, EltTy.bits .f32 = 32 ∨ (Rect.block (s := S800000x64) S6400x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S64x128.size a
  hwx2_7 : ∀ i : grid2.Coords, EltTy.bits .f32 = 32 ∨ (Rect.block (s := S64x128) S64x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x64.size a ≤ S128x64.size a
  hwx2_9 : ∀ i : grid2.Coords, EltTy.bits .f32 = 32 ∨ (Rect.block (s := S128x64) S128x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64.size a ≤ S64.size a
  hwx2_11 : ∀ i : grid2.Coords, EltTy.bits .f32 = 32 ∨ (Rect.block (s := S64) S64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S5000x64.size a ≤ S50000x64.size a
  hwx2_13 : ∀ i : grid2.Coords, EltTy.bits .f32 = 32 ∨ (Rect.block (s := S50000x64) S5000x64.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S800000x64.size a
  hwx4_0 : ∀ i : grid4.Coords, EltTy.bits .f32 = 32 ∨ (Rect.block (s := S800000x64) S6400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x64.size a ≤ S800000x64.size a
  hwx4_1 : ∀ i : grid4.Coords, EltTy.bits .f32 = 32 ∨ (Rect.block (s := S800000x64) S6400x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6400x64.size a ≤ S800000x64.size a
  hwx4_2 : ∀ i : grid4.Coords, EltTy.bits .f32 = 32 ∨ (Rect.block (s := S800000x64) S6400x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6400x64.size a ≤ S800000x64.size a
  hwx4_3 : ∀ i : grid4.Coords, EltTy.bits .f32 = 32 ∨ (Rect.block (s := S800000x64) S6400x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x4.size a ≤ S64x4.size a
  hwx4_5 : ∀ i : grid4.Coords, EltTy.bits .f32 = 32 ∨ (Rect.block (s := S64x4) S64x4.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S4x64.size a ≤ S4x64.size a
  hwx4_6 : ∀ i : grid4.Coords, EltTy.bits .f32 = 32 ∨ (Rect.block (s := S4x64) S4x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S6400x64.size a ≤ S800000x64.size a
  hwx4_7 : ∀ i : grid4.Coords, EltTy.bits .f32 = 32 ∨ (Rect.block (s := S800000x64) S6400x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S6400x64.size a ≤ S800000x64.size a
  hwx4_8 : ∀ i : grid4.Coords, EltTy.bits .f32 = 32 ∨ (Rect.block (s := S800000x64) S6400x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x128.size a ≤ S64x128.size a
  hwx5_7 : ∀ i : grid5.Coords, EltTy.bits .f32 = 32 ∨ (Rect.block (s := S64x128) S64x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128.size a ≤ S128.size a
  hwx5_8 : ∀ i : grid5.Coords, EltTy.bits .f32 = 32 ∨ (Rect.block (s := S128) S128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x64.size a ≤ S128x64.size a
  hwx5_9 : ∀ i : grid5.Coords, EltTy.bits .f32 = 32 ∨ (Rect.block (s := S128x64) S128x64.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S64.size a ≤ S64.size a
  hwx5_10 : ∀ i : grid5.Coords, EltTy.bits .f32 = 32 ∨ (Rect.block (s := S64) S64.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S64.size a ≤ S64.size a
  hwx5_11 : ∀ i : grid5.Coords, EltTy.bits .f32 = 32 ∨ (Rect.block (s := S64) S64.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S64.size a ≤ S64.size a
  hwx5_12 : ∀ i : grid5.Coords, EltTy.bits .f32 = 32 ∨ (Rect.block (s := S64) S64.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S5000x64.size a ≤ S50000x64.size a
  hwx5_13 : ∀ i : grid5.Coords, EltTy.bits .f32 = 32 ∨ (Rect.block (s := S50000x64) S5000x64.size (cc5_transform_13 i) (hinb5_13 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x64_S64x4_S6400x4_1_0_0_1_n_n : DotDims S6400x64 S64x4 S6400x4 where
  lhsContracting := [1]
  rhsContracting := [0]
  lhsNonContracting := [0]
  rhsNonContracting := [1]
  lhsBatch := []
  rhsBatch := []
  wf := dot_S6400x64_S64x4_S6400x4_1_0_0_1_n_n_wf
def dot_S6400x4_S4x64_S6400x64_1_0_0_1_n_n : DotDims S6400x4 S4x64 S6400x64 where
  lhsContracting := [1]
  rhsContracting := [0]
  lhsNonContracting := [0]
  rhsNonContracting := [1]
  lhsBatch := []
  rhsBatch := []
  wf := dot_S6400x4_S4x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S6400x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S6400x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_cst) S64x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst_0) S4x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34_0) S6400x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v34_1) S6400x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S64x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v54) S128x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v56) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v58) S64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v60) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v61) S5000x64.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v68_1) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v68_2) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg1) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S6400x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S6400x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v89) S6400x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v91) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_cst) S64x4.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_cst_0) S4x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92_0) S6400x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v92_1) S6400x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v61) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v98) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v100) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v106) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v108) S64x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v110) S128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v112) S128x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v114) S64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v116) S64.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v118) S64.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v119) S5000x64.size cc5_transform_13 reads5_13 true false 2 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S2x800000 : Shape := ⟨2, ![2, 800000]⟩
abbrev S2x64x64 : Shape := ⟨3, ![2, 64, 64]⟩
abbrev S2x64 : Shape := ⟨2, ![2, 64]⟩
abbrev S2x64x128 : Shape := ⟨3, ![2, 64, 128]⟩
abbrev S2x128 : Shape := ⟨2, ![2, 128]⟩
abbrev S2x128x64 : Shape := ⟨3, ![2, 128, 64]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S50000x4x16 : Shape := ⟨3, ![50000, 4, 16]⟩
abbrev S800000x4x16 : Shape := ⟨3, ![800000, 4, 16]⟩
abbrev S_ : Shape := ⟨0, ![]⟩
abbrev S800000x1 : Shape := ⟨2, ![800000, 1]⟩
abbrev S800000x4 : Shape := ⟨2, ![800000, 4]⟩
abbrev S800000x4x1 : Shape := ⟨3, ![800000, 4, 1]⟩
abbrev S50000x4x1 : Shape := ⟨3, ![50000, 4, 1]⟩
abbrev S50000 : Shape := ⟨1, ![50000]⟩
abbrev S50000x1 : Shape := ⟨2, ![50000, 1]⟩
abbrev S50000x128 : Shape := ⟨2, ![50000, 128]⟩

abbrev nBuf : Space → Nat
  | .hbm => 363
  | .vmem => 0
  | .smem => 0
  | _ => 0

abbrev hbmTy0_0 (i : Nat) : BufTy := match i % 128 with
  | 0 => ⟨S50000x64, .f32⟩
  | 1 => ⟨S800000x64, .f32⟩
  | 2 => ⟨S2x800000, .i32⟩
  | 3 => ⟨S2x64x64, .f32⟩
  | 4 => ⟨S2x64x64, .f32⟩
  | 5 => ⟨S2x64x64, .f32⟩
  | 6 => ⟨S2x64x64, .f32⟩
  | 7 => ⟨S2x64x64, .f32⟩
  | 8 => ⟨S2x64, .f32⟩
  | 9 => ⟨S2x64, .f32⟩
  | 10 => ⟨S2x64, .f32⟩
  | 11 => ⟨S2x64x128, .f32⟩
  | 12 => ⟨S2x128, .f32⟩
  | 13 => ⟨S2x128x64, .f32⟩
  | 14 => ⟨S2x64, .f32⟩
  | 15 => ⟨S2x64, .f32⟩
  | 16 => ⟨S2x64, .f32⟩
  | 17 => ⟨S1x800000, .i32⟩
  | 18 => ⟨S800000, .i32⟩
  | 19 => ⟨S1x800000, .i32⟩
  | 20 => ⟨S800000, .i32⟩
  | 21 => ⟨S1x64x64, .f32⟩
  | 22 => ⟨S64x64, .f32⟩
  | 23 => ⟨S1x64x64, .f32⟩
  | 24 => ⟨S64x64, .f32⟩
  | 25 => ⟨S1x64x64, .f32⟩
  | 26 => ⟨S64x64, .f32⟩
  | 27 => ⟨S1x64x64, .f32⟩
  | 28 => ⟨S64x64, .f32⟩
  | 29 => ⟨S1x64x64, .f32⟩
  | 30 => ⟨S64x64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S64, .f32⟩
  | 37 => ⟨S1x64x128, .f32⟩
  | 38 => ⟨S64x128, .f32⟩
  | 39 => ⟨S1x128, .f32⟩
  | 40 => ⟨S128, .f32⟩
  | 41 => ⟨S1x128x64, .f32⟩
  | 42 => ⟨S128x64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S64, .f32⟩
  | 49 => ⟨S50000x64, .f32⟩
  | 50 => ⟨S50000x4x16, .f32⟩
  | 51 => ⟨S50000x64, .f32⟩
  | 52 => ⟨S50000x4x16, .f32⟩
  | 53 => ⟨S50000x64, .f32⟩
  | 54 => ⟨S50000x4x16, .f32⟩
  | 55 => ⟨S800000x64, .f32⟩
  | 56 => ⟨S800000x4x16, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x4x16, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x4x16, .f32⟩
  | 75 => ⟨S800000x4x16, .f32⟩
  | 76 => ⟨S800000x4x16, .f32⟩
  | 77 => ⟨S_, .f32⟩
  | 78 => ⟨S800000x4, .f32⟩
  | 79 => ⟨S800000x4x1, .f32⟩
  | 80 => ⟨S_, .f32⟩
  | 81 => ⟨S800000x4x1, .f32⟩
  | 82 => ⟨S800000x4x1, .f32⟩
  | 83 => ⟨S_, .f32⟩
  | 84 => ⟨S_, .f32⟩
  | 85 => ⟨S_, .f32⟩
  | 86 => ⟨S800000x4x1, .f32⟩
  | 87 => ⟨S800000x4x1, .f32⟩
  | 88 => ⟨S_, .f32⟩
  | 89 => ⟨S800000x4x1, .f32⟩
  | 90 => ⟨S800000x4x1, .f32⟩
  | 91 => ⟨S800000x4x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x4x16, .f32⟩
  | 101 => ⟨S800000x4x16, .f32⟩
  | 102 => ⟨S800000x4x16, .f32⟩
  | 103 => ⟨S_, .f32⟩
  | 104 => ⟨S50000x4x16, .f32⟩
  | 105 => ⟨S800000x1, .i32⟩
  | 106 => ⟨S50000x4x16, .f32⟩
  | 107 => ⟨S_, .f32⟩
  | 108 => ⟨S50000x4x1, .f32⟩
  | 109 => ⟨S800000x1, .i32⟩
  | 110 => ⟨S50000x4x1, .f32⟩
  | 111 => ⟨S_, .f32⟩
  | 112 => ⟨S50000x4x1, .f32⟩
  | 113 => ⟨S50000x4x1, .f32⟩
  | 114 => ⟨S50000x4x16, .f32⟩
  | 115 => ⟨S50000x4x16, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S50000x64, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x64, .f32⟩
  | 10 => ⟨S50000x64, .f32⟩
  | 11 => ⟨S_, .f32⟩
  | 12 => ⟨S50000x1, .f32⟩
  | 13 => ⟨S50000x1, .f32⟩
  | 14 => ⟨S50000x1, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x64, .f32⟩
  | 31 => ⟨S1x64, .f32⟩
  | 32 => ⟨S50000x64, .f32⟩
  | 33 => ⟨S50000x64, .f32⟩
  | 34 => ⟨S50000x64, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x64, .f32⟩
  | 42 => ⟨S50000x64, .f32⟩
  | 43 => ⟨S50000x64, .f32⟩
  | 44 => ⟨S_, .f32⟩
  | 45 => ⟨S50000, .f32⟩
  | 46 => ⟨S50000x1, .f32⟩
  | 47 => ⟨S_, .f32⟩
  | 48 => ⟨S50000x1, .f32⟩
  | 49 => ⟨S50000x1, .f32⟩
  | 50 => ⟨S50000x64, .f32⟩
  | 51 => ⟨S50000x64, .f32⟩
  | 52 => ⟨S_, .f32⟩
  | 53 => ⟨S50000x1, .f32⟩
  | 54 => ⟨S50000x1, .f32⟩
  | 55 => ⟨S50000x1, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S1x64x64, .f32⟩
  | 65 => ⟨S64x64, .f32⟩
  | 66 => ⟨S1x64x64, .f32⟩
  | 67 => ⟨S64x64, .f32⟩
  | 68 => ⟨S1x64x64, .f32⟩
  | 69 => ⟨S64x64, .f32⟩
  | 70 => ⟨S1x64x64, .f32⟩
  | 71 => ⟨S64x64, .f32⟩
  | 72 => ⟨S1x64x64, .f32⟩
  | 73 => ⟨S64x64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S64, .f32⟩
  | 80 => ⟨S1x64x128, .f32⟩
  | 81 => ⟨S64x128, .f32⟩
  | 82 => ⟨S1x128, .f32⟩
  | 83 => ⟨S128, .f32⟩
  | 84 => ⟨S1x128x64, .f32⟩
  | 85 => ⟨S128x64, .f32⟩
  | 86 => ⟨S1x64, .f32⟩
  | 87 => ⟨S64, .f32⟩
  | 88 => ⟨S1x64, .f32⟩
  | 89 => ⟨S64, .f32⟩
  | 90 => ⟨S1x64, .f32⟩
  | 91 => ⟨S64, .f32⟩
  | 92 => ⟨S50000x64, .f32⟩
  | 93 => ⟨S50000x4x16, .f32⟩
  | 94 => ⟨S50000x64, .f32⟩
  | 95 => ⟨S50000x4x16, .f32⟩
  | 96 => ⟨S50000x64, .f32⟩
  | 97 => ⟨S50000x4x16, .f32⟩
  | 98 => ⟨S800000x64, .f32⟩
  | 99 => ⟨S800000x4x16, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x4x16, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x4x16, .f32⟩
  | 118 => ⟨S800000x4x16, .f32⟩
  | 119 => ⟨S800000x4x16, .f32⟩
  | 120 => ⟨S_, .f32⟩
  | 121 => ⟨S800000x4, .f32⟩
  | 122 => ⟨S800000x4x1, .f32⟩
  | 123 => ⟨S_, .f32⟩
  | 124 => ⟨S800000x4x1, .f32⟩
  | 125 => ⟨S800000x4x1, .f32⟩
  | 126 => ⟨S_, .f32⟩
  | 127 => ⟨S_, .f32⟩
  | _ => ⟨S50000x64, .f32⟩

abbrev hbmTy0_2 (i : Nat) : BufTy := match i % 128 with
  | 0 => ⟨S_, .f32⟩
  | 1 => ⟨S800000x4x1, .f32⟩
  | 2 => ⟨S800000x4x1, .f32⟩
  | 3 => ⟨S_, .f32⟩
  | 4 => ⟨S800000x4x1, .f32⟩
  | 5 => ⟨S800000x4x1, .f32⟩
  | 6 => ⟨S800000x4x1, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x4x16, .f32⟩
  | 16 => ⟨S800000x4x16, .f32⟩
  | 17 => ⟨S800000x4x16, .f32⟩
  | 18 => ⟨S_, .f32⟩
  | 19 => ⟨S50000x4x16, .f32⟩
  | 20 => ⟨S800000x1, .i32⟩
  | 21 => ⟨S50000x4x16, .f32⟩
  | 22 => ⟨S_, .f32⟩
  | 23 => ⟨S50000x4x1, .f32⟩
  | 24 => ⟨S800000x1, .i32⟩
  | 25 => ⟨S50000x4x1, .f32⟩
  | 26 => ⟨S_, .f32⟩
  | 27 => ⟨S50000x4x1, .f32⟩
  | 28 => ⟨S50000x4x1, .f32⟩
  | 29 => ⟨S50000x4x16, .f32⟩
  | 30 => ⟨S50000x4x16, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S50000x64, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x64, .f32⟩
  | 44 => ⟨S50000x64, .f32⟩
  | 45 => ⟨S50000x64, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x64, .f32⟩
  | 53 => ⟨S50000x64, .f32⟩
  | 54 => ⟨S_, .f32⟩
  | 55 => ⟨S50000x1, .f32⟩
  | 56 => ⟨S50000x1, .f32⟩
  | 57 => ⟨S50000x1, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x64, .f32⟩
  | 74 => ⟨S1x64, .f32⟩
  | 75 => ⟨S50000x64, .f32⟩
  | 76 => ⟨S50000x64, .f32⟩
  | 77 => ⟨S50000x64, .f32⟩
  | 78 => ⟨S_, .f32⟩
  | 79 => ⟨S50000, .f32⟩
  | 80 => ⟨S50000x1, .f32⟩
  | 81 => ⟨S_, .f32⟩
  | 82 => ⟨S50000x1, .f32⟩
  | 83 => ⟨S50000x1, .f32⟩
  | 84 => ⟨S50000x64, .f32⟩
  | 85 => ⟨S50000x64, .f32⟩
  | 86 => ⟨S50000x64, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x64, .f32⟩
  | 94 => ⟨S50000x64, .f32⟩
  | 95 => ⟨S_, .f32⟩
  | 96 => ⟨S50000x1, .f32⟩
  | 97 => ⟨S50000x1, .f32⟩
  | 98 => ⟨S50000x1, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_v40 : Ref sig .tc := ⟨.hbm, 58, rfl⟩
abbrev main_v41 : Ref sig .tc := ⟨.hbm, 59, rfl⟩
abbrev main_c_0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_1 : Ref sig .tc := ⟨.hbm, 66, rfl⟩
abbrev main_v47 : Ref sig .tc := ⟨.hbm, 67, rfl⟩
abbrev main_v48 : Ref sig .tc := ⟨.hbm, 68, rfl⟩
abbrev main_c_2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_cst_5 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v60 : Ref sig .tc := ⟨.hbm, 90, rfl⟩
abbrev main_v61 : Ref sig .tc := ⟨.hbm, 91, rfl⟩
abbrev main_c_6 : Ref sig .tc := ⟨.hbm, 92, rfl⟩
abbrev main_v62 : Ref sig .tc := ⟨.hbm, 93, rfl⟩
abbrev main_v63 : Ref sig .tc := ⟨.hbm, 94, rfl⟩
abbrev main_c_7 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_9 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_11 : Ref sig .tc := ⟨.hbm, 122, rfl⟩
abbrev main_v87 : Ref sig .tc := ⟨.hbm, 123, rfl⟩
abbrev main_v88 : Ref sig .tc := ⟨.hbm, 124, rfl⟩
abbrev main_cst_12 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_13 : Ref sig .tc := ⟨.hbm, 131, rfl⟩
abbrev main_v94 : Ref sig .tc := ⟨.hbm, 132, rfl⟩
abbrev main_v95 : Ref sig .tc := ⟨.hbm, 133, rfl⟩
abbrev main_cst_14 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_15 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call1_cst : Ref sig .tc := ⟨.hbm, 155, rfl⟩
abbrev main_call1_v0 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_16 : Ref sig .tc := ⟨.hbm, 163, rfl⟩
abbrev main_v121 : Ref sig .tc := ⟨.hbm, 164, rfl⟩
abbrev main_v122 : Ref sig .tc := ⟨.hbm, 165, rfl⟩
abbrev main_cst_17 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_18 : Ref sig .tc := ⟨.hbm, 172, rfl⟩
abbrev main_v128 : Ref sig .tc := ⟨.hbm, 173, rfl⟩
abbrev main_v129 : Ref sig .tc := ⟨.hbm, 174, rfl⟩
abbrev main_cst_19 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_20 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_c_21 : Ref sig .tc := ⟨.hbm, 228, rfl⟩
abbrev main_v181 : Ref sig .tc := ⟨.hbm, 229, rfl⟩
abbrev main_v182 : Ref sig .tc := ⟨.hbm, 230, rfl⟩
abbrev main_c_22 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_c_23 : Ref sig .tc := ⟨.hbm, 237, rfl⟩
abbrev main_v188 : Ref sig .tc := ⟨.hbm, 238, rfl⟩
abbrev main_v189 : Ref sig .tc := ⟨.hbm, 239, rfl⟩
abbrev main_c_24 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_cst_25 : Ref sig .tc := ⟨.hbm, 248, rfl⟩
abbrev main_v197 : Ref sig .tc := ⟨.hbm, 249, rfl⟩
abbrev main_v198 : Ref sig .tc := ⟨.hbm, 250, rfl⟩
abbrev main_cst_26 : Ref sig .tc := ⟨.hbm, 251, rfl⟩
abbrev main_v199 : Ref sig .tc := ⟨.hbm, 252, rfl⟩
abbrev main_v200 : Ref sig .tc := ⟨.hbm, 253, rfl⟩
abbrev main_cst_27 : Ref sig .tc := ⟨.hbm, 254, rfl⟩
abbrev main_cst_28 : Ref sig .tc := ⟨.hbm, 255, rfl⟩
abbrev main_call2_v0 : Ref sig .tc := ⟨.hbm, 256, rfl⟩
abbrev main_call2_v1 : Ref sig .tc := ⟨.hbm, 257, rfl⟩
abbrev main_call2_v2 : Ref sig .tc := ⟨.hbm, 258, rfl⟩
abbrev main_call2_v3 : Ref sig .tc := ⟨.hbm, 259, rfl⟩
abbrev main_call2_v4 : Ref sig .tc := ⟨.hbm, 260, rfl⟩
abbrev main_v201 : Ref sig .tc := ⟨.hbm, 261, rfl⟩
abbrev main_v202 : Ref sig .tc := ⟨.hbm, 262, rfl⟩
abbrev main_c_29 : Ref sig .tc := ⟨.hbm, 263, rfl⟩
abbrev main_v203 : Ref sig .tc := ⟨.hbm, 264, rfl⟩
abbrev main_v204 : Ref sig .tc := ⟨.hbm, 265, rfl⟩
abbrev main_c_30 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_cst_31 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_cst_32 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_cst_33 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_34 : Ref sig .tc := ⟨.hbm, 293, rfl⟩
abbrev main_v228 : Ref sig .tc := ⟨.hbm, 294, rfl⟩
abbrev main_v229 : Ref sig .tc := ⟨.hbm, 295, rfl⟩
abbrev main_cst_35 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_cst_36 : Ref sig .tc := ⟨.hbm, 302, rfl⟩
abbrev main_v235 : Ref sig .tc := ⟨.hbm, 303, rfl⟩
abbrev main_v236 : Ref sig .tc := ⟨.hbm, 304, rfl⟩
abbrev main_cst_37 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_cst_38 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_call3_cst : Ref sig .tc := ⟨.hbm, 326, rfl⟩
abbrev main_call3_v0 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_cst_39 : Ref sig .tc := ⟨.hbm, 334, rfl⟩
abbrev main_v262 : Ref sig .tc := ⟨.hbm, 335, rfl⟩
abbrev main_v263 : Ref sig .tc := ⟨.hbm, 336, rfl⟩
abbrev main_cst_40 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_cst_41 : Ref sig .tc := ⟨.hbm, 343, rfl⟩
abbrev main_v269 : Ref sig .tc := ⟨.hbm, 344, rfl⟩
abbrev main_v270 : Ref sig .tc := ⟨.hbm, 345, rfl⟩
abbrev main_cst_42 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_cst_43 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x128_S1x64x128_0_0_0 : S2x64x128.Slices ![0, 0, 0] S1x64x128
  shapeCasts_S1x64x128_S64x128 : S1x64x128.ShapeCasts S64x128
  slices_S2x128_S1x128_0_0 : S2x128.Slices ![0, 0] S1x128
  shapeCasts_S1x128_S128 : S1x128.ShapeCasts S128
  slices_S2x128x64_S1x128x64_0_0_0 : S2x128x64.Slices ![0, 0, 0] S1x128x64
  shapeCasts_S1x128x64_S128x64 : S1x128x64.ShapeCasts S128x64
  shapeCasts_S50000x64_S50000x4x16 : S50000x64.ShapeCasts S50000x4x16
  shapeCasts_S800000x64_S800000x4x16 : S800000x64.ShapeCasts S800000x4x16
  bcast_S_S800000 : S_.BroadcastsInDim S800000 (![] : Fin 0 → Fin S800000.rank)
  bcast_S800000_S800000x1_0 : S800000.BroadcastsInDim S800000x1 (![0] : Fin 1 → Fin S800000x1.rank)
  reducesTo_S800000x4x16_S800000x4_d2 : S800000x4x16.ReducesTo [2] S800000x4
  h_S_ : 0 < S_.numel
  bcast_S800000x4_S800000x4x1_0_1 : S800000x4.BroadcastsInDim S800000x4x1 (![0, 1] : Fin 2 → Fin S800000x4x1.rank)
  bcast_S_S800000x4x1 : S_.BroadcastsInDim S800000x4x1 (![] : Fin 0 → Fin S800000x4x1.rank)
  bcast_S800000x4x1_S800000x4x16_0_1_2 : S800000x4x1.BroadcastsInDim S800000x4x16 (![0, 1, 2] : Fin 3 → Fin S800000x4x16.rank)
  bcast_S_S50000x4x16 : S_.BroadcastsInDim S50000x4x16 (![] : Fin 0 → Fin S50000x4x16.rank)
  bcast_S_S50000x4x1 : S_.BroadcastsInDim S50000x4x1 (![] : Fin 0 → Fin S50000x4x1.rank)
  bcast_S50000x4x1_S50000x4x16_0_1_2 : S50000x4x1.BroadcastsInDim S50000x4x16 (![0, 1, 2] : Fin 3 → Fin S50000x4x16.rank)
  shapeCasts_S50000x4x16_S50000x64 : S50000x4x16.ShapeCasts S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x64x64_S1x64x64_1_0_0 : S2x64x64.Slices ![1, 0, 0] S1x64x64
  slices_S2x64_S1x64_1_0 : S2x64.Slices ![1, 0] S1x64
  slices_S2x64x128_S1x64x128_1_0_0 : S2x64x128.Slices ![1, 0, 0] S1x64x128
  slices_S2x128_S1x128_1_0 : S2x128.Slices ![1, 0] S1x128
  slices_S2x128x64_S1x128x64_1_0_0 : S2x128x64.Slices ![1, 0, 0] S1x128x64
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x4x16_S800000x1_S800000x4x16_12_0_n_n_0_1_1416_wf : GatherDims.WF S50000x4x16 S800000x1 S800000x4x16 [1, 2] [0] [] [0] [] 1 ![1, 4, 16]
  scatter_S50000x4x16_S800000x1_S800000x4x16_12_0_0_1_wf : ScatterDims.WF S50000x4x16 S800000x1 S800000x4x16 [1, 2] [0] [0] 1
  scatter_S50000x4x1_S800000x1_S800000x4x1_12_0_0_1_wf : ScatterDims.WF S50000x4x1 S800000x1 S800000x4x1 [1, 2] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x4x16_S800000x1_S800000x4x16_12_0_n_n_0_1_1416 : GatherDims S50000x4x16 S800000x1 S800000x4x16 where
  offsetDims := [1, 2]
  collapsedSliceDims := [0]
  operandBatchingDims := []
  startIndicesBatchingDims := []
  startIndexMap := [0]
  indexVectorDim := 1
  sliceSizes := ![1, 4, 16]
  wf := gather_S50000x4x16_S800000x1_S800000x4x16_12_0_n_n_0_1_1416_wf
def scatter_S50000x4x16_S800000x1_S800000x4x16_12_0_0_1 : ScatterDims S50000x4x16 S800000x1 S800000x4x16 where
  updateWindowDims := [1, 2]
  insertedWindowDims := [0]
  scatterDimsToOperandDims := [0]
  indexVectorDim := 1
  wf := scatter_S50000x4x16_S800000x1_S800000x4x16_12_0_0_1_wf
def scatter_S50000x4x1_S800000x1_S800000x4x1_12_0_0_1 : ScatterDims S50000x4x1 S800000x1 S800000x4x1 where
  updateWindowDims := [1, 2]
  insertedWindowDims := [0]
  scatterDimsToOperandDims := [0]
  indexVectorDim := 1
  wf := scatter_S50000x4x1_S800000x1_S800000x4x1_12_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibHeadSplit.lean ====
import Idealize.ShloMosaic.Lib.Pipeline.Value
import Idealize.ShloMosaic.Lib.ValueIdx
import Mathlib.Logic.Equiv.Fin.Basic
import Mathlib.Tactic.Ring

/-! # A feature axis split into heads, and merged back

A matrix `[N, C]` whose `C = H · W` columns are `H` heads of `W` consecutive columns, reshaped to `[N, H, W]`, holds at
`(n, h, j)` the matrix's entry at row `n` and column `j + W · h` — column `j` of head `h`, written here as
`finProdFinEquiv (h, j)` so that a sum over a head's columns is a sum over `j` —; and the reverse reshape puts entry
`(n, h, j)` back at that column.  Both are the row-major positions of the two indices being one number:
`n · (H · W) + (j + W · h) = (n · H + h) · W + j`. -/

namespace Cert.HeadSplit

open Idealize.ShloMosaic Idealize.ShloMosaic.ValueIdx

variable {α : Type}

/-- Column `j` of head `h` among `C = H · W` columns. -/
abbrev col {H W C : ℕ} (hC : C = H * W) (h : Fin H) (j : Fin W) : Fin C := Fin.cast hC.symm (finProdFinEquiv (h, j))

/-- Its position: `j + W · h`. -/
theorem col_val {H W C : ℕ} (hC : C = H * W) (h : Fin H) (j : Fin W) : (col hC h j).val = j.val + W * h.val := by
  rw [col, Fin.val_cast, finProdFinEquiv_apply_val]

/-- SPLIT: `[N, C]` reshaped to `[N, H, W]` reads, at `(n, h, j)`, the matrix at row `n`, column `j` of head `h`. -/
theorem shapeCast_split_apply {N H W C : ℕ} (hC : C = H * W) (x : (⟨2, ![N, C]⟩ : Shape).Idx → α)
    (hc : (⟨2, ![N, C]⟩ : Shape).ShapeCasts ⟨3, ![N, H, W]⟩) (n : Fin N) (h : Fin H) (j : Fin W) :
    shapeCast ⟨3, ![N, H, W]⟩ x hc (ix3 n h j) = x (ix2 n (col hC h j)) :=
  shapeCast_apply x hc _ _ (by
    rw [Shape.rowMajor_val_two, Shape.rowMajor_val_three]
    show n.val * C + (col hC h j).val = (n.val * H + h.val) * W + j.val
    rw [col_val]; subst hC; ring)

/-- MERGE: `[N, H, W]` reshaped to `[N, C]` reads, at row `n` and column `j` of head `h`, the array at `(n, h, j)`. -/
theorem shapeCast_merge_apply {N H W C : ℕ} (hC : C = H * W) (x : (⟨3, ![N, H, W]⟩ : Shape).Idx → α)
    (hc : (⟨3, ![N, H, W]⟩ : Shape).ShapeCasts ⟨2, ![N, C]⟩) (n : Fin N) (h : Fin H) (j : Fin W) :
    shapeCast ⟨2, ![N, C]⟩ x hc (ix2 n (col hC h j)) = x (ix3 n h j) :=
  shapeCast_apply x hc _ _ (by
    rw [Shape.rowMajor_val_two, Shape.rowMajor_val_three]
    show (n.val * H + h.val) * W + j.val = n.val * C + (col hC h j).val
    rw [col_val]; subst hC; ring)

/-- Every column is column `j` of head `h` for its own `h = c / W`, `j = c % W`. -/
theorem col_surj {H W C : ℕ} (hC : C = H * W) (c : Fin C) :
    c = col hC (finProdFinEquiv.symm (Fin.cast hC c)).1 (finProdFinEquiv.symm (Fin.cast hC c)).2 := by
  refine Fin.ext ?_
  rw [col, Fin.val_cast, Prod.mk.eta, Equiv.apply_symm_apply, Fin.val_cast]

end Cert.HeadSplit
-- ==== Proof.LibIndexCol.lean ====
import Idealize.ShloMosaic.Lib.ValueIdx
import Idealize.ShloMosaic.Lib.Pipeline.Value

/-! # Index columns for row gathers and segment sums

Array indexing `x[idx]` with a vector `idx` of row numbers first adds the row count `N` to every negative entry
(Python's negative indices), then hands the vector to the gather as an `[E, 1]` index column; a segment sum hands its
segment ids over as such a column unchanged.  The wrapped column is named here ONCE, as the word operations the
lowering emits (compare with 0, add `N`, select, broadcast to a column), so that two programs that gather with the
same index vector are seen to use the same column without the word arithmetic ever being opened; and the row a gather
then reads — the column's entry read as a signed integer and clamped into `[0, N − 1]` — is named beside it. -/

namespace Cert.IndexCol

open Idealize.ShloMosaic Idealize.ShloMosaic.ValueIdx

/-- A vector as an `[E, 1]` column. -/
def col {E : Nat} (h1 : (⟨1, ![E]⟩ : Shape).BroadcastsInDim ⟨2, ![E, 1]⟩ ![0]) (x : IVec ⟨1, ![E]⟩ 32) :
    IVec ⟨2, ![E, 1]⟩ 32 :=
  broadcastInDim ⟨2, ![E, 1]⟩ ![0] h1 x

/-- A vector of row numbers with `N` added to its negative entries, as an `[E, 1]` column. -/
def wrapCol {E : Nat} (N : BitVec 32) (h0 : (⟨0, ![]⟩ : Shape).BroadcastsInDim ⟨1, ![E]⟩ ![])
    (h1 : (⟨1, ![E]⟩ : Shape).BroadcastsInDim ⟨2, ![E, 1]⟩ ![0]) (x : IVec ⟨1, ![E]⟩ 32) : IVec ⟨2, ![E, 1]⟩ 32 :=
  col h1 (select (cmpi .slt x (broadcastInDim ⟨1, ![E]⟩ ![] h0 (constantI ⟨0, ![]⟩ 32 0#32)))
    (addi x (broadcastInDim ⟨1, ![E]⟩ ![] h0 (constantI ⟨0, ![]⟩ 32 N))) x)

/-- The row of an `N`-row table that a gather reads for entry `e` of an index column: the entry read as a signed
    integer and clamped into `[0, N − 1]`. -/
def row {E : Nat} (N : Nat) (hN : 0 < N) (c : IVec ⟨2, ![E, 1]⟩ 32) (e : Fin E) : Fin N :=
  ⟨min (c (ix2 e ⟨0, Nat.one_pos⟩)).toInt.toNat (N - 1), by omega⟩

end Cert.IndexCol
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.LibSlabScatter.lean ====
/-
  An accumulating slab scatter read at an index, over the extended reals.

  What a segment sum of the slabs of a rank-3 array `upd : [E, H, W]` (per edge, `H` heads of `W` features) into
  `x : [N, H, W]` at an index column `idx : [E, 1]` lowers to: `stablehlo.scatter` with an `add` body,
  update_window_dims `[1, 2]`, inserted_window_dims `[0]`, scatter_dims_to_operand_dims `[0]` and index_vector_dim 1.
  Update element `(e, h', j')` lands at the slab `idx[e, 0]` read as a signed integer (not clamped) and the position
  `(h', j')` inside it when that slab lies in `[0, N)`, and is dropped otherwise: on operand axis 0 (named by the
  scatter-dims map, an inserted window axis) the result index is the start alone; on operand axes 1 and 2 (not named by
  the map, so their starts are 0; the two window axes, in order) it is the update's second and third coordinate. So
  the updates landing on `(n, h, j)` are exactly the `(e, h, j)` with `idx[e, 0] = n`, and the result there is the
  operand's element plus the sum of those updates.
-/
import Idealize.ShloMosaic.PureOps.Ideal
import Idealize.ShloMosaic.Lib.ValueIdx
import proofs.«135486_j17549236371616_1_alg».proof.Proof.LibIndexSums

open scoped BigOperators

namespace Cert.SlabScatter

open Idealize.ShloMosaic Idealize.ShloMosaic.ValueIdx

/-- The update slabs whose target slab, `idx[e, 0]` read as a signed integer, is `n`. -/
def hits {N E w : Nat} (idx : IVec ⟨2, ![E, 1]⟩ w) (n : Fin N) : Finset (Fin E) :=
  Finset.univ.filter fun e => (idx (ix2 e (0 : Fin 1))).toInt = (n.val : Int)

/-- Membership in `hits`: the target slab of `e`, read signed, is `n`. -/
theorem mem_hits {N E w : Nat} (idx : IVec ⟨2, ![E, 1]⟩ w) (n : Fin N) (e : Fin E) :
    e ∈ hits idx n ↔ (idx (ix2 e (0 : Fin 1))).toInt = (n.val : Int) := by
  simp [hits]

/-- The slab scatter's dimension numbers for an operand `[N, H, W]`, scatter indices `[E, 1]` and updates
    `[E, H, W]`; their conditions `wf` are decided on a program's literal shapes. -/
abbrev slabDims (N H W E : Nat)
    (wf : ScatterDims.WF ⟨3, ![N, H, W]⟩ ⟨2, ![E, 1]⟩ ⟨3, ![E, H, W]⟩ [1, 2] [0] [0] 1) :
    ScatterDims ⟨3, ![N, H, W]⟩ ⟨2, ![E, 1]⟩ ⟨3, ![E, H, W]⟩ where
  updateWindowDims := [1, 2]
  insertedWindowDims := [0]
  scatterDimsToOperandDims := [0]
  indexVectorDim := 1
  wf := wf

/-- Where an update of the slab scatter lands: update `(e, h', j')` lands on `(n, h, j)` exactly when its target slab
    `idx[e, 0]`, read signed, is `n` and its position `(h', j')` is `(h, j)`. -/
theorem slabDims_resultIdx?_eq_some_iff {N H W E w : Nat}
    (wf : ScatterDims.WF ⟨3, ![N, H, W]⟩ ⟨2, ![E, 1]⟩ ⟨3, ![E, H, W]⟩ [1, 2] [0] [0] 1)
    (idx : IVec ⟨2, ![E, 1]⟩ w) (e : Fin E) (h' : Fin H) (j' : Fin W) (n : Fin N) (h : Fin H) (j : Fin W) :
    (slabDims N H W E wf).resultIdx? (ix3 e h' j') idx = some (ix3 n h j)
      ↔ (idx (ix2 e (0 : Fin 1))).toInt = (n.val : Int) ∧ h' = h ∧ j' = j := by
  have hs0 : (slabDims N H W E wf).start (ix3 e h' j') idx 0 = (idx (ix2 e (0 : Fin 1))).toInt := by
    unfold ScatterDims.start
    rw [dif_pos (show (0 : Fin 3) ∈ (slabDims N H W E wf).scatterDimsToOperandDims from List.mem_singleton.mpr rfl)]
    have hsi : (slabDims N H W E wf).siIdx (ix3 e h' j') ⟨List.idxOf (0 : Fin 3) (slabDims N H W E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (slabDims N H W E wf).start (ix3 e h' j') idx 1 = 0 := by
    unfold ScatterDims.start
    rw [dif_neg (show ¬ (1 : Fin 3) ∈ (slabDims N H W E wf).scatterDimsToOperandDims from
      (by decide : (1 : Fin 3) ∉ ([0] : List (Fin 3))))]
  have hs2 : (slabDims N H W E wf).start (ix3 e h' j') idx 2 = 0 := by
    unfold ScatterDims.start
    rw [dif_neg (show ¬ (2 : Fin 3) ∈ (slabDims N H W E wf).scatterDimsToOperandDims from
      (by decide : (2 : Fin 3) ∉ ([0] : List (Fin 3))))]
  have hk : (slabDims N H W E wf).sKept = [1, 2] := rfl
  have hw0 : (slabDims N H W E wf).window (ix3 e h' j') 0 = 0 := by
    unfold ScatterDims.window
    rw [dif_neg (by rw [hk]; exact (by decide : (0 : Fin 3) ∉ ([1, 2] : List (Fin 3))))]
  have hw1 : (slabDims N H W E wf).window (ix3 e h' j') 1 = h'.val := by
    unfold ScatterDims.window
    rw [dif_pos (by rw [hk]; exact (by decide : (1 : Fin 3) ∈ ([1, 2] : List (Fin 3))))]
    rfl
  have hw2 : (slabDims N H W E wf).window (ix3 e h' j') 2 = j'.val := by
    unfold ScatterDims.window
    rw [dif_pos (by rw [hk]; exact (by decide : (2 : Fin 3) ∈ ([1, 2] : List (Fin 3))))]
    rfl
  unfold ScatterDims.resultIdx?
  by_cases hb : ∀ a, 0 ≤ (slabDims N H W E wf).start (ix3 e h' j') idx a + (slabDims N H W E wf).window (ix3 e h' j') a
      ∧ (slabDims N H W E wf).start (ix3 e h' j') idx a + (slabDims N H W E wf).window (ix3 e h' j') a
        < (⟨3, ![N, H, W]⟩ : Shape).size a
  · rw [dif_pos hb, Option.some.injEq]
    have h0 := hb 0
    rw [hs0, hw0] at h0
    constructor
    · intro hf
      have e0 : ((slabDims N H W E wf).start (ix3 e h' j') idx 0 + (slabDims N H W E wf).window (ix3 e h' j') 0).toNat = n.val :=
        congrArg Fin.val (congrFun hf 0)
      have e1 : ((slabDims N H W E wf).start (ix3 e h' j') idx 1 + (slabDims N H W E wf).window (ix3 e h' j') 1).toNat = h.val :=
        congrArg Fin.val (congrFun hf 1)
      have e2 : ((slabDims N H W E wf).start (ix3 e h' j') idx 2 + (slabDims N H W E wf).window (ix3 e h' j') 2).toNat = j.val :=
        congrArg Fin.val (congrFun hf 2)
      rw [hs0, hw0] at e0
      rw [hs1, hw1] at e1
      rw [hs2, hw2] at e2
      refine ⟨by omega, Fin.ext (by omega), Fin.ext (by omega)⟩
    · rintro ⟨ht, rfl, rfl⟩
      funext a; refine Fin.ext ?_
      match a with
      | ⟨0, _⟩ =>
        show ((slabDims N H W E wf).start (ix3 e h' j') idx 0 + (slabDims N H W E wf).window (ix3 e h' j') 0).toNat = n.val
        rw [hs0, hw0]; omega
      | ⟨1, _⟩ =>
        show ((slabDims N H W E wf).start (ix3 e h' j') idx 1 + (slabDims N H W E wf).window (ix3 e h' j') 1).toNat = h'.val
        rw [hs1, hw1]; omega
      | ⟨2, _⟩ =>
        show ((slabDims N H W E wf).start (ix3 e h' j') idx 2 + (slabDims N H W E wf).window (ix3 e h' j') 2).toNat = j'.val
        rw [hs2, hw2]; omega
  · rw [dif_neg hb]
    constructor
    · intro hf; cases hf
    · rintro ⟨ht, rfl, rfl⟩
      refine absurd (fun a => ?_) hb
      match a with
      | ⟨0, _⟩ =>
        show 0 ≤ (slabDims N H W E wf).start (ix3 e h' j') idx 0 + (slabDims N H W E wf).window (ix3 e h' j') 0
          ∧ (slabDims N H W E wf).start (ix3 e h' j') idx 0 + (slabDims N H W E wf).window (ix3 e h' j') 0 < (N : Int)
        rw [hs0, hw0]; have := n.isLt; omega
      | ⟨1, _⟩ =>
        show 0 ≤ (slabDims N H W E wf).start (ix3 e h' j') idx 1 + (slabDims N H W E wf).window (ix3 e h' j') 1
          ∧ (slabDims N H W E wf).start (ix3 e h' j') idx 1 + (slabDims N H W E wf).window (ix3 e h' j') 1 < (H : Int)
        rw [hs1, hw1]; have := h'.isLt; omega
      | ⟨2, _⟩ =>
        show 0 ≤ (slabDims N H W E wf).start (ix3 e h' j') idx 2 + (slabDims N H W E wf).window (ix3 e h' j') 2
          ∧ (slabDims N H W E wf).start (ix3 e h' j') idx 2 + (slabDims N H W E wf).window (ix3 e h' j') 2 < (W : Int)
        rw [hs2, hw2]; have := j'.isLt; omega

/-- THE SLAB SCATTER READ AT `(n, h, j)`, for the record `slabDims`: the operand's element plus the sum of the updates
    `(e, h, j)` over the slabs `e` whose target slab `idx[e, 0]`, read signed, is `n`. -/
theorem slabDims_scatterAdd_apply {N H W E w : Nat} {φ : FTy}
    (wf : ScatterDims.WF ⟨3, ![N, H, W]⟩ ⟨2, ![E, 1]⟩ ⟨3, ![E, H, W]⟩ [1, 2] [0] [0] 1)
    (x : FVec Ideal ⟨3, ![N, H, W]⟩ φ) (idx : IVec ⟨2, ![E, 1]⟩ w) (upd : FVec Ideal ⟨3, ![E, H, W]⟩ φ)
    (n : Fin N) (h : Fin H) (j : Fin W) :
    Host.scatterAdd (F := Ideal) (slabDims N H W E wf) x idx upd (ix3 n h j)
      = x (ix3 n h j) + ∑ e ∈ hits idx n, upd (ix3 e h j) := by
  have hdef : Host.scatterAdd (F := Ideal) (slabDims N H W E wf) x idx upd
      = Ideal.hostScatterAdd (slabDims N H W E wf) x idx upd := rfl
  rw [hdef]
  simp only [Ideal.hostScatterAdd]
  congr 1
  rw [Finset.sum_filter, Cert.IndexSums.sum_idx3]
  unfold hits
  rw [Finset.sum_filter]
  refine Finset.sum_congr rfl fun e _ => ?_
  simp only [slabDims_resultIdx?_eq_some_iff]
  by_cases ht : (idx (ix2 e (0 : Fin 1))).toInt = (n.val : Int)
  · simp only [ht, true_and, if_true]
    rw [Finset.sum_eq_single h]
    · rw [Finset.sum_eq_single j]
      · simp
      · intro b _ hb; simp [hb]
      · intro hh; exact absurd (Finset.mem_univ _) hh
    · intro a _ ha
      refine Finset.sum_eq_zero fun b _ => ?_
      simp [ha]
    · intro hh; exact absurd (Finset.mem_univ _) hh
  · simp only [ht, false_and, if_false]
    simp

/-- THE SLAB SCATTER READ AT `(n, h, j)`, for any record with the slab scatter's dimension numbers: the operand's
    element plus the sum of the updates `(e, h, j)` over the slabs `e` whose target slab `idx[e, 0]`, read signed, is
    `n` (an update whose target slab is outside `[0, N)` is dropped). -/
theorem slabScatterAdd_apply {N H W E w : Nat} {φ : FTy}
    (d : ScatterDims ⟨3, ![N, H, W]⟩ ⟨2, ![E, 1]⟩ ⟨3, ![E, H, W]⟩)
    (h1 : d.updateWindowDims = [1, 2]) (h2 : d.insertedWindowDims = [0]) (h3 : d.scatterDimsToOperandDims = [0])
    (h4 : d.indexVectorDim = 1)
    (x : FVec Ideal ⟨3, ![N, H, W]⟩ φ) (idx : IVec ⟨2, ![E, 1]⟩ w) (upd : FVec Ideal ⟨3, ![E, H, W]⟩ φ)
    (n : Fin N) (h : Fin H) (j : Fin W) :
    Host.scatterAdd (F := Ideal) d x idx upd (ix3 n h j) = x (ix3 n h j) + ∑ e ∈ hits idx n, upd (ix3 e h j) := by
  obtain ⟨uw, iw, sd, iv, wf⟩ := d
  simp only at h1 h2 h3 h4
  subst h1 h2 h3 h4
  exact slabDims_scatterAdd_apply wf x idx upd n h j

end Cert.SlabScatter
-- ==== Proof.RAttnSpec.lean ====
import Idealize.ShloMosaic.PureOps.Ideal
import Idealize.ShloMosaic.Lib.ValueIdx
import proofs.«135486_j17549236371616_1_alg».proof.Proof.LibHeadSplit
import proofs.«135486_j17549236371616_1_alg».proof.Proof.LibIndexCol
import proofs.«135486_j17549236371616_1_alg».proof.Proof.LibSlabScatter

/-! # The attention half of one layer, as formulas over coordinates

One layer's attention, written per node `n`, edge `e`, head `hd` and feature `j` of the head, over the extended
reals.  Nodes carry 64 features, read as 4 heads of 16 consecutive features (column `j + 16 · hd`).

* The projections: node features times a 64×64 weight, read per head (queries, keys, values), and the same for the
  edge features.
* An edge reads the keys and values of its source node and the queries of its destination node.  The three index
  columns (`[800000, 1]` words) are arguments: the source column and the destination column the reads use (a read takes
  the column's entry as a signed integer clamped into `[0, 49999]`), and the destination column the sums use (an edge
  lands on node `n` when its entry, read signed, is `n`).  Nothing here looks inside a column.
* The score of an edge and a head: the sum over the head's features of (key · query) · edge projection, starting from
  the reduction's initial value; divided by 4, clipped into `[-5, 5]`, exponentiated.
* The message of an edge: the source's values times that exponential.
* A node sums the messages, and the exponentials, of the edges landing on it; the attention output is the summed
  message divided by (the summed exponential plus 1e-6).

No distributivity is used anywhere: every product and sum is written in the order the operations apply them. -/

open scoped BigOperators

noncomputable section

namespace Cert.RAttnSpec

open Idealize.ShloMosaic Idealize.ShloMosaic.ValueIdx

/-- A feature matrix `[R, 64]` times a weight `[64, 64]`, read at row `r`, head `hd`, feature `j` of the head:
    the sum over `k` of `x(r, k) · w(k, j + 16 · hd)`. -/
def proj {R : ℕ} (x : FVec Ideal ⟨2, ![R, 64]⟩ .f32) (w : FVec Ideal ⟨2, ![64, 64]⟩ .f32)
    (r : Fin R) (hd : Fin 4) (j : Fin 16) : EReal :=
  ∑ k : Fin 64, x (ix2 r k) * w (ix2 k (Cert.HeadSplit.col (rfl : 64 = 4 * 16) hd j))

/-- Queries: `h · wq` per head. -/
abbrev q3 (h : FVec Ideal ⟨2, ![50000, 64]⟩ .f32) (wq : FVec Ideal ⟨2, ![64, 64]⟩ .f32) := proj h wq
/-- Keys: `h · wk` per head. -/
abbrev k3 (h : FVec Ideal ⟨2, ![50000, 64]⟩ .f32) (wk : FVec Ideal ⟨2, ![64, 64]⟩ .f32) := proj h wk
/-- Values: `h · wv` per head. -/
abbrev v3 (h : FVec Ideal ⟨2, ![50000, 64]⟩ .f32) (wv : FVec Ideal ⟨2, ![64, 64]⟩ .f32) := proj h wv
/-- Edge projections: `ea · we` per head. -/
abbrev e3 (ea : FVec Ideal ⟨2, ![800000, 64]⟩ .f32) (we : FVec Ideal ⟨2, ![64, 64]⟩ .f32) := proj ea we

/-- The node an index column names for edge `e`'s read: its entry read signed and clamped into `[0, 49999]`. -/
abbrev rowOf (c : IVec ⟨2, ![800000, 1]⟩ 32) (e : Fin 800000) : Fin 50000 :=
  Cert.IndexCol.row 50000 (by decide) c e

/-- The float constants, as the words the operations carry. -/
abbrev zero : EReal := Ideal.ofBits .f32 0x00000000#32
abbrev c4 : EReal := Ideal.ofBits .f32 0x40800000#32
abbrev cm5 : EReal := Ideal.ofBits .f32 0xC0A00000#32
abbrev c5 : EReal := Ideal.ofBits .f32 0x40A00000#32
abbrev eps6 : EReal := Ideal.ofBits .f32 0x358637BD#32

section
variable (h : FVec Ideal ⟨2, ![50000, 64]⟩ .f32) (ea : FVec Ideal ⟨2, ![800000, 64]⟩ .f32)
  (srcC dstWC dstC : IVec ⟨2, ![800000, 1]⟩ 32) (wq wk we wv : FVec Ideal ⟨2, ![64, 64]⟩ .f32)

/-- The raw score of edge `e` at head `hd`: from the initial value, the sum over the head's features of
    (key at the source · query at the destination) · edge projection. -/
def s (e : Fin 800000) (hd : Fin 4) : EReal :=
  zero + ∑ j : Fin 16, (k3 h wk (rowOf srcC e) hd j * q3 h wq (rowOf dstWC e) hd j) * e3 ea we e hd j

/-- The edge's weight: the exponential of the score divided by 4 and clipped into `[-5, 5]`. -/
def sc (e : Fin 800000) (hd : Fin 4) : EReal :=
  Ideal.exp (min c5 (max cm5 (Ideal.div (s h ea srcC dstWC wq wk we e hd) c4)))

/-- The edge's message: the values at the source times the edge's weight. -/
def msg (e : Fin 800000) (hd : Fin 4) (j : Fin 16) : EReal :=
  v3 h wv (rowOf srcC e) hd j * sc h ea srcC dstWC wq wk we e hd

/-- The summed messages of the edges landing on node `n`. -/
def wV (n : Fin 50000) (hd : Fin 4) (j : Fin 16) : EReal :=
  zero + ∑ e ∈ Cert.SlabScatter.hits dstC n, msg h ea srcC dstWC wq wk we wv e hd j

/-- The summed weights of the edges landing on node `n`. -/
def Z (n : Fin 50000) (hd : Fin 4) : EReal :=
  zero + ∑ e ∈ Cert.SlabScatter.hits dstC n, sc h ea srcC dstWC wq wk we e hd

/-- The attention output: summed messages over (summed weights plus 1e-6). -/
def hattn (n : Fin 50000) (hd : Fin 4) (j : Fin 16) : EReal :=
  Ideal.div (wV h ea srcC dstWC dstC wq wk we wv n hd j) (Z h ea srcC dstWC dstC wq wk we n hd + eps6)

end

end Cert.RAttnSpec

end
-- ==== Proof.KEdgeSpec.lean ====
/- The per-edge score and message of one graph-attention layer, as functions of the arrays the edge kernel reads,
   entry by entry, over the extended reals. For an edge `e` (a row of the edge arrays; `N` rows), a feature column `d` of 64
   and a head `h` of 4:
     eh  e d = ∑ k, ea (e,k) · we (k,d)                     the edge features through the edge weight matrix
     prod e d = (Ks (e,d) · Qd (e,d)) · eh e d               key at the source, query at the target, edge term
     s   e h = ∑ d, prod e d · g (d,h)                       the per-head sum of the products (g: column-to-head matrix)
     sc  e h = exp (min 5 (max (−5) (s e h · ¼)))            scaled, clamped to [−5, 5], exponentiated
     scf e d = ∑ h, sc e h · gt (h,d)                        the head's score spread back over its columns
     msg e d = Vs (e,d) · scf e d                            the value at the source weighted by the score
   The three float literals stay the words the program prints (¼ = 0x3E800000, −5 = 0xC0A00000, 5 = 0x40A00000).
   Every function reads its edge arrays ONLY in row `e` (`*_congr`): a block of rows of the result is the same function
   of the same block of rows of the edge arrays, which is what lets a kernel compute it block by block. -/
import Idealize.ShloMosaic.PureOps.Ideal
import Idealize.ShloMosaic.Lib.ValueIdx

noncomputable section

open scoped BigOperators

namespace Cert.EdgeSpec

open Idealize.ShloMosaic Idealize.ShloMosaic.ValueIdx

variable {N : Nat}

/-- The edge features through the edge weight matrix. -/
def eh (ea : (⟨2, ![N, 64]⟩ : Shape).Idx → EReal) (we : (⟨2, ![64, 64]⟩ : Shape).Idx → EReal) (e : Fin N) (d : Fin 64) : EReal :=
  ∑ k : Fin 64, ea (ix2 e k) * we (ix2 k d)

/-- Key times query, times the edge term, column by column. -/
def prod (ea Ks Qd : (⟨2, ![N, 64]⟩ : Shape).Idx → EReal) (we : (⟨2, ![64, 64]⟩ : Shape).Idx → EReal) (e : Fin N) (d : Fin 64) : EReal :=
  (Ks (ix2 e d) * Qd (ix2 e d)) * eh ea we e d

/-- The products summed into heads through the column-to-head matrix `g`. -/
def s (ea Ks Qd : (⟨2, ![N, 64]⟩ : Shape).Idx → EReal) (we : (⟨2, ![64, 64]⟩ : Shape).Idx → EReal)
    (g : (⟨2, ![64, 4]⟩ : Shape).Idx → EReal) (e : Fin N) (h : Fin 4) : EReal :=
  ∑ d : Fin 64, prod ea Ks Qd we e d * g (ix2 d h)

/-- The head's score: scaled by ¼, clamped to [−5, 5], exponentiated. -/
def sc (ea Ks Qd : (⟨2, ![N, 64]⟩ : Shape).Idx → EReal) (we : (⟨2, ![64, 64]⟩ : Shape).Idx → EReal)
    (g : (⟨2, ![64, 4]⟩ : Shape).Idx → EReal) (e : Fin N) (h : Fin 4) : EReal :=
  Ideal.exp (min (Ideal.ofBits .f32 0x40A00000#32) (max (Ideal.ofBits .f32 0xC0A00000#32)
    (s ea Ks Qd we g e h * Ideal.ofBits .f32 0x3E800000#32)))

/-- The score spread back over the 64 columns through the head-to-column matrix `gt`. -/
def scf (ea Ks Qd : (⟨2, ![N, 64]⟩ : Shape).Idx → EReal) (we : (⟨2, ![64, 64]⟩ : Shape).Idx → EReal)
    (g : (⟨2, ![64, 4]⟩ : Shape).Idx → EReal) (gt : (⟨2, ![4, 64]⟩ : Shape).Idx → EReal) (e : Fin N) (d : Fin 64) : EReal :=
  ∑ h : Fin 4, sc ea Ks Qd we g e h * gt (ix2 h d)

/-- The message: the value at the source weighted by the spread score. -/
def msg (ea Ks Qd Vs : (⟨2, ![N, 64]⟩ : Shape).Idx → EReal) (we : (⟨2, ![64, 64]⟩ : Shape).Idx → EReal)
    (g : (⟨2, ![64, 4]⟩ : Shape).Idx → EReal) (gt : (⟨2, ![4, 64]⟩ : Shape).Idx → EReal) (e : Fin N) (d : Fin 64) : EReal :=
  Vs (ix2 e d) * scf ea Ks Qd we g gt e d

/-! ## The two results as arrays -/

/-- The spread score as an array: entry `(e, d)` is `scf … e d`. -/
def scfA (ea Ks Qd : (⟨2, ![N, 64]⟩ : Shape).Idx → EReal) (we : (⟨2, ![64, 64]⟩ : Shape).Idx → EReal)
    (g : (⟨2, ![64, 4]⟩ : Shape).Idx → EReal) (gt : (⟨2, ![4, 64]⟩ : Shape).Idx → EReal) :
    (⟨2, ![N, 64]⟩ : Shape).Idx → EReal :=
  fun i => scf ea Ks Qd we g gt (i 0) (i 1)

theorem scfA_apply (ea Ks Qd : (⟨2, ![N, 64]⟩ : Shape).Idx → EReal) (we : (⟨2, ![64, 64]⟩ : Shape).Idx → EReal)
    (g : (⟨2, ![64, 4]⟩ : Shape).Idx → EReal) (gt : (⟨2, ![4, 64]⟩ : Shape).Idx → EReal) (e : Fin N) (d : Fin 64) :
    scfA ea Ks Qd we g gt (ix2 e d) = scf ea Ks Qd we g gt e d := rfl

/-- The message as an array: entry `(e, d)` is `msg … e d`. -/
def msgA (ea Ks Qd Vs : (⟨2, ![N, 64]⟩ : Shape).Idx → EReal) (we : (⟨2, ![64, 64]⟩ : Shape).Idx → EReal)
    (g : (⟨2, ![64, 4]⟩ : Shape).Idx → EReal) (gt : (⟨2, ![4, 64]⟩ : Shape).Idx → EReal) :
    (⟨2, ![N, 64]⟩ : Shape).Idx → EReal :=
  fun i => msg ea Ks Qd Vs we g gt (i 0) (i 1)

theorem msgA_apply (ea Ks Qd Vs : (⟨2, ![N, 64]⟩ : Shape).Idx → EReal) (we : (⟨2, ![64, 64]⟩ : Shape).Idx → EReal)
    (g : (⟨2, ![64, 4]⟩ : Shape).Idx → EReal) (gt : (⟨2, ![4, 64]⟩ : Shape).Idx → EReal) (e : Fin N) (d : Fin 64) :
    msgA ea Ks Qd Vs we g gt (ix2 e d) = msg ea Ks Qd Vs we g gt e d := rfl

/-! ## Each entry depends on its own row of the edge arrays only -/

variable {M : Nat}

/-- The spread score at row `e` of one family of edge arrays is the spread score at row `e'` of another family
    whose rows `e'` are the first family's rows `e`. -/
theorem scf_congr (ea Ks Qd : (⟨2, ![N, 64]⟩ : Shape).Idx → EReal) (ea' Ks' Qd' : (⟨2, ![M, 64]⟩ : Shape).Idx → EReal)
    (we : (⟨2, ![64, 64]⟩ : Shape).Idx → EReal) (g : (⟨2, ![64, 4]⟩ : Shape).Idx → EReal)
    (gt : (⟨2, ![4, 64]⟩ : Shape).Idx → EReal) (e : Fin N) (e' : Fin M)
    (h0 : ∀ k : Fin 64, ea (ix2 e k) = ea' (ix2 e' k)) (h1 : ∀ k : Fin 64, Ks (ix2 e k) = Ks' (ix2 e' k))
    (h2 : ∀ k : Fin 64, Qd (ix2 e k) = Qd' (ix2 e' k)) (d : Fin 64) :
    scf ea Ks Qd we g gt e d = scf ea' Ks' Qd' we g gt e' d := by
  unfold scf sc s prod eh
  simp only [h0, h1, h2]

/-- The same for the message, which also reads the value array's row. -/
theorem msg_congr (ea Ks Qd Vs : (⟨2, ![N, 64]⟩ : Shape).Idx → EReal) (ea' Ks' Qd' Vs' : (⟨2, ![M, 64]⟩ : Shape).Idx → EReal)
    (we : (⟨2, ![64, 64]⟩ : Shape).Idx → EReal) (g : (⟨2, ![64, 4]⟩ : Shape).Idx → EReal)
    (gt : (⟨2, ![4, 64]⟩ : Shape).Idx → EReal) (e : Fin N) (e' : Fin M)
    (h0 : ∀ k : Fin 64, ea (ix2 e k) = ea' (ix2 e' k)) (h1 : ∀ k : Fin 64, Ks (ix2 e k) = Ks' (ix2 e' k))
    (h2 : ∀ k : Fin 64, Qd (ix2 e k) = Qd' (ix2 e' k)) (h3 : ∀ k : Fin 64, Vs (ix2 e k) = Vs' (ix2 e' k)) (d : Fin 64) :
    msg ea Ks Qd Vs we g gt e d = msg ea' Ks' Qd' Vs' we g gt e' d := by
  unfold msg
  rw [h3 d, scf_congr ea Ks Qd ea' Ks' Qd' we g gt e e' h0 h1 h2 d]

/-- The spread-score arrays of two families agree at entries `i`, `i'` with the same column when the edge arrays'
    rows there agree and the three small matrices are the same. -/
theorem scfA_congr (ea Ks Qd : (⟨2, ![N, 64]⟩ : Shape).Idx → EReal) (ea' Ks' Qd' : (⟨2, ![M, 64]⟩ : Shape).Idx → EReal)
    (we we' : (⟨2, ![64, 64]⟩ : Shape).Idx → EReal) (g g' : (⟨2, ![64, 4]⟩ : Shape).Idx → EReal)
    (gt gt' : (⟨2, ![4, 64]⟩ : Shape).Idx → EReal)
    (i : (⟨2, ![N, 64]⟩ : Shape).Idx) (i' : (⟨2, ![M, 64]⟩ : Shape).Idx) (hcol : (i 1).val = (i' 1).val)
    (h0 : ∀ k : Fin 64, ea (ix2 (i 0) k) = ea' (ix2 (i' 0) k)) (h1 : ∀ k : Fin 64, Ks (ix2 (i 0) k) = Ks' (ix2 (i' 0) k))
    (h2 : ∀ k : Fin 64, Qd (ix2 (i 0) k) = Qd' (ix2 (i' 0) k))
    (h4 : we = we') (h5 : g = g') (h6 : gt = gt') :
    scfA ea Ks Qd we g gt i = scfA ea' Ks' Qd' we' g' gt' i' := by
  subst h4 h5 h6
  have hc : (i 1 : Fin 64) = i' 1 := Fin.ext hcol
  exact (congrArg (scf ea Ks Qd we g gt (i 0)) hc).trans
    (scf_congr ea Ks Qd ea' Ks' Qd' we g gt (i 0) (i' 0) h0 h1 h2 (i' 1))

/-- The same for the message arrays. -/
theorem msgA_congr (ea Ks Qd Vs : (⟨2, ![N, 64]⟩ : Shape).Idx → EReal) (ea' Ks' Qd' Vs' : (⟨2, ![M, 64]⟩ : Shape).Idx → EReal)
    (we we' : (⟨2, ![64, 64]⟩ : Shape).Idx → EReal) (g g' : (⟨2, ![64, 4]⟩ : Shape).Idx → EReal)
    (gt gt' : (⟨2, ![4, 64]⟩ : Shape).Idx → EReal)
    (i : (⟨2, ![N, 64]⟩ : Shape).Idx) (i' : (⟨2, ![M, 64]⟩ : Shape).Idx) (hcol : (i 1).val = (i' 1).val)
    (h0 : ∀ k : Fin 64, ea (ix2 (i 0) k) = ea' (ix2 (i' 0) k)) (h1 : ∀ k : Fin 64, Ks (ix2 (i 0) k) = Ks' (ix2 (i' 0) k))
    (h2 : ∀ k : Fin 64, Qd (ix2 (i 0) k) = Qd' (ix2 (i' 0) k)) (h3 : ∀ k : Fin 64, Vs (ix2 (i 0) k) = Vs' (ix2 (i' 0) k))
    (h4 : we = we') (h5 : g = g') (h6 : gt = gt') :
    msgA ea Ks Qd Vs we g gt i = msgA ea' Ks' Qd' Vs' we' g' gt' i' := by
  subst h4 h5 h6
  have hc : (i 1 : Fin 64) = i' 1 := Fin.ext hcol
  exact (congrArg (msg ea Ks Qd Vs we g gt (i 0)) hc).trans
    (msg_congr ea Ks Qd Vs ea' Ks' Qd' Vs' we g gt (i 0) (i' 0) h0 h1 h2 h3 (i' 1))

/-! ## A block of rows of the result is the result of the blocks of rows

`E0 … E3` and `E` place a block's entry in the arrays: row `off + ` the block's row, same column.  The block `x` of an
edge array `A` through its placement is `x y = A (E y)`. -/

/-- The score array of a family of row blocks, at a block entry, is the score array of the whole arrays at the entry's
    place. -/
theorem scfA_block (A0 A1 A2 : (⟨2, ![M, 64]⟩ : Shape).Idx → EReal) (x0 x1 x2 : (⟨2, ![N, 64]⟩ : Shape).Idx → EReal)
    (we we' : (⟨2, ![64, 64]⟩ : Shape).Idx → EReal) (g g' : (⟨2, ![64, 4]⟩ : Shape).Idx → EReal)
    (gt gt' : (⟨2, ![4, 64]⟩ : Shape).Idx → EReal)
    (E0 E1 E2 E : (⟨2, ![N, 64]⟩ : Shape).Idx → (⟨2, ![M, 64]⟩ : Shape).Idx) (off : Nat)
    (hE0 : ∀ y, (E0 y 0).val = off + (y 0).val ∧ (E0 y 1).val = (y 1).val)
    (hE1 : ∀ y, (E1 y 0).val = off + (y 0).val ∧ (E1 y 1).val = (y 1).val)
    (hE2 : ∀ y, (E2 y 0).val = off + (y 0).val ∧ (E2 y 1).val = (y 1).val)
    (hE : ∀ y, (E y 0).val = off + (y 0).val ∧ (E y 1).val = (y 1).val)
    (h0 : ∀ y, x0 y = A0 (E0 y)) (h1 : ∀ y, x1 y = A1 (E1 y)) (h2 : ∀ y, x2 y = A2 (E2 y))
    (h4 : we = we') (h5 : g = g') (h6 : gt = gt') (j : (⟨2, ![N, 64]⟩ : Shape).Idx) :
    scfA x0 x1 x2 we g gt j = scfA A0 A1 A2 we' g' gt' (E j) := by
  have key : ∀ (Ew : (⟨2, ![N, 64]⟩ : Shape).Idx → (⟨2, ![M, 64]⟩ : Shape).Idx)
      (hEw : ∀ y, (Ew y 0).val = off + (y 0).val ∧ (Ew y 1).val = (y 1).val) (k : Fin 64),
      Ew (ix2 (j 0 : Fin N) k) = ix2 (E j 0 : Fin M) k := fun Ew hEw k => funext fun a => Fin.ext (by
    match a with
    | ⟨0, _⟩ => exact ((hEw (ix2 (j 0 : Fin N) k)).1).trans ((hE j).1).symm
    | ⟨1, _⟩ => exact (hEw (ix2 (j 0 : Fin N) k)).2)
  refine scfA_congr x0 x1 x2 A0 A1 A2 we we' g g' gt gt' j (E j) ((hE j).2).symm
    (fun k => ?_) (fun k => ?_) (fun k => ?_) h4 h5 h6
  · exact (h0 _).trans (congrArg A0 (key E0 hE0 k))
  · exact (h1 _).trans (congrArg A1 (key E1 hE1 k))
  · exact (h2 _).trans (congrArg A2 (key E2 hE2 k))

/-- The same for the message array. -/
theorem msgA_block (A0 A1 A2 A3 : (⟨2, ![M, 64]⟩ : Shape).Idx → EReal) (x0 x1 x2 x3 : (⟨2, ![N, 64]⟩ : Shape).Idx → EReal)
    (we we' : (⟨2, ![64, 64]⟩ : Shape).Idx → EReal) (g g' : (⟨2, ![64, 4]⟩ : Shape).Idx → EReal)
    (gt gt' : (⟨2, ![4, 64]⟩ : Shape).Idx → EReal)
    (E0 E1 E2 E3 E : (⟨2, ![N, 64]⟩ : Shape).Idx → (⟨2, ![M, 64]⟩ : Shape).Idx) (off : Nat)
    (hE0 : ∀ y, (E0 y 0).val = off + (y 0).val ∧ (E0 y 1).val = (y 1).val)
    (hE1 : ∀ y, (E1 y 0).val = off + (y 0).val ∧ (E1 y 1).val = (y 1).val)
    (hE2 : ∀ y, (E2 y 0).val = off + (y 0).val ∧ (E2 y 1).val = (y 1).val)
    (hE3 : ∀ y, (E3 y 0).val = off + (y 0).val ∧ (E3 y 1).val = (y 1).val)
    (hE : ∀ y, (E y 0).val = off + (y 0).val ∧ (E y 1).val = (y 1).val)
    (h0 : ∀ y, x0 y = A0 (E0 y)) (h1 : ∀ y, x1 y = A1 (E1 y)) (h2 : ∀ y, x2 y = A2 (E2 y)) (h3 : ∀ y, x3 y = A3 (E3 y))
    (h4 : we = we') (h5 : g = g') (h6 : gt = gt') (j : (⟨2, ![N, 64]⟩ : Shape).Idx) :
    msgA x0 x1 x2 x3 we g gt j = msgA A0 A1 A2 A3 we' g' gt' (E j) := by
  have key : ∀ (Ew : (⟨2, ![N, 64]⟩ : Shape).Idx → (⟨2, ![M, 64]⟩ : Shape).Idx)
      (hEw : ∀ y, (Ew y 0).val = off + (y 0).val ∧ (Ew y 1).val = (y 1).val) (k : Fin 64),
      Ew (ix2 (j 0 : Fin N) k) = ix2 (E j 0 : Fin M) k := fun Ew hEw k => funext fun a => Fin.ext (by
    match a with
    | ⟨0, _⟩ => exact ((hEw (ix2 (j 0 : Fin N) k)).1).trans ((hE j).1).symm
    | ⟨1, _⟩ => exact (hEw (ix2 (j 0 : Fin N) k)).2)
  refine msgA_congr x0 x1 x2 x3 A0 A1 A2 A3 we we' g g' gt gt' j (E j) ((hE j).2).symm
    (fun k => ?_) (fun k => ?_) (fun k => ?_) (fun k => ?_) h4 h5 h6
  · exact (h0 _).trans (congrArg A0 (key E0 hE0 k))
  · exact (h1 _).trans (congrArg A1 (key E1 hE1 k))
  · exact (h2 _).trans (congrArg A2 (key E2 hE2 k))
  · exact (h3 _).trans (congrArg A3 (key E3 hE3 k))

end Cert.EdgeSpec

end
-- ==== Proof.KNodeSpec.lean ====
import Idealize.ShloMosaic.PureOps.Ideal
import Idealize.ShloMosaic.Lib.ValueIdx

/-! # The node update of a graph-attention layer, row by row, over the extended reals

One node's update reads ONE row of each of the three node arrays — the node's features `h`, the summed weighted values
`wV` and the summed attention weights `Z` (all `[R, 64]`) — and the layer's whole parameter arrays.  In the order the
operations are applied:

* the attention mean `hattn = wV / (Z + 1e-6)`, entry by entry;
* its output projection `attn = hattn · wo + bo` (a sum over the 64 input features, then the bias);
* the residual `a₁ = h + attn` and its layer normalisation `h₁ = LN(a₁; ln1g, ln1b)`;
* the feed-forward block `ffn = max(h₁ · w1 + b1, 0) · w2 + b2` (hidden width 128);
* the residual `a₂ = h₁ + ffn` and the result `LN(a₂; ln2g, ln2b)`.

`LN(a; g, b)` of a row of 64 entries is `((a − μ) · rsqrt(σ² + 1e-5)) · g + b` with `μ = (∑ a) / 64` and
`σ² = (∑ (a − μ)·(a − μ)) / 64`: both means are a sum over the row followed by a DIVISION by 64, and the square is
a product.  The constants stay the f32 words they are written as (`1e-6`, `1e-5`, `64.0`, `0.0`); nothing here
evaluates them.  Over the extended reals the order and grouping of the operations matter (distributivity fails at the
infinities), so every definition below fixes them.  The number of rows `R` is a parameter: the same functions describe
a block of rows and the whole array. -/

noncomputable section

namespace Cert.NodeSpec

open Idealize.ShloMosaic Idealize.ShloMosaic.ValueIdx

/-! ## Layer normalisation of one row -/

/-- The mean of a row of 64 entries: their sum divided by `64.0`. -/
def mean (a : Fin 64 → EReal) : EReal :=
  Ideal.div (∑ k : Fin 64, a k) (Ideal.ofBits .f32 0x42800000#32)

/-- The variance of a row: the sum of the squared deviations from the mean (each a product), divided by `64.0`. -/
def var (a : Fin 64 → EReal) : EReal :=
  Ideal.div (∑ k : Fin 64, (a k - mean a) * (a k - mean a)) (Ideal.ofBits .f32 0x42800000#32)

/-- The centred entry times the reciprocal root of "variance + 1e-5". -/
def norm (a : Fin 64 → EReal) (d : Fin 64) : EReal :=
  (a d - mean a) * Ideal.rsqrt (var a + Ideal.ofBits .f32 0x3727C5AC#32)

/-- Layer normalisation with scale `g` and shift `b`: `(norm · g) + b`. -/
def ln (a : Fin 64 → EReal) (g b : (⟨1, ![64]⟩ : Shape).Idx → EReal) (d : Fin 64) : EReal :=
  norm a d * g (ix1 d) + b (ix1 d)

/-! ## The stages, at row `n` -/

variable {R : ℕ}
  (h wV Z : (⟨2, ![R, 64]⟩ : Shape).Idx → EReal)
  (wo : (⟨2, ![64, 64]⟩ : Shape).Idx → EReal) (bo ln1g ln1b : (⟨1, ![64]⟩ : Shape).Idx → EReal)
  (w1 : (⟨2, ![64, 128]⟩ : Shape).Idx → EReal) (b1 : (⟨1, ![128]⟩ : Shape).Idx → EReal)
  (w2 : (⟨2, ![128, 64]⟩ : Shape).Idx → EReal) (b2 ln2g ln2b : (⟨1, ![64]⟩ : Shape).Idx → EReal)

/-- The attention mean: the summed weighted values over "the summed weights + 1e-6". -/
def hattn (n : Fin R) (d : Fin 64) : EReal :=
  Ideal.div (wV (ix2 n d)) (Z (ix2 n d) + Ideal.ofBits .f32 0x358637BD#32)

/-- The output projection of the attention mean, plus its bias. -/
def attn (n : Fin R) (d : Fin 64) : EReal :=
  (∑ k : Fin 64, hattn wV Z n k * wo (ix2 k d)) + bo (ix1 d)

/-- The first residual: the node's features plus the projected attention. -/
def a1 (n : Fin R) (d : Fin 64) : EReal :=
  h (ix2 n d) + attn wV Z wo bo n d

/-- The first layer normalisation. -/
def h1 (n : Fin R) (d : Fin 64) : EReal :=
  ln (fun k => a1 h wV Z wo bo n k) ln1g ln1b d

/-- The hidden layer of the feed-forward block: `max(h₁ · w1 + b1, 0)`, the zero on the right. -/
def hid (n : Fin R) (j : Fin 128) : EReal :=
  max ((∑ k : Fin 64, h1 h wV Z wo bo ln1g ln1b n k * w1 (ix2 k j)) + b1 (ix1 j)) (Ideal.ofBits .f32 0x00000000#32)

/-- The feed-forward block's output: the hidden layer through `w2`, plus its bias. -/
def ffn (n : Fin R) (d : Fin 64) : EReal :=
  (∑ j : Fin 128, hid h wV Z wo bo ln1g ln1b w1 b1 n j * w2 (ix2 j d)) + b2 (ix1 d)

/-- The second residual. -/
def a2 (n : Fin R) (d : Fin 64) : EReal :=
  h1 h wV Z wo bo ln1g ln1b n d + ffn h wV Z wo bo ln1g ln1b w1 b1 w2 b2 n d

/-- THE UPDATED NODE FEATURES: the second layer normalisation. -/
def out (n : Fin R) (d : Fin 64) : EReal :=
  ln (fun k => a2 h wV Z wo bo ln1g ln1b w1 b1 w2 b2 n k) ln2g ln2b d

/-- The updated features as ONE ARRAY: entry `(n, d)` is `out … n d`. -/
def outArr : (⟨2, ![R, 64]⟩ : Shape).Idx → EReal :=
  fun i => out h wV Z wo bo ln1g ln1b w1 b1 w2 b2 ln2g ln2b (i 0) (i 1)

/-- The array read at `(n, d)`. -/
theorem outArr_apply (n : Fin R) (d : Fin 64) :
    outArr h wV Z wo bo ln1g ln1b w1 b1 w2 b2 ln2g ln2b (ix2 n d) = out h wV Z wo bo ln1g ln1b w1 b1 w2 b2 ln2g ln2b n d := rfl

end Cert.NodeSpec

end
-- ==== Proof.LibRowScatter.lean ====
/-
  An accumulating row scatter read at an index, over the extended reals.

  What a segment sum of the rows of a matrix `upd : [E, C]` into `x : [N, C]` at an index column `idx : [E, 1]` lowers
  to: `stablehlo.scatter` with an `add` body, update_window_dims `[1]`, inserted_window_dims `[0]`,
  scatter_dims_to_operand_dims `[0]` and index_vector_dim 1. Update element `(e, c')` lands at the row `idx[e, 0]
  read as a signed integer` (not clamped) and the column `c'` when that row lies in `[0, N)`, and is dropped
  otherwise: on operand axis 0 (named by the scatter-dims map, an inserted window axis) the result index is the start
  alone, on operand axis 1 (not named by the map, so its start is 0; the one window axis) it is the update's second
  coordinate. So the updates landing on `(n, c)` are exactly the `(e, c)` with `idx[e, 0] = n`, and the result there is
  the operand's element plus the sum of those updates. The same holds for a vector `upd : [E]` scattered into
  `x : [N]` (no window axis at all): the result at `n` is `x n` plus the sum of `upd e` over the `e` with
  `idx[e, 0] = n`.
-/
import Idealize.ShloMosaic.PureOps.Ideal
import Idealize.ShloMosaic.Lib.ValueIdx

open scoped BigOperators

namespace Idealize.ShloMosaic.RowScatter

open Idealize.ShloMosaic Idealize.ShloMosaic.ValueIdx

/-- The update rows whose target row, `idx[e, 0]` read as a signed integer, is `n`. -/
def hits {N E w : Nat} (idx : IVec ⟨2, ![E, 1]⟩ w) (n : Fin N) : Finset (Fin E) :=
  Finset.univ.filter fun e => (idx (ix2 e (0 : Fin 1))).toInt = (n.val : Int)

/-- Membership in `hits`: the target row of `e`, read signed, is `n`. -/
theorem mem_hits {N E w : Nat} (idx : IVec ⟨2, ![E, 1]⟩ w) (n : Fin N) (e : Fin E) :
    e ∈ hits idx n ↔ (idx (ix2 e (0 : Fin 1))).toInt = (n.val : Int) := by
  simp [hits]

/-! ## The row scatter -/

/-- The row scatter's dimension numbers for an operand `[N, C]`, scatter indices `[E, 1]` and updates `[E, C]`; their
    conditions `wf` are decided on a program's literal shapes. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an update of the row scatter lands: update `(e, c')` lands on `(n, c)` exactly when its target row
    `idx[e, 0]`, read signed, is `n` and its column `c'` is `c`. -/
theorem rowDims_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowDims N C E wf).resultIdx? (ix2 e c') idx = some (ix2 n c)
      ↔ (idx (ix2 e (0 : Fin 1))).toInt = (n.val : Int) ∧ c' = c := by
  have hs0 : (rowDims N C E wf).start (ix2 e c') idx 0 = (idx (ix2 e (0 : Fin 1))).toInt := by
    unfold ScatterDims.start
    rw [dif_pos (show (0 : Fin 2) ∈ (rowDims N C E wf).scatterDimsToOperandDims from List.mem_singleton.mpr rfl)]
    have hsi : (rowDims N C E wf).siIdx (ix2 e c') ⟨List.idxOf (0 : Fin 2) (rowDims N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowDims N C E wf).start (ix2 e c') idx 1 = 0 := by
    unfold ScatterDims.start
    rw [dif_neg (show ¬ (1 : Fin 2) ∈ (rowDims N C E wf).scatterDimsToOperandDims from
      (by decide : (1 : Fin 2) ∉ ([0] : List (Fin 2))))]
  have hk : (rowDims N C E wf).sKept = [1] := rfl
  have hw0 : (rowDims N C E wf).window (ix2 e c') 0 = 0 := by
    unfold ScatterDims.window
    rw [dif_neg (by rw [hk]; exact (by decide : (0 : Fin 2) ∉ ([1] : List (Fin 2))))]
  have hw1 : (rowDims N C E wf).window (ix2 e c') 1 = c'.val := by
    unfold ScatterDims.window
    rw [dif_pos (by rw [hk]; exact List.mem_singleton.mpr rfl)]
    rfl
  unfold ScatterDims.resultIdx?
  by_cases h : ∀ a, 0 ≤ (rowDims N C E wf).start (ix2 e c') idx a + (rowDims N C E wf).window (ix2 e c') a
      ∧ (rowDims N C E wf).start (ix2 e c') idx a + (rowDims N C E wf).window (ix2 e c') a
        < (⟨2, ![N, C]⟩ : Shape).size a
  · rw [dif_pos h, Option.some.injEq]
    have h0 := h 0
    rw [hs0, hw0] at h0
    constructor
    · intro hf
      have e0 : ((rowDims N C E wf).start (ix2 e c') idx 0 + (rowDims N C E wf).window (ix2 e c') 0).toNat = n.val :=
        congrArg Fin.val (congrFun hf 0)
      have e1 : ((rowDims N C E wf).start (ix2 e c') idx 1 + (rowDims N C E wf).window (ix2 e c') 1).toNat = c.val :=
        congrArg Fin.val (congrFun hf 1)
      rw [hs0, hw0] at e0
      rw [hs1, hw1] at e1
      refine ⟨by omega, Fin.ext (by omega)⟩
    · rintro ⟨ht, rfl⟩
      funext a; refine Fin.ext ?_
      match a with
      | ⟨0, _⟩ =>
        show ((rowDims N C E wf).start (ix2 e c') idx 0 + (rowDims N C E wf).window (ix2 e c') 0).toNat = n.val
        rw [hs0, hw0]; omega
      | ⟨1, _⟩ =>
        show ((rowDims N C E wf).start (ix2 e c') idx 1 + (rowDims N C E wf).window (ix2 e c') 1).toNat = c'.val
        rw [hs1, hw1]; omega
  · rw [dif_neg h]
    constructor
    · intro hf; cases hf
    · rintro ⟨ht, rfl⟩
      refine absurd (fun a => ?_) h
      match a with
      | ⟨0, _⟩ =>
        show 0 ≤ (rowDims N C E wf).start (ix2 e c') idx 0 + (rowDims N C E wf).window (ix2 e c') 0
          ∧ (rowDims N C E wf).start (ix2 e c') idx 0 + (rowDims N C E wf).window (ix2 e c') 0 < (N : Int)
        rw [hs0, hw0]; have := n.isLt; omega
      | ⟨1, _⟩ =>
        show 0 ≤ (rowDims N C E wf).start (ix2 e c') idx 1 + (rowDims N C E wf).window (ix2 e c') 1
          ∧ (rowDims N C E wf).start (ix2 e c') idx 1 + (rowDims N C E wf).window (ix2 e c') 1 < (C : Int)
        rw [hs1, hw1]; have := c'.isLt; omega

/-- THE ROW SCATTER READ AT `(n, c)`, for the record `rowDims`: the operand's element plus the sum of the updates
    `(e, c)` over the rows `e` whose target row `idx[e, 0]`, read signed, is `n`. -/
theorem rowDims_scatterAdd_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) (rowDims N C E wf) x idx upd (ix2 n c)
      = x (ix2 n c) + ∑ e ∈ hits idx n, upd (ix2 e c) := by
  have hdef : Host.scatterAdd (F := Ideal) (rowDims N C E wf) x idx upd
      = Ideal.hostScatterAdd (rowDims N C E wf) x idx upd := rfl
  rw [hdef]
  simp only [Ideal.hostScatterAdd]
  congr 1
  rw [Finset.sum_filter, sum_idx2]
  unfold hits
  rw [Finset.sum_filter]
  refine Finset.sum_congr rfl fun e _ => ?_
  simp only [rowDims_resultIdx?_eq_some_iff]
  by_cases ht : (idx (ix2 e (0 : Fin 1))).toInt = (n.val : Int)
  · simp only [ht, true_and, if_true]
    rw [Finset.sum_ite_eq' Finset.univ c (fun b => upd (ix2 e b)), if_pos (Finset.mem_univ c)]
  · simp only [ht, false_and, if_false]
    exact Finset.sum_const_zero

/-- THE ROW SCATTER READ AT `(n, c)`, for any record with the row scatter's dimension numbers: the operand's element
    plus the sum of the updates `(e, c)` over the rows `e` whose target row `idx[e, 0]`, read signed, is `n`
    (an update whose target row is outside `[0, N)` is dropped). -/
theorem rowScatterAdd_apply {N C E w : Nat} {φ : FTy}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) = x (ix2 n c) + ∑ e ∈ hits idx n, upd (ix2 e c) := by
  obtain ⟨uw, iw, sd, iv, wf⟩ := d
  simp only at h1 h2 h3 h4
  subst h1 h2 h3 h4
  exact rowDims_scatterAdd_apply wf x idx upd n c

/-! ## The vector scatter -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]` (no window
    axis); their conditions `wf` are decided on a program's literal shapes. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where an update of the vector scatter lands: update `e` lands on `n` exactly when its target `idx[e, 0]`, read
    signed, is `n`. -/
theorem vecDims_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecDims N E wf).sKept = [] := rfl
  have hw0 : (vecDims N E wf).window (ix1 e) 0 = 0 := by
    unfold ScatterDims.window
    rw [dif_neg (by rw [hk]; exact List.not_mem_nil)]
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < (⟨1, ![N]⟩ : Shape).size a
  · rw [dif_pos h, Option.some.injEq]
    have h0 := h 0
    rw [hs0, hw0] at h0
    constructor
    · intro hf
      have e0 : ((vecDims N E wf).start (ix1 e) idx 0 + (vecDims N E wf).window (ix1 e) 0).toNat = n.val :=
        congrArg Fin.val (congrFun hf 0)
      rw [hs0, hw0] at e0
      omega
    · intro ht
      funext a; refine Fin.ext ?_
      match a with
      | ⟨0, _⟩ =>
        show ((vecDims N E wf).start (ix1 e) idx 0 + (vecDims N E wf).window (ix1 e) 0).toNat = n.val
        rw [hs0, hw0]; omega
  · rw [dif_neg h]
    constructor
    · intro hf; cases hf
    · intro ht
      refine absurd (fun a => ?_) h
      match a with
      | ⟨0, _⟩ =>
        show 0 ≤ (vecDims N E wf).start (ix1 e) idx 0 + (vecDims N E wf).window (ix1 e) 0
          ∧ (vecDims N E wf).start (ix1 e) idx 0 + (vecDims N E wf).window (ix1 e) 0 < (N : Int)
        rw [hs0, hw0]; have := n.isLt; omega

/-- THE VECTOR SCATTER READ AT `n`, for the record `vecDims`: the operand's element plus the sum of the updates `e`
    whose target `idx[e, 0]`, read signed, is `n`. -/
theorem vecDims_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n)
      = x (ix1 n) + ∑ e ∈ hits idx n, upd (ix1 e) := by
  have hdef : Host.scatterAdd (F := Ideal) (vecDims N E wf) x idx upd
      = Ideal.hostScatterAdd (vecDims N E wf) x idx upd := rfl
  rw [hdef]
  simp only [Ideal.hostScatterAdd]
  congr 1
  rw [Finset.sum_filter, sum_idx1]
  unfold hits
  rw [Finset.sum_filter]
  refine Finset.sum_congr rfl fun e _ => ?_
  simp only [vecDims_resultIdx?_eq_some_iff]

/-- THE VECTOR SCATTER READ AT `n`, for any record with the vector scatter's dimension numbers: the operand's element
    plus the sum of the updates `e` whose target `idx[e, 0]`, read signed, is `n` (an update whose target is outside
    `[0, N)` is dropped). With every update equal to one this counts the rows aimed at `n`. -/
theorem vecScatterAdd_apply {N E w : Nat} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n) = x (ix1 n) + ∑ e ∈ hits idx n, upd (ix1 e) := by
  obtain ⟨uw, iw, sd, iv, wf⟩ := d
  simp only at h1 h2 h3 h4
  subst h1 h2 h3 h4
  exact vecDims_scatterAdd_apply wf x idx upd n

end Idealize.ShloMosaic.RowScatter
-- ==== Proof.KAttnSpec.lean ====
import proofs.«135486_j17549236371616_1_alg».proof.Proof.KEdgeSpec
import proofs.«135486_j17549236371616_1_alg».proof.Proof.KNodeSpec
import proofs.«135486_j17549236371616_1_alg».proof.Proof.LibIndexCol
import proofs.«135486_j17549236371616_1_alg».proof.Proof.LibRowScatter

/-! # The attention stage as the kernel program computes it, end to end

Between the node features and the node-update stage the kernel program runs: the three projections `h · w` as
`[N, 64]` matrices; row gathers of them at the wrapped source / destination columns; the per-edge stage (scores through
the one-hot head matrix, clipped exponential, spread back through its transpose, messages); two accumulating row
scatters into zeros at the destination column; and, inside the node-update stage, the quotient "summed messages over
summed weights + 1e-6".  Here these are composed into ONE function of the launch arrays, over plain index functions,
with the one-hot head matrix and its transpose written out. -/

open scoped BigOperators

noncomputable section

namespace Cert.KAttn

open Idealize.ShloMosaic Idealize.ShloMosaic.ValueIdx

/-- The words `1.0` and `0.0`. -/
abbrev one : EReal := Ideal.ofBits .f32 0x3F800000#32
abbrev zero : EReal := Ideal.ofBits .f32 0x00000000#32

/-- The 64 × 4 one-hot head matrix: `1` where column `d` lies in head `hd` (`d / 16 = hd`), `0` elsewhere. -/
def onehot : (⟨2, ![64, 4]⟩ : Shape).Idx → EReal :=
  fun i => if (i 0).val / 16 = (i 1).val then one else zero

/-- Its transpose, 4 × 64. -/
def onehotT : (⟨2, ![4, 64]⟩ : Shape).Idx → EReal :=
  fun i => if (i 1).val / 16 = (i 0).val then one else zero

/-- A projection `x · w` as an `[R, 64]` matrix. -/
def proj {R : ℕ} (x : (⟨2, ![R, 64]⟩ : Shape).Idx → EReal) (w : (⟨2, ![64, 64]⟩ : Shape).Idx → EReal) :
    (⟨2, ![R, 64]⟩ : Shape).Idx → EReal :=
  fun i => ∑ k : Fin 64, x (ix2 (i 0) k) * w (ix2 k (i 1))

/-- The rows of a 50000-row table gathered at an index column: edge `e` reads the row the column names for it. -/
def rows (tbl : (⟨2, ![50000, 64]⟩ : Shape).Idx → EReal) (c : IVec ⟨2, ![800000, 1]⟩ 32) :
    (⟨2, ![800000, 64]⟩ : Shape).Idx → EReal :=
  fun i => tbl (ix2 (Cert.IndexCol.row 50000 (by decide) c (i 0)) (i 1))

/-- A per-edge matrix summed into nodes: from zero, the sum over the edges whose destination entry is `n`. -/
def seg (upd : (⟨2, ![800000, 64]⟩ : Shape).Idx → EReal) (c : IVec ⟨2, ![800000, 1]⟩ 32) :
    (⟨2, ![50000, 64]⟩ : Shape).Idx → EReal :=
  fun i => zero + ∑ e ∈ Idealize.ShloMosaic.RowScatter.hits c (i 0), upd (ix2 e (i 1))

section
variable (h : (⟨2, ![50000, 64]⟩ : Shape).Idx → EReal) (ea : (⟨2, ![800000, 64]⟩ : Shape).Idx → EReal)
  (srcC dstWC dstC : IVec ⟨2, ![800000, 1]⟩ 32) (wq wk we wv : (⟨2, ![64, 64]⟩ : Shape).Idx → EReal)
  (g : (⟨2, ![64, 4]⟩ : Shape).Idx → EReal) (gt : (⟨2, ![4, 64]⟩ : Shape).Idx → EReal)

/-- The messages of all edges, `[E, 64]`. -/
def msgs : (⟨2, ![800000, 64]⟩ : Shape).Idx → EReal :=
  Cert.EdgeSpec.msgA ea (rows (proj h wk) srcC) (rows (proj h wq) dstWC) (rows (proj h wv) srcC) we g gt

/-- The spread scores of all edges, `[E, 64]`. -/
def scores : (⟨2, ![800000, 64]⟩ : Shape).Idx → EReal :=
  Cert.EdgeSpec.scfA ea (rows (proj h wk) srcC) (rows (proj h wq) dstWC) we g gt

/-- The attention mean at node `n`, column `d`, as the node-update stage forms it from the two segment sums. -/
def hattn (n : Fin 50000) (d : Fin 64) : EReal :=
  Cert.NodeSpec.hattn (seg (msgs h ea srcC dstWC wq wk we wv g gt) dstC) (seg (scores h ea srcC dstWC wq wk we g gt) dstC) n d

end

end Cert.KAttn

end
-- ==== Proof.LibHeadSelect.lean ====
import Mathlib.Algebra.BigOperators.Fin
import Mathlib.Algebra.BigOperators.Group.Finset.Basic
import Mathlib.Logic.Equiv.Fin.Basic

/-! # Products with a one-hot "head" matrix

A feature axis of `H * W` columns is `H` heads of `W` consecutive columns; column `d` lies in head `d / W`.  The
`(H*W) × H` matrix with a `1` at `(d, h)` when `d / W = h` and `0` elsewhere turns a row into its `H` per-head sums,
and its transpose spreads `H` per-head numbers back over the `H * W` columns.  Both facts need only that `x · 1 = x`,
`x · 0 = 0` (taken as hypotheses, the zero being the additive monoid's) and that sums are those of a commutative
additive monoid — no distributivity — so they hold over the extended reals, infinities included (there the two
hypotheses are `mul_one` and `mul_zero`). -/

namespace Cert.HeadSelect

variable {M : Type*} [AddCommMonoid M] [Mul M] [One M]

/-- The column `j + W * h` (column `j` of head `h`) lies in head `h`. -/
theorem head_of_pair {H W : ℕ} (h : Fin H) (j : Fin W) : (finProdFinEquiv (h, j)).val / W = h.val := by
  have hW : 0 < W := lt_of_le_of_lt (Nat.zero_le _) j.isLt
  rw [finProdFinEquiv_apply_val, Nat.add_mul_div_left _ _ hW, Nat.div_eq_of_lt j.isLt, Nat.zero_add]

/-- A row times the one-hot head matrix: entry `h` is the sum of the row over head `h`'s `W` columns. -/
theorem sum_mul_onehot (mul_one' : ∀ x : M, x * 1 = x) (mul_zero' : ∀ x : M, x * 0 = 0) {H W : ℕ}
    (x : Fin (H * W) → M) (h : Fin H) :
    ∑ d : Fin (H * W), x d * (if d.val / W = h.val then (1 : M) else 0)
      = ∑ j : Fin W, x (finProdFinEquiv (h, j)) := by
  rw [← finProdFinEquiv.sum_comp, Fintype.sum_prod_type, Finset.sum_eq_single h]
  · exact Finset.sum_congr rfl fun j _ => by rw [if_pos (head_of_pair h j), mul_one']
  · intro a _ ha
    refine Finset.sum_eq_zero fun j _ => ?_
    rw [if_neg (fun e => ha (Fin.ext ((head_of_pair a j).symm.trans e))), mul_zero']
  · intro hh; exact absurd (Finset.mem_univ h) hh

/-- Per-head numbers times the transposed one-hot matrix: column `d` receives the number of its own head. -/
theorem sum_onehot_mul (mul_one' : ∀ x : M, x * 1 = x) (mul_zero' : ∀ x : M, x * 0 = 0) {H W : ℕ}
    (s : Fin H → M) (d : ℕ) (hd : d / W < H) :
    ∑ h : Fin H, s h * (if d / W = h.val then (1 : M) else 0) = s ⟨d / W, hd⟩ := by
  rw [Finset.sum_eq_single (⟨d / W, hd⟩ : Fin H)]
  · rw [if_pos rfl, mul_one']
  · intro a _ ha
    rw [if_neg (fun e => ha (Fin.ext e.symm)), mul_zero']
  · intro hh; exact absurd (Finset.mem_univ _) hh

end Cert.HeadSelect
-- ==== Proof.BridgeAttn.lean ====
import proofs.«135486_j17549236371616_1_alg».proof.Proof.RAttnSpec
import proofs.«135486_j17549236371616_1_alg».proof.Proof.KAttnSpec
import proofs.«135486_j17549236371616_1_alg».proof.Proof.LibHeadSelect
import proofs.«135486_j17549236371616_1_alg».proof.Proof.LibHeadSplit
import Idealize.ShloMosaic.Lib.IdealHost
import Idealize.ShloMosaic.PureOps.Ideal.Laws

/-! # The attention stage: the per-head form and the matrix form agree

One layer's attention is written twice in this certificate.  The per-head form reads a node's 64 features as 4 heads
of 16 and sums a head's 16 products directly; the matrix form keeps `[·, 64]` matrices throughout, sums the 64
products of a row into 4 heads by multiplying with the 64 × 4 one-hot head matrix, and spreads the 4 per-head weights
back over the 64 columns by multiplying with its transpose.  At column `j + 16 · hd` the two forms are the same
extended real:

* the projections and the gathered rows are the same sums entry by entry;
* a row times the one-hot matrix is the sum over the head's own 16 columns (`x · 1 = x`, `x · 0 = 0`, and a sum
  of zeros is zero — no distributivity), and the per-head form's leading `0 +` is absorbed;
* the per-head weights times the transposed one-hot matrix give column `j + 16 · hd` the weight of head `hd`;
* multiplying by the word `0.25` is dividing by the word `4.0`, for every extended real, the infinities included;
* the two segment sums range over the same set of edges. -/

open scoped BigOperators

noncomputable section

namespace Cert.BridgeAttn

open Idealize.ShloMosaic Idealize.ShloMosaic.ValueIdx

/-! ## The scale: times a quarter is division by four -/

/-- The word `0x3E800000` is the real `1/4`. -/
theorem ofBits_quarter : Ideal.ofBits .f32 0x3E800000#32 = (((1 : ℝ) / 4 : ℝ) : EReal) := by
  simp [Ideal.ofBits, Ideal.ieee, -EReal.coe_mul]; norm_num

/-- The word `0x40800000` is the real `4`. -/
theorem ofBits_four : Ideal.ofBits .f32 0x40800000#32 = ((4 : ℝ) : EReal) := by
  simp [Ideal.ofBits, Ideal.ieee, -EReal.coe_mul]; norm_num

/-- Multiplying by the word `0.25` is dividing by the word `4.0`, at every extended real. -/
theorem mul_quarter_eq_div_four (x : EReal) :
    x * Ideal.ofBits .f32 0x3E800000#32 = Ideal.div x (Ideal.ofBits .f32 0x40800000#32) := by
  rw [ofBits_quarter, ofBits_four, Ideal.div_coe (by norm_num : (4 : ℝ) ≠ 0)]

section
variable (h : (⟨2, ![50000, 64]⟩ : Shape).Idx → EReal) (ea : (⟨2, ![800000, 64]⟩ : Shape).Idx → EReal)
  (srcC dstWC dstC : IVec ⟨2, ![800000, 1]⟩ 32) (wq wk we wv : (⟨2, ![64, 64]⟩ : Shape).Idx → EReal)

/-- The gathered keys, queries and values as `[E, 64]` matrices (the matrix form's operands). -/
abbrev Ks : (⟨2, ![800000, 64]⟩ : Shape).Idx → EReal := Cert.KAttn.rows (Cert.KAttn.proj h wk) srcC
abbrev Qd : (⟨2, ![800000, 64]⟩ : Shape).Idx → EReal := Cert.KAttn.rows (Cert.KAttn.proj h wq) dstWC
abbrev Vs : (⟨2, ![800000, 64]⟩ : Shape).Idx → EReal := Cert.KAttn.rows (Cert.KAttn.proj h wv) srcC

/-! ## Entry by entry: projections, gathered rows, products -/

/-- The product "key · query · edge term" of the matrix form at column `j + 16 · hd` is the per-head form's. -/
theorem prod_col (e : Fin 800000) (hd : Fin 4) (j : Fin 16) :
    Cert.EdgeSpec.prod ea (Ks h srcC wk) (Qd h dstWC wq) we e (Cert.HeadSplit.col (rfl : 64 = 4 * 16) hd j)
      = (Cert.RAttnSpec.k3 h wk (Cert.RAttnSpec.rowOf srcC e) hd j
          * Cert.RAttnSpec.q3 h wq (Cert.RAttnSpec.rowOf dstWC e) hd j) * Cert.RAttnSpec.e3 ea we e hd j := rfl

/-- The gathered values at column `j + 16 · hd`. -/
theorem vs_col (e : Fin 800000) (hd : Fin 4) (j : Fin 16) :
    Vs h srcC wv (ix2 e (Cert.HeadSplit.col (rfl : 64 = 4 * 16) hd j))
      = Cert.RAttnSpec.v3 h wv (Cert.RAttnSpec.rowOf srcC e) hd j := rfl

/-! ## The raw score: a row through the one-hot head matrix -/

/-- The one-hot head matrix at `(d, hd)`. -/
theorem onehot_apply (d : Fin 64) (hd : Fin 4) :
    Cert.KAttn.onehot (ix2 d hd) = if d.val / 16 = hd.val then (1 : EReal) else 0 := by
  show (if d.val / 16 = hd.val then Cert.KAttn.one else Cert.KAttn.zero) = _
  rw [Cert.KAttn.one, Cert.KAttn.zero, Ideal.ofBits_one_f32, Ideal.ofBits_zero_f32]

/-- Its transpose at `(hd, d)`. -/
theorem onehotT_apply (hd : Fin 4) (d : Fin 64) :
    Cert.KAttn.onehotT (ix2 hd d) = if d.val / 16 = hd.val then (1 : EReal) else 0 := by
  show (if d.val / 16 = hd.val then Cert.KAttn.one else Cert.KAttn.zero) = _
  rw [Cert.KAttn.one, Cert.KAttn.zero, Ideal.ofBits_one_f32, Ideal.ofBits_zero_f32]

/-- The raw scores agree: the 64 products through the one-hot matrix are the head's 16 products summed, and the
    per-head form's initial zero adds nothing. -/
theorem s_eq (e : Fin 800000) (hd : Fin 4) :
    Cert.RAttnSpec.s h ea srcC dstWC wq wk we e hd
      = Cert.EdgeSpec.s ea (Ks h srcC wk) (Qd h dstWC wq) we Cert.KAttn.onehot e hd := by
  unfold Cert.RAttnSpec.s Cert.EdgeSpec.s
  rw [Cert.RAttnSpec.zero, Ideal.ofBits_zero_f32, zero_add]
  simp only [onehot_apply]
  exact (Cert.HeadSelect.sum_mul_onehot (M := EReal) mul_one mul_zero (H := 4) (W := 16)
    (fun d : Fin (4 * 16) => Cert.EdgeSpec.prod ea (Ks h srcC wk) (Qd h dstWC wq) we e d) hd).symm

/-- The edge weights agree. -/
theorem sc_eq (e : Fin 800000) (hd : Fin 4) :
    Cert.RAttnSpec.sc h ea srcC dstWC wq wk we e hd
      = Cert.EdgeSpec.sc ea (Ks h srcC wk) (Qd h dstWC wq) we Cert.KAttn.onehot e hd := by
  unfold Cert.RAttnSpec.sc Cert.EdgeSpec.sc
  rw [s_eq, mul_quarter_eq_div_four]

/-! ## The spread: per-head weights through the transposed one-hot matrix -/

/-- Column `j + 16 · hd` receives head `hd`'s weight. -/
theorem scf_col (e : Fin 800000) (hd : Fin 4) (j : Fin 16) :
    Cert.EdgeSpec.scf ea (Ks h srcC wk) (Qd h dstWC wq) we Cert.KAttn.onehot Cert.KAttn.onehotT e
        (Cert.HeadSplit.col (rfl : 64 = 4 * 16) hd j)
      = Cert.RAttnSpec.sc h ea srcC dstWC wq wk we e hd := by
  unfold Cert.EdgeSpec.scf
  simp only [onehotT_apply]
  have hq : (Cert.HeadSplit.col (rfl : 64 = 4 * 16) hd j).val / 16 = hd.val :=
    Cert.HeadSelect.head_of_pair hd j
  rw [Cert.HeadSelect.sum_onehot_mul (M := EReal) mul_one mul_zero (H := 4) (W := 16)
    (fun a : Fin 4 => Cert.EdgeSpec.sc ea (Ks h srcC wk) (Qd h dstWC wq) we Cert.KAttn.onehot e a)
    (Cert.HeadSplit.col (rfl : 64 = 4 * 16) hd j).val (by rw [hq]; exact hd.isLt)]
  rw [sc_eq]
  exact congrArg (Cert.EdgeSpec.sc ea (Ks h srcC wk) (Qd h dstWC wq) we Cert.KAttn.onehot e) (Fin.ext hq)

/-- The messages agree at column `j + 16 · hd`. -/
theorem msg_col (e : Fin 800000) (hd : Fin 4) (j : Fin 16) :
    Cert.EdgeSpec.msg ea (Ks h srcC wk) (Qd h dstWC wq) (Vs h srcC wv) we Cert.KAttn.onehot Cert.KAttn.onehotT e
        (Cert.HeadSplit.col (rfl : 64 = 4 * 16) hd j)
      = Cert.RAttnSpec.msg h ea srcC dstWC wq wk we wv e hd j := by
  unfold Cert.EdgeSpec.msg Cert.RAttnSpec.msg
  rw [scf_col, vs_col]

/-! ## The segment sums and the quotient -/

/-- The summed messages agree. -/
theorem wV_eq (n : Fin 50000) (hd : Fin 4) (j : Fin 16) :
    Cert.KAttn.seg (Cert.KAttn.msgs h ea srcC dstWC wq wk we wv Cert.KAttn.onehot Cert.KAttn.onehotT) dstC
        (ix2 n (Cert.HeadSplit.col (rfl : 64 = 4 * 16) hd j))
      = Cert.RAttnSpec.wV h ea srcC dstWC dstC wq wk we wv n hd j := by
  show Cert.KAttn.zero + ∑ e ∈ Idealize.ShloMosaic.RowScatter.hits dstC n,
      Cert.EdgeSpec.msg ea (Ks h srcC wk) (Qd h dstWC wq) (Vs h srcC wv) we Cert.KAttn.onehot Cert.KAttn.onehotT e
        (Cert.HeadSplit.col (rfl : 64 = 4 * 16) hd j) = _
  unfold Cert.RAttnSpec.wV
  exact congrArg (Cert.KAttn.zero + ·) (Finset.sum_congr rfl fun e _ => msg_col h ea srcC dstWC wq wk we wv e hd j)

/-- The summed weights agree. -/
theorem Z_eq (n : Fin 50000) (hd : Fin 4) (j : Fin 16) :
    Cert.KAttn.seg (Cert.KAttn.scores h ea srcC dstWC wq wk we Cert.KAttn.onehot Cert.KAttn.onehotT) dstC
        (ix2 n (Cert.HeadSplit.col (rfl : 64 = 4 * 16) hd j))
      = Cert.RAttnSpec.Z h ea srcC dstWC dstC wq wk we n hd := by
  show Cert.KAttn.zero + ∑ e ∈ Idealize.ShloMosaic.RowScatter.hits dstC n,
      Cert.EdgeSpec.scf ea (Ks h srcC wk) (Qd h dstWC wq) we Cert.KAttn.onehot Cert.KAttn.onehotT e
        (Cert.HeadSplit.col (rfl : 64 = 4 * 16) hd j) = _
  unfold Cert.RAttnSpec.Z
  exact congrArg (Cert.KAttn.zero + ·) (Finset.sum_congr rfl fun e _ => scf_col h ea srcC dstWC wq wk we e hd j)

/-- THE ATTENTION OUTPUT: the per-head form at `(n, hd, j)` is the matrix form at row `n`, column `j + 16 · hd`. -/
theorem hattn_eq (n : Fin 50000) (hd : Fin 4) (j : Fin 16) :
    Cert.RAttnSpec.hattn h ea srcC dstWC dstC wq wk we wv n hd j
      = Cert.KAttn.hattn h ea srcC dstWC dstC wq wk we wv Cert.KAttn.onehot Cert.KAttn.onehotT n
          (Cert.HeadSplit.col (rfl : 64 = 4 * 16) hd j) := by
  unfold Cert.RAttnSpec.hattn Cert.KAttn.hattn Cert.NodeSpec.hattn
  rw [wV_eq, Z_eq]

end

end Cert.BridgeAttn

end
-- ==== Proof.RNodeSpec.lean ====
import Idealize.ShloMosaic.PureOps.Ideal
import Idealize.ShloMosaic.Lib.ValueIdx

/-! # The node half of a graph-attention layer as the reference computes it, entry by entry

The reference's node update takes the attention output `hattn` (`[R, 64]`, already divided by its normaliser), the
node features `h` and the layer's parameter arrays, and applies, in this order:

* the output projection `attn = hattn · wo + bo` (a sum over the 64 input features, then the bias);
* the residual `a₁ = h + attn` and its layer normalisation `h₁ = LN(a₁; g1, be1)`;
* the feed-forward block `ffn = max(h₁ · w1 + b1, 0) · w2 + b2` (hidden width 128, the zero on the right of `max`);
* the residual `a₂ = h₁ + ffn` and the result `LN(a₂; g2, be2)`.

`LN(a; g, b)` of a row of 64 entries is `((a − μ) / √(σ² + 1e-5)) · g + b` with `μ = (0 + ∑ a) / 64` and
`σ² = (0 + ∑ (a − μ)·(a − μ)) / 64`: each mean is the reduction's initial word plus the sum over the row, then a
DIVISION by the word `64.0`; the square is a product; the normalisation is a QUOTIENT by the square root.  The
constants stay the f32 words they are written as; nothing here evaluates them.  Over the extended reals the order and
grouping of the operations matter (distributivity fails at the infinities), so every definition fixes them exactly as
the reference's operations apply them.  The number of rows `R` is a parameter. -/

noncomputable section

namespace Cert.RNodeSpec

open Idealize.ShloMosaic Idealize.ShloMosaic.ValueIdx

/-- The word `0.0`: the initial value of every sum, and the floor of the feed-forward block's `max`. -/
abbrev zero : EReal := Ideal.ofBits .f32 0x00000000#32
/-- The word `64.0`: the row length both means divide by. -/
abbrev c64 : EReal := Ideal.ofBits .f32 0x42800000#32
/-- The word `1e-5` added to the variance. -/
abbrev eps5 : EReal := Ideal.ofBits .f32 0x3727C5AC#32

/-! ## Layer normalisation of one row -/

/-- The mean of a row of 64 entries: the initial word plus their sum, divided by `64.0`. -/
def mu (a : Fin 64 → EReal) : EReal :=
  Ideal.div (zero + ∑ k : Fin 64, a k) c64

/-- The variance of a row: the initial word plus the sum of the squared deviations from the mean (each a product),
divided by `64.0`. -/
def var (a : Fin 64 → EReal) : EReal :=
  Ideal.div (zero + ∑ k : Fin 64, (a k - mu a) * (a k - mu a)) c64

/-- Layer normalisation with scale `g` and shift `b`: the centred entry over the root of "variance + 1e-5", times the
scale, plus the shift. -/
def ln (a : Fin 64 → EReal) (g b : (⟨1, ![64]⟩ : Shape).Idx → EReal) (d : Fin 64) : EReal :=
  Ideal.div (a d - mu a) (Ideal.sqrt (var a + eps5)) * g (ix1 d) + b (ix1 d)

/-! ## The stages, at row `n` -/

variable {R : ℕ}
  (hattn h : (⟨2, ![R, 64]⟩ : Shape).Idx → EReal)
  (wo : (⟨2, ![64, 64]⟩ : Shape).Idx → EReal) (bo g1 be1 : (⟨1, ![64]⟩ : Shape).Idx → EReal)
  (w1 : (⟨2, ![64, 128]⟩ : Shape).Idx → EReal) (b1 : (⟨1, ![128]⟩ : Shape).Idx → EReal)
  (w2 : (⟨2, ![128, 64]⟩ : Shape).Idx → EReal) (b2 g2 be2 : (⟨1, ![64]⟩ : Shape).Idx → EReal)

/-- The output projection of the attention output, plus its bias. -/
def attn (n : Fin R) (d : Fin 64) : EReal :=
  (∑ k : Fin 64, hattn (ix2 n k) * wo (ix2 k d)) + bo (ix1 d)

/-- The first residual: the node's features plus the projected attention. -/
def a1 (n : Fin R) (d : Fin 64) : EReal :=
  h (ix2 n d) + attn hattn wo bo n d

/-- The first layer normalisation. -/
def h1 (n : Fin R) (d : Fin 64) : EReal :=
  ln (fun k => a1 hattn h wo bo n k) g1 be1 d

/-- The hidden layer of the feed-forward block: `max(h₁ · w1 + b1, 0)`, the zero on the right. -/
def hid (n : Fin R) (j : Fin 128) : EReal :=
  max ((∑ k : Fin 64, h1 hattn h wo bo g1 be1 n k * w1 (ix2 k j)) + b1 (ix1 j)) zero

/-- The feed-forward block's output: the hidden layer through `w2`, plus its bias. -/
def ffn (n : Fin R) (d : Fin 64) : EReal :=
  (∑ j : Fin 128, hid hattn h wo bo g1 be1 w1 b1 n j * w2 (ix2 j d)) + b2 (ix1 d)

/-- The second residual. -/
def a2 (n : Fin R) (d : Fin 64) : EReal :=
  h1 hattn h wo bo g1 be1 n d + ffn hattn h wo bo g1 be1 w1 b1 w2 b2 n d

/-- THE UPDATED NODE FEATURES: the second layer normalisation. -/
def out (n : Fin R) (d : Fin 64) : EReal :=
  ln (fun k => a2 hattn h wo bo g1 be1 w1 b1 w2 b2 n k) g2 be2 d

end Cert.RNodeSpec

end
-- ==== Proof.LibNormScale.lean ====
import Idealize.ShloMosaic.PureOps.Ideal
import Mathlib.Data.EReal.Operations
import Mathlib.Data.EReal.Inv
import Mathlib.Analysis.SpecialFunctions.Sqrt

/-! # Scaling by a reciprocal square root, over the extended reals

A normalisation layer divides a centred row by the square root of "variance + ε"; a kernel multiplies by the
reciprocal square root of the same number instead.  Over the extended reals the two agree exactly when that number is
positive (`+∞` included): at `0`, at a negative number and at `-∞` the quotient's and the reciprocal root's
conventions differ.  And "mean of squares + ε" IS positive for every extended-real row, finite or not: a square
`x · x` is never negative (`(-∞)·(-∞) = +∞`), a sum of non-negative terms is non-negative, a non-negative number
scaled by a positive real stays non-negative, and adding a positive real makes it positive.  So the two spellings of a
layer norm agree on every input, with no finiteness assumption. -/

namespace Cert.NormScale

open Idealize.ShloMosaic

/-- For `0 < v` (`v = +∞` included) the quotient by `√v` is the product with `1/√v`. -/
theorem div_sqrt_eq_mul_rsqrt (a v : EReal) (hv : 0 < v) : Ideal.div a (Ideal.sqrt v) = a * Ideal.rsqrt v := by
  induction v using EReal.rec with
  | bot => exact absurd hv (by simp)
  | top =>
    rw [Ideal.sqrt_top, Ideal.rsqrt_top, Ideal.div, if_neg (by simp), EReal.inv_top]
  | coe r =>
    have hr : 0 < r := by exact_mod_cast hv
    have hs : Real.sqrt r ≠ 0 := (Real.sqrt_pos.mpr hr).ne'
    rw [Ideal.sqrt_coe, if_neg (not_lt.mpr hr.le), Ideal.rsqrt_coe, if_neg (not_lt.mpr hr.le), if_neg hr.ne',
      Ideal.div, if_neg (by exact_mod_cast hs), EReal.coe_inv]

/-- A square is never negative, at the infinities too. -/
theorem mul_self_nonneg (x : EReal) : 0 ≤ x * x := by
  induction x using EReal.rec with
  | bot => simp [EReal.bot_mul_bot]
  | top => simp [EReal.top_mul_top]
  | coe r => exact_mod_cast _root_.mul_self_nonneg r

/-- A sum of squares is never negative. -/
theorem sum_mul_self_nonneg {ι : Type*} (s : Finset ι) (x : ι → EReal) : 0 ≤ ∑ k ∈ s, x k * x k :=
  Finset.sum_nonneg fun k _ => mul_self_nonneg (x k)

/-- A non-negative extended real divided by a positive real, plus a positive real, is positive. -/
theorem div_add_pos (s : EReal) (n e : ℝ) (hs : 0 ≤ s) (hn : 0 < n) (he : 0 < e) :
    0 < Ideal.div s (n : EReal) + (e : EReal) := by
  rw [Ideal.div_coe hn.ne']
  have h1 : (0 : EReal) ≤ s * ((1 / n : ℝ) : EReal) :=
    EReal.mul_nonneg hs (by exact_mod_cast (one_div_pos.mpr hn).le)
  exact lt_of_lt_of_le (by exact_mod_cast he : (0 : EReal) < (e : EReal)) (le_add_of_nonneg_left h1)

/-- "Mean of squares + ε" is positive, so dividing by its root is multiplying by its reciprocal root. -/
theorem div_sqrt_var_eps {ι : Type*} (s : Finset ι) (x : ι → EReal) (a : EReal) (n e : ℝ) (hn : 0 < n) (he : 0 < e) :
    Ideal.div a (Ideal.sqrt (Ideal.div (∑ k ∈ s, x k * x k) (n : EReal) + (e : EReal)))
      = a * Ideal.rsqrt (Ideal.div (∑ k ∈ s, x k * x k) (n : EReal) + (e : EReal)) :=
  div_sqrt_eq_mul_rsqrt _ _ (div_add_pos _ n e (sum_mul_self_nonneg s x) hn he)

end Cert.NormScale
-- ==== Proof.BridgeNode.lean ====
import proofs.«135486_j17549236371616_1_alg».proof.Proof.KNodeSpec
import proofs.«135486_j17549236371616_1_alg».proof.Proof.RNodeSpec
import proofs.«135486_j17549236371616_1_alg».proof.Proof.LibNormScale
import Idealize.ShloMosaic.PureOps.Ideal.Laws

/-! # The node update: the quotient-by-a-root spelling equals the reciprocal-root spelling

The node update of a graph-attention layer is written twice in this certificate.  One spelling starts every row sum
from the word `0.0`, normalises a row by DIVIDING the centred entry by `√(σ² + 1e-5)`, and takes the attention mean as
a given array.  The other has plain sums, MULTIPLIES the centred entry by `rsqrt(σ² + 1e-5)`, and computes the
attention mean `wV / (Z + 1e-6)` itself.  Over the extended reals the two agree on every input:

* the word `0.0` denotes `0`, and `0 + s = s`; so the two means, and then the two variances, are the same numbers;
* `σ² + 1e-5` is positive for EVERY row, finite or not: a square is never negative, a sum of squares is not, dividing
  by the positive real `64` keeps that, and adding the positive real `1e-5` makes it positive; for a positive `v`
  (`+∞` included) `a / √v = a · rsqrt v`;
* everything else is the same operations applied in the same order to equal arguments, stage by stage:
  projection, residual, normalisation, hidden layer, feed-forward output, residual, normalisation.

Only two float words are evaluated: `64.0` (the real `64`) and `1e-5` (some positive real).  No distributivity is used
anywhere. -/

noncomputable section

namespace Cert.BridgeNode

open Idealize.ShloMosaic Idealize.ShloMosaic.ValueIdx

/-! ## The two words that are evaluated -/

/-- The word `64.0` denotes the real `64`. -/
theorem ofBits_64 : Ideal.ofBits .f32 0x42800000#32 = ((64 : ℝ) : EReal) := by
  simp [Ideal.ofBits, Ideal.ieee, -EReal.coe_mul]; norm_num

/-- The word `1e-5` denotes a positive real (`10995116 · 2⁻⁴⁰`). -/
theorem ofBits_eps5 : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

/-! ## Layer normalisation of one row -/

/-- The mean: the initial word is `0`, and `0 + s = s`. -/
theorem mu_eq (a : Fin 64 → EReal) : Cert.RNodeSpec.mu a = Cert.NodeSpec.mean a := by
  simp only [Cert.RNodeSpec.mu, Cert.NodeSpec.mean, Cert.RNodeSpec.zero, Cert.RNodeSpec.c64, Ideal.ofBits_zero_f32,
    zero_add]

/-- The variance: the same, around the same mean. -/
theorem var_eq (a : Fin 64 → EReal) : Cert.RNodeSpec.var a = Cert.NodeSpec.var a := by
  simp only [Cert.RNodeSpec.var, Cert.NodeSpec.var, Cert.RNodeSpec.zero, Cert.RNodeSpec.c64, Ideal.ofBits_zero_f32,
    zero_add, mu_eq]

/-- "Variance + 1e-5" is positive for every row: a mean of squares is non-negative and `1e-5` is a positive real. -/
theorem var_eps_pos (a : Fin 64 → EReal) : 0 < Cert.NodeSpec.var a + Ideal.ofBits .f32 0x3727C5AC#32 := by
  obtain ⟨r, hr, he⟩ := ofBits_eps5
  rw [he, Cert.NodeSpec.var, ofBits_64]
  exact Cert.NormScale.div_add_pos _ 64 r
    (Cert.NormScale.sum_mul_self_nonneg Finset.univ fun k => a k - Cert.NodeSpec.mean a) (by norm_num) hr

/-- The two layer norms of one row agree: dividing by the root of a positive number is multiplying by its
reciprocal root. -/
theorem ln_eq (a : Fin 64 → EReal) (g b : (⟨1, ![64]⟩ : Shape).Idx → EReal) (d : Fin 64) :
    Cert.RNodeSpec.ln a g b d = Cert.NodeSpec.ln a g b d := by
  simp only [Cert.RNodeSpec.ln, Cert.NodeSpec.ln, Cert.NodeSpec.norm, Cert.RNodeSpec.eps5]
  rw [mu_eq, var_eq, Cert.NormScale.div_sqrt_eq_mul_rsqrt _ _ (var_eps_pos a)]

/-! ## The stages, bottom-up -/

variable {R : ℕ}
  (hattnA h wV Z : (⟨2, ![R, 64]⟩ : Shape).Idx → EReal)
  (wo : (⟨2, ![64, 64]⟩ : Shape).Idx → EReal) (bo g1 be1 : (⟨1, ![64]⟩ : Shape).Idx → EReal)
  (w1 : (⟨2, ![64, 128]⟩ : Shape).Idx → EReal) (b1 : (⟨1, ![128]⟩ : Shape).Idx → EReal)
  (w2 : (⟨2, ![128, 64]⟩ : Shape).Idx → EReal) (b2 g2 be2 : (⟨1, ![64]⟩ : Shape).Idx → EReal)
  (hh : ∀ (n : Fin R) (k : Fin 64), hattnA (ix2 n k) = Cert.NodeSpec.hattn wV Z n k)

include hh

/-- The output projection: the given attention mean is the computed one, entry by entry under the sum. -/
theorem attn_eq (n : Fin R) (d : Fin 64) :
    Cert.RNodeSpec.attn hattnA wo bo n d = Cert.NodeSpec.attn wV Z wo bo n d := by
  simp only [Cert.RNodeSpec.attn, Cert.NodeSpec.attn, hh]

/-- The first residual. -/
theorem a1_eq (n : Fin R) (d : Fin 64) :
    Cert.RNodeSpec.a1 hattnA h wo bo n d = Cert.NodeSpec.a1 h wV Z wo bo n d := by
  simp only [Cert.RNodeSpec.a1, Cert.NodeSpec.a1, attn_eq hattnA wV Z wo bo hh]

/-- The first layer normalisation: equal rows, then the two norms agree. -/
theorem h1_eq (n : Fin R) (d : Fin 64) :
    Cert.RNodeSpec.h1 hattnA h wo bo g1 be1 n d = Cert.NodeSpec.h1 h wV Z wo bo g1 be1 n d := by
  simp only [Cert.RNodeSpec.h1, Cert.NodeSpec.h1, a1_eq hattnA h wV Z wo bo hh, ln_eq]

/-- The hidden layer of the feed-forward block. -/
theorem hid_eq (n : Fin R) (j : Fin 128) :
    Cert.RNodeSpec.hid hattnA h wo bo g1 be1 w1 b1 n j = Cert.NodeSpec.hid h wV Z wo bo g1 be1 w1 b1 n j := by
  simp only [Cert.RNodeSpec.hid, Cert.NodeSpec.hid, Cert.RNodeSpec.zero, h1_eq hattnA h wV Z wo bo g1 be1 hh]

/-- The feed-forward block's output. -/
theorem ffn_eq (n : Fin R) (d : Fin 64) :
    Cert.RNodeSpec.ffn hattnA h wo bo g1 be1 w1 b1 w2 b2 n d
      = Cert.NodeSpec.ffn h wV Z wo bo g1 be1 w1 b1 w2 b2 n d := by
  simp only [Cert.RNodeSpec.ffn, Cert.NodeSpec.ffn, hid_eq hattnA h wV Z wo bo g1 be1 w1 b1 hh]

/-- The second residual. -/
theorem a2_eq (n : Fin R) (d : Fin 64) :
    Cert.RNodeSpec.a2 hattnA h wo bo g1 be1 w1 b1 w2 b2 n d
      = Cert.NodeSpec.a2 h wV Z wo bo g1 be1 w1 b1 w2 b2 n d := by
  simp only [Cert.RNodeSpec.a2, Cert.NodeSpec.a2, h1_eq hattnA h wV Z wo bo g1 be1 hh,
    ffn_eq hattnA h wV Z wo bo g1 be1 w1 b1 w2 b2 hh]

/-- THE UPDATED NODE FEATURES agree: the second layer normalisation of equal rows. -/
theorem out_eq (n : Fin R) (d : Fin 64) :
    Cert.RNodeSpec.out hattnA h wo bo g1 be1 w1 b1 w2 b2 g2 be2 n d
      = Cert.NodeSpec.out h wV Z wo bo g1 be1 w1 b1 w2 b2 g2 be2 n d := by
  simp only [Cert.RNodeSpec.out, Cert.NodeSpec.out, a2_eq hattnA h wV Z wo bo g1 be1 w1 b1 w2 b2 hh, ln_eq]

end Cert.BridgeNode

end
-- ==== Proof.RefLayer.lean ====
import proofs.«135486_j17549236371616_1_alg».proof.Proof.Gen.ReferenceIdeal
import Idealize.ShloMosaic.PureOps.Ideal

/-! # One layer of the reference, stage by stage

The reference's two layers are the same 143 array operations applied to different arrays.  Here each of those
operations is one definition over the bundle `Params` of a layer's eighteen input arrays (node features, edge features,
source and destination indices, the layer's weights), with the operation's own function and dimension records, so
that a stage can be read at an index on its own.  Stage `vK` is the value the first layer's operation writes to its
buffer `main_vK`; the second layer's is the same stage at the second layer's arrays.  The definitions are generic in
the float instance, as the program is; they are read at the extended reals. -/

noncomputable section

namespace Cert.RefLayer

open Cert.ReferenceIdeal Cert.ReferenceIdeal.Gen Idealize.ShloMosaic Idealize.ShloMosaic.TcCoe Idealize.ShloMosaic.StableHlo

variable {F : FTy → Type} [FloatOps F]

/-- A layer's input arrays. -/
structure Params (F : FTy → Type) where
  h : (⟨S50000x64, .f32⟩ : BufTy).Contents (Elt F)
  ea : (⟨S800000x64, .f32⟩ : BufTy).Contents (Elt F)
  src : (⟨S800000, .i32⟩ : BufTy).Contents (Elt F)
  dst : (⟨S800000, .i32⟩ : BufTy).Contents (Elt F)
  wq : (⟨S64x64, .f32⟩ : BufTy).Contents (Elt F)
  wk : (⟨S64x64, .f32⟩ : BufTy).Contents (Elt F)
  we : (⟨S64x64, .f32⟩ : BufTy).Contents (Elt F)
  wv : (⟨S64x64, .f32⟩ : BufTy).Contents (Elt F)
  wo : (⟨S64x64, .f32⟩ : BufTy).Contents (Elt F)
  bo : (⟨S64, .f32⟩ : BufTy).Contents (Elt F)
  g1 : (⟨S64, .f32⟩ : BufTy).Contents (Elt F)
  be1 : (⟨S64, .f32⟩ : BufTy).Contents (Elt F)
  w1 : (⟨S64x128, .f32⟩ : BufTy).Contents (Elt F)
  b1 : (⟨S128, .f32⟩ : BufTy).Contents (Elt F)
  w2 : (⟨S128x64, .f32⟩ : BufTy).Contents (Elt F)
  b2 : (⟨S64, .f32⟩ : BufTy).Contents (Elt F)
  g2 : (⟨S64, .f32⟩ : BufTy).Contents (Elt F)
  be2 : (⟨S64, .f32⟩ : BufTy).Contents (Elt F)

def v32 (p : Params F) := ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) p.h p.wq
def v33 (p : Params F) := shapeCast S50000x4x16 (v32 p) shapeCasts_S50000x64_S50000x4x16
def v34 (p : Params F) := ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) p.h p.wk
def v35 (p : Params F) := shapeCast S50000x4x16 (v34 p) shapeCasts_S50000x64_S50000x4x16
def v36 (p : Params F) := ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) p.h p.wv
def v37 (p : Params F) := shapeCast S50000x4x16 (v36 p) shapeCasts_S50000x64_S50000x4x16
def v38 (p : Params F) := ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)) p.ea p.we
def v39 (p : Params F) := shapeCast S800000x4x16 (v38 p) shapeCasts_S800000x64_S800000x4x16
def c (p : Params F) := ((constantI S_ 32 0#32) : (⟨S_, .i32⟩ : BufTy).Contents (Elt F))
def v40 (p : Params F) := (broadcastInDim S800000 ![] bcast_S_S800000 : (⟨S_, .i32⟩ : BufTy).Contents (Elt F) → (⟨S800000, .i32⟩ : BufTy).Contents (Elt F)) (c p)
def v41 (p : Params F) := (cmpi .slt : (⟨S800000, .i32⟩ : BufTy).Contents (Elt F) → (⟨S800000, .i32⟩ : BufTy).Contents (Elt F) → (⟨S800000, .i1⟩ : BufTy).Contents (Elt F)) p.src (v40 p)
def c_0 (p : Params F) := ((constantI S_ 32 50000#32) : (⟨S_, .i32⟩ : BufTy).Contents (Elt F))
def v42 (p : Params F) := (broadcastInDim S800000 ![] bcast_S_S800000 : (⟨S_, .i32⟩ : BufTy).Contents (Elt F) → (⟨S800000, .i32⟩ : BufTy).Contents (Elt F)) (c_0 p)
def v43 (p : Params F) := (addi : (⟨S800000, .i32⟩ : BufTy).Contents (Elt F) → (⟨S800000, .i32⟩ : BufTy).Contents (Elt F) → (⟨S800000, .i32⟩ : BufTy).Contents (Elt F)) p.src (v42 p)
def v44 (p : Params F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (v41 p) (v43 p) p.src
def v45 (p : Params F) := (broadcastInDim S800000x1 ![0] bcast_S800000_S800000x1_0 : (⟨S800000, .i32⟩ : BufTy).Contents (Elt F) → (⟨S800000x1, .i32⟩ : BufTy).Contents (Elt F)) (v44 p)
def v46 (p : Params F) := ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F)) (v35 p) (v45 p)
def c_1 (p : Params F) := ((constantI S_ 32 0#32) : (⟨S_, .i32⟩ : BufTy).Contents (Elt F))
def v47 (p : Params F) := (broadcastInDim S800000 ![] bcast_S_S800000 : (⟨S_, .i32⟩ : BufTy).Contents (Elt F) → (⟨S800000, .i32⟩ : BufTy).Contents (Elt F)) (c_1 p)
def v48 (p : Params F) := (cmpi .slt : (⟨S800000, .i32⟩ : BufTy).Contents (Elt F) → (⟨S800000, .i32⟩ : BufTy).Contents (Elt F) → (⟨S800000, .i1⟩ : BufTy).Contents (Elt F)) p.dst (v47 p)
def c_2 (p : Params F) := ((constantI S_ 32 50000#32) : (⟨S_, .i32⟩ : BufTy).Contents (Elt F))
def v49 (p : Params F) := (broadcastInDim S800000 ![] bcast_S_S800000 : (⟨S_, .i32⟩ : BufTy).Contents (Elt F) → (⟨S800000, .i32⟩ : BufTy).Contents (Elt F)) (c_2 p)
def v50 (p : Params F) := (addi : (⟨S800000, .i32⟩ : BufTy).Contents (Elt F) → (⟨S800000, .i32⟩ : BufTy).Contents (Elt F) → (⟨S800000, .i32⟩ : BufTy).Contents (Elt F)) p.dst (v49 p)
def v51 (p : Params F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (v48 p) (v50 p) p.dst
def v52 (p : Params F) := (broadcastInDim S800000x1 ![0] bcast_S800000_S800000x1_0 : (⟨S800000, .i32⟩ : BufTy).Contents (Elt F) → (⟨S800000x1, .i32⟩ : BufTy).Contents (Elt F)) (v51 p)
def v53 (p : Params F) := ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F)) (v33 p) (v52 p)
def v54 (p : Params F) := (mulf : (⟨S800000x4x16, .f32⟩ : BufTy).Contents (Elt F) → (⟨S800000x4x16, .f32⟩ : BufTy).Contents (Elt F) → (⟨S800000x4x16, .f32⟩ : BufTy).Contents (Elt F)) (v46 p) (v53 p)
def v55 (p : Params F) := (mulf : (⟨S800000x4x16, .f32⟩ : BufTy).Contents (Elt F) → (⟨S800000x4x16, .f32⟩ : BufTy).Contents (Elt F) → (⟨S800000x4x16, .f32⟩ : BufTy).Contents (Elt F)) (v54 p) (v39 p)
def cst (p : Params F) := ((constant S_ .f32 0x00000000#32) : (⟨S_, .f32⟩ : BufTy).Contents (Elt F))
def v56 (p : Params F) := ((fun x v => Host.reduceAdd x v reducesTo_S800000x4x16_S800000x4_d2 h_S_) : (⟨S800000x4x16, .f32⟩ : BufTy).Contents (Elt F) → (⟨S_, .f32⟩ : BufTy).Contents (Elt F) → (⟨S800000x4, .f32⟩ : BufTy).Contents (Elt F)) (v55 p) (cst p)
def v57 (p : Params F) := (broadcastInDim S800000x4x1 ![0, 1] bcast_S800000x4_S800000x4x1_0_1 : (⟨S800000x4, .f32⟩ : BufTy).Contents (Elt F) → (⟨S800000x4x1, .f32⟩ : BufTy).Contents (Elt F)) (v56 p)
def cst_3 (p : Params F) := ((constant S_ .f32 0x40800000#32) : (⟨S_, .f32⟩ : BufTy).Contents (Elt F))
def v58 (p : Params F) := (broadcastInDim S800000x4x1 ![] bcast_S_S800000x4x1 : (⟨S_, .f32⟩ : BufTy).Contents (Elt F) → (⟨S800000x4x1, .f32⟩ : BufTy).Contents (Elt F)) (cst_3 p)
def v59 (p : Params F) := (Host.divf : (⟨S800000x4x1, .f32⟩ : BufTy).Contents (Elt F) → (⟨S800000x4x1, .f32⟩ : BufTy).Contents (Elt F) → (⟨S800000x4x1, .f32⟩ : BufTy).Contents (Elt F)) (v57 p) (v58 p)
def cst_4 (p : Params F) := ((constant S_ .f32 0xC0A00000#32) : (⟨S_, .f32⟩ : BufTy).Contents (Elt F))
def cst_5 (p : Params F) := ((constant S_ .f32 0x40A00000#32) : (⟨S_, .f32⟩ : BufTy).Contents (Elt F))
def call0_v0 (p : Params F) : (⟨S_, .f32⟩ : BufTy).Contents (Elt F) := id (cst_4 p)
def call0_v1 (p : Params F) : (⟨S800000x4x1, .f32⟩ : BufTy).Contents (Elt F) := (broadcastInDim S800000x4x1 ![] bcast_S_S800000x4x1) (call0_v0 p)
def call0_v2 (p : Params F) : (⟨S800000x4x1, .f32⟩ : BufTy).Contents (Elt F) := (maximumf : (⟨S800000x4x1, .f32⟩ : BufTy).Contents (Elt F) → (⟨S800000x4x1, .f32⟩ : BufTy).Contents (Elt F) → (⟨S800000x4x1, .f32⟩ : BufTy).Contents (Elt F)) (call0_v1 p) (v59 p)
def call0_v3 (p : Params F) : (⟨S_, .f32⟩ : BufTy).Contents (Elt F) := id (cst_5 p)
def call0_v4 (p : Params F) : (⟨S800000x4x1, .f32⟩ : BufTy).Contents (Elt F) := (broadcastInDim S800000x4x1 ![] bcast_S_S800000x4x1) (call0_v3 p)
def v60 (p : Params F) : (⟨S800000x4x1, .f32⟩ : BufTy).Contents (Elt F) := (minimumf : (⟨S800000x4x1, .f32⟩ : BufTy).Contents (Elt F) → (⟨S800000x4x1, .f32⟩ : BufTy).Contents (Elt F) → (⟨S800000x4x1, .f32⟩ : BufTy).Contents (Elt F)) (call0_v4 p) (call0_v2 p)
def v61 (p : Params F) := (Host.exp : (⟨S800000x4x1, .f32⟩ : BufTy).Contents (Elt F) → (⟨S800000x4x1, .f32⟩ : BufTy).Contents (Elt F)) (v60 p)
def c_6 (p : Params F) := ((constantI S_ 32 0#32) : (⟨S_, .i32⟩ : BufTy).Contents (Elt F))
def v62 (p : Params F) := (broadcastInDim S800000 ![] bcast_S_S800000 : (⟨S_, .i32⟩ : BufTy).Contents (Elt F) → (⟨S800000, .i32⟩ : BufTy).Contents (Elt F)) (c_6 p)
def v63 (p : Params F) := (cmpi .slt : (⟨S800000, .i32⟩ : BufTy).Contents (Elt F) → (⟨S800000, .i32⟩ : BufTy).Contents (Elt F) → (⟨S800000, .i1⟩ : BufTy).Contents (Elt F)) p.src (v62 p)
def c_7 (p : Params F) := ((constantI S_ 32 50000#32) : (⟨S_, .i32⟩ : BufTy).Contents (Elt F))
def v64 (p : Params F) := (broadcastInDim S800000 ![] bcast_S_S800000 : (⟨S_, .i32⟩ : BufTy).Contents (Elt F) → (⟨S800000, .i32⟩ : BufTy).Contents (Elt F)) (c_7 p)
def v65 (p : Params F) := (addi : (⟨S800000, .i32⟩ : BufTy).Contents (Elt F) → (⟨S800000, .i32⟩ : BufTy).Contents (Elt F) → (⟨S800000, .i32⟩ : BufTy).Contents (Elt F)) p.src (v64 p)
def v66 (p : Params F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (v63 p) (v65 p) p.src
def v67 (p : Params F) := (broadcastInDim S800000x1 ![0] bcast_S800000_S800000x1_0 : (⟨S800000, .i32⟩ : BufTy).Contents (Elt F) → (⟨S800000x1, .i32⟩ : BufTy).Contents (Elt F)) (v66 p)
def v68 (p : Params F) := ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F)) (v37 p) (v67 p)
def v69 (p : Params F) := (broadcastInDim S800000x4x16 ![0, 1, 2] bcast_S800000x4x1_S800000x4x16_0_1_2 : (⟨S800000x4x1, .f32⟩ : BufTy).Contents (Elt F) → (⟨S800000x4x16, .f32⟩ : BufTy).Contents (Elt F)) (v61 p)
def v70 (p : Params F) := (mulf : (⟨S800000x4x16, .f32⟩ : BufTy).Contents (Elt F) → (⟨S800000x4x16, .f32⟩ : BufTy).Contents (Elt F) → (⟨S800000x4x16, .f32⟩ : BufTy).Contents (Elt F)) (v68 p) (v69 p)
def cst_8 (p : Params F) := ((constant S_ .f32 0x00000000#32) : (⟨S_, .f32⟩ : BufTy).Contents (Elt F))
def v71 (p : Params F) := (broadcastInDim S50000x4x16 ![] bcast_S_S50000x4x16 : (⟨S_, .f32⟩ : BufTy).Contents (Elt F) → (⟨S50000x4x16, .f32⟩ : BufTy).Contents (Elt F)) (cst_8 p)
def v72 (p : Params F) := (broadcastInDim S800000x1 ![0] bcast_S800000_S800000x1_0 : (⟨S800000, .i32⟩ : BufTy).Contents (Elt F) → (⟨S800000x1, .i32⟩ : BufTy).Contents (Elt F)) p.dst
def v73 (p : Params F) := ((fun x i u => Host.scatterAdd scatter_S50000x4x16_S800000x1_S800000x4x16_12_0_0_1 x i u) : (⟨S50000x4x16, .f32⟩ : BufTy).Contents (Elt F) → (⟨S800000x1, .i32⟩ : BufTy).Contents (Elt F) → (⟨S800000x4x16, .f32⟩ : BufTy).Contents (Elt F) → (⟨S50000x4x16, .f32⟩ : BufTy).Contents (Elt F)) (v71 p) (v72 p) (v70 p)
def cst_9 (p : Params F) := ((constant S_ .f32 0x00000000#32) : (⟨S_, .f32⟩ : BufTy).Contents (Elt F))
def v74 (p : Params F) := (broadcastInDim S50000x4x1 ![] bcast_S_S50000x4x1 : (⟨S_, .f32⟩ : BufTy).Contents (Elt F) → (⟨S50000x4x1, .f32⟩ : BufTy).Contents (Elt F)) (cst_9 p)
def v75 (p : Params F) := (broadcastInDim S800000x1 ![0] bcast_S800000_S800000x1_0 : (⟨S800000, .i32⟩ : BufTy).Contents (Elt F) → (⟨S800000x1, .i32⟩ : BufTy).Contents (Elt F)) p.dst
def v76 (p : Params F) := ((fun x i u => Host.scatterAdd scatter_S50000x4x1_S800000x1_S800000x4x1_12_0_0_1 x i u) : (⟨S50000x4x1, .f32⟩ : BufTy).Contents (Elt F) → (⟨S800000x1, .i32⟩ : BufTy).Contents (Elt F) → (⟨S800000x4x1, .f32⟩ : BufTy).Contents (Elt F) → (⟨S50000x4x1, .f32⟩ : BufTy).Contents (Elt F)) (v74 p) (v75 p) (v61 p)
def cst_10 (p : Params F) := ((constant S_ .f32 0x358637BD#32) : (⟨S_, .f32⟩ : BufTy).Contents (Elt F))
def v77 (p : Params F) := (broadcastInDim S50000x4x1 ![] bcast_S_S50000x4x1 : (⟨S_, .f32⟩ : BufTy).Contents (Elt F) → (⟨S50000x4x1, .f32⟩ : BufTy).Contents (Elt F)) (cst_10 p)
def v78 (p : Params F) := (addf : (⟨S50000x4x1, .f32⟩ : BufTy).Contents (Elt F) → (⟨S50000x4x1, .f32⟩ : BufTy).Contents (Elt F) → (⟨S50000x4x1, .f32⟩ : BufTy).Contents (Elt F)) (v76 p) (v77 p)
def v79 (p : Params F) := (broadcastInDim S50000x4x16 ![0, 1, 2] bcast_S50000x4x1_S50000x4x16_0_1_2 : (⟨S50000x4x1, .f32⟩ : BufTy).Contents (Elt F) → (⟨S50000x4x16, .f32⟩ : BufTy).Contents (Elt F)) (v78 p)
def v80 (p : Params F) := (Host.divf : (⟨S50000x4x16, .f32⟩ : BufTy).Contents (Elt F) → (⟨S50000x4x16, .f32⟩ : BufTy).Contents (Elt F) → (⟨S50000x4x16, .f32⟩ : BufTy).Contents (Elt F)) (v73 p) (v79 p)
def v81 (p : Params F) := shapeCast S50000x64 (v80 p) shapeCasts_S50000x4x16_S50000x64
def v82 (p : Params F) := ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (v81 p) p.wo
def v83 (p : Params F) := (broadcastInDim S1x64 ![1] bcast_S64_S1x64_1 : (⟨S64, .f32⟩ : BufTy).Contents (Elt F) → (⟨S1x64, .f32⟩ : BufTy).Contents (Elt F)) p.bo
def v84 (p : Params F) := (broadcastInDim S50000x64 ![0, 1] bcast_S1x64_S50000x64_0_1 : (⟨S1x64, .f32⟩ : BufTy).Contents (Elt F) → (⟨S50000x64, .f32⟩ : BufTy).Contents (Elt F)) (v83 p)
def v85 (p : Params F) := (addf : (⟨S50000x64, .f32⟩ : BufTy).Contents (Elt F) → (⟨S50000x64, .f32⟩ : BufTy).Contents (Elt F) → (⟨S50000x64, .f32⟩ : BufTy).Contents (Elt F)) (v82 p) (v84 p)
def v86 (p : Params F) := (addf : (⟨S50000x64, .f32⟩ : BufTy).Contents (Elt F) → (⟨S50000x64, .f32⟩ : BufTy).Contents (Elt F) → (⟨S50000x64, .f32⟩ : BufTy).Contents (Elt F)) p.h (v85 p)
def cst_11 (p : Params F) := ((constant S_ .f32 0x00000000#32) : (⟨S_, .f32⟩ : BufTy).Contents (Elt F))
def v87 (p : Params F) := ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (v86 p) (cst_11 p)
def v88 (p : Params F) := (broadcastInDim S50000x1 ![0] bcast_S50000_S50000x1_0 : (⟨S50000, .f32⟩ : BufTy).Contents (Elt F) → (⟨S50000x1, .f32⟩ : BufTy).Contents (Elt F)) (v87 p)
def cst_12 (p : Params F) := ((constant S_ .f32 0x42800000#32) : (⟨S_, .f32⟩ : BufTy).Contents (Elt F))
def v89 (p : Params F) := (broadcastInDim S50000x1 ![] bcast_S_S50000x1 : (⟨S_, .f32⟩ : BufTy).Contents (Elt F) → (⟨S50000x1, .f32⟩ : BufTy).Contents (Elt F)) (cst_12 p)
def v90 (p : Params F) := (Host.divf : (⟨S50000x1, .f32⟩ : BufTy).Contents (Elt F) → (⟨S50000x1, .f32⟩ : BufTy).Contents (Elt F) → (⟨S50000x1, .f32⟩ : BufTy).Contents (Elt F)) (v88 p) (v89 p)
def v91 (p : Params F) := (broadcastInDim S50000x64 ![0, 1] bcast_S50000x1_S50000x64_0_1 : (⟨S50000x1, .f32⟩ : BufTy).Contents (Elt F) → (⟨S50000x64, .f32⟩ : BufTy).Contents (Elt F)) (v90 p)
def v92 (p : Params F) := (subf : (⟨S50000x64, .f32⟩ : BufTy).Contents (Elt F) → (⟨S50000x64, .f32⟩ : BufTy).Contents (Elt F) → (⟨S50000x64, .f32⟩ : BufTy).Contents (Elt F)) (v86 p) (v91 p)
def v93 (p : Params F) := (mulf : (⟨S50000x64, .f32⟩ : BufTy).Contents (Elt F) → (⟨S50000x64, .f32⟩ : BufTy).Contents (Elt F) → (⟨S50000x64, .f32⟩ : BufTy).Contents (Elt F)) (v92 p) (v92 p)
def cst_13 (p : Params F) := ((constant S_ .f32 0x00000000#32) : (⟨S_, .f32⟩ : BufTy).Contents (Elt F))
def v94 (p : Params F) := ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (v93 p) (cst_13 p)
def v95 (p : Params F) := (broadcastInDim S50000x1 ![0] bcast_S50000_S50000x1_0 : (⟨S50000, .f32⟩ : BufTy).Contents (Elt F) → (⟨S50000x1, .f32⟩ : BufTy).Contents (Elt F)) (v94 p)
def cst_14 (p : Params F) := ((constant S_ .f32 0x42800000#32) : (⟨S_, .f32⟩ : BufTy).Contents (Elt F))
def v96 (p : Params F) := (broadcastInDim S50000x1 ![] bcast_S_S50000x1 : (⟨S_, .f32⟩ : BufTy).Contents (Elt F) → (⟨S50000x1, .f32⟩ : BufTy).Contents (Elt F)) (cst_14 p)
def v97 (p : Params F) := (Host.divf : (⟨S50000x1, .f32⟩ : BufTy).Contents (Elt F) → (⟨S50000x1, .f32⟩ : BufTy).Contents (Elt F) → (⟨S50000x1, .f32⟩ : BufTy).Contents (Elt F)) (v95 p) (v96 p)
def v98 (p : Params F) := (broadcastInDim S50000x64 ![0, 1] bcast_S50000x1_S50000x64_0_1 : (⟨S50000x1, .f32⟩ : BufTy).Contents (Elt F) → (⟨S50000x64, .f32⟩ : BufTy).Contents (Elt F)) (v90 p)
def v99 (p : Params F) := (subf : (⟨S50000x64, .f32⟩ : BufTy).Contents (Elt F) → (⟨S50000x64, .f32⟩ : BufTy).Contents (Elt F) → (⟨S50000x64, .f32⟩ : BufTy).Contents (Elt F)) (v86 p) (v98 p)
def cst_15 (p : Params F) := ((constant S_ .f32 0x3727C5AC#32) : (⟨S_, .f32⟩ : BufTy).Contents (Elt F))
def v100 (p : Params F) := (broadcastInDim S50000x1 ![] bcast_S_S50000x1 : (⟨S_, .f32⟩ : BufTy).Contents (Elt F) → (⟨S50000x1, .f32⟩ : BufTy).Contents (Elt F)) (cst_15 p)
def v101 (p : Params F) := (addf : (⟨S50000x1, .f32⟩ : BufTy).Contents (Elt F) → (⟨S50000x1, .f32⟩ : BufTy).Contents (Elt F) → (⟨S50000x1, .f32⟩ : BufTy).Contents (Elt F)) (v97 p) (v100 p)
def v102 (p : Params F) := (Host.sqrt : (⟨S50000x1, .f32⟩ : BufTy).Contents (Elt F) → (⟨S50000x1, .f32⟩ : BufTy).Contents (Elt F)) (v101 p)
def v103 (p : Params F) := (broadcastInDim S50000x64 ![0, 1] bcast_S50000x1_S50000x64_0_1 : (⟨S50000x1, .f32⟩ : BufTy).Contents (Elt F) → (⟨S50000x64, .f32⟩ : BufTy).Contents (Elt F)) (v102 p)
def v104 (p : Params F) := (Host.divf : (⟨S50000x64, .f32⟩ : BufTy).Contents (Elt F) → (⟨S50000x64, .f32⟩ : BufTy).Contents (Elt F) → (⟨S50000x64, .f32⟩ : BufTy).Contents (Elt F)) (v99 p) (v103 p)
def v105 (p : Params F) := (broadcastInDim S1x64 ![1] bcast_S64_S1x64_1 : (⟨S64, .f32⟩ : BufTy).Contents (Elt F) → (⟨S1x64, .f32⟩ : BufTy).Contents (Elt F)) p.g1
def v106 (p : Params F) := (broadcastInDim S50000x64 ![0, 1] bcast_S1x64_S50000x64_0_1 : (⟨S1x64, .f32⟩ : BufTy).Contents (Elt F) → (⟨S50000x64, .f32⟩ : BufTy).Contents (Elt F)) (v105 p)
def v107 (p : Params F) := (mulf : (⟨S50000x64, .f32⟩ : BufTy).Contents (Elt F) → (⟨S50000x64, .f32⟩ : BufTy).Contents (Elt F) → (⟨S50000x64, .f32⟩ : BufTy).Contents (Elt F)) (v104 p) (v106 p)
def v108 (p : Params F) := (broadcastInDim S1x64 ![1] bcast_S64_S1x64_1 : (⟨S64, .f32⟩ : BufTy).Contents (Elt F) → (⟨S1x64, .f32⟩ : BufTy).Contents (Elt F)) p.be1
def v109 (p : Params F) := (broadcastInDim S50000x64 ![0, 1] bcast_S1x64_S50000x64_0_1 : (⟨S1x64, .f32⟩ : BufTy).Contents (Elt F) → (⟨S50000x64, .f32⟩ : BufTy).Contents (Elt F)) (v108 p)
def v110 (p : Params F) := (addf : (⟨S50000x64, .f32⟩ : BufTy).Contents (Elt F) → (⟨S50000x64, .f32⟩ : BufTy).Contents (Elt F) → (⟨S50000x64, .f32⟩ : BufTy).Contents (Elt F)) (v107 p) (v109 p)
def v111 (p : Params F) := ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)) (v110 p) p.w1
def v112 (p : Params F) := (broadcastInDim S1x128 ![1] bcast_S128_S1x128_1 : (⟨S128, .f32⟩ : BufTy).Contents (Elt F) → (⟨S1x128, .f32⟩ : BufTy).Contents (Elt F)) p.b1
def v113 (p : Params F) := (broadcastInDim S50000x128 ![0, 1] bcast_S1x128_S50000x128_0_1 : (⟨S1x128, .f32⟩ : BufTy).Contents (Elt F) → (⟨S50000x128, .f32⟩ : BufTy).Contents (Elt F)) (v112 p)
def v114 (p : Params F) := (addf : (⟨S50000x128, .f32⟩ : BufTy).Contents (Elt F) → (⟨S50000x128, .f32⟩ : BufTy).Contents (Elt F) → (⟨S50000x128, .f32⟩ : BufTy).Contents (Elt F)) (v111 p) (v113 p)
def call1_cst (p : Params F) := ((constant S_ .f32 0x00000000#32) : (⟨S_, .f32⟩ : BufTy).Contents (Elt F))
def call1_v0 (p : Params F) : (⟨S50000x128, .f32⟩ : BufTy).Contents (Elt F) := (broadcastInDim S50000x128 ![] bcast_S_S50000x128) (call1_cst p)
def v115 (p : Params F) : (⟨S50000x128, .f32⟩ : BufTy).Contents (Elt F) := (maximumf : (⟨S50000x128, .f32⟩ : BufTy).Contents (Elt F) → (⟨S50000x128, .f32⟩ : BufTy).Contents (Elt F) → (⟨S50000x128, .f32⟩ : BufTy).Contents (Elt F)) (v114 p) (call1_v0 p)
def v116 (p : Params F) := ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) (v115 p) p.w2
def v117 (p : Params F) := (broadcastInDim S1x64 ![1] bcast_S64_S1x64_1 : (⟨S64, .f32⟩ : BufTy).Contents (Elt F) → (⟨S1x64, .f32⟩ : BufTy).Contents (Elt F)) p.b2
def v118 (p : Params F) := (broadcastInDim S50000x64 ![0, 1] bcast_S1x64_S50000x64_0_1 : (⟨S1x64, .f32⟩ : BufTy).Contents (Elt F) → (⟨S50000x64, .f32⟩ : BufTy).Contents (Elt F)) (v117 p)
def v119 (p : Params F) := (addf : (⟨S50000x64, .f32⟩ : BufTy).Contents (Elt F) → (⟨S50000x64, .f32⟩ : BufTy).Contents (Elt F) → (⟨S50000x64, .f32⟩ : BufTy).Contents (Elt F)) (v116 p) (v118 p)
def v120 (p : Params F) := (addf : (⟨S50000x64, .f32⟩ : BufTy).Contents (Elt F) → (⟨S50000x64, .f32⟩ : BufTy).Contents (Elt F) → (⟨S50000x64, .f32⟩ : BufTy).Contents (Elt F)) (v110 p) (v119 p)
def cst_16 (p : Params F) := ((constant S_ .f32 0x00000000#32) : (⟨S_, .f32⟩ : BufTy).Contents (Elt F))
def v121 (p : Params F) := ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (v120 p) (cst_16 p)
def v122 (p : Params F) := (broadcastInDim S50000x1 ![0] bcast_S50000_S50000x1_0 : (⟨S50000, .f32⟩ : BufTy).Contents (Elt F) → (⟨S50000x1, .f32⟩ : BufTy).Contents (Elt F)) (v121 p)
def cst_17 (p : Params F) := ((constant S_ .f32 0x42800000#32) : (⟨S_, .f32⟩ : BufTy).Contents (Elt F))
def v123 (p : Params F) := (broadcastInDim S50000x1 ![] bcast_S_S50000x1 : (⟨S_, .f32⟩ : BufTy).Contents (Elt F) → (⟨S50000x1, .f32⟩ : BufTy).Contents (Elt F)) (cst_17 p)
def v124 (p : Params F) := (Host.divf : (⟨S50000x1, .f32⟩ : BufTy).Contents (Elt F) → (⟨S50000x1, .f32⟩ : BufTy).Contents (Elt F) → (⟨S50000x1, .f32⟩ : BufTy).Contents (Elt F)) (v122 p) (v123 p)
def v125 (p : Params F) := (broadcastInDim S50000x64 ![0, 1] bcast_S50000x1_S50000x64_0_1 : (⟨S50000x1, .f32⟩ : BufTy).Contents (Elt F) → (⟨S50000x64, .f32⟩ : BufTy).Contents (Elt F)) (v124 p)
def v126 (p : Params F) := (subf : (⟨S50000x64, .f32⟩ : BufTy).Contents (Elt F) → (⟨S50000x64, .f32⟩ : BufTy).Contents (Elt F) → (⟨S50000x64, .f32⟩ : BufTy).Contents (Elt F)) (v120 p) (v125 p)
def v127 (p : Params F) := (mulf : (⟨S50000x64, .f32⟩ : BufTy).Contents (Elt F) → (⟨S50000x64, .f32⟩ : BufTy).Contents (Elt F) → (⟨S50000x64, .f32⟩ : BufTy).Contents (Elt F)) (v126 p) (v126 p)
def cst_18 (p : Params F) := ((constant S_ .f32 0x00000000#32) : (⟨S_, .f32⟩ : BufTy).Contents (Elt F))
def v128 (p : Params F) := ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (v127 p) (cst_18 p)
def v129 (p : Params F) := (broadcastInDim S50000x1 ![0] bcast_S50000_S50000x1_0 : (⟨S50000, .f32⟩ : BufTy).Contents (Elt F) → (⟨S50000x1, .f32⟩ : BufTy).Contents (Elt F)) (v128 p)
def cst_19 (p : Params F) := ((constant S_ .f32 0x42800000#32) : (⟨S_, .f32⟩ : BufTy).Contents (Elt F))
def v130 (p : Params F) := (broadcastInDim S50000x1 ![] bcast_S_S50000x1 : (⟨S_, .f32⟩ : BufTy).Contents (Elt F) → (⟨S50000x1, .f32⟩ : BufTy).Contents (Elt F)) (cst_19 p)
def v131 (p : Params F) := (Host.divf : (⟨S50000x1, .f32⟩ : BufTy).Contents (Elt F) → (⟨S50000x1, .f32⟩ : BufTy).Contents (Elt F) → (⟨S50000x1, .f32⟩ : BufTy).Contents (Elt F)) (v129 p) (v130 p)
def v132 (p : Params F) := (broadcastInDim S50000x64 ![0, 1] bcast_S50000x1_S50000x64_0_1 : (⟨S50000x1, .f32⟩ : BufTy).Contents (Elt F) → (⟨S50000x64, .f32⟩ : BufTy).Contents (Elt F)) (v124 p)
def v133 (p : Params F) := (subf : (⟨S50000x64, .f32⟩ : BufTy).Contents (Elt F) → (⟨S50000x64, .f32⟩ : BufTy).Contents (Elt F) → (⟨S50000x64, .f32⟩ : BufTy).Contents (Elt F)) (v120 p) (v132 p)
def cst_20 (p : Params F) := ((constant S_ .f32 0x3727C5AC#32) : (⟨S_, .f32⟩ : BufTy).Contents (Elt F))
def v134 (p : Params F) := (broadcastInDim S50000x1 ![] bcast_S_S50000x1 : (⟨S_, .f32⟩ : BufTy).Contents (Elt F) → (⟨S50000x1, .f32⟩ : BufTy).Contents (Elt F)) (cst_20 p)
def v135 (p : Params F) := (addf : (⟨S50000x1, .f32⟩ : BufTy).Contents (Elt F) → (⟨S50000x1, .f32⟩ : BufTy).Contents (Elt F) → (⟨S50000x1, .f32⟩ : BufTy).Contents (Elt F)) (v131 p) (v134 p)
def v136 (p : Params F) := (Host.sqrt : (⟨S50000x1, .f32⟩ : BufTy).Contents (Elt F) → (⟨S50000x1, .f32⟩ : BufTy).Contents (Elt F)) (v135 p)
def v137 (p : Params F) := (broadcastInDim S50000x64 ![0, 1] bcast_S50000x1_S50000x64_0_1 : (⟨S50000x1, .f32⟩ : BufTy).Contents (Elt F) → (⟨S50000x64, .f32⟩ : BufTy).Contents (Elt F)) (v136 p)
def v138 (p : Params F) := (Host.divf : (⟨S50000x64, .f32⟩ : BufTy).Contents (Elt F) → (⟨S50000x64, .f32⟩ : BufTy).Contents (Elt F) → (⟨S50000x64, .f32⟩ : BufTy).Contents (Elt F)) (v133 p) (v137 p)
def v139 (p : Params F) := (broadcastInDim S1x64 ![1] bcast_S64_S1x64_1 : (⟨S64, .f32⟩ : BufTy).Contents (Elt F) → (⟨S1x64, .f32⟩ : BufTy).Contents (Elt F)) p.g2
def v140 (p : Params F) := (broadcastInDim S50000x64 ![0, 1] bcast_S1x64_S50000x64_0_1 : (⟨S1x64, .f32⟩ : BufTy).Contents (Elt F) → (⟨S50000x64, .f32⟩ : BufTy).Contents (Elt F)) (v139 p)
def v141 (p : Params F) := (mulf : (⟨S50000x64, .f32⟩ : BufTy).Contents (Elt F) → (⟨S50000x64, .f32⟩ : BufTy).Contents (Elt F) → (⟨S50000x64, .f32⟩ : BufTy).Contents (Elt F)) (v138 p) (v140 p)
def v142 (p : Params F) := (broadcastInDim S1x64 ![1] bcast_S64_S1x64_1 : (⟨S64, .f32⟩ : BufTy).Contents (Elt F) → (⟨S1x64, .f32⟩ : BufTy).Contents (Elt F)) p.be2
def v143 (p : Params F) := (broadcastInDim S50000x64 ![0, 1] bcast_S1x64_S50000x64_0_1 : (⟨S1x64, .f32⟩ : BufTy).Contents (Elt F) → (⟨S50000x64, .f32⟩ : BufTy).Contents (Elt F)) (v142 p)
def v144 (p : Params F) := (addf : (⟨S50000x64, .f32⟩ : BufTy).Contents (Elt F) → (⟨S50000x64, .f32⟩ : BufTy).Contents (Elt F) → (⟨S50000x64, .f32⟩ : BufTy).Contents (Elt F)) (v141 p) (v143 p)

end Cert.RefLayer

end
-- ==== Proof.LibRowGather.lean ====
/-
  A row gather read at an index.

  What `x[idx]` of a matrix `x : [N, C]` at an index column `idx : [R, 1]` lowers to: `stablehlo.gather` with
  offset_dims `[1]`, collapsed_slice_dims `[0]`, start_index_map `[0]`, index_vector_dim 1, slice_sizes `[1, C]` and no
  batching axes; the result has shape `[R, C]`. Result element `(r, c)` is `x` at the row "`idx[r, 0]` read as a signed
  integer and clamped into `[0, N − 1]`" and the column `c`: on operand axis 0 (in the start index map, collapsed) the
  operand index is the clamped start alone, on operand axis 1 (not in the start index map, so its start is 0; the one
  offset axis) it is the result's second coordinate.
-/
import Idealize.ShloMosaic.PureOps.ShapeOps
import Idealize.ShloMosaic.Lib.ValueIdx

namespace Idealize.ShloMosaic.RowGather

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`, for the record `rowDims`: the operand at row `idx[r, 0]`, read signed and clamped
    into `[0, N − 1]`, and column `c`. -/
theorem rowDims_gather_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r ⟨0, Nat.one_pos⟩)).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    have hst : (rowDims N C R wf).start (ix2 r c) idx 1 = 0 := by
      unfold GatherDims.start
      rw [dif_neg (show ¬ (1 : Fin 2) ∈ (rowDims N C R wf).startIndexMap from
        (by decide : (1 : Fin 2) ∉ ([0] : List (Fin 2))))]
    have hk : (1 : Fin 2) ∈ (rowDims N C R wf).sKept :=
      (GatherDims.mem_sKept _ _).mpr ⟨(by decide : (1 : Fin 2) ∉ ([0] : List (Fin 2))), List.not_mem_nil⟩
    rw [hst, GatherDims.batchCoord_eq_zero _ _ _ List.not_mem_nil]
    simp only [Nat.zero_add]
    unfold GatherDims.offCoord
    rw [dif_pos hk]
    rfl

/-- THE ROW GATHER READ AT `(r, c)`, for any record with the row gather's dimension numbers: the operand at row
    `idx[r, 0]`, read signed and clamped into `[0, N − 1]`, and column `c`. -/
theorem rowGather_apply {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 ⟨min (idx (ix2 r ⟨0, Nat.one_pos⟩)).toInt.toNat (N - 1), by omega⟩ c) := by
  obtain ⟨od, cd, ob, sb, sm, iv, ss, wf⟩ := d
  simp only at h1 h2 h3 h4 h5 h6 h7
  subst h1 h2 h3 h4 h5 h6 h7
  exact rowDims_gather_apply hN wf x idx r c

end Idealize.ShloMosaic.RowGather
-- ==== Proof.LayerSpec.lean ====
import proofs.«135486_j17549236371616_1_alg».proof.Proof.KAttnSpec
import proofs.«135486_j17549236371616_1_alg».proof.Proof.LibRowGather
import proofs.«135486_j17549236371616_1_alg».proof.Proof.LibRowScatter

/-! # One layer as one function of its arrays

A layer takes the node features `h`, the edge features, the three index columns (source wrapped, destination
wrapped, destination plain) and the layer's fourteen weight arrays to the updated node features: the node-update
stage applied to `h`, the segment sum of the messages and the segment sum of the spread scores.  Both programs are
brought to this one function, applied twice.  Beside it: the host's row gather and accumulating row scatter, read at
every index, are the two array functions `rows` and `seg` the layer is written with. -/

open scoped BigOperators

noncomputable section

namespace Cert.Layer

open Idealize.ShloMosaic Idealize.ShloMosaic.ValueIdx

/-- THE LAYER. -/
def layer (h : (⟨2, ![50000, 64]⟩ : Shape).Idx → EReal) (ea : (⟨2, ![800000, 64]⟩ : Shape).Idx → EReal)
    (srcC dstWC dstC : IVec ⟨2, ![800000, 1]⟩ 32) (wq wk we wv wo : (⟨2, ![64, 64]⟩ : Shape).Idx → EReal)
    (bo g1 be1 : (⟨1, ![64]⟩ : Shape).Idx → EReal) (w1 : (⟨2, ![64, 128]⟩ : Shape).Idx → EReal)
    (b1 : (⟨1, ![128]⟩ : Shape).Idx → EReal) (w2 : (⟨2, ![128, 64]⟩ : Shape).Idx → EReal)
    (b2 g2 be2 : (⟨1, ![64]⟩ : Shape).Idx → EReal) : (⟨2, ![50000, 64]⟩ : Shape).Idx → EReal :=
  Cert.NodeSpec.outArr (R := 50000) h
    (Cert.KAttn.seg (Cert.KAttn.msgs h ea srcC dstWC wq wk we wv Cert.KAttn.onehot Cert.KAttn.onehotT) dstC)
    (Cert.KAttn.seg (Cert.KAttn.scores h ea srcC dstWC wq wk we Cert.KAttn.onehot Cert.KAttn.onehotT) dstC)
    wo bo g1 be1 w1 b1 w2 b2 g2 be2

/-- The host's row gather of a 50000-row table at an `[800000, 1]` column is `rows`. -/
theorem gather_eq_rows (d : GatherDims ⟨2, ![50000, 64]⟩ ⟨2, ![800000, 1]⟩ ⟨2, ![800000, 64]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 64])
    (tbl : (⟨2, ![50000, 64]⟩ : Shape).Idx → EReal) (c : IVec ⟨2, ![800000, 1]⟩ 32) :
    Host.gather d tbl c = Cert.KAttn.rows tbl c := by
  funext i
  obtain ⟨p, q, rfl⟩ : ∃ (p : Fin 800000) (q : Fin 64), i = ix2 p q := ⟨i 0, i 1, eq_ix2 i⟩
  rw [Idealize.ShloMosaic.RowGather.rowGather_apply (by decide) d h1 h2 h3 h4 h5 h6 h7 tbl c p q]
  rfl

/-- The host's accumulating row scatter into an all-zero `[50000, 64]` array is `seg`. -/
theorem scatter_eq_seg (d : ScatterDims ⟨2, ![50000, 64]⟩ ⟨2, ![800000, 1]⟩ ⟨2, ![800000, 64]⟩)
    (h1 : d.updateWindowDims = [1]) (h2 : d.insertedWindowDims = [0]) (h3 : d.scatterDimsToOperandDims = [0])
    (h4 : d.indexVectorDim = 1)
    (z : (⟨2, ![50000, 64]⟩ : Shape).Idx → EReal) (hz : ∀ i, z i = Cert.KAttn.zero)
    (c : IVec ⟨2, ![800000, 1]⟩ 32) (upd : (⟨2, ![800000, 64]⟩ : Shape).Idx → EReal) :
    Host.scatterAdd (F := Ideal) (φ := .f32) d z c upd = Cert.KAttn.seg upd c := by
  funext i
  obtain ⟨p, q, rfl⟩ : ∃ (p : Fin 50000) (q : Fin 64), i = ix2 p q := ⟨i 0, i 1, eq_ix2 i⟩
  rw [Idealize.ShloMosaic.RowScatter.rowScatterAdd_apply d h1 h2 h3 h4 z c upd p q, hz]
  rfl

end Cert.Layer

end
-- ==== Proof.RefBridge.lean ====
import proofs.«135486_j17549236371616_1_alg».proof.Proof.RefLayer
import proofs.«135486_j17549236371616_1_alg».proof.Proof.RAttnSpec
import proofs.«135486_j17549236371616_1_alg».proof.Proof.LayerSpec
import proofs.«135486_j17549236371616_1_alg».proof.Proof.BridgeNode
import proofs.«135486_j17549236371616_1_alg».proof.Proof.LibHeadSplit

/-! # One layer of the reference is the common layer function

The reference's layer ends in its second layer normalisation, an array `[50000, 64]`.  Read entry by entry it is the
reference's spelling of the node update applied to the reference's attention output; that attention output, read at
column `j` of head `hd`, is the reference's spelling of the attention mean; and that spelling equals the other
program's — the quotient of the two segment sums — at the same column.  Every one of the 64 columns is column `j` of
head `hd` for exactly one pair `(hd, j)`, so the two attention arrays agree at every entry; the two spellings of the
node update then agree (the quotient by a root is the product with the reciprocal root, the variance plus `1e-5` being
positive for every row); and an array function is determined by its entries.  The three entry-wise readings are taken
as hypotheses here. -/

noncomputable section

namespace Cert.RefBridge

open Cert.ReferenceIdeal Cert.ReferenceIdeal.Gen Idealize.ShloMosaic Idealize.ShloMosaic.ValueIdx

/-- The layer the reference computes from a bundle of arrays IS the common layer function of those arrays (with the
source and destination columns wrapped for the gathers, the destination column plain for the segment sums), given the
reference's node update read at an entry (`h144`), its attention output read at a head's column (`h81`), and the
agreement of the two spellings of the attention mean (`hb`). -/
theorem layer_eq_of (p : Cert.RefLayer.Params Ideal)
    (h144 : ∀ (n : Fin 50000) (d : Fin 64), Cert.RefLayer.v144 p (ix2 n d)
      = Cert.RNodeSpec.out (Cert.RefLayer.v81 p) p.h p.wo p.bo p.g1 p.be1 p.w1 p.b1 p.w2 p.b2 p.g2 p.be2 n d)
    (h81 : ∀ (n : Fin 50000) (hd : Fin 4) (j : Fin 16),
      Cert.RefLayer.v81 p (ix2 n (Cert.HeadSplit.col (rfl : 64 = 4 * 16) hd j))
        = Cert.RAttnSpec.hattn p.h p.ea
            (Cert.IndexCol.wrapCol 50000#32 bcast_S_S800000 bcast_S800000_S800000x1_0 p.src)
            (Cert.IndexCol.wrapCol 50000#32 bcast_S_S800000 bcast_S800000_S800000x1_0 p.dst)
            (Cert.IndexCol.col bcast_S800000_S800000x1_0 p.dst)
            p.wq p.wk p.we p.wv n hd j)
    (hb : ∀ (n : Fin 50000) (hd : Fin 4) (j : Fin 16),
      Cert.RAttnSpec.hattn p.h p.ea
          (Cert.IndexCol.wrapCol 50000#32 bcast_S_S800000 bcast_S800000_S800000x1_0 p.src)
          (Cert.IndexCol.wrapCol 50000#32 bcast_S_S800000 bcast_S800000_S800000x1_0 p.dst)
          (Cert.IndexCol.col bcast_S800000_S800000x1_0 p.dst)
          p.wq p.wk p.we p.wv n hd j
        = Cert.KAttn.hattn p.h p.ea
            (Cert.IndexCol.wrapCol 50000#32 bcast_S_S800000 bcast_S800000_S800000x1_0 p.src)
            (Cert.IndexCol.wrapCol 50000#32 bcast_S_S800000 bcast_S800000_S800000x1_0 p.dst)
            (Cert.IndexCol.col bcast_S800000_S800000x1_0 p.dst)
            p.wq p.wk p.we p.wv Cert.KAttn.onehot Cert.KAttn.onehotT n (Cert.HeadSplit.col (rfl : 64 = 4 * 16) hd j)) :
    Cert.RefLayer.v144 p
      = Cert.Layer.layer p.h p.ea
          (Cert.IndexCol.wrapCol 50000#32 bcast_S_S800000 bcast_S800000_S800000x1_0 p.src)
          (Cert.IndexCol.wrapCol 50000#32 bcast_S_S800000 bcast_S800000_S800000x1_0 p.dst)
          (Cert.IndexCol.col bcast_S800000_S800000x1_0 p.dst)
          p.wq p.wk p.we p.wv p.wo p.bo p.g1 p.be1 p.w1 p.b1 p.w2 p.b2 p.g2 p.be2 := by
  funext i
  obtain ⟨n, d, rfl⟩ : ∃ (n : Fin 50000) (d : Fin 64), i = ix2 n d := ⟨i 0, i 1, eq_ix2 i⟩
  -- the reference's attention output is the quotient of the two segment sums, at every entry
  have hh : ∀ (n : Fin 50000) (k : Fin 64), Cert.RefLayer.v81 p (ix2 n k)
      = Cert.NodeSpec.hattn
          (Cert.KAttn.seg (Cert.KAttn.msgs p.h p.ea
            (Cert.IndexCol.wrapCol 50000#32 bcast_S_S800000 bcast_S800000_S800000x1_0 p.src)
            (Cert.IndexCol.wrapCol 50000#32 bcast_S_S800000 bcast_S800000_S800000x1_0 p.dst)
            p.wq p.wk p.we p.wv Cert.KAttn.onehot Cert.KAttn.onehotT)
            (Cert.IndexCol.col bcast_S800000_S800000x1_0 p.dst))
          (Cert.KAttn.seg (Cert.KAttn.scores p.h p.ea
            (Cert.IndexCol.wrapCol 50000#32 bcast_S_S800000 bcast_S800000_S800000x1_0 p.src)
            (Cert.IndexCol.wrapCol 50000#32 bcast_S_S800000 bcast_S800000_S800000x1_0 p.dst)
            p.wq p.wk p.we Cert.KAttn.onehot Cert.KAttn.onehotT)
            (Cert.IndexCol.col bcast_S800000_S800000x1_0 p.dst)) n k := by
    intro n k
    obtain ⟨hd, j, rfl⟩ : ∃ (hd : Fin 4) (j : Fin 16), k = Cert.HeadSplit.col (rfl : 64 = 4 * 16) hd j :=
      ⟨_, _, Cert.HeadSplit.col_surj (rfl : 64 = 4 * 16) k⟩
    rw [h81 n hd j, hb n hd j]
    rfl
  rw [h144 n d, Cert.BridgeNode.out_eq (Cert.RefLayer.v81 p) p.h _ _ p.wo p.bo p.g1 p.be1 p.w1 p.b1 p.w2 p.b2 p.g2 p.be2
    hh n d]
  rfl

end Cert.RefBridge

end
-- ==== Proof.RefRunFold.lean ====
/- The reference's run, with its result left as the fold of its operations.

   Every weakly fair execution of the reference — a straight line of 346 array operations — terminates, and leaves each
   buffer at the fold of the operations over the launch contents (the library's run theorem for a line). The result
   buffer is kept at that fold: what it holds is read off it one operation at a time elsewhere. The seventeen arguments
   end as launched because no operation writes them: the operations write exactly the 346 buffers listed in `written`,
   one each, and an argument is not in the list. -/
import proofs.«135486_j17549236371616_1_alg».proof.Proof.RefOps

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- The 346 buffers the operations write, one each, in order. -/
abbrev written : List (Ref sig .tc) :=
  [
    main_v0, main_v1, main_v2, main_v3, main_v4, main_v5, main_v6, main_v7, main_v8, main_v9, main_v10, main_v11,
    main_v12, main_v13, main_v14, main_v15, main_v16, main_v17, main_v18, main_v19, main_v20, main_v21, main_v22, main_v23,
    main_v24, main_v25, main_v26, main_v27, main_v28, main_v29, main_v30, main_v31, main_v32, main_v33, main_v34, main_v35,
    main_v36, main_v37, main_v38, main_v39, main_c, main_v40, main_v41, main_c_0, main_v42, main_v43, main_v44, main_v45,
    main_v46, main_c_1, main_v47, main_v48, main_c_2, main_v49, main_v50, main_v51, main_v52, main_v53, main_v54, main_v55,
    main_cst, main_v56, main_v57, main_cst_3, main_v58, main_v59, main_cst_4, main_cst_5, main_call0_v0, main_call0_v1, main_call0_v2, main_call0_v3,
    main_call0_v4, main_v60, main_v61, main_c_6, main_v62, main_v63, main_c_7, main_v64, main_v65, main_v66, main_v67, main_v68,
    main_v69, main_v70, main_cst_8, main_v71, main_v72, main_v73, main_cst_9, main_v74, main_v75, main_v76, main_cst_10, main_v77,
    main_v78, main_v79, main_v80, main_v81, main_v82, main_v83, main_v84, main_v85, main_v86, main_cst_11, main_v87, main_v88,
    main_cst_12, main_v89, main_v90, main_v91, main_v92, main_v93, main_cst_13, main_v94, main_v95, main_cst_14, main_v96, main_v97,
    main_v98, main_v99, main_cst_15, main_v100, main_v101, main_v102, main_v103, main_v104, main_v105, main_v106, main_v107, main_v108,
    main_v109, main_v110, main_v111, main_v112, main_v113, main_v114, main_call1_cst, main_call1_v0, main_v115, main_v116, main_v117, main_v118,
    main_v119, main_v120, main_cst_16, main_v121, main_v122, main_cst_17, main_v123, main_v124, main_v125, main_v126, main_v127, main_cst_18,
    main_v128, main_v129, main_cst_19, main_v130, main_v131, main_v132, main_v133, main_cst_20, main_v134, main_v135, main_v136, main_v137,
    main_v138, main_v139, main_v140, main_v141, main_v142, main_v143, main_v144, main_v145, main_v146, main_v147, main_v148, main_v149,
    main_v150, main_v151, main_v152, main_v153, main_v154, main_v155, main_v156, main_v157, main_v158, main_v159, main_v160, main_v161,
    main_v162, main_v163, main_v164, main_v165, main_v166, main_v167, main_v168, main_v169, main_v170, main_v171, main_v172, main_v173,
    main_v174, main_v175, main_v176, main_v177, main_v178, main_v179, main_v180, main_c_21, main_v181, main_v182, main_c_22, main_v183,
    main_v184, main_v185, main_v186, main_v187, main_c_23, main_v188, main_v189, main_c_24, main_v190, main_v191, main_v192, main_v193,
    main_v194, main_v195, main_v196, main_cst_25, main_v197, main_v198, main_cst_26, main_v199, main_v200, main_cst_27, main_cst_28, main_call2_v0,
    main_call2_v1, main_call2_v2, main_call2_v3, main_call2_v4, main_v201, main_v202, main_c_29, main_v203, main_v204, main_c_30, main_v205, main_v206,
    main_v207, main_v208, main_v209, main_v210, main_v211, main_cst_31, main_v212, main_v213, main_v214, main_cst_32, main_v215, main_v216,
    main_v217, main_cst_33, main_v218, main_v219, main_v220, main_v221, main_v222, main_v223, main_v224, main_v225, main_v226, main_v227,
    main_cst_34, main_v228, main_v229, main_cst_35, main_v230, main_v231, main_v232, main_v233, main_v234, main_cst_36, main_v235, main_v236,
    main_cst_37, main_v237, main_v238, main_v239, main_v240, main_cst_38, main_v241, main_v242, main_v243, main_v244, main_v245, main_v246,
    main_v247, main_v248, main_v249, main_v250, main_v251, main_v252, main_v253, main_v254, main_v255, main_call3_cst, main_call3_v0, main_v256,
    main_v257, main_v258, main_v259, main_v260, main_v261, main_cst_39, main_v262, main_v263, main_cst_40, main_v264, main_v265, main_v266,
    main_v267, main_v268, main_cst_41, main_v269, main_v270, main_cst_42, main_v271, main_v272, main_v273, main_v274, main_cst_43, main_v275,
    main_v276, main_v277, main_v278, main_v279, main_v280, main_v281, main_v282, main_v283, main_v284, main_v285 ]

set_option maxRecDepth 16384 in
set_option maxHeartbeats 40000000 in
/-- Every operation writes inside that list. -/
theorem writes_sub : (ops : List (HloOp τ sig (Elt F))).Forall fun op =>
    op.writes ⊆ (written.map (Proc.devRef (τ := τ) .tc)).toFinset := by
  simp only [ops, List.Forall, TRef.unary, TRef.binary, TRef.nullary, nullary_writes, unary_writes, binary_writes,
    ternary_writes, reshape_writes, Finset.singleton_subset_iff]
  repeat' apply And.intro
  all_goals exact List.mem_toFinset.mpr (List.mem_map.mpr ⟨_, by decide, rfl⟩)

/-- A buffer outside the list is left alone by the whole line. -/
theorem kept (V : Valuation τ sig (Elt F)) (r : Ref sig .tc) (hr : r ∉ written) :
    after (ops (F := F)) V (Proc.devRef .tc r) = V (Proc.devRef .tc r) :=
  after_of_writes_sub ops V writes_sub hr

/-- On every device, for any float values, from any memory with zero counters: every weakly fair execution of
    @main terminates with the result buffer at the fold of the operations over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v285) = after (ops (F := F)) (launchContents m c) (Proc.devRef .tc main_v285)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨h c main_v285,
      (h c main_arg0).trans (kept (launchContents m c) main_arg0 (by decide)),
      (h c main_arg1).trans (kept (launchContents m c) main_arg1 (by decide)),
      (h c main_arg2).trans (kept (launchContents m c) main_arg2 (by decide)),
      (h c main_arg3).trans (kept (launchContents m c) main_arg3 (by decide)),
      (h c main_arg4).trans (kept (launchContents m c) main_arg4 (by decide)),
      (h c main_arg5).trans (kept (launchContents m c) main_arg5 (by decide)),
      (h c main_arg6).trans (kept (launchContents m c) main_arg6 (by decide)),
      (h c main_arg7).trans (kept (launchContents m c) main_arg7 (by decide)),
      (h c main_arg8).trans (kept (launchContents m c) main_arg8 (by decide)),
      (h c main_arg9).trans (kept (launchContents m c) main_arg9 (by decide)),
      (h c main_arg10).trans (kept (launchContents m c) main_arg10 (by decide)),
      (h c main_arg11).trans (kept (launchContents m c) main_arg11 (by decide)),
      (h c main_arg12).trans (kept (launchContents m c) main_arg12 (by decide)),
      (h c main_arg13).trans (kept (launchContents m c) main_arg13 (by decide)),
      (h c main_arg14).trans (kept (launchContents m c) main_arg14 (by decide)),
      (h c main_arg15).trans (kept (launchContents m c) main_arg15 (by decide)),
      (h c main_arg16).trans (kept (launchContents m c) main_arg16 (by decide))⟩)
    (run_seq scopedRefs_eq scopedSems_eq defs main (fun _ => ops) main_eq (fun _ => ops_sub) m ρ)

end Cert.ReferenceIdeal.RunFold

end
-- ==== Proof.LibLineRead.lean ====
import Idealize.ShloMosaic.Lib.StableHlo.Run

/-! # Reading a long straight line of host operations one operation at a time

A host program is a line of operations, each writing its own result buffer; the contents the line leaves are the fold
`StableHlo.after ops V` of the operations over the launch contents `V`.  Evaluating that fold at the last buffer
substitutes every operand into every use, and a value used several times (an activation read by three projections and
a residual sum) is copied at each use: the term grows exponentially with the program's depth.

The facts below read the fold ONE operation at a time instead.  When every operation writes exactly its own buffer of a
list `ws` (position by position) and no buffer is written twice, the line's final value at the buffer of operation `k`
is that operation's function applied to the line's FINAL values of its operands — an operand being either an argument
(written by nobody) or the result of an earlier operation (written by nobody later).  So every intermediate value can
be named once (`val y = after ops V y`) and each operation becomes one small equation between names.  Nothing here
depends on what the operations compute.

How to use it on a literal line `ops` with its literal list `ws` of written references (both `abbrev`s):
`WritesAt ops ws` is the chain `.cons (unary_writes ..) <| .cons (reshape_writes ..) <| … <| .nil`, one library lemma
per operation by its shape; then, for the operation at position `k`,
`unary_final hw V k hk (x := …) (y := …) f ⟨by decide, rfl⟩ ⟨by decide, rfl⟩ rfl (by decide) (by decide)` with the
references and the function `f` copied from the line (they cannot be inferred backwards through `rfl`), `hk` from
`ops.length = n := rfl`. -/

namespace Cert.LineRead

open Idealize.ShloMosaic Idealize.ShloMosaic.StableHlo

variable {τ : Topo} {sig : RefSig} {Val : EltTy → Type}

/-- Two lines run one after the other: the second folds over what the first leaves. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position `k` on writes holds what the first `k` operations leave. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops, after_append]
  exact after_of_forall_not_mem _ _ h

/-- The buffer of operation `k`, written by nobody later, holds that operation's result over what the first `k`
    operations leave. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append]
  rfl

/-! ## Which operation writes which buffer -/

/-- Position by position, each operation writes exactly the buffer of the reference listed for it. -/
abbrev WritesAt (ops : List (HloOp τ sig Val)) (ws : List (Ref sig .tc)) : Prop :=
  List.Forall₂ (fun op w => op.writes = {Proc.devRef (τ := τ) .tc w}) ops ws

/-- A reference outside the list is written by no operation. -/
theorem not_written {ops : List (HloOp τ sig Val)} {ws : List (Ref sig .tc)} (hw : WritesAt ops ws)
    (r : Ref sig .tc) (hr : r ∉ ws) : ∀ op ∈ ops, Proc.devRef (τ := τ) .tc r ∉ op.writes := by
  induction hw with
  | nil => intro op h; cases h
  | @cons op w ops' ws' hab _ ih =>
    intro o ho hmem
    rcases List.mem_cons.mp ho with rfl | h'
    · rw [hab, Finset.mem_singleton] at hmem
      exact hr (by rw [Proc.devRef_injective _ hmem]; exact List.mem_cons_self)
    · exact ih (fun h => hr (List.mem_cons_of_mem _ h)) o h' hmem

/-- The same from a position on: a reference outside `ws.drop k` is written by no operation from position `k` on. -/
theorem not_written_from {ops : List (HloOp τ sig Val)} {ws : List (Ref sig .tc)} (hw : WritesAt ops ws) (k : Nat)
    (r : Ref sig .tc) (hr : r ∉ ws.drop k) : ∀ op ∈ ops.drop k, Proc.devRef (τ := τ) .tc r ∉ op.writes :=
  not_written (List.forall₂_drop k hw) r hr

/-- An argument (a reference no operation writes) ends as launched. -/
theorem after_arg {ops : List (HloOp τ sig Val)} {ws : List (Ref sig .tc)} (hw : WritesAt ops ws)
    (V : Valuation τ sig Val) (r : Ref sig .tc) (hr : r ∉ ws) :
    after ops V (Proc.devRef .tc r) = V (Proc.devRef .tc r) :=
  after_of_forall_not_mem ops V (not_written hw r hr)

/-- An operand of operation `k` that nothing from position `k` on writes: the first `k` operations leave it at the
    line's final value. -/
theorem take_eq_final {ops : List (HloOp τ sig Val)} {ws : List (Ref sig .tc)} (hw : WritesAt ops ws)
    (V : Valuation τ sig Val) (k : Nat) (x : Ref sig .tc) (hx : x ∉ ws.drop k) :
    after (ops.take k) V (Proc.devRef .tc x) = after ops V (Proc.devRef .tc x) :=
  (after_eq_take ops V k _ (not_written_from hw k x hx)).symm

/-! ## One operation, read over the line's final values

`hop` names the operation at position `k` (by `rfl` on a literal list); `hy`: its result is written by nobody later;
`hx`, `ha`, …: its operands are written by nobody from position `k` on (each by `decide` on the literal list `ws`). -/

section Builders

variable {ops : List (HloOp τ sig Val)} {ws : List (Ref sig .tc)} (hw : WritesAt ops ws) (V : Valuation τ sig Val)
  (k : Nat) (hk : k < ops.length)

include hw

theorem nullary_final {y : Ref sig .tc} (v : y.ty.Contents Val) (hy')
    (hop : ops[k] = nullary (τ := τ) y v hy') (hy : y ∉ ws.drop (k + 1)) :
    after ops V (Proc.devRef .tc y) = v := by
  rw [after_eq_result ops V k hk _ (not_written_from hw (k + 1) y hy), hop, nullary_result]

theorem unary_final {x y : Ref sig .tc} (f : x.ty.Contents Val → y.ty.Contents Val) (hx' hy')
    (hop : ops[k] = unary (τ := τ) x y f hx' hy') (hy : y ∉ ws.drop (k + 1)) (hx : x ∉ ws.drop k) :
    after ops V (Proc.devRef .tc y) = f (after ops V (Proc.devRef .tc x)) := by
  rw [after_eq_result ops V k hk _ (not_written_from hw (k + 1) y hy), hop, unary_result,
    take_eq_final hw V k x hx]

theorem binary_final {a b y : Ref sig .tc} (f : a.ty.Contents Val → b.ty.Contents Val → y.ty.Contents Val) (ha' hb' hy')
    (hop : ops[k] = binary (τ := τ) a b y f ha' hb' hy') (hy : y ∉ ws.drop (k + 1))
    (ha : a ∉ ws.drop k) (hb : b ∉ ws.drop k) :
    after ops V (Proc.devRef .tc y) = f (after ops V (Proc.devRef .tc a)) (after ops V (Proc.devRef .tc b)) := by
  rw [after_eq_result ops V k hk _ (not_written_from hw (k + 1) y hy), hop, binary_result,
    take_eq_final hw V k a ha, take_eq_final hw V k b hb]

theorem ternary_final {c a b y : Ref sig .tc}
    (f : c.ty.Contents Val → a.ty.Contents Val → b.ty.Contents Val → y.ty.Contents Val) (hc' ha' hb' hy')
    (hop : ops[k] = ternary (τ := τ) c a b y f hc' ha' hb' hy') (hy : y ∉ ws.drop (k + 1))
    (hc : c ∉ ws.drop k) (ha : a ∉ ws.drop k) (hb : b ∉ ws.drop k) :
    after ops V (Proc.devRef .tc y)
      = f (after ops V (Proc.devRef .tc c)) (after ops V (Proc.devRef .tc a)) (after ops V (Proc.devRef .tc b)) := by
  rw [after_eq_result ops V k hk _ (not_written_from hw (k + 1) y hy), hop, ternary_result,
    take_eq_final hw V k c hc, take_eq_final hw V k a ha, take_eq_final hw V k b hb]

theorem reshape_final {x y : Ref sig .tc} (he : x.ty.elt = y.ty.elt) (hn : x.ty.shape.ShapeCasts y.ty.shape) (hx' hy')
    (hop : ops[k] = reshape (τ := τ) (Val := Val) x y he hn hx' hy') (hy : y ∉ ws.drop (k + 1)) (hx : x ∉ ws.drop k) :
    after ops V (Proc.devRef .tc y) = fun i => he ▸ shapeCast y.ty.shape (after ops V (Proc.devRef .tc x)) hn i := by
  rw [after_eq_result ops V k hk _ (not_written_from hw (k + 1) y hy), hop, reshape_result,
    take_eq_final hw V k x hx]

end Builders

end Cert.LineRead
-- ==== Proof.RefRead.lean ====
import proofs.«135486_j17549236371616_1_alg».proof.Proof.RefRunFold
import proofs.«135486_j17549236371616_1_alg».proof.Proof.LibLineRead

/-! # The reference's line, read one operation at a time

Each of the 346 operations writes exactly its own buffer of the list `written`, in order; so the final value of any
buffer is its operation's function of the FINAL values of its operands (Proof/LibLineRead.lean), and each intermediate
value can be named once.  Here: the table "operation `k` writes `written[k]`", and the first equations read with it
— one of each shape of operation — from which the rest follow the same way. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

set_option maxRecDepth 16384 in
set_option maxHeartbeats 40000000 in
/-- Operation `k` writes exactly the buffer `written[k]`. -/
theorem writesAt : WritesAt (τ := τ) (ops : List (HloOp τ sig (Elt F))) written :=
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (binary_writes ..) <|
    .cons (reshape_writes ..) <|
    .cons (binary_writes ..) <|
    .cons (reshape_writes ..) <|
    .cons (binary_writes ..) <|
    .cons (reshape_writes ..) <|
    .cons (binary_writes ..) <|
    .cons (reshape_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (nullary_writes ..) <|
    .cons (nullary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (unary_writes ..) <|
    .cons (binary_writes ..) <|
    .cons (nullary_writes ..) <|
    .cons (unary_writes ..) <|
    .cons (unary_writes ..) <|
    .cons (ternary_writes ..) <|
    .cons (nullary_writes ..) <|
    .cons (unary_writes ..) <|
    .cons (unary_writes ..) <|
    .cons (ternary_writes ..) <|
    .cons (nullary_writes ..) <|
    .cons (unary_writes ..) <|
    .cons (binary_writes ..) <|
    .cons (unary_writes ..) <|
    .cons (binary_writes ..) <|
    .cons (reshape_writes ..) <|
    .cons (binary_writes ..) <|
    .cons (unary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (binary_writes ..) <|
    .cons (unary_writes ..) <|
    .cons (unary_writes ..) <|
    .cons (binary_writes ..) <|
    .cons (nullary_writes ..) <|
    .cons (unary_writes ..) <|
    .cons (binary_writes ..) <|
    .cons (binary_writes ..) <|
    .cons (unary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (unary_writes ..) <|
    .cons (reshape_writes ..) <|
    .cons (binary_writes ..) <|
    .cons (reshape_writes ..) <|
    .cons (binary_writes ..) <|
    .cons (reshape_writes ..) <|
    .cons (binary_writes ..) <|
    .cons (reshape_writes ..) <|
    .cons (binary_writes ..) <|
    .cons (reshape_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (nullary_writes ..) <|
    .cons (nullary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (nullary_writes ..) <|
    .cons (unary_writes ..) <|
    .cons (binary_writes ..) <|
    .cons (nullary_writes ..) <|
    .cons (unary_writes ..) <|
    .cons (binary_writes ..) <|
    .cons (ternary_writes ..) <|
    .cons (unary_writes ..) <|
    .cons (binary_writes ..) <|
    .cons (unary_writes ..) <|
    .cons (binary_writes ..) <|
    .cons (nullary_writes ..) <|
    .cons (unary_writes ..) <|
    .cons (unary_writes ..) <|
    .cons (ternary_writes ..) <|
    .cons (nullary_writes ..) <|
    .cons (unary_writes ..) <|
    .cons (unary_writes ..) <|
    .cons (ternary_writes ..) <|
    .cons (nullary_writes ..) <|
    .cons (unary_writes ..) <|
    .cons (binary_writes ..) <|
    .cons (unary_writes ..) <|
    .cons (binary_writes ..) <|
    .cons (reshape_writes ..) <|
    .cons (binary_writes ..) <|
    .cons (unary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (binary_writes ..) <|
    .cons (unary_writes ..) <|
    .cons (unary_writes ..) <|
    .cons (binary_writes ..) <|
    .cons (nullary_writes ..) <|
    .cons (unary_writes ..) <|
    .cons (binary_writes ..) <|
    .cons (binary_writes ..) <|
    .cons (unary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (binary_writes ..) <|
    .cons (nullary_writes ..) <|
    .cons (binary_writes ..) <|
    .cons (unary_writes ..) <|
    .cons (nullary_writes ..) <|
    .cons (unary_writes ..) <|
    .cons (binary_writes ..) <|
    .cons (unary_writes ..) <|
    .cons (binary_writes ..) <|
    .cons (nullary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .cons (unary_writes ..) <|
    .cons (unary_writes ..) <|
    .cons (binary_writes ..) <|
    .nil

/-- The line has 346 operations. -/
theorem ops_length : (ops : List (HloOp τ sig (Elt F))).length = 346 := rfl

/-- A literal position below 346 is a position of the line. -/
theorem pos {k : Nat} (h : k < 346) : k < (ops : List (HloOp τ sig (Elt F))).length := ops_length (F := F) ▸ h

/-- The line's final value at a buffer, from launch contents `V`. -/
abbrev val (V : Valuation τ sig (Elt F)) (r : Ref sig .tc) : (Proc.devRef (τ := τ) .tc r).ty.Contents (Elt F) :=
  after (ops (F := F)) V (Proc.devRef .tc r)

variable (V : Valuation τ sig (Elt F))

/-- Operation 0: the first row of the edge list, as a `[1, E]` slice. -/
theorem val_v0 : val V main_v0 = extractStridedSlice S1x800000 ![0, 0] (val V main_arg2) slices_S2x800000_S1x800000_0_0 :=
  unary_final writesAt V 0 (pos (by decide)) (x := main_arg2) (y := main_v0)
    ((extractStridedSlice S1x800000 ![0, 0] · slices_S2x800000_S1x800000_0_0) : (⟨S2x800000, .i32⟩ : BufTy).Contents (Elt F) → (⟨S1x800000, .i32⟩ : BufTy).Contents (Elt F))
    ⟨by decide, rfl⟩ ⟨by decide, rfl⟩ rfl (by decide) (by decide)

/-- Operation 1: that slice as a vector (the source nodes). -/
theorem val_v1 : val V main_v1 = fun i => (rfl : main_v0.ty.elt = main_v1.ty.elt) ▸ shapeCast main_v1.ty.shape (val V main_v0) shapeCasts_S1x800000_S800000 i :=
  reshape_final writesAt V 1 (pos (by decide)) (x := main_v0) (y := main_v1) rfl shapeCasts_S1x800000_S800000
    ⟨by decide, rfl⟩ ⟨by decide, rfl⟩ rfl (by decide) (by decide)

/-- Operation 32: the query projection, a contraction of the node features with the first layer's query weights. -/
theorem val_v32 : val V main_v32 = Host.dotGeneral dot_S50000x64_S64x64_S50000x64_1_0_0_1_n_n none (val V main_arg0) (val V main_v5) :=
  binary_final writesAt V 32 (pos (by decide)) (a := main_arg0) (b := main_v5) (y := main_v32)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide)

/-- Operation 40: the scalar constant 0. -/
theorem val_c : val V main_c = constantI S_ 32 0#32 :=
  nullary_final writesAt V 40 (pos (by decide)) (y := main_c) (constantI S_ 32 0#32) ⟨by decide, rfl⟩ rfl (by decide)

/-- Operation 46: a negative source index is wrapped by the node count. -/
theorem val_v44 : val V main_v44 = select (val V main_v41) (val V main_v43) (val V main_v1) :=
  ternary_final writesAt V 46 (pos (by decide)) (c := main_v41) (a := main_v43) (b := main_v1) (y := main_v44)
    (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ ⟨by decide, rfl⟩ rfl (by decide) (by decide) (by decide) (by decide)

end Cert.ReferenceIdeal.RunFold

end
-- ==== Proof.KWeightsSpec.lean ====
import proofs.«135486_j17549236371616_1_alg».proof.KernelIdeal
import Idealize.ShloMosaic.PureOps.Ideal
import Idealize.ShloMosaic.Lib.ValueIdx

/-! # One layer's slice of a stacked parameter array, and the head-selection matrices

The encoder has two layers; every parameter is given stacked along a leading axis of extent 2 (`[2, 64, 64]` for a
square weight matrix, `[2, 64]` for a bias or a normalisation vector, `[2, 64, 128]` and `[2, 128, 64]` for the two
feed-forward matrices, `[2, 128]` for the hidden bias); the edges' two endpoint vectors are the two rows of one
`[2, 800000]` integer array.  Layer `l`'s parameter is the slice at leading coordinate `l`
with the unit axis dropped: entry `(k, d)` of the slice is entry `(l, k, d)` of the stacked array.

The 64 features are split into 4 heads of 16 consecutive features.  The head-selection matrix `onehot` (`[64, 4]`) has
a one at `(f, h)` exactly when feature `f` belongs to head `h`, that is `f / 16 = h`, and a zero elsewhere; `onehotT`
(`[4, 64]`) is its transpose.  Both are written with the two f32 words `0x3F800000` (one) and `0x00000000` (zero). -/

noncomputable section

namespace Cert.KernelIdeal.Wt

open Cert.KernelIdeal
open Idealize.ShloMosaic Idealize.ShloMosaic.ValueIdx

/-- Layer `l`'s `[64, 64]` matrix out of a stacked `[2, 64, 64]` array. -/
def mat (l : Fin 2) (a : S2x64x64.Idx → EReal) : S64x64.Idx → EReal := fun i => a (ix3 l (i 0) (i 1))
theorem mat_apply (l : Fin 2) (a : S2x64x64.Idx → EReal) (k d : Fin 64) : mat l a (ix2 k d) = a (ix3 l k d) := rfl

/-- Layer `l`'s `[64, 128]` matrix out of a stacked `[2, 64, 128]` array. -/
def mat1 (l : Fin 2) (a : S2x64x128.Idx → EReal) : S64x128.Idx → EReal := fun i => a (ix3 l (i 0) (i 1))
theorem mat1_apply (l : Fin 2) (a : S2x64x128.Idx → EReal) (k : Fin 64) (d : Fin 128) :
    mat1 l a (ix2 k d) = a (ix3 l k d) := rfl

/-- Layer `l`'s `[128, 64]` matrix out of a stacked `[2, 128, 64]` array. -/
def mat2 (l : Fin 2) (a : S2x128x64.Idx → EReal) : S128x64.Idx → EReal := fun i => a (ix3 l (i 0) (i 1))
theorem mat2_apply (l : Fin 2) (a : S2x128x64.Idx → EReal) (k : Fin 128) (d : Fin 64) :
    mat2 l a (ix2 k d) = a (ix3 l k d) := rfl

/-- Layer `l`'s vector of 64 entries out of a stacked `[2, 64]` array. -/
def vec (l : Fin 2) (a : S2x64.Idx → EReal) : S64.Idx → EReal := fun i => a (ix2 l (i 0))
theorem vec_apply (l : Fin 2) (a : S2x64.Idx → EReal) (d : Fin 64) : vec l a (ix1 d) = a (ix2 l d) := rfl

/-- Layer `l`'s vector of 128 entries out of a stacked `[2, 128]` array. -/
def vec1 (l : Fin 2) (a : S2x128.Idx → EReal) : S128.Idx → EReal := fun i => a (ix2 l (i 0))
theorem vec1_apply (l : Fin 2) (a : S2x128.Idx → EReal) (d : Fin 128) : vec1 l a (ix1 d) = a (ix2 l d) := rfl

/-- Row `l` of the stacked `[2, 800000]` edge-endpoint array (32-bit integers) as a vector of 800000 entries. -/
def row (l : Fin 2) (a : S2x800000.Idx → BitVec 32) : S800000.Idx → BitVec 32 := fun i => a (ix2 l (i 0))
theorem row_apply (l : Fin 2) (a : S2x800000.Idx → BitVec 32) (e : Fin 800000) : row l a (ix1 e) = a (ix2 l e) := rfl

/-- The head-selection matrix: a one at `(f, h)` when feature `f` lies in head `h` (`f / 16 = h`), a zero elsewhere. -/
def onehot : S64x4.Idx → EReal := fun i =>
  if (i 0).val / 16 = (i 1).val then Ideal.ofBits .f32 0x3F800000#32 else Ideal.ofBits .f32 0x00000000#32
theorem onehot_apply (f : Fin 64) (h : Fin 4) :
    onehot (ix2 f h) = if f.val / 16 = h.val then Ideal.ofBits .f32 0x3F800000#32 else Ideal.ofBits .f32 0x00000000#32 := rfl

/-- Its transpose: a one at `(h, f)` when `f / 16 = h`. -/
def onehotT : S4x64.Idx → EReal := fun i =>
  if (i 1).val / 16 = (i 0).val then Ideal.ofBits .f32 0x3F800000#32 else Ideal.ofBits .f32 0x00000000#32
theorem onehotT_apply (h : Fin 4) (f : Fin 64) :
    onehotT (ix2 h f) = if f.val / 16 = h.val then Ideal.ofBits .f32 0x3F800000#32 else Ideal.ofBits .f32 0x00000000#32 := rfl

end Cert.KernelIdeal.Wt

end
-- ==== Proof.GlueLemmas.lean ====
import proofs.«135486_j17549236371616_1_alg».proof.Proof.KWeightsSpec
import proofs.«135486_j17549236371616_1_alg».proof.Proof.LayerSpec
import proofs.«135486_j17549236371616_1_alg».proof.Proof.LibIndexCol

/-! # Arrays determined by their entries: a layer's slice of a stacked parameter, and congruence of the layer function

Three small facts used to put the two programs' results side by side.

* An array whose entry `(k, d)` is entry `(l, k, d)` of a stacked array IS layer `l`'s slice of that array (one
  statement per shape: the square matrices, the two feed-forward matrices, the vectors of 64 and of 128 entries); two
  integer vectors that both read row `l` of one stacked integer array are the same vector.  Each is extensionality of
  functions on an index type, every index being the tuple of its coordinates.
* An index column depends only on the vector it is built from: the side facts about shapes it carries are proofs of
  propositions, and any two proofs of a proposition are equal.
* The layer function applied to equal arrays gives equal arrays. -/

noncomputable section

namespace Cert.GlueLemmas

open Idealize.ShloMosaic Idealize.ShloMosaic.ValueIdx

/-- A `[64, 64]` array that reads slice `l` of a stacked `[2, 64, 64]` array is that slice. -/
theorem eq_mat (l : Fin 2) (a : (⟨3, ![2, 64, 64]⟩ : Shape).Idx → EReal) (f : (⟨2, ![64, 64]⟩ : Shape).Idx → EReal)
    (hf : ∀ (k : Fin 64) (d : Fin 64), f (ix2 k d) = a (ix3 l k d)) : f = Cert.KernelIdeal.Wt.mat l a := by
  funext i
  obtain ⟨k, d, rfl⟩ : ∃ (k : Fin 64) (d : Fin 64), i = ix2 k d := ⟨i 0, i 1, eq_ix2 i⟩
  rw [hf k d, Cert.KernelIdeal.Wt.mat_apply]

/-- A `[64, 128]` array that reads slice `l` of a stacked `[2, 64, 128]` array is that slice. -/
theorem eq_mat1 (l : Fin 2) (a : (⟨3, ![2, 64, 128]⟩ : Shape).Idx → EReal) (f : (⟨2, ![64, 128]⟩ : Shape).Idx → EReal)
    (hf : ∀ (k : Fin 64) (d : Fin 128), f (ix2 k d) = a (ix3 l k d)) : f = Cert.KernelIdeal.Wt.mat1 l a := by
  funext i
  obtain ⟨k, d, rfl⟩ : ∃ (k : Fin 64) (d : Fin 128), i = ix2 k d := ⟨i 0, i 1, eq_ix2 i⟩
  rw [hf k d, Cert.KernelIdeal.Wt.mat1_apply]

/-- A `[128, 64]` array that reads slice `l` of a stacked `[2, 128, 64]` array is that slice. -/
theorem eq_mat2 (l : Fin 2) (a : (⟨3, ![2, 128, 64]⟩ : Shape).Idx → EReal) (f : (⟨2, ![128, 64]⟩ : Shape).Idx → EReal)
    (hf : ∀ (k : Fin 128) (d : Fin 64), f (ix2 k d) = a (ix3 l k d)) : f = Cert.KernelIdeal.Wt.mat2 l a := by
  funext i
  obtain ⟨k, d, rfl⟩ : ∃ (k : Fin 128) (d : Fin 64), i = ix2 k d := ⟨i 0, i 1, eq_ix2 i⟩
  rw [hf k d, Cert.KernelIdeal.Wt.mat2_apply]

/-- A vector of 64 entries that reads row `l` of a stacked `[2, 64]` array is that row. -/
theorem eq_vec (l : Fin 2) (a : (⟨2, ![2, 64]⟩ : Shape).Idx → EReal) (f : (⟨1, ![64]⟩ : Shape).Idx → EReal)
    (hf : ∀ d : Fin 64, f (ix1 d) = a (ix2 l d)) : f = Cert.KernelIdeal.Wt.vec l a := by
  funext i
  obtain ⟨d, rfl⟩ : ∃ d : Fin 64, i = ix1 d := ⟨i 0, eq_ix1 i⟩
  rw [hf d, Cert.KernelIdeal.Wt.vec_apply]

/-- A vector of 128 entries that reads row `l` of a stacked `[2, 128]` array is that row. -/
theorem eq_vec1 (l : Fin 2) (a : (⟨2, ![2, 128]⟩ : Shape).Idx → EReal) (f : (⟨1, ![128]⟩ : Shape).Idx → EReal)
    (hf : ∀ d : Fin 128, f (ix1 d) = a (ix2 l d)) : f = Cert.KernelIdeal.Wt.vec1 l a := by
  funext i
  obtain ⟨d, rfl⟩ : ∃ d : Fin 128, i = ix1 d := ⟨i 0, eq_ix1 i⟩
  rw [hf d, Cert.KernelIdeal.Wt.vec1_apply]

/-- Two integer vectors that read the same row of one stacked `[2, 800000]` integer array are equal. -/
theorem eq_row (l : Fin 2) (a : (⟨2, ![2, 800000]⟩ : Shape).Idx → BitVec 32) (f g : IVec ⟨1, ![800000]⟩ 32)
    (hf : ∀ e : Fin 800000, f (ix1 e) = a (ix2 l e)) (hg : ∀ e : Fin 800000, g (ix1 e) = a (ix2 l e)) : f = g := by
  funext i
  obtain ⟨e, rfl⟩ : ∃ e : Fin 800000, i = ix1 e := ⟨i 0, eq_ix1 i⟩
  rw [hf e, hg e]

/-- The wrapped index column depends only on the vector. -/
theorem wrapCol_congr {E : Nat} (N : BitVec 32) (h0 h0' : (⟨0, ![]⟩ : Shape).BroadcastsInDim ⟨1, ![E]⟩ ![])
    (h1 h1' : (⟨1, ![E]⟩ : Shape).BroadcastsInDim ⟨2, ![E, 1]⟩ ![0]) {x y : IVec ⟨1, ![E]⟩ 32} (e : x = y) :
    Cert.IndexCol.wrapCol N h0 h1 x = Cert.IndexCol.wrapCol N h0' h1' y := by
  subst e; rfl

/-- The plain index column depends only on the vector. -/
theorem col_congr {E : Nat} (h1 h1' : (⟨1, ![E]⟩ : Shape).BroadcastsInDim ⟨2, ![E, 1]⟩ ![0]) {x y : IVec ⟨1, ![E]⟩ 32}
    (e : x = y) : Cert.IndexCol.col h1 x = Cert.IndexCol.col h1' y := by
  subst e; rfl

/-- The layer function of equal arrays. -/
theorem layer_congr {h h' : (⟨2, ![50000, 64]⟩ : Shape).Idx → EReal} {ea ea' : (⟨2, ![800000, 64]⟩ : Shape).Idx → EReal}
    {srcC srcC' dstWC dstWC' dstC dstC' : IVec ⟨2, ![800000, 1]⟩ 32}
    {wq wq' wk wk' we we' wv wv' wo wo' : (⟨2, ![64, 64]⟩ : Shape).Idx → EReal}
    {bo bo' g1 g1' be1 be1' : (⟨1, ![64]⟩ : Shape).Idx → EReal} {w1 w1' : (⟨2, ![64, 128]⟩ : Shape).Idx → EReal}
    {b1 b1' : (⟨1, ![128]⟩ : Shape).Idx → EReal} {w2 w2' : (⟨2, ![128, 64]⟩ : Shape).Idx → EReal}
    {b2 b2' g2 g2' be2 be2' : (⟨1, ![64]⟩ : Shape).Idx → EReal}
    (eh : h = h') (eea : ea = ea') (es : srcC = srcC') (edw : dstWC = dstWC') (ed : dstC = dstC')
    (ewq : wq = wq') (ewk : wk = wk') (ewe : we = we') (ewv : wv = wv') (ewo : wo = wo')
    (ebo : bo = bo') (eg1 : g1 = g1') (ebe1 : be1 = be1') (ew1 : w1 = w1') (eb1 : b1 = b1') (ew2 : w2 = w2')
    (eb2 : b2 = b2') (eg2 : g2 = g2') (ebe2 : be2 = be2') :
    Cert.Layer.layer h ea srcC dstWC dstC wq wk we wv wo bo g1 be1 w1 b1 w2 b2 g2 be2
      = Cert.Layer.layer h' ea' srcC' dstWC' dstC' wq' wk' we' wv' wo' bo' g1' be1' w1' b1' w2' b2' g2' be2' := by
  subst eh eea es edw ed ewq ewk ewe ewv ewo ebo eg1 ebe1 ew1 eb1 ew2 eb2 eg2 ebe2
  rfl

end Cert.GlueLemmas

end
-- ==== Proof.FinalGlue.lean ====
import proofs.«135486_j17549236371616_1_alg».proof.Proof.RefBridge
import proofs.«135486_j17549236371616_1_alg».proof.Proof.RefRead
import proofs.«135486_j17549236371616_1_alg».proof.Proof.Gen.KernelIdeal
import proofs.«135486_j17549236371616_1_alg».proof.Proof.GlueLemmas

/-! # The two programs' result arrays are equal

Each program's result is the layer function applied twice: to the node features and the first layer's parameters, then
to that result and the second layer's parameters.  One program reads a layer's parameters as slices of the stacked
arrays directly; the other writes each slice to a buffer of its own first, and that buffer, read at an index, is the
same entry of the stacked array.  An array is determined by its entries, so the two programs hand the layer function
equal arrays — the same features, the same three index columns (both built from the two rows of the one integer array
of edge endpoints), the same fourteen parameter slices — and the layer function of equal arrays is the same array.
The statements about each program separately (what its result buffer holds, what its parameter buffers hold at an
index, that the launch arrays agree) are hypotheses here. -/

noncomputable section

namespace Cert.FinalGlue

open Cert.ReferenceIdeal Cert.ReferenceIdeal.RunFold Idealize.ShloMosaic Idealize.ShloMosaic.ValueIdx

theorem result_eq (V' : Valuation τ sig (Elt Ideal)) (kres : (⟨2, ![50000, 64]⟩ : Shape).Idx → EReal)
    (X : (⟨2, ![50000, 64]⟩ : Shape).Idx → EReal) (EA : (⟨2, ![800000, 64]⟩ : Shape).Idx → EReal)
    (A2 : (⟨2, ![2, 800000]⟩ : Shape).Idx → BitVec 32)
    (A3 A4 A5 A6 A7 : (⟨3, ![2, 64, 64]⟩ : Shape).Idx → EReal) (A8 A9 A10 : (⟨2, ![2, 64]⟩ : Shape).Idx → EReal)
    (A11 : (⟨3, ![2, 64, 128]⟩ : Shape).Idx → EReal) (A12 : (⟨2, ![2, 128]⟩ : Shape).Idx → EReal)
    (A13 : (⟨3, ![2, 128, 64]⟩ : Shape).Idx → EReal) (A14 A15 A16 : (⟨2, ![2, 64]⟩ : Shape).Idx → EReal)
    (sv dv : IVec ⟨1, ![800000]⟩ 32)
    (hK : kres = Cert.Layer.layer
        (Cert.Layer.layer X EA (Cert.IndexCol.wrapCol 50000#32 Cert.KernelIdeal.Gen.bcast_S_S800000 Cert.KernelIdeal.Gen.bcast_S800000_S800000x1_0 sv)
          (Cert.IndexCol.wrapCol 50000#32 Cert.KernelIdeal.Gen.bcast_S_S800000 Cert.KernelIdeal.Gen.bcast_S800000_S800000x1_0 dv)
          (Cert.IndexCol.col Cert.KernelIdeal.Gen.bcast_S800000_S800000x1_0 dv)
          (Cert.KernelIdeal.Wt.mat 0 A3) (Cert.KernelIdeal.Wt.mat 0 A4) (Cert.KernelIdeal.Wt.mat 0 A5) (Cert.KernelIdeal.Wt.mat 0 A6) (Cert.KernelIdeal.Wt.mat 0 A7) (Cert.KernelIdeal.Wt.vec 0 A8) (Cert.KernelIdeal.Wt.vec 0 A9) (Cert.KernelIdeal.Wt.vec 0 A10) (Cert.KernelIdeal.Wt.mat1 0 A11) (Cert.KernelIdeal.Wt.vec1 0 A12) (Cert.KernelIdeal.Wt.mat2 0 A13) (Cert.KernelIdeal.Wt.vec 0 A14) (Cert.KernelIdeal.Wt.vec 0 A15) (Cert.KernelIdeal.Wt.vec 0 A16))
        EA (Cert.IndexCol.wrapCol 50000#32 Cert.KernelIdeal.Gen.bcast_S_S800000 Cert.KernelIdeal.Gen.bcast_S800000_S800000x1_0 sv)
        (Cert.IndexCol.wrapCol 50000#32 Cert.KernelIdeal.Gen.bcast_S_S800000 Cert.KernelIdeal.Gen.bcast_S800000_S800000x1_0 dv)
        (Cert.IndexCol.col Cert.KernelIdeal.Gen.bcast_S800000_S800000x1_0 dv)
        (Cert.KernelIdeal.Wt.mat 1 A3) (Cert.KernelIdeal.Wt.mat 1 A4) (Cert.KernelIdeal.Wt.mat 1 A5) (Cert.KernelIdeal.Wt.mat 1 A6) (Cert.KernelIdeal.Wt.mat 1 A7) (Cert.KernelIdeal.Wt.vec 1 A8) (Cert.KernelIdeal.Wt.vec 1 A9) (Cert.KernelIdeal.Wt.vec 1 A10) (Cert.KernelIdeal.Wt.mat1 1 A11) (Cert.KernelIdeal.Wt.vec1 1 A12) (Cert.KernelIdeal.Wt.mat2 1 A13) (Cert.KernelIdeal.Wt.vec 1 A14) (Cert.KernelIdeal.Wt.vec 1 A15) (Cert.KernelIdeal.Wt.vec 1 A16))
    (hsv : ∀ e : Fin 800000, sv (ix1 e) = A2 (ix2 (0 : Fin 2) e)) (hdv : ∀ e : Fin 800000, dv (ix1 e) = A2 (ix2 (1 : Fin 2) e))
    (hL1 : val V' main_v144 = Cert.RefLayer.v144
      (⟨val V' main_arg0, val V' main_arg1, val V' main_v1, val V' main_v3, val V' main_v5, val V' main_v7, val V' main_v9, val V' main_v11, val V' main_v13, val V' main_v15, val V' main_v17, val V' main_v19, val V' main_v21, val V' main_v23, val V' main_v25, val V' main_v27, val V' main_v29, val V' main_v31⟩ : Cert.RefLayer.Params Ideal))
    (hL2 : val V' main_v285 = Cert.RefLayer.v144
      (⟨val V' main_v144, val V' main_arg1, val V' main_v1, val V' main_v3, val V' main_v146, val V' main_v148, val V' main_v150, val V' main_v152, val V' main_v154, val V' main_v156, val V' main_v158, val V' main_v160, val V' main_v162, val V' main_v164, val V' main_v166, val V' main_v168, val V' main_v170, val V' main_v172⟩ : Cert.RefLayer.Params Ideal))
    (hlayer : ∀ p : Cert.RefLayer.Params Ideal, Cert.RefLayer.v144 p = Cert.Layer.layer p.h p.ea
      (Cert.IndexCol.wrapCol 50000#32 Cert.ReferenceIdeal.Gen.bcast_S_S800000 Cert.ReferenceIdeal.Gen.bcast_S800000_S800000x1_0 p.src)
      (Cert.IndexCol.wrapCol 50000#32 Cert.ReferenceIdeal.Gen.bcast_S_S800000 Cert.ReferenceIdeal.Gen.bcast_S800000_S800000x1_0 p.dst)
      (Cert.IndexCol.col Cert.ReferenceIdeal.Gen.bcast_S800000_S800000x1_0 p.dst)
      p.wq p.wk p.we p.wv p.wo p.bo p.g1 p.be1 p.w1 p.b1 p.w2 p.b2 p.g2 p.be2)
    (X' : (⟨2, ![50000, 64]⟩ : Shape).Idx → EReal) (EA' : (⟨2, ![800000, 64]⟩ : Shape).Idx → EReal)
    (A2' : (⟨2, ![2, 800000]⟩ : Shape).Idx → BitVec 32)
    (A3' A4' A5' A6' A7' : (⟨3, ![2, 64, 64]⟩ : Shape).Idx → EReal) (A8' A9' A10' : (⟨2, ![2, 64]⟩ : Shape).Idx → EReal)
    (A11' : (⟨3, ![2, 64, 128]⟩ : Shape).Idx → EReal) (A12' : (⟨2, ![2, 128]⟩ : Shape).Idx → EReal)
    (A13' : (⟨3, ![2, 128, 64]⟩ : Shape).Idx → EReal) (A14' A15' A16' : (⟨2, ![2, 64]⟩ : Shape).Idx → EReal)
    (hx : val V' main_arg0 = X') (hea : val V' main_arg1 = EA')
    (hs : ∀ e : Fin 800000, val V' main_v1 (ix1 e) = A2' (ix2 (0 : Fin 2) e))
    (hd : ∀ e : Fin 800000, val V' main_v3 (ix1 e) = A2' (ix2 (1 : Fin 2) e))
    (hv5 : ∀ (k : Fin 64) (d : Fin 64), val V' main_v5 (ix2 k d) = A3' (ix3 (0 : Fin 2) k d))
    (hv146 : ∀ (k : Fin 64) (d : Fin 64), val V' main_v146 (ix2 k d) = A3' (ix3 (1 : Fin 2) k d))
    (hv7 : ∀ (k : Fin 64) (d : Fin 64), val V' main_v7 (ix2 k d) = A4' (ix3 (0 : Fin 2) k d))
    (hv148 : ∀ (k : Fin 64) (d : Fin 64), val V' main_v148 (ix2 k d) = A4' (ix3 (1 : Fin 2) k d))
    (hv9 : ∀ (k : Fin 64) (d : Fin 64), val V' main_v9 (ix2 k d) = A5' (ix3 (0 : Fin 2) k d))
    (hv150 : ∀ (k : Fin 64) (d : Fin 64), val V' main_v150 (ix2 k d) = A5' (ix3 (1 : Fin 2) k d))
    (hv11 : ∀ (k : Fin 64) (d : Fin 64), val V' main_v11 (ix2 k d) = A6' (ix3 (0 : Fin 2) k d))
    (hv152 : ∀ (k : Fin 64) (d : Fin 64), val V' main_v152 (ix2 k d) = A6' (ix3 (1 : Fin 2) k d))
    (hv13 : ∀ (k : Fin 64) (d : Fin 64), val V' main_v13 (ix2 k d) = A7' (ix3 (0 : Fin 2) k d))
    (hv154 : ∀ (k : Fin 64) (d : Fin 64), val V' main_v154 (ix2 k d) = A7' (ix3 (1 : Fin 2) k d))
    (hv15 : ∀ (d : Fin 64), val V' main_v15 (ix1 d) = A8' (ix2 (0 : Fin 2) d))
    (hv156 : ∀ (d : Fin 64), val V' main_v156 (ix1 d) = A8' (ix2 (1 : Fin 2) d))
    (hv17 : ∀ (d : Fin 64), val V' main_v17 (ix1 d) = A9' (ix2 (0 : Fin 2) d))
    (hv158 : ∀ (d : Fin 64), val V' main_v158 (ix1 d) = A9' (ix2 (1 : Fin 2) d))
    (hv19 : ∀ (d : Fin 64), val V' main_v19 (ix1 d) = A10' (ix2 (0 : Fin 2) d))
    (hv160 : ∀ (d : Fin 64), val V' main_v160 (ix1 d) = A10' (ix2 (1 : Fin 2) d))
    (hv21 : ∀ (k : Fin 64) (d : Fin 128), val V' main_v21 (ix2 k d) = A11' (ix3 (0 : Fin 2) k d))
    (hv162 : ∀ (k : Fin 64) (d : Fin 128), val V' main_v162 (ix2 k d) = A11' (ix3 (1 : Fin 2) k d))
    (hv23 : ∀ (d : Fin 128), val V' main_v23 (ix1 d) = A12' (ix2 (0 : Fin 2) d))
    (hv164 : ∀ (d : Fin 128), val V' main_v164 (ix1 d) = A12' (ix2 (1 : Fin 2) d))
    (hv25 : ∀ (k : Fin 128) (d : Fin 64), val V' main_v25 (ix2 k d) = A13' (ix3 (0 : Fin 2) k d))
    (hv166 : ∀ (k : Fin 128) (d : Fin 64), val V' main_v166 (ix2 k d) = A13' (ix3 (1 : Fin 2) k d))
    (hv27 : ∀ (d : Fin 64), val V' main_v27 (ix1 d) = A14' (ix2 (0 : Fin 2) d))
    (hv168 : ∀ (d : Fin 64), val V' main_v168 (ix1 d) = A14' (ix2 (1 : Fin 2) d))
    (hv29 : ∀ (d : Fin 64), val V' main_v29 (ix1 d) = A15' (ix2 (0 : Fin 2) d))
    (hv170 : ∀ (d : Fin 64), val V' main_v170 (ix1 d) = A15' (ix2 (1 : Fin 2) d))
    (hv31 : ∀ (d : Fin 64), val V' main_v31 (ix1 d) = A16' (ix2 (0 : Fin 2) d))
    (hv172 : ∀ (d : Fin 64), val V' main_v172 (ix1 d) = A16' (ix2 (1 : Fin 2) d))
    (aX : X' = X) (aEA : EA' = EA) (a2 : A2' = A2) (a3 : A3' = A3) (a4 : A4' = A4) (a5 : A5' = A5) (a6 : A6' = A6) (a7 : A7' = A7) (a8 : A8' = A8) (a9 : A9' = A9) (a10 : A10' = A10) (a11 : A11' = A11) (a12 : A12' = A12) (a13 : A13' = A13) (a14 : A14' = A14) (a15 : A15' = A15) (a16 : A16' = A16) :
    (val V' main_v285 : (⟨2, ![50000, 64]⟩ : Shape).Idx → EReal) = kres := by
  -- the launch arrays agree: from here on there is one copy of each
  subst aX aEA a2 a3 a4 a5 a6 a7 a8 a9 a10 a11 a12 a13 a14 a15 a16
  subst hK
  -- the two endpoint vectors: both programs read the two rows of the same integer array
  have e1 : val V' main_v1 = sv := Cert.GlueLemmas.eq_row 0 A2' _ _ hs hsv
  have e3 : val V' main_v3 = dv := Cert.GlueLemmas.eq_row 1 A2' _ _ hd hdv
  -- the parameter buffers are the layers' slices of the stacked arrays
  have e5 : val V' main_v5 = Cert.KernelIdeal.Wt.mat 0 A3' := Cert.GlueLemmas.eq_mat 0 A3' _ hv5
  have e146 : val V' main_v146 = Cert.KernelIdeal.Wt.mat 1 A3' := Cert.GlueLemmas.eq_mat 1 A3' _ hv146
  have e7 : val V' main_v7 = Cert.KernelIdeal.Wt.mat 0 A4' := Cert.GlueLemmas.eq_mat 0 A4' _ hv7
  have e148 : val V' main_v148 = Cert.KernelIdeal.Wt.mat 1 A4' := Cert.GlueLemmas.eq_mat 1 A4' _ hv148
  have e9 : val V' main_v9 = Cert.KernelIdeal.Wt.mat 0 A5' := Cert.GlueLemmas.eq_mat 0 A5' _ hv9
  have e150 : val V' main_v150 = Cert.KernelIdeal.Wt.mat 1 A5' := Cert.GlueLemmas.eq_mat 1 A5' _ hv150
  have e11 : val V' main_v11 = Cert.KernelIdeal.Wt.mat 0 A6' := Cert.GlueLemmas.eq_mat 0 A6' _ hv11
  have e152 : val V' main_v152 = Cert.KernelIdeal.Wt.mat 1 A6' := Cert.GlueLemmas.eq_mat 1 A6' _ hv152
  have e13 : val V' main_v13 = Cert.KernelIdeal.Wt.mat 0 A7' := Cert.GlueLemmas.eq_mat 0 A7' _ hv13
  have e154 : val V' main_v154 = Cert.KernelIdeal.Wt.mat 1 A7' := Cert.GlueLemmas.eq_mat 1 A7' _ hv154
  have e15 : val V' main_v15 = Cert.KernelIdeal.Wt.vec 0 A8' := Cert.GlueLemmas.eq_vec 0 A8' _ hv15
  have e156 : val V' main_v156 = Cert.KernelIdeal.Wt.vec 1 A8' := Cert.GlueLemmas.eq_vec 1 A8' _ hv156
  have e17 : val V' main_v17 = Cert.KernelIdeal.Wt.vec 0 A9' := Cert.GlueLemmas.eq_vec 0 A9' _ hv17
  have e158 : val V' main_v158 = Cert.KernelIdeal.Wt.vec 1 A9' := Cert.GlueLemmas.eq_vec 1 A9' _ hv158
  have e19 : val V' main_v19 = Cert.KernelIdeal.Wt.vec 0 A10' := Cert.GlueLemmas.eq_vec 0 A10' _ hv19
  have e160 : val V' main_v160 = Cert.KernelIdeal.Wt.vec 1 A10' := Cert.GlueLemmas.eq_vec 1 A10' _ hv160
  have e21 : val V' main_v21 = Cert.KernelIdeal.Wt.mat1 0 A11' := Cert.GlueLemmas.eq_mat1 0 A11' _ hv21
  have e162 : val V' main_v162 = Cert.KernelIdeal.Wt.mat1 1 A11' := Cert.GlueLemmas.eq_mat1 1 A11' _ hv162
  have e23 : val V' main_v23 = Cert.KernelIdeal.Wt.vec1 0 A12' := Cert.GlueLemmas.eq_vec1 0 A12' _ hv23
  have e164 : val V' main_v164 = Cert.KernelIdeal.Wt.vec1 1 A12' := Cert.GlueLemmas.eq_vec1 1 A12' _ hv164
  have e25 : val V' main_v25 = Cert.KernelIdeal.Wt.mat2 0 A13' := Cert.GlueLemmas.eq_mat2 0 A13' _ hv25
  have e166 : val V' main_v166 = Cert.KernelIdeal.Wt.mat2 1 A13' := Cert.GlueLemmas.eq_mat2 1 A13' _ hv166
  have e27 : val V' main_v27 = Cert.KernelIdeal.Wt.vec 0 A14' := Cert.GlueLemmas.eq_vec 0 A14' _ hv27
  have e168 : val V' main_v168 = Cert.KernelIdeal.Wt.vec 1 A14' := Cert.GlueLemmas.eq_vec 1 A14' _ hv168
  have e29 : val V' main_v29 = Cert.KernelIdeal.Wt.vec 0 A15' := Cert.GlueLemmas.eq_vec 0 A15' _ hv29
  have e170 : val V' main_v170 = Cert.KernelIdeal.Wt.vec 1 A15' := Cert.GlueLemmas.eq_vec 1 A15' _ hv170
  have e31 : val V' main_v31 = Cert.KernelIdeal.Wt.vec 0 A16' := Cert.GlueLemmas.eq_vec 0 A16' _ hv31
  have e172 : val V' main_v172 = Cert.KernelIdeal.Wt.vec 1 A16' := Cert.GlueLemmas.eq_vec 1 A16' _ hv172
  -- the two layers, each as the layer function of the buffers it reads
  have l1 := hlayer (⟨val V' main_arg0, val V' main_arg1, val V' main_v1, val V' main_v3, val V' main_v5, val V' main_v7, val V' main_v9, val V' main_v11, val V' main_v13, val V' main_v15, val V' main_v17, val V' main_v19, val V' main_v21, val V' main_v23, val V' main_v25, val V' main_v27, val V' main_v29, val V' main_v31⟩ : Cert.RefLayer.Params Ideal)
  dsimp only at l1
  have l2 := hlayer (⟨val V' main_v144, val V' main_arg1, val V' main_v1, val V' main_v3, val V' main_v146, val V' main_v148, val V' main_v150, val V' main_v152, val V' main_v154, val V' main_v156, val V' main_v158, val V' main_v160, val V' main_v162, val V' main_v164, val V' main_v166, val V' main_v168, val V' main_v170, val V' main_v172⟩ : Cert.RefLayer.Params Ideal)
  dsimp only at l2
  refine (hL2.trans l2).trans ?_
  refine Cert.GlueLemmas.layer_congr ?_ hea (Cert.GlueLemmas.wrapCol_congr _ _ _ _ _ e1) (Cert.GlueLemmas.wrapCol_congr _ _ _ _ _ e3) (Cert.GlueLemmas.col_congr _ _ e3)
    e146 e148 e150 e152 e154 e156 e158 e160 e162 e164 e166 e168 e170 e172
  refine (hL1.trans l1).trans ?_
  exact Cert.GlueLemmas.layer_congr hx hea (Cert.GlueLemmas.wrapCol_congr _ _ _ _ _ e1) (Cert.GlueLemmas.wrapCol_congr _ _ _ _ _ e3) (Cert.GlueLemmas.col_congr _ _ e3)
    e5 e7 e9 e11 e13 e15 e17 e19 e21 e23 e25 e27 e29 e31

end Cert.FinalGlue

end
-- ==== Proof.KChain.lean ====
import proofs.«135486_j17549236371616_1_alg».proof.Proof.Gen.KernelIdeal.Frame
import proofs.«135486_j17549236371616_1_alg».proof.Proof.LibIndexCol

/-! # The data arrays of the six regions, read through the boundary fold

What each region finds in its data windows when it is entered, in terms of the arrays the earlier regions left and the
launch memory: the node and edge features are the arguments, untouched by everything before; a gathered window is the
row gather of the previous projection region's output at the source (or destination) index column, negative entries
wrapped; a segment-sum window is the accumulating row scatter of the previous edge region's output into zeros at the
destination column; the second layer's node features are the first layer's node-update output.  The index vectors
themselves are the two rows of the edge list, sliced once before the first region and never written again. -/

set_option maxRecDepth 16384

noncomputable section

namespace Cert.KernelIdeal.Chain

open Cert.KernelIdeal Cert.KernelIdeal.Gen Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- A buffer that a stretch of host operations does not write keeps its contents across it. -/
macro "carry_host" : tactic =>
  `(tactic| (refine StableHlo.after_of_forall_not_mem _ _ (List.forall_iff_forall_mem.mp ?_)
             simp only [hostOps0, hostOps1, hostOps2, hostOps3, hostOps4, hostOps5, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## The index vectors and the feature arguments at every boundary where they are read -/

theorem W2_v1 : W2 m ρ c (Proc.devRef .tc main_v1) = W1 m ρ c (Proc.devRef .tc main_v1) := (W2_of_ne m ρ c main_v1 (by decide))
theorem W2_v3 : W2 m ρ c (Proc.devRef .tc main_v3) = W1 m ρ c (Proc.devRef .tc main_v3) := (W2_of_ne m ρ c main_v3 (by decide))
theorem W4_v3 : W4 m ρ c (Proc.devRef .tc main_v3) = W1 m ρ c (Proc.devRef .tc main_v3) := (((W4_of_ne m ρ c main_v3 (by decide)).trans (by carry_host : W3 m ρ c (Proc.devRef .tc main_v3) = W2 m ρ c (Proc.devRef .tc main_v3))).trans (W2_of_ne m ρ c main_v3 (by decide)))
theorem W8_v1 : W8 m ρ c (Proc.devRef .tc main_v1) = W1 m ρ c (Proc.devRef .tc main_v1) := (((((((W8_of_ne m ρ c main_v1 (by decide)).trans (by carry_host : W7 m ρ c (Proc.devRef .tc main_v1) = W6 m ρ c (Proc.devRef .tc main_v1))).trans (W6_of_ne m ρ c main_v1 (by decide))).trans (by carry_host : W5 m ρ c (Proc.devRef .tc main_v1) = W4 m ρ c (Proc.devRef .tc main_v1))).trans (W4_of_ne m ρ c main_v1 (by decide))).trans (by carry_host : W3 m ρ c (Proc.devRef .tc main_v1) = W2 m ρ c (Proc.devRef .tc main_v1))).trans (W2_of_ne m ρ c main_v1 (by decide)))
theorem W8_v3 : W8 m ρ c (Proc.devRef .tc main_v3) = W1 m ρ c (Proc.devRef .tc main_v3) := (((((((W8_of_ne m ρ c main_v3 (by decide)).trans (by carry_host : W7 m ρ c (Proc.devRef .tc main_v3) = W6 m ρ c (Proc.devRef .tc main_v3))).trans (W6_of_ne m ρ c main_v3 (by decide))).trans (by carry_host : W5 m ρ c (Proc.devRef .tc main_v3) = W4 m ρ c (Proc.devRef .tc main_v3))).trans (W4_of_ne m ρ c main_v3 (by decide))).trans (by carry_host : W3 m ρ c (Proc.devRef .tc main_v3) = W2 m ρ c (Proc.devRef .tc main_v3))).trans (W2_of_ne m ρ c main_v3 (by decide)))
theorem W10_v3 : W10 m ρ c (Proc.devRef .tc main_v3) = W1 m ρ c (Proc.devRef .tc main_v3) := (((((((((W10_of_ne m ρ c main_v3 (by decide)).trans (by carry_host : W9 m ρ c (Proc.devRef .tc main_v3) = W8 m ρ c (Proc.devRef .tc main_v3))).trans (W8_of_ne m ρ c main_v3 (by decide))).trans (by carry_host : W7 m ρ c (Proc.devRef .tc main_v3) = W6 m ρ c (Proc.devRef .tc main_v3))).trans (W6_of_ne m ρ c main_v3 (by decide))).trans (by carry_host : W5 m ρ c (Proc.devRef .tc main_v3) = W4 m ρ c (Proc.devRef .tc main_v3))).trans (W4_of_ne m ρ c main_v3 (by decide))).trans (by carry_host : W3 m ρ c (Proc.devRef .tc main_v3) = W2 m ρ c (Proc.devRef .tc main_v3))).trans (W2_of_ne m ρ c main_v3 (by decide)))

theorem W1_arg0 : W1 m ρ c (Proc.devRef .tc main_arg0) = m ((c : Thread nD τ).loc main_arg0) := (by carry_host : W1 m ρ c (Proc.devRef .tc main_arg0) = W0 m ρ c (Proc.devRef .tc main_arg0))
theorem W3_arg1 : W3 m ρ c (Proc.devRef .tc main_arg1) = m ((c : Thread nD τ).loc main_arg1) := (((by carry_host : W3 m ρ c (Proc.devRef .tc main_arg1) = W2 m ρ c (Proc.devRef .tc main_arg1)).trans (W2_of_ne m ρ c main_arg1 (by decide))).trans (by carry_host : W1 m ρ c (Proc.devRef .tc main_arg1) = W0 m ρ c (Proc.devRef .tc main_arg1)))
theorem W9_arg1 : W9 m ρ c (Proc.devRef .tc main_arg1) = m ((c : Thread nD τ).loc main_arg1) :=
  (((((by carry_host : W9 m ρ c (Proc.devRef .tc main_arg1) = W8 m ρ c (Proc.devRef .tc main_arg1)).trans (W8_of_ne m ρ c main_arg1 (by decide))).trans (by carry_host : W7 m ρ c (Proc.devRef .tc main_arg1) = W6 m ρ c (Proc.devRef .tc main_arg1))).trans (W6_of_ne m ρ c main_arg1 (by decide))).trans (by carry_host : W5 m ρ c (Proc.devRef .tc main_arg1) = W4 m ρ c (Proc.devRef .tc main_arg1))).trans ((W4_arr m ρ c 0).trans (((dat1 (V3 m ρ) c).arrAt_in 0 rfl _).trans ((A_eq1 (V3 m ρ) c 0).trans (W3_arg1 m ρ c))))

/-! ## The first layer's windows -/

set_option maxHeartbeats 4000000 in
theorem W3_Ks : W3 m ρ c (Proc.devRef .tc main_v17)
    = Host.gather gather_S50000x64_S800000x1_S800000x64_1_0_n_n_0_1_164 ((dat0 (V1 m ρ) c).arrAt 5 cfg0.N) (Cert.IndexCol.wrapCol 50000#32 bcast_S_S800000 bcast_S800000_S800000x1_0 (W1 m ρ c (Proc.devRef .tc main_v1))) := by
  have h : W3 m ρ c (Proc.devRef .tc main_v17) = Host.gather gather_S50000x64_S800000x1_S800000x64_1_0_n_n_0_1_164 (W2 m ρ c (Proc.devRef .tc main_v10_1)) (Cert.IndexCol.wrapCol 50000#32 bcast_S_S800000 bcast_S800000_S800000x1_0 (W2 m ρ c (Proc.devRef .tc main_v1))) := by
    show StableHlo.after hostOps1 (W2 m ρ c) (Proc.devRef .tc main_v17) = _
    generalize W2 m ρ c = W
    after_results
    rfl
  rw [h, W2_v1 m ρ c, show (W2 m ρ c (Proc.devRef .tc main_v10_1)) = _ from W2_arr m ρ c 5]
set_option maxHeartbeats 4000000 in
theorem W3_Qd : W3 m ρ c (Proc.devRef .tc main_v24)
    = Host.gather gather_S50000x64_S800000x1_S800000x64_1_0_n_n_0_1_164 ((dat0 (V1 m ρ) c).arrAt 4 cfg0.N) (Cert.IndexCol.wrapCol 50000#32 bcast_S_S800000 bcast_S800000_S800000x1_0 (W1 m ρ c (Proc.devRef .tc main_v3))) := by
  have h : W3 m ρ c (Proc.devRef .tc main_v24) = Host.gather gather_S50000x64_S800000x1_S800000x64_1_0_n_n_0_1_164 (W2 m ρ c (Proc.devRef .tc main_v10_0)) (Cert.IndexCol.wrapCol 50000#32 bcast_S_S800000 bcast_S800000_S800000x1_0 (W2 m ρ c (Proc.devRef .tc main_v3))) := by
    show StableHlo.after hostOps1 (W2 m ρ c) (Proc.devRef .tc main_v24) = _
    generalize W2 m ρ c = W
    after_results
    rfl
  rw [h, W2_v3 m ρ c, show (W2 m ρ c (Proc.devRef .tc main_v10_0)) = _ from W2_arr m ρ c 4]
set_option maxHeartbeats 4000000 in
theorem W3_Vs : W3 m ρ c (Proc.devRef .tc main_v31)
    = Host.gather gather_S50000x64_S800000x1_S800000x64_1_0_n_n_0_1_164 ((dat0 (V1 m ρ) c).arrAt 6 cfg0.N) (Cert.IndexCol.wrapCol 50000#32 bcast_S_S800000 bcast_S800000_S800000x1_0 (W1 m ρ c (Proc.devRef .tc main_v1))) := by
  have h : W3 m ρ c (Proc.devRef .tc main_v31) = Host.gather gather_S50000x64_S800000x1_S800000x64_1_0_n_n_0_1_164 (W2 m ρ c (Proc.devRef .tc main_v10_2)) (Cert.IndexCol.wrapCol 50000#32 bcast_S_S800000 bcast_S800000_S800000x1_0 (W2 m ρ c (Proc.devRef .tc main_v1))) := by
    show StableHlo.after hostOps1 (W2 m ρ c) (Proc.devRef .tc main_v31) = _
    generalize W2 m ρ c = W
    after_results
    rfl
  rw [h, W2_v1 m ρ c, show (W2 m ρ c (Proc.devRef .tc main_v10_2)) = _ from W2_arr m ρ c 6]

theorem W5_arg0 : W5 m ρ c (Proc.devRef .tc main_arg0) = m ((c : Thread nD τ).loc main_arg0) :=
  (((by carry_host : W5 m ρ c (Proc.devRef .tc main_arg0) = W4 m ρ c (Proc.devRef .tc main_arg0)).trans (W4_of_ne m ρ c main_arg0 (by decide))).trans (by carry_host : W3 m ρ c (Proc.devRef .tc main_arg0) = W2 m ρ c (Proc.devRef .tc main_arg0))).trans ((W2_arr m ρ c 0).trans (((dat0 (V1 m ρ) c).arrAt_in 0 rfl _).trans ((A_eq0 (V1 m ρ) c 0).trans (W1_arg0 m ρ c))))

set_option maxHeartbeats 4000000 in
theorem W5_wV : W5 m ρ c (Proc.devRef .tc main_v37)
    = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat1 (V3 m ρ) c).arrAt 7 cfg1.N) := by
  have h : W5 m ρ c (Proc.devRef .tc main_v37) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W4 m ρ c (Proc.devRef .tc main_v3))) (W4 m ρ c (Proc.devRef .tc main_v34_0)) := by
    show StableHlo.after hostOps2 (W4 m ρ c) (Proc.devRef .tc main_v37) = _
    generalize W4 m ρ c = W
    after_results
    rfl
  rw [h, W4_v3 m ρ c, show (W4 m ρ c (Proc.devRef .tc main_v34_0)) = _ from W4_arr m ρ c 7]
set_option maxHeartbeats 4000000 in
theorem W5_Z : W5 m ρ c (Proc.devRef .tc main_v40)
    = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat1 (V3 m ρ) c).arrAt 8 cfg1.N) := by
  have h : W5 m ρ c (Proc.devRef .tc main_v40) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W4 m ρ c (Proc.devRef .tc main_v3))) (W4 m ρ c (Proc.devRef .tc main_v34_1)) := by
    show StableHlo.after hostOps2 (W4 m ρ c) (Proc.devRef .tc main_v40) = _
    generalize W4 m ρ c = W
    after_results
    rfl
  rw [h, W4_v3 m ρ c, show (W4 m ρ c (Proc.devRef .tc main_v34_1)) = _ from W4_arr m ρ c 8]

/-! ## The second layer's windows -/

theorem W7_h : W7 m ρ c (Proc.devRef .tc main_v61) = (dat2 (V5 m ρ) c).arrAt 13 cfg2.N :=
  (by carry_host : W7 m ρ c (Proc.devRef .tc main_v61) = W6 m ρ c (Proc.devRef .tc main_v61)).trans (W6_arr m ρ c 13)

set_option maxHeartbeats 4000000 in
theorem W9_Ks : W9 m ρ c (Proc.devRef .tc main_v75)
    = Host.gather gather_S50000x64_S800000x1_S800000x64_1_0_n_n_0_1_164 ((dat3 (V7 m ρ) c).arrAt 5 cfg3.N) (Cert.IndexCol.wrapCol 50000#32 bcast_S_S800000 bcast_S800000_S800000x1_0 (W1 m ρ c (Proc.devRef .tc main_v1))) := by
  have h : W9 m ρ c (Proc.devRef .tc main_v75) = Host.gather gather_S50000x64_S800000x1_S800000x64_1_0_n_n_0_1_164 (W8 m ρ c (Proc.devRef .tc main_v68_1)) (Cert.IndexCol.wrapCol 50000#32 bcast_S_S800000 bcast_S800000_S800000x1_0 (W8 m ρ c (Proc.devRef .tc main_v1))) := by
    show StableHlo.after hostOps4 (W8 m ρ c) (Proc.devRef .tc main_v75) = _
    generalize W8 m ρ c = W
    after_results
    rfl
  rw [h, W8_v1 m ρ c, show (W8 m ρ c (Proc.devRef .tc main_v68_1)) = _ from W8_arr m ρ c 5]
set_option maxHeartbeats 4000000 in
theorem W9_Qd : W9 m ρ c (Proc.devRef .tc main_v82)
    = Host.gather gather_S50000x64_S800000x1_S800000x64_1_0_n_n_0_1_164 ((dat3 (V7 m ρ) c).arrAt 4 cfg3.N) (Cert.IndexCol.wrapCol 50000#32 bcast_S_S800000 bcast_S800000_S800000x1_0 (W1 m ρ c (Proc.devRef .tc main_v3))) := by
  have h : W9 m ρ c (Proc.devRef .tc main_v82) = Host.gather gather_S50000x64_S800000x1_S800000x64_1_0_n_n_0_1_164 (W8 m ρ c (Proc.devRef .tc main_v68_0)) (Cert.IndexCol.wrapCol 50000#32 bcast_S_S800000 bcast_S800000_S800000x1_0 (W8 m ρ c (Proc.devRef .tc main_v3))) := by
    show StableHlo.after hostOps4 (W8 m ρ c) (Proc.devRef .tc main_v82) = _
    generalize W8 m ρ c = W
    after_results
    rfl
  rw [h, W8_v3 m ρ c, show (W8 m ρ c (Proc.devRef .tc main_v68_0)) = _ from W8_arr m ρ c 4]
set_option maxHeartbeats 4000000 in
theorem W9_Vs : W9 m ρ c (Proc.devRef .tc main_v89)
    = Host.gather gather_S50000x64_S800000x1_S800000x64_1_0_n_n_0_1_164 ((dat3 (V7 m ρ) c).arrAt 6 cfg3.N) (Cert.IndexCol.wrapCol 50000#32 bcast_S_S800000 bcast_S800000_S800000x1_0 (W1 m ρ c (Proc.devRef .tc main_v1))) := by
  have h : W9 m ρ c (Proc.devRef .tc main_v89) = Host.gather gather_S50000x64_S800000x1_S800000x64_1_0_n_n_0_1_164 (W8 m ρ c (Proc.devRef .tc main_v68_2)) (Cert.IndexCol.wrapCol 50000#32 bcast_S_S800000 bcast_S800000_S800000x1_0 (W8 m ρ c (Proc.devRef .tc main_v1))) := by
    show StableHlo.after hostOps4 (W8 m ρ c) (Proc.devRef .tc main_v89) = _
    generalize W8 m ρ c = W
    after_results
    rfl
  rw [h, W8_v1 m ρ c, show (W8 m ρ c (Proc.devRef .tc main_v68_2)) = _ from W8_arr m ρ c 6]

theorem W11_h : W11 m ρ c (Proc.devRef .tc main_v61) = (dat2 (V5 m ρ) c).arrAt 13 cfg2.N :=
  (((by carry_host : W11 m ρ c (Proc.devRef .tc main_v61) = W10 m ρ c (Proc.devRef .tc main_v61)).trans (W10_of_ne m ρ c main_v61 (by decide))).trans (by carry_host : W9 m ρ c (Proc.devRef .tc main_v61) = W8 m ρ c (Proc.devRef .tc main_v61))).trans ((W8_arr m ρ c 0).trans (((dat3 (V7 m ρ) c).arrAt_in 0 rfl _).trans ((A_eq3 (V7 m ρ) c 0).trans (W7_h m ρ c))))

set_option maxHeartbeats 4000000 in
theorem W11_wV : W11 m ρ c (Proc.devRef .tc main_v95)
    = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat4 (V9 m ρ) c).arrAt 7 cfg4.N) := by
  have h : W11 m ρ c (Proc.devRef .tc main_v95) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W10 m ρ c (Proc.devRef .tc main_v3))) (W10 m ρ c (Proc.devRef .tc main_v92_0)) := by
    show StableHlo.after hostOps5 (W10 m ρ c) (Proc.devRef .tc main_v95) = _
    generalize W10 m ρ c = W
    after_results
    rfl
  rw [h, W10_v3 m ρ c, show (W10 m ρ c (Proc.devRef .tc main_v92_0)) = _ from W10_arr m ρ c 7]
set_option maxHeartbeats 4000000 in
theorem W11_Z : W11 m ρ c (Proc.devRef .tc main_v98)
    = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat4 (V9 m ρ) c).arrAt 8 cfg4.N) := by
  have h : W11 m ρ c (Proc.devRef .tc main_v98) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W10 m ρ c (Proc.devRef .tc main_v3))) (W10 m ρ c (Proc.devRef .tc main_v92_1)) := by
    show StableHlo.after hostOps5 (W10 m ρ c) (Proc.devRef .tc main_v98) = _
    generalize W10 m ρ c = W
    after_results
    rfl
  rw [h, W10_v3 m ρ c, show (W10 m ρ c (Proc.devRef .tc main_v92_1)) = _ from W10_arr m ρ c 8]

/-- The program's result: the second layer's node-update output. -/
theorem W12_result : W12 m ρ c (Proc.devRef .tc main_v119) = (dat5 (V11 m ρ) c).arrAt 13 cfg5.N := W12_arr m ρ c 13

/-! ## The same facts, stated at the regions' windows -/

theorem V1_w0 : V1 m ρ c (Pipeline.arrRef spec0 0) = m ((c : Thread nD τ).loc main_arg0) := W1_arg0 m ρ c
theorem V3_w0 : V3 m ρ c (Pipeline.arrRef spec1 0) = m ((c : Thread nD τ).loc main_arg1) := W3_arg1 m ρ c
theorem V3_w1 : V3 m ρ c (Pipeline.arrRef spec1 1) = Host.gather gather_S50000x64_S800000x1_S800000x64_1_0_n_n_0_1_164 ((dat0 (V1 m ρ) c).arrAt 5 cfg0.N) (Cert.IndexCol.wrapCol 50000#32 bcast_S_S800000 bcast_S800000_S800000x1_0 (W1 m ρ c (Proc.devRef .tc main_v1))) := W3_Ks m ρ c
theorem V3_w2 : V3 m ρ c (Pipeline.arrRef spec1 2) = Host.gather gather_S50000x64_S800000x1_S800000x64_1_0_n_n_0_1_164 ((dat0 (V1 m ρ) c).arrAt 4 cfg0.N) (Cert.IndexCol.wrapCol 50000#32 bcast_S_S800000 bcast_S800000_S800000x1_0 (W1 m ρ c (Proc.devRef .tc main_v3))) := W3_Qd m ρ c
theorem V3_w3 : V3 m ρ c (Pipeline.arrRef spec1 3) = Host.gather gather_S50000x64_S800000x1_S800000x64_1_0_n_n_0_1_164 ((dat0 (V1 m ρ) c).arrAt 6 cfg0.N) (Cert.IndexCol.wrapCol 50000#32 bcast_S_S800000 bcast_S800000_S800000x1_0 (W1 m ρ c (Proc.devRef .tc main_v1))) := W3_Vs m ρ c
theorem V5_w0 : V5 m ρ c (Pipeline.arrRef spec2 0) = m ((c : Thread nD τ).loc main_arg0) := W5_arg0 m ρ c
theorem V5_w1 : V5 m ρ c (Pipeline.arrRef spec2 1) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat1 (V3 m ρ) c).arrAt 7 cfg1.N) := W5_wV m ρ c
theorem V5_w2 : V5 m ρ c (Pipeline.arrRef spec2 2) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat1 (V3 m ρ) c).arrAt 8 cfg1.N) := W5_Z m ρ c
theorem V7_w0 : V7 m ρ c (Pipeline.arrRef spec3 0) = (dat2 (V5 m ρ) c).arrAt 13 cfg2.N := W7_h m ρ c
theorem V9_w0 : V9 m ρ c (Pipeline.arrRef spec4 0) = m ((c : Thread nD τ).loc main_arg1) := W9_arg1 m ρ c
theorem V9_w1 : V9 m ρ c (Pipeline.arrRef spec4 1) = Host.gather gather_S50000x64_S800000x1_S800000x64_1_0_n_n_0_1_164 ((dat3 (V7 m ρ) c).arrAt 5 cfg3.N) (Cert.IndexCol.wrapCol 50000#32 bcast_S_S800000 bcast_S800000_S800000x1_0 (W1 m ρ c (Proc.devRef .tc main_v1))) := W9_Ks m ρ c
theorem V9_w2 : V9 m ρ c (Pipeline.arrRef spec4 2) = Host.gather gather_S50000x64_S800000x1_S800000x64_1_0_n_n_0_1_164 ((dat3 (V7 m ρ) c).arrAt 4 cfg3.N) (Cert.IndexCol.wrapCol 50000#32 bcast_S_S800000 bcast_S800000_S800000x1_0 (W1 m ρ c (Proc.devRef .tc main_v3))) := W9_Qd m ρ c
theorem V9_w3 : V9 m ρ c (Pipeline.arrRef spec4 3) = Host.gather gather_S50000x64_S800000x1_S800000x64_1_0_n_n_0_1_164 ((dat3 (V7 m ρ) c).arrAt 6 cfg3.N) (Cert.IndexCol.wrapCol 50000#32 bcast_S_S800000 bcast_S800000_S800000x1_0 (W1 m ρ c (Proc.devRef .tc main_v1))) := W9_Vs m ρ c
theorem V11_w0 : V11 m ρ c (Pipeline.arrRef spec5 0) = (dat2 (V5 m ρ) c).arrAt 13 cfg2.N := W11_h m ρ c
theorem V11_w1 : V11 m ρ c (Pipeline.arrRef spec5 1) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat4 (V9 m ρ) c).arrAt 7 cfg4.N) := W11_wV m ρ c
theorem V11_w2 : V11 m ρ c (Pipeline.arrRef spec5 2) = Host.scatterAdd (F := Ideal) scatter_S50000x64_S800000x1_S800000x64_1_0_0_1 (broadcastInDim S50000x64 ![] bcast_S_S50000x64 (constant (F := Ideal) S_ .f32 0x00000000#32)) (Cert.IndexCol.col bcast_S800000_S800000x1_0 (W1 m ρ c (Proc.devRef .tc main_v3))) ((dat4 (V9 m ρ) c).arrAt 8 cfg4.N) := W11_Z m ρ c

end Cert.KernelIdeal.Chain

end
-- ==== Proof.KEdgeMatmul.lean ====
/- A `tpu.matmul` of an [m, k] block by a [k, n] block into the zero splat, read at an entry over the extended reals:
   entry (a, b) is the sum over the contracted coordinate c of A (a, c) · B (c, b) — the dimension numbers that contract the
   left operand's columns with the right operand's rows and carry no batch axis.  The contraction index is its one
   coordinate (re-indexed through `contrEquiv1`), and the operand indices at it are (a, c) and (c, b). -/
import Idealize.ShloMosaic.PureOps.Ideal.Laws
import Idealize.ShloMosaic.Lib.ValueIdx

noncomputable section

open scoped BigOperators

namespace Cert.EdgeMatmul

open Idealize.ShloMosaic Idealize.ShloMosaic.ValueIdx

/-- The rows-by-columns product into the zero accumulator, at entry `(a, b)`. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.EdgeMatmul

end
-- ==== Proof.KEdge1Pay.lean ====
/- The edge kernel's two payloads at an entry of the block, over the extended reals: the score payload at (p, q) is
   the spread score `Cert.EdgeSpec.scf` of the six loaded blocks at row p, column q, and the message payload is the
   value block's entry times it (`Cert.EdgeSpec.msg`).  The format changes to bf16 are the identity on extended
   reals, the same-shape casts are the identity, every pointwise operation reads entry by entry, and each of the three
   block products is the sum over its contracted coordinate of the products of the operands' entries. -/
import proofs.«135486_j17549236371616_1_alg».proof.Proof.Gen.KernelIdeal.Skeleton
import proofs.«135486_j17549236371616_1_alg».proof.Proof.KEdgeSpec
import proofs.«135486_j17549236371616_1_alg».proof.Proof.KEdgeMatmul
import Idealize.ShloMosaic.Lib.Pipeline.Value
import Idealize.ShloMosaic.Lib.ValueIdx

set_option maxRecDepth 16384

noncomputable section

namespace Cert.KernelIdeal.Edge1

open Cert.KernelIdeal Cert.KernelIdeal.Gen
open Idealize.ShloMosaic Idealize.ShloMosaic.ValueIdx

/-- The score payload at entry `(p, q)` of the block. -/
theorem pay1_apply (x0 : Vec Ideal S6400x64 .f32) (x4 : Vec Ideal S64x64 .f32) (x1 x2 : Vec Ideal S6400x64 .f32)
    (x5 : Vec Ideal S64x4 .f32) (x6 : Vec Ideal S4x64 .f32) (p : Fin 6400) (q : Fin 64) :
    k1_pay1 (F := Ideal) x0 x4 x1 x2 x5 x6 (ix2 p q) = Cert.EdgeSpec.scf x0 x1 x2 x4 x5 x6 p q := by
  unfold k1_pay1
  simp only [shapeCast_self]
  refine (Cert.EdgeMatmul.matmul_rc_apply _ none _ _ p q).trans ?_
  unfold Cert.EdgeSpec.scf
  refine Finset.sum_congr rfl fun h _ => ?_
  refine congrArg (· * x6 (ix2 h q)) ?_
  unfold Cert.EdgeSpec.sc
  refine congrArg (fun z => Ideal.exp (min (Ideal.ofBits .f32 0x40A00000#32) (max (Ideal.ofBits .f32 0xC0A00000#32)
    (z * Ideal.ofBits .f32 0x3E800000#32)))) ?_
  refine (Cert.EdgeMatmul.matmul_rc_apply _ none _ _ p h).trans ?_
  unfold Cert.EdgeSpec.s
  refine Finset.sum_congr rfl fun d _ => ?_
  refine congrArg (· * x5 (ix2 d h)) ?_
  unfold Cert.EdgeSpec.prod
  refine congrArg ((x1 (ix2 p d) * x2 (ix2 p d)) * ·) ?_
  exact (Cert.EdgeMatmul.matmul_rc_apply _ none _ _ p d).trans rfl

/-- The message payload at entry `(p, q)` of the block. -/
theorem pay2_apply (x0 : Vec Ideal S6400x64 .f32) (x4 : Vec Ideal S64x64 .f32) (x1 x2 x3 : Vec Ideal S6400x64 .f32)
    (x5 : Vec Ideal S64x4 .f32) (x6 : Vec Ideal S4x64 .f32) (p : Fin 6400) (q : Fin 64) :
    k1_pay2 (F := Ideal) x0 x4 x1 x2 x3 x5 x6 (ix2 p q) = Cert.EdgeSpec.msg x0 x1 x2 x3 x4 x5 x6 p q := by
  unfold k1_pay2
  simp only [shapeCast_self]
  unfold Cert.EdgeSpec.msg
  exact congrArg (x3 (ix2 p q) * ·) (pay1_apply x0 x4 x1 x2 x5 x6 p q)

end Cert.KernelIdeal.Edge1

end
-- ==== Proof.KEdge1Blk.lean ====
/- The edge kernel's blocks, over the extended reals.  The grid has 125 points; point t works on rows
   6400·t … 6400·t + 6399 of the four edge arrays and of both outputs (block index t along the rows, 0 along the 64
   columns: decided over the grid, `idx_facts`), and on the whole of the three small matrices (block index 0 on both
   axes), so those three windows' blocks ARE the matrices (`iblk_4`, `iblk_5`, `iblk_6`).  The two payloads as functions of the
   block index are the score and message arrays of the loaded blocks (`pay1_fn`, `pay2_fn`). -/
import proofs.«135486_j17549236371616_1_alg».proof.Proof.Gen.KernelIdeal.Frame
import proofs.«135486_j17549236371616_1_alg».proof.Proof.KEdge1Pay
import Idealize.ShloMosaic.Lib.Pipeline.Value
import Idealize.ShloMosaic.Lib.ValueIdx

set_option maxRecDepth 16384

noncomputable section

namespace Cert.KernelIdeal.Edge1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The score payload as a function of the block index. -/
theorem pay1_fn (x0 : Vec Ideal S6400x64 .f32) (x4 : Vec Ideal S64x64 .f32) (x1 x2 : Vec Ideal S6400x64 .f32)
    (x5 : Vec Ideal S64x4 .f32) (x6 : Vec Ideal S4x64 .f32) :
    k1_pay1 (F := Ideal) x0 x4 x1 x2 x5 x6 = Cert.EdgeSpec.scfA x0 x1 x2 x4 x5 x6 := by
  funext j
  obtain ⟨p, q, rfl⟩ : ∃ (p : Fin 6400) (q : Fin 64), j = ix2 p q := ⟨j 0, j 1, eq_ix2 j⟩
  exact pay1_apply x0 x4 x1 x2 x5 x6 p q

/-- The message payload as a function of the block index. -/
theorem pay2_fn (x0 : Vec Ideal S6400x64 .f32) (x4 : Vec Ideal S64x64 .f32) (x1 x2 x3 : Vec Ideal S6400x64 .f32)
    (x5 : Vec Ideal S64x4 .f32) (x6 : Vec Ideal S4x64 .f32) :
    k1_pay2 (F := Ideal) x0 x4 x1 x2 x3 x5 x6 = Cert.EdgeSpec.msgA x0 x1 x2 x3 x4 x5 x6 := by
  funext j
  obtain ⟨p, q, rfl⟩ : ∃ (p : Fin 6400) (q : Fin 64), j = ix2 p q := ⟨j 0, j 1, eq_ix2 j⟩
  exact pay2_apply x0 x4 x1 x2 x3 x5 x6 p q

/-- The printed index maps, decided over the 125 points: the four edge windows and the two outputs are at block
    (t, 0), the three small matrices at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- The whole-matrix windows' blocks are the matrices. -/
theorem iblk_4 (c : Dev nD) (t : Fin cfg1.N) : (iblk1 V c 4 t : Vec Ideal S64x64 .f32) = V c (Pipeline.arrRef spec1 4) := by
  obtain ⟨-, -, -, -, ⟨e0, e1⟩, -⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem iblk_5 (c : Dev nD) (t : Fin cfg1.N) : (iblk1 V c 5 t : Vec Ideal S64x4 .f32) = V c (Pipeline.arrRef spec1 5) := by
  obtain ⟨-, -, -, -, -, ⟨e0, e1⟩, -⟩ := idx_facts t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 4 + 1 * (y 1).val = (y 1).val; omega

theorem iblk_6 (c : Dev nD) (t : Fin cfg1.N) : (iblk1 V c 6 t : Vec Ideal S4x64 .f32) = V c (Pipeline.arrRef spec1 6) := by
  obtain ⟨-, -, -, -, -, -, ⟨e0, e1⟩, -⟩ := idx_facts t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 4 + 1 * (y 0).val = (y 0).val; omega
  | ⟨1, _⟩ => show win1_6.index t (1 : Fin 2) * 64 + 1 * (y 1).val = (y 1).val; omega

end Cert.KernelIdeal.Edge1

end
-- ==== Proof.KEdge1Msg.lean ====
/- The edge kernel's message array after its pipeline has run, over the extended reals, as a function of the seven
   arrays it reads as the region finds them: `Cert.EdgeSpec.msgA` of them.  What point t writes back is rows 6400·t … of
   that function, because an entry of it reads its own row of the edge arrays only and the point's blocks are those rows;
   and the 125 blocks cover the 800000 rows: row r is in the block of point r / 6400. -/
import proofs.«135486_j17549236371616_1_alg».proof.Proof.KEdge1Blk

set_option maxRecDepth 16384

noncomputable section

namespace Cert.KernelIdeal.Edge1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

-- the result functions stay folded while a block read is compared with them
attribute [local irreducible] Cert.EdgeSpec.scfA Cert.EdgeSpec.msgA

/-! ## What a point writes back -/

set_option maxHeartbeats 1000000 in
/-- WHAT POINT `t` WRITES BACK into the message array is block `t` of the message function of the entry arrays. -/
theorem flushed7_eq (c : Dev nD) (t : Fin cfg1.N) :
    (dat1 (F := Ideal) V c).flushed 7 t = ((cfg1.win 7).blk t).view.read (Elt Ideal)
      (Cert.EdgeSpec.msgA (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero hz]
  simp only [View.ld_unit_zero (S := S6400x64) hz, View.ld_unit_zero (S := S64x64) hz, View.ld_unit_zero (S := S64x4) hz,
    View.ld_unit_zero (S := S4x64) hz]
  obtain ⟨⟨a0, b0⟩, ⟨a1, b1⟩, ⟨a2, b2⟩, ⟨a3, b3⟩, -, -, -, ⟨a7, b7⟩, -⟩ := idx_facts t
  funext j
  show k1_pay2 (F := Ideal) (iblk1 V c 0 t) (iblk1 V c 4 t) (iblk1 V c 1 t) (iblk1 V c 2 t) (iblk1 V c 3 t) (iblk1 V c 5 t) (iblk1 V c 6 t) j
    = Cert.EdgeSpec.msgA (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (((cfg1.win 7).blk t).view.emb j)
  refine (congrFun (pay2_fn (iblk1 V c 0 t) (iblk1 V c 4 t) (iblk1 V c 1 t) (iblk1 V c 2 t) (iblk1 V c 3 t) (iblk1 V c 5 t) (iblk1 V c 6 t)) j).trans ?_
  exact Cert.EdgeSpec.msgA_block (N := 6400) (M := 800000) (V c (Pipeline.arrRef spec1 0)) (V c (Pipeline.arrRef spec1 1)) (V c (Pipeline.arrRef spec1 2)) (V c (Pipeline.arrRef spec1 3))
    (iblk1 V c 0 t) (iblk1 V c 1 t) (iblk1 V c 2 t) (iblk1 V c 3 t) (iblk1 V c 4 t) (V c (Pipeline.arrRef spec1 4)) (iblk1 V c 5 t) (V c (Pipeline.arrRef spec1 5)) (iblk1 V c 6 t) (V c (Pipeline.arrRef spec1 6))
    (((cfg1.win 0).blk t).view.emb) (((cfg1.win 1).blk t).view.emb) (((cfg1.win 2).blk t).view.emb) (((cfg1.win 3).blk t).view.emb) (((cfg1.win 7).blk t).view.emb) (t.val * 6400)
    (fun y => ⟨(show win1_0.index t (0 : Fin 2) * 6400 + 1 * (y 0).val = t.val * 6400 + (y 0).val by omega),
      (show win1_0.index t (1 : Fin 2) * 64 + 1 * (y 1).val = (y 1).val by omega)⟩)
    (fun y => ⟨(show win1_1.index t (0 : Fin 2) * 6400 + 1 * (y 0).val = t.val * 6400 + (y 0).val by omega),
      (show win1_1.index t (1 : Fin 2) * 64 + 1 * (y 1).val = (y 1).val by omega)⟩)
    (fun y => ⟨(show win1_2.index t (0 : Fin 2) * 6400 + 1 * (y 0).val = t.val * 6400 + (y 0).val by omega),
      (show win1_2.index t (1 : Fin 2) * 64 + 1 * (y 1).val = (y 1).val by omega)⟩)
    (fun y => ⟨(show win1_3.index t (0 : Fin 2) * 6400 + 1 * (y 0).val = t.val * 6400 + (y 0).val by omega),
      (show win1_3.index t (1 : Fin 2) * 64 + 1 * (y 1).val = (y 1).val by omega)⟩)
    (fun y => ⟨(show win1_7.index t (0 : Fin 2) * 6400 + 1 * (y 0).val = t.val * 6400 + (y 0).val by omega),
      (show win1_7.index t (1 : Fin 2) * 64 + 1 * (y 1).val = (y 1).val by omega)⟩)
    (fun y => rfl) (fun y => rfl) (fun y => rfl) (fun y => rfl) (iblk_4 V c t) (iblk_5 V c t) (iblk_6 V c t) j

/-! ## The blocks cover the array -/

/-- An index of the message array is in point `t`'s block iff each coordinate is in the block's range on its axis. -/
theorem mem_blk7 (t : Fin cfg1.N) (i : S800000x64.Idx) :
    i ∈ ((cfg1.win 7).blk t).view.set ↔ ∀ a : Fin 2, win1_7.index t a * S6400x64.size a ≤ (i a).val
      ∧ (i a).val < win1_7.index t a * S6400x64.size a + S6400x64.size a := by
  show i ∈ ((View.whole main_v34_0).slice (win1_7.rect t)).set ↔ _
  rw [View.set_slice_whole, Rect.mem_set_unit]
  exact Iff.rfl

/-- Row `r` of the message array is in the block of point `r / 6400`, which writes its block back. -/
theorem cover7 (i : S800000x64.Idx) :
    ∃ t : Fin cfg1.N, (cfg1.win 7).flush t = true ∧ i ∈ ((cfg1.win 7).blk t).view.set := by
  have hi0 : (i 0).val < 800000 := (i 0).isLt
  have hi1 : (i 1).val < 64 := (i 1).isLt
  have hN : cfg1.N = 125 := N_1
  have ht : (i 0).val / 6400 < cfg1.N := by rw [hN]; omega
  obtain ⟨t, htv⟩ : ∃ t : Fin cfg1.N, t.val = (i 0).val / 6400 := ⟨⟨(i 0).val / 6400, ht⟩, rfl⟩
  obtain ⟨-, -, -, -, -, -, -, ⟨a7, b7⟩, -⟩ := idx_facts t
  refine ⟨t, flush1_7 t, ?_⟩
  rw [mem_blk7]
  intro a
  match a with
  | ⟨0, _⟩ => show win1_7.index t (0 : Fin 2) * 6400 ≤ (i 0).val ∧ (i 0).val < win1_7.index t (0 : Fin 2) * 6400 + 6400; omega
  | ⟨1, _⟩ => show win1_7.index t (1 : Fin 2) * 64 ≤ (i 1).val ∧ (i 1).val < win1_7.index t (1 : Fin 2) * 64 + 64; omega

/-! ## The array after the run -/

/-- THE MESSAGE ARRAY after the pipeline: the message of the entry arrays. -/
theorem arr1_7_eq (c : Dev nD) : (dat1 (F := Ideal) V c).arrAt 7 cfg1.N
    = Cert.EdgeSpec.msgA (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) :=
  (dat1 (F := Ideal) V c).arrAt_eq_of_cover 7 _ (fun t _ => flushed7_eq V c t) cover7

/-- The message array at entry `(e, d)`. -/
theorem arr1_7 (c : Dev nD) (e : Fin 800000) (d : Fin 64) :
    (dat1 (F := Ideal) V c).arrAt 7 cfg1.N (ix2 e d)
      = Cert.EdgeSpec.msg (V c (Pipeline.arrRef spec1 0)) (V c (Pipeline.arrRef spec1 1)) (V c (Pipeline.arrRef spec1 2)) (V c (Pipeline.arrRef spec1 3))
          (V c (Pipeline.arrRef spec1 4)) (V c (Pipeline.arrRef spec1 5)) (V c (Pipeline.arrRef spec1 6)) e d :=
  (congrFun (arr1_7_eq V c) (ix2 e d)).trans (Cert.EdgeSpec.msgA_apply _ _ _ _ _ _ _ e d)

end Cert.KernelIdeal.Edge1

end
-- ==== Proof.KEdge1Score.lean ====
/- The edge kernel's score array after its pipeline has run, over the extended reals, as a function of the six arrays
   it reads as the region finds them: `Cert.EdgeSpec.scfA` of them.  What point t writes back is rows 6400·t … of that
   function, because an entry of it reads its own row of the edge arrays only and the point's blocks are those rows; and
   the 125 blocks cover the 800000 rows: row r is in the block of point r / 6400. -/
import proofs.«135486_j17549236371616_1_alg».proof.Proof.KEdge1Blk

set_option maxRecDepth 16384

noncomputable section

namespace Cert.KernelIdeal.Edge1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

-- the result functions stay folded while a block read is compared with them
attribute [local irreducible] Cert.EdgeSpec.scfA Cert.EdgeSpec.msgA

/-! ## What a point writes back -/

set_option maxHeartbeats 1000000 in
/-- WHAT POINT `t` WRITES BACK into the score array is block `t` of the score function of the entry arrays. -/
theorem flushed8_eq (c : Dev nD) (t : Fin cfg1.N) :
    (dat1 (F := Ideal) V c).flushed 8 t = ((cfg1.win 8).blk t).view.read (Elt Ideal)
      (Cert.EdgeSpec.scfA (V c (Pipeline.arrRef spec1 0)) (V c (Pipeline.arrRef spec1 1)) (V c (Pipeline.arrRef spec1 2))
        (V c (Pipeline.arrRef spec1 4)) (V c (Pipeline.arrRef spec1 5)) (V c (Pipeline.arrRef spec1 6))) := by
  show (cfg1.win 8).cut (grid1.coords t) ((dat1 V c).after 8 t) = _
  rw [after1_8]
  unfold out1_8
  rw [View.canon_unit_zero hz]
  simp only [View.ld_unit_zero (S := S6400x64) hz, View.ld_unit_zero (S := S64x64) hz, View.ld_unit_zero (S := S64x4) hz,
    View.ld_unit_zero (S := S4x64) hz]
  obtain ⟨⟨a0, b0⟩, ⟨a1, b1⟩, ⟨a2, b2⟩, -, -, -, -, -, ⟨a8, b8⟩⟩ := idx_facts t
  funext j
  show k1_pay1 (F := Ideal) (iblk1 V c 0 t) (iblk1 V c 4 t) (iblk1 V c 1 t) (iblk1 V c 2 t) (iblk1 V c 5 t) (iblk1 V c 6 t) j
    = Cert.EdgeSpec.scfA (V c (Pipeline.arrRef spec1 0)) (V c (Pipeline.arrRef spec1 1)) (V c (Pipeline.arrRef spec1 2))
        (V c (Pipeline.arrRef spec1 4)) (V c (Pipeline.arrRef spec1 5)) (V c (Pipeline.arrRef spec1 6)) (((cfg1.win 8).blk t).view.emb j)
  refine (congrFun (pay1_fn (iblk1 V c 0 t) (iblk1 V c 4 t) (iblk1 V c 1 t) (iblk1 V c 2 t) (iblk1 V c 5 t) (iblk1 V c 6 t)) j).trans ?_
  exact Cert.EdgeSpec.scfA_block (N := 6400) (M := 800000) (V c (Pipeline.arrRef spec1 0)) (V c (Pipeline.arrRef spec1 1)) (V c (Pipeline.arrRef spec1 2))
    (iblk1 V c 0 t) (iblk1 V c 1 t) (iblk1 V c 2 t) (iblk1 V c 4 t) (V c (Pipeline.arrRef spec1 4)) (iblk1 V c 5 t) (V c (Pipeline.arrRef spec1 5)) (iblk1 V c 6 t) (V c (Pipeline.arrRef spec1 6))
    (((cfg1.win 0).blk t).view.emb) (((cfg1.win 1).blk t).view.emb) (((cfg1.win 2).blk t).view.emb) (((cfg1.win 8).blk t).view.emb) (t.val * 6400)
    (fun y => ⟨(show win1_0.index t (0 : Fin 2) * 6400 + 1 * (y 0).val = t.val * 6400 + (y 0).val by omega),
      (show win1_0.index t (1 : Fin 2) * 64 + 1 * (y 1).val = (y 1).val by omega)⟩)
    (fun y => ⟨(show win1_1.index t (0 : Fin 2) * 6400 + 1 * (y 0).val = t.val * 6400 + (y 0).val by omega),
      (show win1_1.index t (1 : Fin 2) * 64 + 1 * (y 1).val = (y 1).val by omega)⟩)
    (fun y => ⟨(show win1_2.index t (0 : Fin 2) * 6400 + 1 * (y 0).val = t.val * 6400 + (y 0).val by omega),
      (show win1_2.index t (1 : Fin 2) * 64 + 1 * (y 1).val = (y 1).val by omega)⟩)
    (fun y => ⟨(show win1_8.index t (0 : Fin 2) * 6400 + 1 * (y 0).val = t.val * 6400 + (y 0).val by omega),
      (show win1_8.index t (1 : Fin 2) * 64 + 1 * (y 1).val = (y 1).val by omega)⟩)
    (fun y => rfl) (fun y => rfl) (fun y => rfl) (iblk_4 V c t) (iblk_5 V c t) (iblk_6 V c t) j

/-! ## The blocks cover the array -/

/-- An index of the score array is in point `t`'s block iff each coordinate is in the block's range on its axis. -/
theorem mem_blk8 (t : Fin cfg1.N) (i : S800000x64.Idx) :
    i ∈ ((cfg1.win 8).blk t).view.set ↔ ∀ a : Fin 2, win1_8.index t a * S6400x64.size a ≤ (i a).val
      ∧ (i a).val < win1_8.index t a * S6400x64.size a + S6400x64.size a := by
  show i ∈ ((View.whole main_v34_1).slice (win1_8.rect t)).set ↔ _
  rw [View.set_slice_whole, Rect.mem_set_unit]
  exact Iff.rfl

/-- Row `r` of the score array is in the block of point `r / 6400`, which writes its block back. -/
theorem cover8 (i : S800000x64.Idx) :
    ∃ t : Fin cfg1.N, (cfg1.win 8).flush t = true ∧ i ∈ ((cfg1.win 8).blk t).view.set := by
  have hi0 : (i 0).val < 800000 := (i 0).isLt
  have hi1 : (i 1).val < 64 := (i 1).isLt
  have hN : cfg1.N = 125 := N_1
  have ht : (i 0).val / 6400 < cfg1.N := by rw [hN]; omega
  obtain ⟨t, htv⟩ : ∃ t : Fin cfg1.N, t.val = (i 0).val / 6400 := ⟨⟨(i 0).val / 6400, ht⟩, rfl⟩
  obtain ⟨-, -, -, -, -, -, -, -, ⟨a8, b8⟩⟩ := idx_facts t
  refine ⟨t, flush1_8 t, ?_⟩
  rw [mem_blk8]
  intro a
  match a with
  | ⟨0, _⟩ => show win1_8.index t (0 : Fin 2) * 6400 ≤ (i 0).val ∧ (i 0).val < win1_8.index t (0 : Fin 2) * 6400 + 6400; omega
  | ⟨1, _⟩ => show win1_8.index t (1 : Fin 2) * 64 ≤ (i 1).val ∧ (i 1).val < win1_8.index t (1 : Fin 2) * 64 + 64; omega

/-! ## The array after the run -/

/-- THE SCORE ARRAY after the pipeline: the spread score of the entry arrays. -/
theorem arr1_8_eq (c : Dev nD) : (dat1 (F := Ideal) V c).arrAt 8 cfg1.N
    = Cert.EdgeSpec.scfA (V c (Pipeline.arrRef spec1 0)) (V c (Pipeline.arrRef spec1 1)) (V c (Pipeline.arrRef spec1 2))
        (V c (Pipeline.arrRef spec1 4)) (V c (Pipeline.arrRef spec1 5)) (V c (Pipeline.arrRef spec1 6)) :=
  (dat1 (F := Ideal) V c).arrAt_eq_of_cover 8 _ (fun t _ => flushed8_eq V c t) cover8

/-- The score array at entry `(e, d)`. -/
theorem arr1_8 (c : Dev nD) (e : Fin 800000) (d : Fin 64) :
    (dat1 (F := Ideal) V c).arrAt 8 cfg1.N (ix2 e d)
      = Cert.EdgeSpec.scf (V c (Pipeline.arrRef spec1 0)) (V c (Pipeline.arrRef spec1 1)) (V c (Pipeline.arrRef spec1 2))
          (V c (Pipeline.arrRef spec1 4)) (V c (Pipeline.arrRef spec1 5)) (V c (Pipeline.arrRef spec1 6)) e d :=
  (congrFun (arr1_8_eq V c) (ix2 e d)).trans (Cert.EdgeSpec.scfA_apply _ _ _ _ _ _ e d)

end Cert.KernelIdeal.Edge1

end
-- ==== Proof.KEdge4Pay.lean ====
/- The edge kernel's two payloads at an entry of the block, over the extended reals: the score payload at (p, q) is
   the spread score `Cert.EdgeSpec.scf` of the six loaded blocks at row p, column q, and the message payload is the
   value block's entry times it (`Cert.EdgeSpec.msg`).  The format changes to bf16 are the identity on extended
   reals, the same-shape casts are the identity, every pointwise operation reads entry by entry, and each of the three
   block products is the sum over its contracted coordinate of the products of the operands' entries. -/
import proofs.«135486_j17549236371616_1_alg».proof.Proof.Gen.KernelIdeal.Skeleton
import proofs.«135486_j17549236371616_1_alg».proof.Proof.KEdgeSpec
import proofs.«135486_j17549236371616_1_alg».proof.Proof.KEdgeMatmul
import Idealize.ShloMosaic.Lib.Pipeline.Value
import Idealize.ShloMosaic.Lib.ValueIdx

set_option maxRecDepth 16384

noncomputable section

namespace Cert.KernelIdeal.Edge4

open Cert.KernelIdeal Cert.KernelIdeal.Gen
open Idealize.ShloMosaic Idealize.ShloMosaic.ValueIdx

/-- The score payload at entry `(p, q)` of the block. -/
theorem pay1_apply (x0 : Vec Ideal S6400x64 .f32) (x4 : Vec Ideal S64x64 .f32) (x1 x2 : Vec Ideal S6400x64 .f32)
    (x5 : Vec Ideal S64x4 .f32) (x6 : Vec Ideal S4x64 .f32) (p : Fin 6400) (q : Fin 64) :
    k4_pay1 (F := Ideal) x0 x4 x1 x2 x5 x6 (ix2 p q) = Cert.EdgeSpec.scf x0 x1 x2 x4 x5 x6 p q := by
  unfold k4_pay1
  simp only [shapeCast_self]
  refine (Cert.EdgeMatmul.matmul_rc_apply _ none _ _ p q).trans ?_
  unfold Cert.EdgeSpec.scf
  refine Finset.sum_congr rfl fun h _ => ?_
  refine congrArg (· * x6 (ix2 h q)) ?_
  unfold Cert.EdgeSpec.sc
  refine congrArg (fun z => Ideal.exp (min (Ideal.ofBits .f32 0x40A00000#32) (max (Ideal.ofBits .f32 0xC0A00000#32)
    (z * Ideal.ofBits .f32 0x3E800000#32)))) ?_
  refine (Cert.EdgeMatmul.matmul_rc_apply _ none _ _ p h).trans ?_
  unfold Cert.EdgeSpec.s
  refine Finset.sum_congr rfl fun d _ => ?_
  refine congrArg (· * x5 (ix2 d h)) ?_
  unfold Cert.EdgeSpec.prod
  refine congrArg ((x1 (ix2 p d) * x2 (ix2 p d)) * ·) ?_
  exact (Cert.EdgeMatmul.matmul_rc_apply _ none _ _ p d).trans rfl

/-- The message payload at entry `(p, q)` of the block. -/
theorem pay2_apply (x0 : Vec Ideal S6400x64 .f32) (x4 : Vec Ideal S64x64 .f32) (x1 x2 x3 : Vec Ideal S6400x64 .f32)
    (x5 : Vec Ideal S64x4 .f32) (x6 : Vec Ideal S4x64 .f32) (p : Fin 6400) (q : Fin 64) :
    k4_pay2 (F := Ideal) x0 x4 x1 x2 x3 x5 x6 (ix2 p q) = Cert.EdgeSpec.msg x0 x1 x2 x3 x4 x5 x6 p q := by
  unfold k4_pay2
  simp only [shapeCast_self]
  unfold Cert.EdgeSpec.msg
  exact congrArg (x3 (ix2 p q) * ·) (pay1_apply x0 x4 x1 x2 x5 x6 p q)

end Cert.KernelIdeal.Edge4

end
-- ==== Proof.KEdge4Blk.lean ====
/- The edge kernel's blocks, over the extended reals.  The grid has 125 points; point t works on rows
   6400·t … 6400·t + 6399 of the four edge arrays and of both outputs (block index t along the rows, 0 along the 64
   columns: decided over the grid, `idx_facts`), and on the whole of the three small matrices (block index 0 on both
   axes), so those three windows' blocks ARE the matrices (`iblk_4`, `iblk_5`, `iblk_6`).  The two payloads as functions of the
   block index are the score and message arrays of the loaded blocks (`pay1_fn`, `pay2_fn`). -/
import proofs.«135486_j17549236371616_1_alg».proof.Proof.Gen.KernelIdeal.Frame
import proofs.«135486_j17549236371616_1_alg».proof.Proof.KEdge4Pay
import Idealize.ShloMosaic.Lib.Pipeline.Value
import Idealize.ShloMosaic.Lib.ValueIdx

set_option maxRecDepth 16384

noncomputable section

namespace Cert.KernelIdeal.Edge4

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The score payload as a function of the block index. -/
theorem pay1_fn (x0 : Vec Ideal S6400x64 .f32) (x4 : Vec Ideal S64x64 .f32) (x1 x2 : Vec Ideal S6400x64 .f32)
    (x5 : Vec Ideal S64x4 .f32) (x6 : Vec Ideal S4x64 .f32) :
    k4_pay1 (F := Ideal) x0 x4 x1 x2 x5 x6 = Cert.EdgeSpec.scfA x0 x1 x2 x4 x5 x6 := by
  funext j
  obtain ⟨p, q, rfl⟩ : ∃ (p : Fin 6400) (q : Fin 64), j = ix2 p q := ⟨j 0, j 1, eq_ix2 j⟩
  exact pay1_apply x0 x4 x1 x2 x5 x6 p q

/-- The message payload as a function of the block index. -/
theorem pay2_fn (x0 : Vec Ideal S6400x64 .f32) (x4 : Vec Ideal S64x64 .f32) (x1 x2 x3 : Vec Ideal S6400x64 .f32)
    (x5 : Vec Ideal S64x4 .f32) (x6 : Vec Ideal S4x64 .f32) :
    k4_pay2 (F := Ideal) x0 x4 x1 x2 x3 x5 x6 = Cert.EdgeSpec.msgA x0 x1 x2 x3 x4 x5 x6 := by
  funext j
  obtain ⟨p, q, rfl⟩ : ∃ (p : Fin 6400) (q : Fin 64), j = ix2 p q := ⟨j 0, j 1, eq_ix2 j⟩
  exact pay2_apply x0 x4 x1 x2 x3 x5 x6 p q

/-- The printed index maps, decided over the 125 points: the four edge windows and the two outputs are at block
    (t, 0), the three small matrices at block (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0)
    ∧ (win4_8.index t (0 : Fin 2) = t.val ∧ win4_8.index t (1 : Fin 2) = 0) :=
  (by decide +kernel : ∀ t : Fin grid4.N, _)

/-- The whole-matrix windows' blocks are the matrices. -/
theorem iblk_4 (c : Dev nD) (t : Fin cfg4.N) : (iblk4 V c 4 t : Vec Ideal S64x64 .f32) = V c (Pipeline.arrRef spec4 4) := by
  obtain ⟨-, -, -, -, ⟨e0, e1⟩, -⟩ := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 64 + 1 * (y 0).val = (y 0).val; omega
  | ⟨1, _⟩ => show win4_4.index t (1 : Fin 2) * 64 + 1 * (y 1).val = (y 1).val; omega

theorem iblk_5 (c : Dev nD) (t : Fin cfg4.N) : (iblk4 V c 5 t : Vec Ideal S64x4 .f32) = V c (Pipeline.arrRef spec4 5) := by
  obtain ⟨-, -, -, -, -, ⟨e0, e1⟩, -⟩ := idx_facts t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 64 + 1 * (y 0).val = (y 0).val; omega
  | ⟨1, _⟩ => show win4_5.index t (1 : Fin 2) * 4 + 1 * (y 1).val = (y 1).val; omega

theorem iblk_6 (c : Dev nD) (t : Fin cfg4.N) : (iblk4 V c 6 t : Vec Ideal S4x64 .f32) = V c (Pipeline.arrRef spec4 6) := by
  obtain ⟨-, -, -, -, -, -, ⟨e0, e1⟩, -⟩ := idx_facts t
  funext y
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 2) * 4 + 1 * (y 0).val = (y 0).val; omega
  | ⟨1, _⟩ => show win4_6.index t (1 : Fin 2) * 64 + 1 * (y 1).val = (y 1).val; omega

end Cert.KernelIdeal.Edge4

end
-- ==== Proof.KEdge4Msg.lean ====
/- The edge kernel's message array after its pipeline has run, over the extended reals, as a function of the seven
   arrays it reads as the region finds them: `Cert.EdgeSpec.msgA` of them.  What point t writes back is rows 6400·t … of
   that function, because an entry of it reads its own row of the edge arrays only and the point's blocks are those rows;
   and the 125 blocks cover the 800000 rows: row r is in the block of point r / 6400. -/
import proofs.«135486_j17549236371616_1_alg».proof.Proof.KEdge4Blk

set_option maxRecDepth 16384

noncomputable section

namespace Cert.KernelIdeal.Edge4

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

-- the result functions stay folded while a block read is compared with them
attribute [local irreducible] Cert.EdgeSpec.scfA Cert.EdgeSpec.msgA

/-! ## What a point writes back -/

set_option maxHeartbeats 1000000 in
/-- WHAT POINT `t` WRITES BACK into the message array is block `t` of the message function of the entry arrays. -/
theorem flushed7_eq (c : Dev nD) (t : Fin cfg4.N) :
    (dat4 (F := Ideal) V c).flushed 7 t = ((cfg4.win 7).blk t).view.read (Elt Ideal)
      (Cert.EdgeSpec.msgA (V c (Pipeline.arrRef spec4 0)) (V c (Pipeline.arrRef spec4 1)) (V c (Pipeline.arrRef spec4 2)) (V c (Pipeline.arrRef spec4 3))
        (V c (Pipeline.arrRef spec4 4)) (V c (Pipeline.arrRef spec4 5)) (V c (Pipeline.arrRef spec4 6))) := by
  show (cfg4.win 7).cut (grid4.coords t) ((dat4 V c).after 7 t) = _
  rw [after4_7]
  unfold out4_7
  rw [View.canon_unit_zero hz]
  simp only [View.ld_unit_zero (S := S6400x64) hz, View.ld_unit_zero (S := S64x64) hz, View.ld_unit_zero (S := S64x4) hz,
    View.ld_unit_zero (S := S4x64) hz]
  obtain ⟨⟨a0, b0⟩, ⟨a1, b1⟩, ⟨a2, b2⟩, ⟨a3, b3⟩, -, -, -, ⟨a7, b7⟩, -⟩ := idx_facts t
  funext j
  show k4_pay2 (F := Ideal) (iblk4 V c 0 t) (iblk4 V c 4 t) (iblk4 V c 1 t) (iblk4 V c 2 t) (iblk4 V c 3 t) (iblk4 V c 5 t) (iblk4 V c 6 t) j
    = Cert.EdgeSpec.msgA (V c (Pipeline.arrRef spec4 0)) (V c (Pipeline.arrRef spec4 1)) (V c (Pipeline.arrRef spec4 2)) (V c (Pipeline.arrRef spec4 3))
        (V c (Pipeline.arrRef spec4 4)) (V c (Pipeline.arrRef spec4 5)) (V c (Pipeline.arrRef spec4 6)) (((cfg4.win 7).blk t).view.emb j)
  refine (congrFun (pay2_fn (iblk4 V c 0 t) (iblk4 V c 4 t) (iblk4 V c 1 t) (iblk4 V c 2 t) (iblk4 V c 3 t) (iblk4 V c 5 t) (iblk4 V c 6 t)) j).trans ?_
  exact Cert.EdgeSpec.msgA_block (N := 6400) (M := 800000) (V c (Pipeline.arrRef spec4 0)) (V c (Pipeline.arrRef spec4 1)) (V c (Pipeline.arrRef spec4 2)) (V c (Pipeline.arrRef spec4 3))
    (iblk4 V c 0 t) (iblk4 V c 1 t) (iblk4 V c 2 t) (iblk4 V c 3 t) (iblk4 V c 4 t) (V c (Pipeline.arrRef spec4 4)) (iblk4 V c 5 t) (V c (Pipeline.arrRef spec4 5)) (iblk4 V c 6 t) (V c (Pipeline.arrRef spec4 6))
    (((cfg4.win 0).blk t).view.emb) (((cfg4.win 1).blk t).view.emb) (((cfg4.win 2).blk t).view.emb) (((cfg4.win 3).blk t).view.emb) (((cfg4.win 7).blk t).view.emb) (t.val * 6400)
    (fun y => ⟨(show win4_0.index t (0 : Fin 2) * 6400 + 1 * (y 0).val = t.val * 6400 + (y 0).val by omega),
      (show win4_0.index t (1 : Fin 2) * 64 + 1 * (y 1).val = (y 1).val by omega)⟩)
    (fun y => ⟨(show win4_1.index t (0 : Fin 2) * 6400 + 1 * (y 0).val = t.val * 6400 + (y 0).val by omega),
      (show win4_1.index t (1 : Fin 2) * 64 + 1 * (y 1).val = (y 1).val by omega)⟩)
    (fun y => ⟨(show win4_2.index t (0 : Fin 2) * 6400 + 1 * (y 0).val = t.val * 6400 + (y 0).val by omega),
      (show win4_2.index t (1 : Fin 2) * 64 + 1 * (y 1).val = (y 1).val by omega)⟩)
    (fun y => ⟨(show win4_3.index t (0 : Fin 2) * 6400 + 1 * (y 0).val = t.val * 6400 + (y 0).val by omega),
      (show win4_3.index t (1 : Fin 2) * 64 + 1 * (y 1).val = (y 1).val by omega)⟩)
    (fun y => ⟨(show win4_7.index t (0 : Fin 2) * 6400 + 1 * (y 0).val = t.val * 6400 + (y 0).val by omega),
      (show win4_7.index t (1 : Fin 2) * 64 + 1 * (y 1).val = (y 1).val by omega)⟩)
    (fun y => rfl) (fun y => rfl) (fun y => rfl) (fun y => rfl) (iblk_4 V c t) (iblk_5 V c t) (iblk_6 V c t) j

/-! ## The blocks cover the array -/

/-- An index of the message array is in point `t`'s block iff each coordinate is in the block's range on its axis. -/
theorem mem_blk7 (t : Fin cfg4.N) (i : S800000x64.Idx) :
    i ∈ ((cfg4.win 7).blk t).view.set ↔ ∀ a : Fin 2, win4_7.index t a * S6400x64.size a ≤ (i a).val
      ∧ (i a).val < win4_7.index t a * S6400x64.size a + S6400x64.size a := by
  show i ∈ ((View.whole main_v92_0).slice (win4_7.rect t)).set ↔ _
  rw [View.set_slice_whole, Rect.mem_set_unit]
  exact Iff.rfl

/-- Row `r` of the message array is in the block of point `r / 6400`, which writes its block back. -/
theorem cover7 (i : S800000x64.Idx) :
    ∃ t : Fin cfg4.N, (cfg4.win 7).flush t = true ∧ i ∈ ((cfg4.win 7).blk t).view.set := by
  have hi0 : (i 0).val < 800000 := (i 0).isLt
  have hi1 : (i 1).val < 64 := (i 1).isLt
  have hN : cfg4.N = 125 := N_4
  have ht : (i 0).val / 6400 < cfg4.N := by rw [hN]; omega
  obtain ⟨t, htv⟩ : ∃ t : Fin cfg4.N, t.val = (i 0).val / 6400 := ⟨⟨(i 0).val / 6400, ht⟩, rfl⟩
  obtain ⟨-, -, -, -, -, -, -, ⟨a7, b7⟩, -⟩ := idx_facts t
  refine ⟨t, flush4_7 t, ?_⟩
  rw [mem_blk7]
  intro a
  match a with
  | ⟨0, _⟩ => show win4_7.index t (0 : Fin 2) * 6400 ≤ (i 0).val ∧ (i 0).val < win4_7.index t (0 : Fin 2) * 6400 + 6400; omega
  | ⟨1, _⟩ => show win4_7.index t (1 : Fin 2) * 64 ≤ (i 1).val ∧ (i 1).val < win4_7.index t (1 : Fin 2) * 64 + 64; omega

/-! ## The array after the run -/

/-- THE MESSAGE ARRAY after the pipeline: the message of the entry arrays. -/
theorem arr4_7_eq (c : Dev nD) : (dat4 (F := Ideal) V c).arrAt 7 cfg4.N
    = Cert.EdgeSpec.msgA (V c (Pipeline.arrRef spec4 0)) (V c (Pipeline.arrRef spec4 1)) (V c (Pipeline.arrRef spec4 2)) (V c (Pipeline.arrRef spec4 3))
        (V c (Pipeline.arrRef spec4 4)) (V c (Pipeline.arrRef spec4 5)) (V c (Pipeline.arrRef spec4 6)) :=
  (dat4 (F := Ideal) V c).arrAt_eq_of_cover 7 _ (fun t _ => flushed7_eq V c t) cover7

/-- The message array at entry `(e, d)`. -/
theorem arr4_7 (c : Dev nD) (e : Fin 800000) (d : Fin 64) :
    (dat4 (F := Ideal) V c).arrAt 7 cfg4.N (ix2 e d)
      = Cert.EdgeSpec.msg (V c (Pipeline.arrRef spec4 0)) (V c (Pipeline.arrRef spec4 1)) (V c (Pipeline.arrRef spec4 2)) (V c (Pipeline.arrRef spec4 3))
          (V c (Pipeline.arrRef spec4 4)) (V c (Pipeline.arrRef spec4 5)) (V c (Pipeline.arrRef spec4 6)) e d :=
  (congrFun (arr4_7_eq V c) (ix2 e d)).trans (Cert.EdgeSpec.msgA_apply _ _ _ _ _ _ _ e d)

end Cert.KernelIdeal.Edge4

end
-- ==== Proof.KEdge4Score.lean ====
/- The edge kernel's score array after its pipeline has run, over the extended reals, as a function of the six arrays
   it reads as the region finds them: `Cert.EdgeSpec.scfA` of them.  What point t writes back is rows 6400·t … of that
   function, because an entry of it reads its own row of the edge arrays only and the point's blocks are those rows; and
   the 125 blocks cover the 800000 rows: row r is in the block of point r / 6400. -/
import proofs.«135486_j17549236371616_1_alg».proof.Proof.KEdge4Blk

set_option maxRecDepth 16384

noncomputable section

namespace Cert.KernelIdeal.Edge4

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

-- the result functions stay folded while a block read is compared with them
attribute [local irreducible] Cert.EdgeSpec.scfA Cert.EdgeSpec.msgA

/-! ## What a point writes back -/

set_option maxHeartbeats 1000000 in
/-- WHAT POINT `t` WRITES BACK into the score array is block `t` of the score function of the entry arrays. -/
theorem flushed8_eq (c : Dev nD) (t : Fin cfg4.N) :
    (dat4 (F := Ideal) V c).flushed 8 t = ((cfg4.win 8).blk t).view.read (Elt Ideal)
      (Cert.EdgeSpec.scfA (V c (Pipeline.arrRef spec4 0)) (V c (Pipeline.arrRef spec4 1)) (V c (Pipeline.arrRef spec4 2))
        (V c (Pipeline.arrRef spec4 4)) (V c (Pipeline.arrRef spec4 5)) (V c (Pipeline.arrRef spec4 6))) := by
  show (cfg4.win 8).cut (grid4.coords t) ((dat4 V c).after 8 t) = _
  rw [after4_8]
  unfold out4_8
  rw [View.canon_unit_zero hz]
  simp only [View.ld_unit_zero (S := S6400x64) hz, View.ld_unit_zero (S := S64x64) hz, View.ld_unit_zero (S := S64x4) hz,
    View.ld_unit_zero (S := S4x64) hz]
  obtain ⟨⟨a0, b0⟩, ⟨a1, b1⟩, ⟨a2, b2⟩, -, -, -, -, -, ⟨a8, b8⟩⟩ := idx_facts t
  funext j
  show k4_pay1 (F := Ideal) (iblk4 V c 0 t) (iblk4 V c 4 t) (iblk4 V c 1 t) (iblk4 V c 2 t) (iblk4 V c 5 t) (iblk4 V c 6 t) j
    = Cert.EdgeSpec.scfA (V c (Pipeline.arrRef spec4 0)) (V c (Pipeline.arrRef spec4 1)) (V c (Pipeline.arrRef spec4 2))
        (V c (Pipeline.arrRef spec4 4)) (V c (Pipeline.arrRef spec4 5)) (V c (Pipeline.arrRef spec4 6)) (((cfg4.win 8).blk t).view.emb j)
  refine (congrFun (pay1_fn (iblk4 V c 0 t) (iblk4 V c 4 t) (iblk4 V c 1 t) (iblk4 V c 2 t) (iblk4 V c 5 t) (iblk4 V c 6 t)) j).trans ?_
  exact Cert.EdgeSpec.scfA_block (N := 6400) (M := 800000) (V c (Pipeline.arrRef spec4 0)) (V c (Pipeline.arrRef spec4 1)) (V c (Pipeline.arrRef spec4 2))
    (iblk4 V c 0 t) (iblk4 V c 1 t) (iblk4 V c 2 t) (iblk4 V c 4 t) (V c (Pipeline.arrRef spec4 4)) (iblk4 V c 5 t) (V c (Pipeline.arrRef spec4 5)) (iblk4 V c 6 t) (V c (Pipeline.arrRef spec4 6))
    (((cfg4.win 0).blk t).view.emb) (((cfg4.win 1).blk t).view.emb) (((cfg4.win 2).blk t).view.emb) (((cfg4.win 8).blk t).view.emb) (t.val * 6400)
    (fun y => ⟨(show win4_0.index t (0 : Fin 2) * 6400 + 1 * (y 0).val = t.val * 6400 + (y 0).val by omega),
      (show win4_0.index t (1 : Fin 2) * 64 + 1 * (y 1).val = (y 1).val by omega)⟩)
    (fun y => ⟨(show win4_1.index t (0 : Fin 2) * 6400 + 1 * (y 0).val = t.val * 6400 + (y 0).val by omega),
      (show win4_1.index t (1 : Fin 2) * 64 + 1 * (y 1).val = (y 1).val by omega)⟩)
    (fun y => ⟨(show win4_2.index t (0 : Fin 2) * 6400 + 1 * (y 0).val = t.val * 6400 + (y 0).val by omega),
      (show win4_2.index t (1 : Fin 2) * 64 + 1 * (y 1).val = (y 1).val by omega)⟩)
    (fun y => ⟨(show win4_8.index t (0 : Fin 2) * 6400 + 1 * (y 0).val = t.val * 6400 + (y 0).val by omega),
      (show win4_8.index t (1 : Fin 2) * 64 + 1 * (y 1).val = (y 1).val by omega)⟩)
    (fun y => rfl) (fun y => rfl) (fun y => rfl) (iblk_4 V c t) (iblk_5 V c t) (iblk_6 V c t) j

/-! ## The blocks cover the array -/

/-- An index of the score array is in point `t`'s block iff each coordinate is in the block's range on its axis. -/
theorem mem_blk8 (t : Fin cfg4.N) (i : S800000x64.Idx) :
    i ∈ ((cfg4.win 8).blk t).view.set ↔ ∀ a : Fin 2, win4_8.index t a * S6400x64.size a ≤ (i a).val
      ∧ (i a).val < win4_8.index t a * S6400x64.size a + S6400x64.size a := by
  show i ∈ ((View.whole main_v92_1).slice (win4_8.rect t)).set ↔ _
  rw [View.set_slice_whole, Rect.mem_set_unit]
  exact Iff.rfl

/-- Row `r` of the score array is in the block of point `r / 6400`, which writes its block back. -/
theorem cover8 (i : S800000x64.Idx) :
    ∃ t : Fin cfg4.N, (cfg4.win 8).flush t = true ∧ i ∈ ((cfg4.win 8).blk t).view.set := by
  have hi0 : (i 0).val < 800000 := (i 0).isLt
  have hi1 : (i 1).val < 64 := (i 1).isLt
  have hN : cfg4.N = 125 := N_4
  have ht : (i 0).val / 6400 < cfg4.N := by rw [hN]; omega
  obtain ⟨t, htv⟩ : ∃ t : Fin cfg4.N, t.val = (i 0).val / 6400 := ⟨⟨(i 0).val / 6400, ht⟩, rfl⟩
  obtain ⟨-, -, -, -, -, -, -, -, ⟨a8, b8⟩⟩ := idx_facts t
  refine ⟨t, flush4_8 t, ?_⟩
  rw [mem_blk8]
  intro a
  match a with
  | ⟨0, _⟩ => show win4_8.index t (0 : Fin 2) * 6400 ≤ (i 0).val ∧ (i 0).val < win4_8.index t (0 : Fin 2) * 6400 + 6400; omega
  | ⟨1, _⟩ => show win4_8.index t (1 : Fin 2) * 64 ≤ (i 1).val ∧ (i 1).val < win4_8.index t (1 : Fin 2) * 64 + 64; omega

/-! ## The array after the run -/

/-- THE SCORE ARRAY after the pipeline: the spread score of the entry arrays. -/
theorem arr4_8_eq (c : Dev nD) : (dat4 (F := Ideal) V c).arrAt 8 cfg4.N
    = Cert.EdgeSpec.scfA (V c (Pipeline.arrRef spec4 0)) (V c (Pipeline.arrRef spec4 1)) (V c (Pipeline.arrRef spec4 2))
        (V c (Pipeline.arrRef spec4 4)) (V c (Pipeline.arrRef spec4 5)) (V c (Pipeline.arrRef spec4 6)) :=
  (dat4 (F := Ideal) V c).arrAt_eq_of_cover 8 _ (fun t _ => flushed8_eq V c t) cover8

/-- The score array at entry `(e, d)`. -/
theorem arr4_8 (c : Dev nD) (e : Fin 800000) (d : Fin 64) :
    (dat4 (F := Ideal) V c).arrAt 8 cfg4.N (ix2 e d)
      = Cert.EdgeSpec.scf (V c (Pipeline.arrRef spec4 0)) (V c (Pipeline.arrRef spec4 1)) (V c (Pipeline.arrRef spec4 2))
          (V c (Pipeline.arrRef spec4 4)) (V c (Pipeline.arrRef spec4 5)) (V c (Pipeline.arrRef spec4 6)) e d :=
  (congrFun (arr4_8_eq V c) (ix2 e d)).trans (Cert.EdgeSpec.scfA_apply _ _ _ _ _ _ e d)

end Cert.KernelIdeal.Edge4

end
-- ==== Proof.KernelRun.lean ====
import proofs.«135486_j17549236371616_1_alg».proof.Proof.Gen.KernelIdeal.Frame

/-! # The idealized kernel's run, with its result named

Every weakly fair execution of the six-region program terminates without a fault, leaves the seventeen argument arrays
as launched, and leaves the result array (the last node-update region's output, `main_v119`) at the contents the
boundary fold assigns it after the last region: `W12 m ρ c` read at that buffer.  The fold is the chain
"host stretch, region, host stretch, …" from the launch memory; what it holds, index by index, is read off it region by
region elsewhere.  The argument is the frame's own: the launch over the twelve segments, the last thread state read
against the final memory, here also at the result buffer. -/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six regions and the host stretches between them, with the result array's final contents named. -/
theorem run_result : θ_run defs (onTc (τ := τ) (main (F := F))) ⟨m, fun _ => 0, ρ⟩ (fun r => ∀ c : Dev nD,
      r.2.mem ((c.tc : Thread nD τ).loc main_v119) = W12 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v119 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.RunValue

end
-- ==== Proof.KNodeOps.lean ====
import Idealize.ShloMosaic.PureOps.Ideal.Laws
import Idealize.ShloMosaic.Lib.ValueIdx
import Idealize.ShloMosaic.Lib.ValueLayout
import Idealize.ShloMosaic.Lib.Pipeline.Value

/-! # Reading a block's row-wise operations at an entry

A node update works on a block of rows `[a, b]`: it sums each row over its `b` lanes, keeps that sum as a column
`[a, 1]`, spreads the column back over the lanes, and multiplies the block by whole parameter matrices.  This file reads
each of those operations at an entry `(p, c)` given by its coordinates, for any extents:

* the column forms of a row statistic: a vector `[a]` viewed as a column `[a, 1]` holds entry `p` at `(p, 0)`, and a
  column spread over `b` lanes holds at `(p, c)` its entry `(p, 0)`;
* a sum over the lane axis at row `p` is the sum over `k : Fin b` of the entries `(p, k)`;
* a plain matrix product `[m, k] · [k, n]` into a zero accumulator at `(p, c)` is `∑ i : Fin k, A (p, i) · B (i, c)`
  — the sum over the contracted coordinate of the products, in that order of the factors. -/

namespace Cert.NodeOps

open Idealize.ShloMosaic Idealize.ShloMosaic.ValueIdx

section Layout
variable {α : Type}

/-- An `[a]` array viewed as a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid as one row and copied down `a` rows reads, at `(p, c)`, the vector's entry `c`. -/
theorem rowVector_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-- A row statistic `[a]` kept as a column and spread back over `b` lanes reads, at `(p, c)`, the statistic of row `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Layout

/-- The sum over the lane axis of an `[a, b]` block, at row `p`: the sum over `k : Fin b` of the entries `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax; apply Fin.ext
  match ax with
  | ⟨0, _⟩ => rfl
  | ⟨1, _⟩ => rfl

/-- A plain matrix product `[m, k] · [k, n]` into a zero accumulator, at `(p, c)`: the sum over the contracted
    coordinate `i` of `A (p, i) · B (i, c)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (c : Fin n) :
    FloatOps.matmul (⟨[1], [0], [0], [1], [], [], w⟩ : DotDims _ _ _) prec A B
        (constant (F := Ideal) ⟨2, ![m, n]⟩ .f32 0x00000000#32) (ix2 p c)
      = ∑ i : Fin k, A (ix2 p i) * B (ix2 i c) := by
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 p c)
      ((contrEquiv1 _ k rfl rfl).symm i) = ix2 p i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.NodeOps
-- ==== Proof.KNodeRow.lean ====
import proofs.«135486_j17549236371616_1_alg».proof.Proof.KNodeOps
import proofs.«135486_j17549236371616_1_alg».proof.Proof.KNodeSpec

/-! # Row statistics and linear layers of a block, at an entry

Three compound forms a node update's block computation is made of, read at an entry given by its coordinates, for
any number of rows `a`:

* a ROW STATISTIC kept as a column: the lane sum of a block, viewed as a column `[a, 1]` and divided by a constant,
  holds at `(p, 0)` the sum over the row's entries divided by that constant (a mean when the constant is the row's
  length);
* the SQUARED DEVIATIONS' statistic: the same of the block `(x − M) · (x − M)`, where `M` is a column spread over the
  lanes, is the sum over the row of `(x (p, k) − M (p, 0)) · (x (p, k) − M (p, 0))`, divided by the constant;
* a LINEAR LAYER: the product of a block with a whole weight matrix (both operands passed through a narrowing cast,
  which is the identity on extended reals) into a zero accumulator, plus a bias vector laid as a row and copied down the
  rows, is at `(p, c)` the sum `∑ i, X (p, i) · W (i, c)` plus `B c`. -/

namespace Cert.NodeOps

open Idealize.ShloMosaic Idealize.ShloMosaic.ValueIdx

/-- The lane sum of a block kept as a column and divided by a constant: at `(p, u)`, the row's sum over that constant. -/
theorem rowStat_apply {a b : ℕ} (x : FVec Ideal ⟨2, ![a, b]⟩ .f32) (acc : BitVec FTy.f32.bits) (cst : Ideal .f32)
    (hred : (⟨2, ![a, b]⟩ : Shape).Reduces [1] ⟨1, ![a]⟩) (hφ : FKind.Formats .f32)
    (hacc : acc = FKind.add.neutral .f32 hφ) (hsc : (⟨1, ![a]⟩ : Shape).ShapeCasts ⟨2, ![a, 1]⟩) (p : Fin a) (u : Fin 1) :
    divf (shapeCast ⟨2, ![a, 1]⟩ (multiReduction .add [1] ⟨1, ![a]⟩ x acc hred hφ hacc) hsc) (broadcast ⟨2, ![a, 1]⟩ cst)
        (ix2 p u)
      = Ideal.div (∑ k : Fin b, x (ix2 p k)) cst := by
  show Ideal.div (shapeCast ⟨2, ![a, 1]⟩ (multiReduction .add [1] ⟨1, ![a]⟩ x acc hred hφ hacc) hsc (ix2 p u)) cst = _
  rw [shapeCast_a_a1_apply, laneSum_apply]

/-- The same statistic of the squared deviations from a column `M` spread over the lanes. -/
theorem rowDevStat_apply {a b : ℕ} (x : FVec Ideal ⟨2, ![a, b]⟩ .f32) (M : FVec Ideal ⟨2, ![a, 1]⟩ .f32)
    (acc : BitVec FTy.f32.bits) (cst : Ideal .f32)
    (hb : (⟨2, ![a, 1]⟩ : Shape).Broadcasts ⟨2, ![a, b]⟩)
    (hred : (⟨2, ![a, b]⟩ : Shape).Reduces [1] ⟨1, ![a]⟩) (hφ : FKind.Formats .f32)
    (hacc : acc = FKind.add.neutral .f32 hφ) (hsc : (⟨1, ![a]⟩ : Shape).ShapeCasts ⟨2, ![a, 1]⟩) (p : Fin a) (u : Fin 1) :
    divf (shapeCast ⟨2, ![a, 1]⟩ (multiReduction .add [1] ⟨1, ![a]⟩
            (mulf (subf x (broadcastTo ⟨2, ![a, b]⟩ M hb)) (subf x (broadcastTo ⟨2, ![a, b]⟩ M hb))) acc hred hφ hacc) hsc)
          (broadcast ⟨2, ![a, 1]⟩ cst) (ix2 p u)
      = Ideal.div (∑ k : Fin b, (x (ix2 p k) - M (ix2 p (0 : Fin 1))) * (x (ix2 p k) - M (ix2 p (0 : Fin 1)))) cst := by
  refine (rowStat_apply _ acc cst hred hφ hacc hsc p u).trans ?_
  refine congrArg (fun s => Ideal.div s cst) (Finset.sum_congr rfl fun k _ => ?_)
  show (x (ix2 p k) - broadcastTo ⟨2, ![a, b]⟩ M hb (ix2 p k)) * (x (ix2 p k) - broadcastTo ⟨2, ![a, b]⟩ M hb (ix2 p k)) = _
  rw [broadcastTo_a1_ab_apply]

/-- A linear layer at `(p, c)`: `(∑ i, X (p, i) · W (i, c)) + B c`. -/
theorem linear_apply {m k n : ℕ}
    (w : DotDims.WF ⟨2, ![m, k]⟩ ⟨2, ![k, n]⟩ ⟨2, ![m, n]⟩ [1] [0] [0] [1] [] [])
    (X : FVec Ideal ⟨2, ![m, k]⟩ .f32) (W : FVec Ideal ⟨2, ![k, n]⟩ .f32) (B : FVec Ideal ⟨1, ![n]⟩ .f32)
    (hx : FTy.bf16.bits < FTy.f32.bits) (hw : (⟨2, ![k, n]⟩ : Shape).ShapeCasts ⟨2, ![k, n]⟩)
    (hw' : FTy.bf16.bits < FTy.f32.bits) (hB : (⟨1, ![n]⟩ : Shape).ShapeCasts ⟨1, ![n]⟩)
    (hB' : (⟨1, ![n]⟩ : Shape).ShapeCasts ⟨2, ![1, n]⟩) (hbc : (⟨2, ![1, n]⟩ : Shape).Broadcasts ⟨2, ![m, n]⟩)
    (p : Fin m) (c : Fin n) :
    addf (matmul (⟨[1], [0], [0], [1], [], [], w⟩ : DotDims _ _ _) none (truncf .bf16 X hx)
            (truncf .bf16 (shapeCast ⟨2, ![k, n]⟩ W hw) hw') (constant ⟨2, ![m, n]⟩ .f32 0x00000000#32))
          (broadcastTo ⟨2, ![m, n]⟩ (shapeCast ⟨2, ![1, n]⟩ (shapeCast ⟨1, ![n]⟩ B hB) hB') hbc) (ix2 p c)
      = (∑ i : Fin k, X (ix2 p i) * W (ix2 i c)) + B (ix1 c) := by
  show FloatOps.matmul (⟨[1], [0], [0], [1], [], [], w⟩ : DotDims _ _ _) none (truncf .bf16 X hx)
            (truncf .bf16 (shapeCast ⟨2, ![k, n]⟩ W hw) hw') (constant (F := Ideal) ⟨2, ![m, n]⟩ .f32 0x00000000#32) (ix2 p c)
      + broadcastTo ⟨2, ![m, n]⟩ (shapeCast ⟨2, ![1, n]⟩ (shapeCast ⟨1, ![n]⟩ B hB) hB') hbc (ix2 p c) = _
  rw [matmul_plain_apply, rowVector_apply, shapeCast_self, shapeCast_self]
  rfl

/-! ## The pointwise steps of a layer normalisation, and the layers of a node update -/

/-- A block minus a column spread over the lanes: at `(p, d)`, the entry minus the column's entry of row `p`. -/
theorem centered_apply {a b : ℕ} (x : FVec Ideal ⟨2, ![a, b]⟩ .f32) (M : FVec Ideal ⟨2, ![a, 1]⟩ .f32)
    (hb : (⟨2, ![a, 1]⟩ : Shape).Broadcasts ⟨2, ![a, b]⟩) (p : Fin a) (d : Fin b) :
    subf x (broadcastTo ⟨2, ![a, b]⟩ M hb) (ix2 p d) = x (ix2 p d) - M (ix2 p (0 : Fin 1)) := by
  show x (ix2 p d) - broadcastTo ⟨2, ![a, b]⟩ M hb (ix2 p d) = _
  rw [broadcastTo_a1_ab_apply]

/-- The reciprocal root of "a column plus a constant", spread over the lanes: at `(p, d)`, that of row `p`. -/
theorem rsqrtCol_apply {a b : ℕ} (V : FVec Ideal ⟨2, ![a, 1]⟩ .f32) (e : Ideal .f32)
    (hb : (⟨2, ![a, 1]⟩ : Shape).Broadcasts ⟨2, ![a, b]⟩) (p : Fin a) (d : Fin b) :
    broadcastTo ⟨2, ![a, b]⟩ (rsqrt (addf V (broadcast ⟨2, ![a, 1]⟩ e))) hb (ix2 p d)
      = Ideal.rsqrt (V (ix2 p (0 : Fin 1)) + e) := by
  rw [broadcastTo_a1_ab_apply]
  rfl

/-- A block scaled by a per-lane vector and shifted by another: at `(p, d)`, `N (p, d) · g d + b d`. -/
theorem affine_apply {a n : ℕ} (N : FVec Ideal ⟨2, ![a, n]⟩ .f32) (g b : FVec Ideal ⟨1, ![n]⟩ .f32)
    (hs : (⟨1, ![n]⟩ : Shape).ShapeCasts ⟨2, ![1, n]⟩) (hbc : (⟨2, ![1, n]⟩ : Shape).Broadcasts ⟨2, ![a, n]⟩)
    (p : Fin a) (d : Fin n) :
    addf (mulf N (broadcastTo ⟨2, ![a, n]⟩ (shapeCast ⟨2, ![1, n]⟩ g hs) hbc))
        (broadcastTo ⟨2, ![a, n]⟩ (shapeCast ⟨2, ![1, n]⟩ b hs) hbc) (ix2 p d)
      = N (ix2 p d) * g (ix1 d) + b (ix1 d) := by
  show N (ix2 p d) * broadcastTo ⟨2, ![a, n]⟩ (shapeCast ⟨2, ![1, n]⟩ g hs) hbc (ix2 p d)
      + broadcastTo ⟨2, ![a, n]⟩ (shapeCast ⟨2, ![1, n]⟩ b hs) hbc (ix2 p d) = _
  rw [rowVector_apply, rowVector_apply]

/-- THE NORMALISED BLOCK: the block minus its row means, times the reciprocal root of "row variance + ε", all as the
    block computation spells them, is at `(p, d)` the normalisation of row `p` at `d`. -/
theorem normalize_apply {a : ℕ} (x : FVec Ideal ⟨2, ![a, 64]⟩ .f32) (acc : BitVec FTy.f32.bits) (c e : Ideal .f32)
    (hb : (⟨2, ![a, 1]⟩ : Shape).Broadcasts ⟨2, ![a, 64]⟩)
    (hred : (⟨2, ![a, 64]⟩ : Shape).Reduces [1] ⟨1, ![a]⟩) (hφ : FKind.Formats .f32)
    (hacc : acc = FKind.add.neutral .f32 hφ) (hsc : (⟨1, ![a]⟩ : Shape).ShapeCasts ⟨2, ![a, 1]⟩) (p : Fin a) (d : Fin 64) :
    mulf (subf x (broadcastTo ⟨2, ![a, 64]⟩
            (divf (shapeCast ⟨2, ![a, 1]⟩ (multiReduction .add [1] ⟨1, ![a]⟩ x acc hred hφ hacc) hsc) (broadcast ⟨2, ![a, 1]⟩ c)) hb))
        (broadcastTo ⟨2, ![a, 64]⟩ (rsqrt (addf
            (divf (shapeCast ⟨2, ![a, 1]⟩ (multiReduction .add [1] ⟨1, ![a]⟩
                (mulf (subf x (broadcastTo ⟨2, ![a, 64]⟩
                        (divf (shapeCast ⟨2, ![a, 1]⟩ (multiReduction .add [1] ⟨1, ![a]⟩ x acc hred hφ hacc) hsc) (broadcast ⟨2, ![a, 1]⟩ c)) hb))
                      (subf x (broadcastTo ⟨2, ![a, 64]⟩
                        (divf (shapeCast ⟨2, ![a, 1]⟩ (multiReduction .add [1] ⟨1, ![a]⟩ x acc hred hφ hacc) hsc) (broadcast ⟨2, ![a, 1]⟩ c)) hb)))
                acc hred hφ hacc) hsc) (broadcast ⟨2, ![a, 1]⟩ c))
            (broadcast ⟨2, ![a, 1]⟩ e))) hb) (ix2 p d)
      = (x (ix2 p d) - Ideal.div (∑ k : Fin 64, x (ix2 p k)) c)
          * Ideal.rsqrt (Ideal.div (∑ k : Fin 64, (x (ix2 p k) - Ideal.div (∑ k' : Fin 64, x (ix2 p k')) c)
              * (x (ix2 p k) - Ideal.div (∑ k' : Fin 64, x (ix2 p k')) c)) c + e) := by
  show subf x (broadcastTo ⟨2, ![a, 64]⟩ _ hb) (ix2 p d) * broadcastTo ⟨2, ![a, 64]⟩ (rsqrt (addf _ (broadcast ⟨2, ![a, 1]⟩ e))) hb (ix2 p d) = _
  rw [centered_apply, rsqrtCol_apply, rowDevStat_apply, rowStat_apply]

/-- THE ATTENTION RESIDUAL: a block `H` plus the projected attention mean of the blocks `WV`, `Z`, as the block
    computation spells it, is at `(p, k)` the entry of `H` plus the projected attention of row `p`. -/
theorem attnResidual_apply {a : ℕ}
    (w : DotDims.WF ⟨2, ![a, 64]⟩ ⟨2, ![64, 64]⟩ ⟨2, ![a, 64]⟩ [1] [0] [0] [1] [] [])
    (H WV Z : FVec Ideal ⟨2, ![a, 64]⟩ .f32) (Wo : FVec Ideal ⟨2, ![64, 64]⟩ .f32) (Bo : FVec Ideal ⟨1, ![64]⟩ .f32)
    (h1 h2 : (⟨2, ![a, 64]⟩ : Shape).ShapeCasts ⟨2, ![a, 64]⟩)
    (hx : FTy.bf16.bits < FTy.f32.bits) (hw : (⟨2, ![64, 64]⟩ : Shape).ShapeCasts ⟨2, ![64, 64]⟩)
    (hw' : FTy.bf16.bits < FTy.f32.bits) (hB : (⟨1, ![64]⟩ : Shape).ShapeCasts ⟨1, ![64]⟩)
    (hB' : (⟨1, ![64]⟩ : Shape).ShapeCasts ⟨2, ![1, 64]⟩) (hbc : (⟨2, ![1, 64]⟩ : Shape).Broadcasts ⟨2, ![a, 64]⟩)
    (p : Fin a) (k : Fin 64) :
    addf H (addf (matmul (⟨[1], [0], [0], [1], [], [], w⟩ : DotDims _ _ _) none
              (truncf .bf16 (divf (shapeCast ⟨2, ![a, 64]⟩ WV h1)
                (addf (shapeCast ⟨2, ![a, 64]⟩ Z h2) (broadcast ⟨2, ![a, 64]⟩ (Ideal.ofBits .f32 0x358637BD#32)))) hx)
              (truncf .bf16 (shapeCast ⟨2, ![64, 64]⟩ Wo hw) hw') (constant ⟨2, ![a, 64]⟩ .f32 0x00000000#32))
            (broadcastTo ⟨2, ![a, 64]⟩ (shapeCast ⟨2, ![1, 64]⟩ (shapeCast ⟨1, ![64]⟩ Bo hB) hB') hbc)) (ix2 p k)
      = H (ix2 p k) + NodeSpec.attn WV Z Wo Bo p k := by
  refine congrArg (fun t => H (ix2 p k) + t) ((linear_apply w _ Wo Bo hx hw hw' hB hB' hbc p k).trans ?_)
  unfold NodeSpec.attn NodeSpec.hattn
  refine congrArg (fun t => t + Bo (ix1 k)) (Finset.sum_congr rfl fun i _ => ?_)
  show Ideal.div (shapeCast ⟨2, ![a, 64]⟩ WV h1 (ix2 p i)) (shapeCast ⟨2, ![a, 64]⟩ Z h2 (ix2 p i) + _) * _ = _
  rw [shapeCast_self, shapeCast_self]
  rfl

/-- THE FEED-FORWARD RESIDUAL: a block `H1` plus its feed-forward image, as the block computation spells it, is at
    `(p, d)` — for any row function `r` that the block's row `p` is — `r d` plus the feed-forward image of `r`. -/
theorem ffnResidual_apply {a : ℕ}
    (w1 : DotDims.WF ⟨2, ![a, 64]⟩ ⟨2, ![64, 128]⟩ ⟨2, ![a, 128]⟩ [1] [0] [0] [1] [] [])
    (w2 : DotDims.WF ⟨2, ![a, 128]⟩ ⟨2, ![128, 64]⟩ ⟨2, ![a, 64]⟩ [1] [0] [0] [1] [] [])
    (H1 : FVec Ideal ⟨2, ![a, 64]⟩ .f32) (W1 : FVec Ideal ⟨2, ![64, 128]⟩ .f32) (B1 : FVec Ideal ⟨1, ![128]⟩ .f32)
    (W2 : FVec Ideal ⟨2, ![128, 64]⟩ .f32) (B2 : FVec Ideal ⟨1, ![64]⟩ .f32) (z : Ideal .f32)
    (hx1 hw1' hx2 hw2' : FTy.bf16.bits < FTy.f32.bits)
    (hw1 : (⟨2, ![64, 128]⟩ : Shape).ShapeCasts ⟨2, ![64, 128]⟩) (hB1 : (⟨1, ![128]⟩ : Shape).ShapeCasts ⟨1, ![128]⟩)
    (hB1' : (⟨1, ![128]⟩ : Shape).ShapeCasts ⟨2, ![1, 128]⟩) (hbc1 : (⟨2, ![1, 128]⟩ : Shape).Broadcasts ⟨2, ![a, 128]⟩)
    (hw2 : (⟨2, ![128, 64]⟩ : Shape).ShapeCasts ⟨2, ![128, 64]⟩) (hB2 : (⟨1, ![64]⟩ : Shape).ShapeCasts ⟨1, ![64]⟩)
    (hB2' : (⟨1, ![64]⟩ : Shape).ShapeCasts ⟨2, ![1, 64]⟩) (hbc2 : (⟨2, ![1, 64]⟩ : Shape).Broadcasts ⟨2, ![a, 64]⟩)
    (p : Fin a) (r : Fin 64 → EReal) (hr : ∀ k, H1 (ix2 p k) = r k) (d : Fin 64) :
    addf H1 (addf (matmul (⟨[1], [0], [0], [1], [], [], w2⟩ : DotDims _ _ _) none
              (truncf .bf16 (maximumf
                (addf (matmul (⟨[1], [0], [0], [1], [], [], w1⟩ : DotDims _ _ _) none (truncf .bf16 H1 hx1)
                        (truncf .bf16 (shapeCast ⟨2, ![64, 128]⟩ W1 hw1) hw1') (constant ⟨2, ![a, 128]⟩ .f32 0x00000000#32))
                      (broadcastTo ⟨2, ![a, 128]⟩ (shapeCast ⟨2, ![1, 128]⟩ (shapeCast ⟨1, ![128]⟩ B1 hB1) hB1') hbc1))
                (broadcast ⟨2, ![a, 128]⟩ z)) hx2)
              (truncf .bf16 (shapeCast ⟨2, ![128, 64]⟩ W2 hw2) hw2') (constant ⟨2, ![a, 64]⟩ .f32 0x00000000#32))
            (broadcastTo ⟨2, ![a, 64]⟩ (shapeCast ⟨2, ![1, 64]⟩ (shapeCast ⟨1, ![64]⟩ B2 hB2) hB2') hbc2)) (ix2 p d)
      = r d + ((∑ j : Fin 128, max ((∑ k : Fin 64, r k * W1 (ix2 k j)) + B1 (ix1 j)) z * W2 (ix2 j d)) + B2 (ix1 d)) := by
  refine (congrArg (fun t => H1 (ix2 p d) + t) ((linear_apply w2 _ W2 B2 hx2 hw2 hw2' hB2 hB2' hbc2 p d).trans ?_)).trans
    (congrArg (fun t => t + _) (hr d))
  refine congrArg (fun t => t + B2 (ix1 d)) (Finset.sum_congr rfl fun j _ => ?_)
  show max (addf (matmul (⟨[1], [0], [0], [1], [], [], w1⟩ : DotDims _ _ _) none (truncf .bf16 H1 hx1)
                        (truncf .bf16 (shapeCast ⟨2, ![64, 128]⟩ W1 hw1) hw1') (constant ⟨2, ![a, 128]⟩ .f32 0x00000000#32))
                      (broadcastTo ⟨2, ![a, 128]⟩ (shapeCast ⟨2, ![1, 128]⟩ (shapeCast ⟨1, ![128]⟩ B1 hB1) hB1') hbc1) (ix2 p j)) z * _ = _
  rw [linear_apply]
  simp only [hr]

end Cert.NodeOps
-- ==== Proof.KNode2Pay.lean ====
import proofs.«135486_j17549236371616_1_alg».proof.Proof.Gen.KernelIdeal.Skeleton
import proofs.«135486_j17549236371616_1_alg».proof.Proof.KNodeRow

/-! # The first node-update region's block computation is the node update of the block's rows

The region's body loads a block of 5000 rows of the three node arrays and the whole parameter arrays, and stores one
block of 5000 rows.  Its computation is cut into named values: the normalised first residual (a function of the three
node blocks and the attention output parameters), the first layer normalisation's scale and shift and the second's
(identity casts of their vectors), the second residual (a function of the normalised first residual and the
feed-forward parameters), its row means, its row variances, its row means spread over the lanes, and the stored value
(the second layer normalisation assembled from those).  Each is read here at an entry `(p, d)` of the block — row `p`
of 5000, lane `d` of 64 — over arbitrary block contents, and the stored value comes out as the specification's node
update of row `p` of the loaded blocks, at lane `d`. -/

set_option maxRecDepth 16384

noncomputable section

namespace Cert.KernelIdeal.Node2

open Cert.KernelIdeal Cert.KernelIdeal.Gen
open Idealize.ShloMosaic Idealize.ShloMosaic.ValueIdx
open Cert.NodeOps

/-- The layer-normalisation parameter vectors pass through identity casts. -/
theorem pay2_eq (v : FVec Ideal S64 .f32) : k2_pay2 v = v := by
  unfold k2_pay2; exact shapeCast_self v _
theorem pay3_eq (v : FVec Ideal S64 .f32) : k2_pay3 v = v := by
  unfold k2_pay3; exact shapeCast_self v _
theorem pay6_eq (v : FVec Ideal S64 .f32) : k2_pay6 v = v := by
  unfold k2_pay6; exact shapeCast_self v _
theorem pay7_eq (v : FVec Ideal S64 .f32) : k2_pay7 v = v := by
  unfold k2_pay7; exact shapeCast_self v _

/-- The normalisation written out over a row function `f` is the specification's, of any row function equal to `f`. -/
theorem norm_of_row (f r : Fin 64 → EReal) (h : ∀ k, f k = r k) (d : Fin 64) :
    (f d - Ideal.div (∑ k : Fin 64, f k) (Ideal.ofBits .f32 0x42800000#32))
        * Ideal.rsqrt (Ideal.div (∑ k : Fin 64, (f k - Ideal.div (∑ k' : Fin 64, f k') (Ideal.ofBits .f32 0x42800000#32))
            * (f k - Ideal.div (∑ k' : Fin 64, f k') (Ideal.ofBits .f32 0x42800000#32))) (Ideal.ofBits .f32 0x42800000#32)
          + Ideal.ofBits .f32 0x3727C5AC#32)
      = NodeSpec.norm r d := by
  obtain rfl : f = r := funext h
  rfl

/-- The normalised first residual at `(p, d)`: the normalisation of row `p` of `h + attn`. -/
theorem pay4_apply (v0 v1 v3 : FVec Ideal S5000x64 .f32) (v8 : FVec Ideal S64x64 .f32) (v13 : FVec Ideal S64 .f32)
    (p : Fin 5000) (d : Fin 64) :
    k2_pay4 (F := Ideal) v0 v1 v3 v8 v13 (ix2 p d) = NodeSpec.norm (fun k => NodeSpec.a1 (R := 5000) v0 v1 v3 v8 v13 p k) d := by
  unfold k2_pay4
  refine (normalize_apply _ _ _ _ _ _ _ _ _ p d).trans ?_
  exact norm_of_row _ (fun k => NodeSpec.a1 (R := 5000) v0 v1 v3 v8 v13 p k)
    (fun k => attnResidual_apply _ v0 v1 v3 v8 v13 _ _ _ _ _ _ _ _ p k) d

/-- The second residual at `(p, d)`, for any row function `r` that the first layer normalisation's row `p` is. -/
theorem pay5_apply (v20 v22 : FVec Ideal S64 .f32) (v40 : FVec Ideal S5000x64 .f32) (v47 : FVec Ideal S64x128 .f32)
    (v52 : FVec Ideal S128 .f32) (v59 : FVec Ideal S128x64 .f32) (v64 : FVec Ideal S64 .f32) (p : Fin 5000)
    (r : Fin 64 → EReal) (hr : ∀ k, v40 (ix2 p k) * v20 (ix1 k) + v22 (ix1 k) = r k) (d : Fin 64) :
    k2_pay5 v20 v22 v40 v47 v52 v59 v64 (ix2 p d)
      = r d + ((∑ j : Fin 128, max ((∑ k : Fin 64, r k * v47 (ix2 k j)) + v52 (ix1 j)) (Ideal.ofBits .f32 0x00000000#32)
          * v59 (ix2 j d)) + v64 (ix1 d)) := by
  unfold k2_pay5
  exact ffnResidual_apply _ _ _ v47 v52 v59 v64 _ _ _ _ _ _ _ _ _ _ _ _ _ p r
    (fun k => (affine_apply v40 v20 v22 _ _ p k).trans (hr k)) d

/-- The second residual's row means, as a column. -/
theorem pay8_apply (v20 v22 : FVec Ideal S64 .f32) (v40 : FVec Ideal S5000x64 .f32) (v47 : FVec Ideal S64x128 .f32)
    (v52 : FVec Ideal S128 .f32) (v59 : FVec Ideal S128x64 .f32) (v64 : FVec Ideal S64 .f32) (p : Fin 5000) (u : Fin 1) :
    k2_pay8 v20 v22 v40 v47 v52 v59 v64 (ix2 p u)
      = NodeSpec.mean (fun k => k2_pay5 v20 v22 v40 v47 v52 v59 v64 (ix2 p k)) := by
  unfold k2_pay8
  exact rowStat_apply (k2_pay5 v20 v22 v40 v47 v52 v59 v64) _ _ _ _ _ _ p u

/-- The second residual's row variances, as a column. -/
theorem pay9_apply (v20 v22 : FVec Ideal S64 .f32) (v40 : FVec Ideal S5000x64 .f32) (v47 : FVec Ideal S64x128 .f32)
    (v52 : FVec Ideal S128 .f32) (v59 : FVec Ideal S128x64 .f32) (v64 : FVec Ideal S64 .f32) (p : Fin 5000) (u : Fin 1) :
    k2_pay9 v20 v22 v40 v47 v52 v59 v64 (ix2 p u)
      = NodeSpec.var (fun k => k2_pay5 v20 v22 v40 v47 v52 v59 v64 (ix2 p k)) := by
  unfold k2_pay9
  refine (rowDevStat_apply (k2_pay5 v20 v22 v40 v47 v52 v59 v64) (k2_pay8 v20 v22 v40 v47 v52 v59 v64) _ _ _ _ _ _ _ p u).trans ?_
  rw [pay8_apply]
  rfl

/-- The row means spread over the lanes. -/
theorem pay10_apply (v20 v22 : FVec Ideal S64 .f32) (v40 : FVec Ideal S5000x64 .f32) (v47 : FVec Ideal S64x128 .f32)
    (v52 : FVec Ideal S128 .f32) (v59 : FVec Ideal S128x64 .f32) (v64 : FVec Ideal S64 .f32) (p : Fin 5000) (d : Fin 64) :
    k2_pay10 v20 v22 v40 v47 v52 v59 v64 (ix2 p d)
      = NodeSpec.mean (fun k => k2_pay5 v20 v22 v40 v47 v52 v59 v64 (ix2 p k)) := by
  unfold k2_pay10
  exact (broadcastTo_a1_ab_apply _ _ p d).trans (pay8_apply v20 v22 v40 v47 v52 v59 v64 p 0)

/-- The stored value assembled from its parts, at `(p, d)`. -/
theorem pay1_apply (v69 : FVec Ideal S5000x64 .f32) (v71 v73 : FVec Ideal S64 .f32) (v84 : FVec Ideal S5000x1 .f32)
    (v85 : FVec Ideal S5000x64 .f32) (p : Fin 5000) (d : Fin 64) :
    k2_pay1 v69 v71 v73 v84 v85 (ix2 p d)
      = ((v69 (ix2 p d) - v85 (ix2 p d)) * Ideal.rsqrt (v84 (ix2 p (0 : Fin 1)) + Ideal.ofBits .f32 0x3727C5AC#32))
          * v71 (ix1 d) + v73 (ix1 d) := by
  unfold k2_pay1
  refine (affine_apply _ v71 v73 _ _ p d).trans ?_
  refine congrArg (fun t => t * v71 (ix1 d) + v73 (ix1 d)) ?_
  show (v69 (ix2 p d) - v85 (ix2 p d)) * broadcastTo S5000x64 (rsqrt (addf v84 (broadcast S5000x1 _))) _ (ix2 p d) = _
  rw [rsqrtCol_apply]
  rfl

/-- THE BLOCK COMPUTATION: what the body stores, as a function of the thirteen loaded blocks, is at `(p, d)` the
    specification's node update of row `p` of those blocks, at lane `d`. -/
theorem stored_apply (x0 x1 x2 : FVec Ideal S5000x64 .f32) (x3 : FVec Ideal S64x64 .f32) (x4 x5 x6 : FVec Ideal S64 .f32)
    (x7 : FVec Ideal S64x128 .f32) (x8 : FVec Ideal S128 .f32) (x9 : FVec Ideal S128x64 .f32)
    (x10 x11 x12 : FVec Ideal S64 .f32) (p : Fin 5000) (d : Fin 64) :
    k2_pay1 (F := Ideal) (k2_pay5 (k2_pay2 x5) (k2_pay3 x6) (k2_pay4 x0 x1 x2 x3 x4) x7 x8 x9 x10) (k2_pay6 x11) (k2_pay7 x12)
        (k2_pay9 (k2_pay2 x5) (k2_pay3 x6) (k2_pay4 x0 x1 x2 x3 x4) x7 x8 x9 x10)
        (k2_pay10 (k2_pay2 x5) (k2_pay3 x6) (k2_pay4 x0 x1 x2 x3 x4) x7 x8 x9 x10) (ix2 p d)
      = NodeSpec.out (R := 5000) x0 x1 x2 x3 x4 x5 x6 x7 x8 x9 x10 x11 x12 p d := by
  have h5 : ∀ k : Fin 64, k2_pay5 (F := Ideal) (k2_pay2 x5) (k2_pay3 x6) (k2_pay4 x0 x1 x2 x3 x4) x7 x8 x9 x10 (ix2 p k)
      = NodeSpec.a2 (R := 5000) x0 x1 x2 x3 x4 x5 x6 x7 x8 x9 x10 p k := fun k =>
    pay5_apply _ _ _ x7 x8 x9 x10 p (fun k => NodeSpec.h1 (R := 5000) x0 x1 x2 x3 x4 x5 x6 p k)
      (fun k => by rw [pay4_apply, pay2_eq, pay3_eq]; rfl) k
  rw [pay1_apply, pay9_apply, pay10_apply, pay6_eq, pay7_eq]
  simp only [h5]
  rfl

end Cert.KernelIdeal.Node2

end
-- ==== Proof.KNodeLocal.lean ====
import proofs.«135486_j17549236371616_1_alg».proof.Proof.KNodeSpec

/-! # A node's update reads only the node's own row

The node update at row `n` uses the three node arrays only through their entries `(n, k)`, `k : Fin 64`.  So two
triples of node arrays — of any two row counts — whose rows `n` and `n'` agree entry by entry give the same update at
those rows, the parameter arrays being the same.  This is what lets a block of rows stand for the rows of the whole
array it was cut from. -/

namespace Cert.NodeSpec

open Idealize.ShloMosaic Idealize.ShloMosaic.ValueIdx

/-- Rows that agree entry by entry have the same update. -/
theorem out_of_rows {R R' : ℕ}
    (h wV Z : (⟨2, ![R, 64]⟩ : Shape).Idx → EReal) (h' wV' Z' : (⟨2, ![R', 64]⟩ : Shape).Idx → EReal)
    (wo : (⟨2, ![64, 64]⟩ : Shape).Idx → EReal) (bo ln1g ln1b : (⟨1, ![64]⟩ : Shape).Idx → EReal)
    (w1 : (⟨2, ![64, 128]⟩ : Shape).Idx → EReal) (b1 : (⟨1, ![128]⟩ : Shape).Idx → EReal)
    (w2 : (⟨2, ![128, 64]⟩ : Shape).Idx → EReal) (b2 ln2g ln2b : (⟨1, ![64]⟩ : Shape).Idx → EReal)
    (n : Fin R) (n' : Fin R')
    (e0 : ∀ k : Fin 64, h (ix2 n k) = h' (ix2 n' k)) (e1 : ∀ k : Fin 64, wV (ix2 n k) = wV' (ix2 n' k))
    (e2 : ∀ k : Fin 64, Z (ix2 n k) = Z' (ix2 n' k)) (d : Fin 64) :
    out h wV Z wo bo ln1g ln1b w1 b1 w2 b2 ln2g ln2b n d = out h' wV' Z' wo bo ln1g ln1b w1 b1 w2 b2 ln2g ln2b n' d := by
  have ha1 : ∀ k, a1 h wV Z wo bo n k = a1 h' wV' Z' wo bo n' k := by
    intro k; unfold a1 attn hattn; simp only [e0, e1, e2]
  have hh1 : ∀ k, h1 h wV Z wo bo ln1g ln1b n k = h1 h' wV' Z' wo bo ln1g ln1b n' k := by
    intro k; unfold h1; simp only [ha1]
  have ha2 : ∀ k, a2 h wV Z wo bo ln1g ln1b w1 b1 w2 b2 n k = a2 h' wV' Z' wo bo ln1g ln1b w1 b1 w2 b2 n' k := by
    intro k; unfold a2 ffn hid; simp only [hh1]
  unfold out
  simp only [ha2]

end Cert.NodeSpec
-- ==== Proof.KNode2Arr.lean ====
import proofs.«135486_j17549236371616_1_alg».proof.Proof.Gen.KernelIdeal.Frame
import proofs.«135486_j17549236371616_1_alg».proof.Proof.KNode2Pay
import proofs.«135486_j17549236371616_1_alg».proof.Proof.KNodeLocal

/-! # The first node-update region's output array is the node update of its input arrays

The region runs over ten points; point `t` loads rows `5000 t … 5000 t + 4999` of the three node arrays (all 64 lanes)
and the whole of each parameter array, and writes back rows `5000 t … 5000 t + 4999` of the output.  What it writes is
the block computation of the loaded blocks, which is the node update of each loaded row; a node's update reads only its
own row, so the row of the block may be replaced by the row of the array it was cut from.  The ten row ranges tile
the 50000 rows — row `r` lies in the block of point `r / 5000` — so after the run every entry `(n, d)` of the output
array holds the node update of row `n` of the region's input arrays at lane `d`, whatever those arrays hold. -/

set_option maxRecDepth 16384

noncomputable section

namespace Cert.KernelIdeal.Node2

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The index maps, decided over the ten points -/

/-- The node windows and the output window sit at block row `t`, block column 0. -/
theorem idx_node : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_13.index t (0 : Fin 2) = t.val ∧ win2_13.index t (1 : Fin 2) = 0 :=
  (by decide +kernel : ∀ t : Fin grid2.N, _)

/-- Every parameter window sits at block 0 on every axis. -/
theorem idx_param : ∀ t : Fin cfg2.N,
    win2_3.index t (0 : Fin 2) = 0 ∧ win2_3.index t (1 : Fin 2) = 0
    ∧ win2_4.index t (0 : Fin 1) = 0
    ∧ win2_5.index t (0 : Fin 1) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = 0 ∧ win2_9.index t (1 : Fin 2) = 0
    ∧ win2_10.index t (0 : Fin 1) = 0
    ∧ win2_11.index t (0 : Fin 1) = 0
    ∧ win2_12.index t (0 : Fin 1) = 0 :=
  (by decide +kernel : ∀ t : Fin grid2.N, _)

/-! ## The loaded blocks -/

/-- Node window 0's block at point `t` is rows `5000 t … 5000 t + 4999` of its array. -/
theorem iblk0_apply (c : Dev nD) (t : Fin cfg2.N) (y : S5000x64.Idx) (i : S50000x64.Idx)
    (h0 : (i 0).val = 5000 * t.val + (y 0).val) (h1 : (i 1).val = (y 1).val) :
    (iblk2 V c 0 t : FVec Ideal S5000x64 .f32) y = (V c (Pipeline.arrRef spec2 0) : FVec Ideal S50000x64 .f32) i := by
  obtain ⟨e0, e1, -, -, -, -, -, -⟩ := idx_node t
  unfold iblk2
  rw [View.read_apply]
  refine congrArg (V c (Pipeline.arrRef spec2 0)) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- Node window 1's block at point `t` is rows `5000 t … 5000 t + 4999` of its array. -/
theorem iblk1_apply (c : Dev nD) (t : Fin cfg2.N) (y : S5000x64.Idx) (i : S50000x64.Idx)
    (h0 : (i 0).val = 5000 * t.val + (y 0).val) (h1 : (i 1).val = (y 1).val) :
    (iblk2 V c 1 t : FVec Ideal S5000x64 .f32) y = (V c (Pipeline.arrRef spec2 1) : FVec Ideal S50000x64 .f32) i := by
  obtain ⟨-, -, e0, e1, -, -, -, -⟩ := idx_node t
  unfold iblk2
  rw [View.read_apply]
  refine congrArg (V c (Pipeline.arrRef spec2 1)) (funext fun a => Fin.ext ?_)
  match a with
  | ⟨0, _⟩ => show win2_1.index t (0 : Fin 2) * 5000 + 1 * (y 0).val = (i 0).val; rw [e0, h0]; omega
  | ⟨1, _⟩ => show win2_1.index t (1 : Fin 2) * 64 + 1 * (y 1).val = (i 1).val; rw [e1, h1]; omega

/-- Node window 2's block at point `t` is rows `5000 t … 5000 t + 4999` of its array. -/
theorem iblk2_apply (c : Dev nD) (t : Fin cfg2.N) (y : S5000x64.Idx) (i : S50000x64.Idx)
    (h0 : (i 0).val = 5000 * t.val + (y 0).val) (h1 : (i 1).val = (y 1).val) :
    (iblk2 V c 2 t : FVec Ideal S5000x64 .f32) y = (V c (Pipeline.arrRef spec2 2) : FVec Ideal S50000x64 .f32) i := by
  obtain ⟨-, -, -, -, e0, e1, -, -⟩ := idx_node t
  unfold iblk2
  rw [View.read_apply]
  refine congrArg (V c (Pipeline.arrRef spec2 2)) (funext fun a => Fin.ext ?_)
  match a with
  | ⟨0, _⟩ => show win2_2.index t (0 : Fin 2) * 5000 + 1 * (y 0).val = (i 0).val; rw [e0, h0]; omega
  | ⟨1, _⟩ => show win2_2.index t (1 : Fin 2) * 64 + 1 * (y 1).val = (i 1).val; rw [e1, h1]; omega

/-- Window 3's block is its whole array at every point. -/
theorem iblk3_eq (c : Dev nD) (t : Fin cfg2.N) :
    (iblk2 V c 3 t : FVec Ideal S64x64 .f32) = (V c (Pipeline.arrRef spec2 3) : FVec Ideal S64x64 .f32) := by
  obtain ⟨e0, e1, -, -, -, -, -, -, -, -, -, -, -⟩ := idx_param t
  funext y
  unfold iblk2
  rw [View.read_apply]
  refine congrArg (V c (Pipeline.arrRef spec2 3)) (funext fun a => Fin.ext ?_)
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- Window 4's block is its whole array at every point. -/
theorem iblk4_eq (c : Dev nD) (t : Fin cfg2.N) :
    (iblk2 V c 4 t : FVec Ideal S64 .f32) = (V c (Pipeline.arrRef spec2 4) : FVec Ideal S64 .f32) := by
  obtain ⟨-, -, e2, -, -, -, -, -, -, -, -, -, -⟩ := idx_param t
  funext y
  unfold iblk2
  rw [View.read_apply]
  refine congrArg (V c (Pipeline.arrRef spec2 4)) (funext fun a => Fin.ext ?_)
  match a with
  | ⟨0, _⟩ => show win2_4.index t (0 : Fin 1) * 64 + 1 * (y 0).val = (y 0).val; rw [e2]; omega

/-- Window 5's block is its whole array at every point. -/
theorem iblk5_eq (c : Dev nD) (t : Fin cfg2.N) :
    (iblk2 V c 5 t : FVec Ideal S64 .f32) = (V c (Pipeline.arrRef spec2 5) : FVec Ideal S64 .f32) := by
  obtain ⟨-, -, -, e3, -, -, -, -, -, -, -, -, -⟩ := idx_param t
  funext y
  unfold iblk2
  rw [View.read_apply]
  refine congrArg (V c (Pipeline.arrRef spec2 5)) (funext fun a => Fin.ext ?_)
  match a with
  | ⟨0, _⟩ => show win2_5.index t (0 : Fin 1) * 64 + 1 * (y 0).val = (y 0).val; rw [e3]; omega

/-- Window 6's block is its whole array at every point. -/
theorem iblk6_eq (c : Dev nD) (t : Fin cfg2.N) :
    (iblk2 V c 6 t : FVec Ideal S64 .f32) = (V c (Pipeline.arrRef spec2 6) : FVec Ideal S64 .f32) := by
  obtain ⟨-, -, -, -, e4, -, -, -, -, -, -, -, -⟩ := idx_param t
  funext y
  unfold iblk2
  rw [View.read_apply]
  refine congrArg (V c (Pipeline.arrRef spec2 6)) (funext fun a => Fin.ext ?_)
  match a with
  | ⟨0, _⟩ => show win2_6.index t (0 : Fin 1) * 64 + 1 * (y 0).val = (y 0).val; rw [e4]; omega

/-- Window 7's block is its whole array at every point. -/
theorem iblk7_eq (c : Dev nD) (t : Fin cfg2.N) :
    (iblk2 V c 7 t : FVec Ideal S64x128 .f32) = (V c (Pipeline.arrRef spec2 7) : FVec Ideal S64x128 .f32) := by
  obtain ⟨-, -, -, -, -, e5, e6, -, -, -, -, -, -⟩ := idx_param t
  funext y
  unfold iblk2
  rw [View.read_apply]
  refine congrArg (V c (Pipeline.arrRef spec2 7)) (funext fun a => Fin.ext ?_)
  match a with
  | ⟨0, _⟩ => show win2_7.index t (0 : Fin 2) * 64 + 1 * (y 0).val = (y 0).val; rw [e5]; omega
  | ⟨1, _⟩ => show win2_7.index t (1 : Fin 2) * 128 + 1 * (y 1).val = (y 1).val; rw [e6]; omega

/-- Window 8's block is its whole array at every point. -/
theorem iblk8_eq (c : Dev nD) (t : Fin cfg2.N) :
    (iblk2 V c 8 t : FVec Ideal S128 .f32) = (V c (Pipeline.arrRef spec2 8) : FVec Ideal S128 .f32) := by
  obtain ⟨-, -, -, -, -, -, -, e7, -, -, -, -, -⟩ := idx_param t
  funext y
  unfold iblk2
  rw [View.read_apply]
  refine congrArg (V c (Pipeline.arrRef spec2 8)) (funext fun a => Fin.ext ?_)
  match a with
  | ⟨0, _⟩ => show win2_8.index t (0 : Fin 1) * 128 + 1 * (y 0).val = (y 0).val; rw [e7]; omega

/-- Window 9's block is its whole array at every point. -/
theorem iblk9_eq (c : Dev nD) (t : Fin cfg2.N) :
    (iblk2 V c 9 t : FVec Ideal S128x64 .f32) = (V c (Pipeline.arrRef spec2 9) : FVec Ideal S128x64 .f32) := by
  obtain ⟨-, -, -, -, -, -, -, -, e8, e9, -, -, -⟩ := idx_param t
  funext y
  unfold iblk2
  rw [View.read_apply]
  refine congrArg (V c (Pipeline.arrRef spec2 9)) (funext fun a => Fin.ext ?_)
  match a with
  | ⟨0, _⟩ => show win2_9.index t (0 : Fin 2) * 128 + 1 * (y 0).val = (y 0).val; rw [e8]; omega
  | ⟨1, _⟩ => show win2_9.index t (1 : Fin 2) * 64 + 1 * (y 1).val = (y 1).val; rw [e9]; omega

/-- Window 10's block is its whole array at every point. -/
theorem iblk10_eq (c : Dev nD) (t : Fin cfg2.N) :
    (iblk2 V c 10 t : FVec Ideal S64 .f32) = (V c (Pipeline.arrRef spec2 10) : FVec Ideal S64 .f32) := by
  obtain ⟨-, -, -, -, -, -, -, -, -, -, e10, -, -⟩ := idx_param t
  funext y
  unfold iblk2
  rw [View.read_apply]
  refine congrArg (V c (Pipeline.arrRef spec2 10)) (funext fun a => Fin.ext ?_)
  match a with
  | ⟨0, _⟩ => show win2_10.index t (0 : Fin 1) * 64 + 1 * (y 0).val = (y 0).val; rw [e10]; omega

/-- Window 11's block is its whole array at every point. -/
theorem iblk11_eq (c : Dev nD) (t : Fin cfg2.N) :
    (iblk2 V c 11 t : FVec Ideal S64 .f32) = (V c (Pipeline.arrRef spec2 11) : FVec Ideal S64 .f32) := by
  obtain ⟨-, -, -, -, -, -, -, -, -, -, -, e11, -⟩ := idx_param t
  funext y
  unfold iblk2
  rw [View.read_apply]
  refine congrArg (V c (Pipeline.arrRef spec2 11)) (funext fun a => Fin.ext ?_)
  match a with
  | ⟨0, _⟩ => show win2_11.index t (0 : Fin 1) * 64 + 1 * (y 0).val = (y 0).val; rw [e11]; omega

/-- Window 12's block is its whole array at every point. -/
theorem iblk12_eq (c : Dev nD) (t : Fin cfg2.N) :
    (iblk2 V c 12 t : FVec Ideal S64 .f32) = (V c (Pipeline.arrRef spec2 12) : FVec Ideal S64 .f32) := by
  obtain ⟨-, -, -, -, -, -, -, -, -, -, -, -, e12⟩ := idx_param t
  funext y
  unfold iblk2
  rw [View.read_apply]
  refine congrArg (V c (Pipeline.arrRef spec2 12)) (funext fun a => Fin.ext ?_)
  match a with
  | ⟨0, _⟩ => show win2_12.index t (0 : Fin 1) * 64 + 1 * (y 0).val = (y 0).val; rw [e12]; omega

/-! ## What a point writes back -/

/-- The block computation at an entry `j` of the block is the node update of the ARRAYS at the entry `i` that `j` sits at,
    given that the block's row of `j` is the arrays' row of `i` and that each parameter block is its whole array. -/
theorem stored_eq_out (x0 x1 x2 : FVec Ideal S5000x64 .f32) (x3 : FVec Ideal S64x64 .f32) (x4 x5 x6 : FVec Ideal S64 .f32)
    (x7 : FVec Ideal S64x128 .f32) (x8 : FVec Ideal S128 .f32) (x9 : FVec Ideal S128x64 .f32)
    (x10 x11 x12 : FVec Ideal S64 .f32) (H WV Z : FVec Ideal S50000x64 .f32)
    (y3 : FVec Ideal S64x64 .f32) (y4 y5 y6 : FVec Ideal S64 .f32)
    (y7 : FVec Ideal S64x128 .f32) (y8 : FVec Ideal S128 .f32) (y9 : FVec Ideal S128x64 .f32)
    (y10 y11 y12 : FVec Ideal S64 .f32) (j : S5000x64.Idx) (i : S50000x64.Idx)
    (w3 : x3 = y3) (w4 : x4 = y4) (w5 : x5 = y5) (w6 : x6 = y6) (w7 : x7 = y7) (w8 : x8 = y8) (w9 : x9 = y9)
    (w10 : x10 = y10) (w11 : x11 = y11) (w12 : x12 = y12)
    (hi1 : (i 1).val = (j 1).val)
    (e0 : ∀ k : Fin 64, x0 (ix2 (j 0) k) = H (ix2 (i 0) k)) (e1 : ∀ k : Fin 64, x1 (ix2 (j 0) k) = WV (ix2 (i 0) k))
    (e2 : ∀ k : Fin 64, x2 (ix2 (j 0) k) = Z (ix2 (i 0) k)) :
    k2_pay1 (F := Ideal) (k2_pay5 (k2_pay2 x5) (k2_pay3 x6) (k2_pay4 x0 x1 x2 x3 x4) x7 x8 x9 x10) (k2_pay6 x11) (k2_pay7 x12)
        (k2_pay9 (k2_pay2 x5) (k2_pay3 x6) (k2_pay4 x0 x1 x2 x3 x4) x7 x8 x9 x10)
        (k2_pay10 (k2_pay2 x5) (k2_pay3 x6) (k2_pay4 x0 x1 x2 x3 x4) x7 x8 x9 x10) j
      = NodeSpec.outArr (R := 50000) H WV Z y3 y4 y5 y6 y7 y8 y9 y10 y11 y12 i := by
  subst w3 w4 w5 w6 w7 w8 w9 w10 w11 w12
  obtain ⟨p, d, rfl⟩ : ∃ (p : Fin 5000) (d : Fin 64), j = ix2 p d := ⟨j 0, j 1, eq_ix2 j⟩
  obtain ⟨n, d', rfl⟩ : ∃ (n : Fin 50000) (d' : Fin 64), i = ix2 n d' := ⟨i 0, i 1, eq_ix2 i⟩
  obtain rfl : d' = d := Fin.ext hi1
  rw [stored_apply, NodeSpec.outArr_apply]
  exact NodeSpec.out_of_rows x0 x1 x2 H WV Z x3 x4 x5 x6 x7 x8 x9 x10 x11 x12 p n e0 e1 e2 d'

set_option maxHeartbeats 1000000 in
/-- WHAT POINT `t` WRITES BACK is block `t` of the node update of the region's input arrays. -/
theorem flushed_eq (c : Dev nD) (t : Fin cfg2.N) :
    (dat2 (F := Ideal) V c).flushed 13 t
      = ((cfg2.win 13).blk t).view.read (Elt Ideal) (NodeSpec.outArr (R := 50000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12))) := by
  obtain ⟨-, -, -, -, -, -, e0, e1⟩ := idx_node t
  have hrow : ∀ j : ((cfg2.win 13).xblock (cfg2.grid.coords t)).Idx,
      ((((cfg2.win 13).blk t).view.emb j) 0).val = 5000 * t.val + (j 0).val := fun j => by
    show win2_13.index t (0 : Fin 2) * 5000 + 1 * (j 0).val = _
    rw [e0]; omega
  have hcol : ∀ j : ((cfg2.win 13).xblock (cfg2.grid.coords t)).Idx,
      ((((cfg2.win 13).blk t).view.emb j) 1).val = (j 1).val := fun j => by
    show win2_13.index t (1 : Fin 2) * 64 + 1 * (j 1).val = (j 1).val
    rw [e1]; omega
  clear e0 e1
  show (cfg2.win 13).cut (grid2.coords t) ((dat2 (F := Ideal) V c).after 13 t) = _
  rw [after2_13]
  unfold out2_13
  rw [View.canon_unit_zero hz2]
  simp only [View.ld_unit_zero (S := S5000x64) hz2, View.ld_unit_zero (S := S64x64) hz2, View.ld_unit_zero (S := S64) hz1,
    View.ld_unit_zero (S := S64x128) hz2, View.ld_unit_zero (S := S128) hz1, View.ld_unit_zero (S := S128x64) hz2]
  funext j
  exact stored_eq_out (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
    (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12))
    j (((cfg2.win 13).blk t).view.emb j)
    (iblk3_eq V c t) (iblk4_eq V c t) (iblk5_eq V c t) (iblk6_eq V c t) (iblk7_eq V c t) (iblk8_eq V c t) (iblk9_eq V c t) (iblk10_eq V c t) (iblk11_eq V c t) (iblk12_eq V c t)
    (hcol j) (fun k => iblk0_apply V c t _ _ (hrow j) rfl) (fun k => iblk1_apply V c t _ _ (hrow j) rfl)
    (fun k => iblk2_apply V c t _ _ (hrow j) rfl)

/-! ## The ten blocks tile the array -/

/-- An index of the output array is in point `t`'s block iff each coordinate is in the block's range on its axis. -/
theorem mem_blk (t : Fin cfg2.N) (i : S50000x64.Idx) :
    i ∈ ((cfg2.win 13).blk t).view.set ↔ ∀ a : Fin 2, win2_13.index t a * S5000x64.size a ≤ (i a).val
      ∧ (i a).val < win2_13.index t a * S5000x64.size a + S5000x64.size a := by
  show i ∈ ((View.whole main_v61).slice (win2_13.rect t)).set ↔ _
  rw [View.set_slice_whole, Rect.mem_set_unit]
  exact Iff.rfl

/-- Row `r` lies in the block of point `r / 5000`. -/
theorem cover (i : S50000x64.Idx) :
    ∃ t : Fin cfg2.N, (cfg2.win 13).flush t = true ∧ i ∈ ((cfg2.win 13).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, e0, e1⟩ := idx_node ⟨(i 0).val / 5000, ht⟩
  refine ⟨⟨(i 0).val / 5000, ht⟩, flush2_13 _, ?_⟩
  rw [mem_blk]
  intro a
  match a with
  | ⟨0, _⟩ =>
    show win2_13.index ⟨(i 0).val / 5000, ht⟩ (0 : Fin 2) * 5000 ≤ (i 0).val
      ∧ (i 0).val < win2_13.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_13.index ⟨(i 0).val / 5000, ht⟩ (1 : Fin 2) * 64 ≤ (i 1).val
      ∧ (i 1).val < win2_13.index ⟨(i 0).val / 5000, ht⟩ (1 : Fin 2) * 64 + 64
    rw [e1]; omega

/-! ## The output array -/

/-- THE OUTPUT ARRAY after the region: the node update of the region's input arrays, as one function. -/
theorem arr2_13_fn (c : Dev nD) :
    (dat2 (F := Ideal) V c).arrAt 13 cfg2.N
      = NodeSpec.outArr (R := 50000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) :=
  (dat2 (F := Ideal) V c).arrAt_eq_of_cover 13 _ (fun t _ => flushed_eq V c t) cover

/-- … and entry by entry. -/
theorem arr2_13 (c : Dev nD) (n : Fin 50000) (d : Fin 64) :
    (dat2 (F := Ideal) V c).arrAt 13 cfg2.N (ix2 n d)
      = NodeSpec.out (R := 50000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) n d :=
  (congrFun (arr2_13_fn V c) (ix2 n d)).trans (NodeSpec.outArr_apply _ _ _ _ _ _ _ _ _ _ _ _ _ n d)

end Cert.KernelIdeal.Node2

end
-- ==== Proof.KNode5Blocks.lean ====
import proofs.«135486_j17549236371616_1_alg».proof.Proof.Gen.KernelIdeal.Frame
import Idealize.ShloMosaic.Lib.Pipeline.Value
import Idealize.ShloMosaic.Lib.ValueIdx

/-! # The second node-update region: what one grid point reads

The region runs over ten grid points.  Point `t` reads rows `5000·t … 5000·t + 4999` of the three node arrays
(features, summed weighted values, summed weights; [50000,64] each) and the ten parameter arrays whole, and writes rows
`5000·t … 5000·t + 4999` of its output array.  Here: the windows' block positions at each grid point, each loaded
node block as the rows of its array, and each loaded parameter block as its whole array.  Everything is stated for
arbitrary contents `V` of the buffers when the region is entered. -/

set_option maxRecDepth 16384

noncomputable section

namespace Cert.KernelIdeal.Node5

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The index maps over the grid -/

/-- The node windows and the output window sit at row block `t`, column block 0. -/
theorem idx_rows : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_13.index t (0 : Fin 2) = t.val ∧ win5_13.index t (1 : Fin 2) = 0 :=
  (by decide +kernel : ∀ t : Fin grid5.N, _)

/-- The parameter windows sit at block 0 on every axis. -/
theorem idx_params : ∀ t : Fin cfg5.N,
      win5_3.index t (0 : Fin 2) = 0 ∧ win5_3.index t (1 : Fin 2) = 0
    ∧ win5_4.index t (0 : Fin 1) = 0
    ∧ win5_5.index t (0 : Fin 1) = 0
    ∧ win5_6.index t (0 : Fin 1) = 0
    ∧ win5_7.index t (0 : Fin 2) = 0 ∧ win5_7.index t (1 : Fin 2) = 0
    ∧ win5_8.index t (0 : Fin 1) = 0
    ∧ win5_9.index t (0 : Fin 2) = 0 ∧ win5_9.index t (1 : Fin 2) = 0
    ∧ win5_10.index t (0 : Fin 1) = 0
    ∧ win5_11.index t (0 : Fin 1) = 0
    ∧ win5_12.index t (0 : Fin 1) = 0 :=
  (by decide +kernel : ∀ t : Fin grid5.N, _)

/-! ## The node blocks, read off the arrays -/

/-- The feature block at point `t`, entry (p, k), is entry (5000·t + p, k) of the array. -/
theorem blk0_apply (c : Dev nD) (t : Fin cfg5.N) (p : Fin 5000) (k : Fin 64) (n : Fin 50000)
    (hn : n.val = 5000 * t.val + p.val) :
    (iblk5 V c 0 t : Vec Ideal S5000x64 .f32) (ix2 p k)
      = (V c (Pipeline.arrRef spec5 0) : S50000x64.Idx → EReal) (ix2 n k) := by
  obtain ⟨e0, e1, -⟩ := idx_rows t
  unfold iblk5
  rw [View.read_apply]
  refine congrArg (V c (Pipeline.arrRef spec5 0)) ?_
  funext a
  apply Fin.ext
  match a with
  | ⟨0, _⟩ => show win5_0.index t (0 : Fin 2) * 5000 + 1 * p.val = n.val; rw [e0, hn]; omega
  | ⟨1, _⟩ => show win5_0.index t (1 : Fin 2) * 64 + 1 * k.val = k.val; rw [e1]; omega

/-- The summed-values block at point `t`, entry (p, k), is entry (5000·t + p, k) of the array. -/
theorem blk1_apply (c : Dev nD) (t : Fin cfg5.N) (p : Fin 5000) (k : Fin 64) (n : Fin 50000)
    (hn : n.val = 5000 * t.val + p.val) :
    (iblk5 V c 1 t : Vec Ideal S5000x64 .f32) (ix2 p k)
      = (V c (Pipeline.arrRef spec5 1) : S50000x64.Idx → EReal) (ix2 n k) := by
  obtain ⟨-, -, e0, e1, -⟩ := idx_rows t
  unfold iblk5
  rw [View.read_apply]
  refine congrArg (V c (Pipeline.arrRef spec5 1)) ?_
  funext a
  apply Fin.ext
  match a with
  | ⟨0, _⟩ => show win5_1.index t (0 : Fin 2) * 5000 + 1 * p.val = n.val; rw [e0, hn]; omega
  | ⟨1, _⟩ => show win5_1.index t (1 : Fin 2) * 64 + 1 * k.val = k.val; rw [e1]; omega

/-- The summed-weights block at point `t`, entry (p, k), is entry (5000·t + p, k) of the array. -/
theorem blk2_apply (c : Dev nD) (t : Fin cfg5.N) (p : Fin 5000) (k : Fin 64) (n : Fin 50000)
    (hn : n.val = 5000 * t.val + p.val) :
    (iblk5 V c 2 t : Vec Ideal S5000x64 .f32) (ix2 p k)
      = (V c (Pipeline.arrRef spec5 2) : S50000x64.Idx → EReal) (ix2 n k) := by
  obtain ⟨-, -, -, -, e0, e1, -⟩ := idx_rows t
  unfold iblk5
  rw [View.read_apply]
  refine congrArg (V c (Pipeline.arrRef spec5 2)) ?_
  funext a
  apply Fin.ext
  match a with
  | ⟨0, _⟩ => show win5_2.index t (0 : Fin 2) * 5000 + 1 * p.val = n.val; rw [e0, hn]; omega
  | ⟨1, _⟩ => show win5_2.index t (1 : Fin 2) * 64 + 1 * k.val = k.val; rw [e1]; omega

/-! ## The parameter blocks are the whole arrays -/

theorem blk3_eq (c : Dev nD) (t : Fin cfg5.N) :
    (iblk5 V c 3 t : Vec Ideal S64x64 .f32) = (V c (Pipeline.arrRef spec5 3) : S64x64.Idx → EReal) := by
  obtain ⟨e0, e1, -⟩ := idx_params t
  funext j
  obtain ⟨k, q, rfl⟩ : ∃ (k : Fin 64) (q : Fin 64), j = ix2 k q := ⟨j 0, j 1, eq_ix2 (n0 := 64) (n1 := 64) j⟩
  unfold iblk5
  rw [View.read_apply]
  refine congrArg (V c (Pipeline.arrRef spec5 3)) ?_
  funext a
  apply Fin.ext
  match a with
  | ⟨0, _⟩ => show win5_3.index t (0 : Fin 2) * 64 + 1 * k.val = k.val; rw [e0]; omega
  | ⟨1, _⟩ => show win5_3.index t (1 : Fin 2) * 64 + 1 * q.val = q.val; rw [e1]; omega

theorem blk4_eq (c : Dev nD) (t : Fin cfg5.N) :
    (iblk5 V c 4 t : Vec Ideal S64 .f32) = (V c (Pipeline.arrRef spec5 4) : S64.Idx → EReal) := by
  obtain ⟨-, -, e0, -⟩ := idx_params t
  funext j
  obtain ⟨k, rfl⟩ : ∃ (k : Fin 64), j = ix1 k := ⟨j 0, eq_ix1 (n := 64) j⟩
  unfold iblk5
  rw [View.read_apply]
  refine congrArg (V c (Pipeline.arrRef spec5 4)) ?_
  funext a
  apply Fin.ext
  match a with
  | ⟨0, _⟩ => show win5_4.index t (0 : Fin 1) * 64 + 1 * k.val = k.val; rw [e0]; omega

theorem blk5_eq (c : Dev nD) (t : Fin cfg5.N) :
    (iblk5 V c 5 t : Vec Ideal S64 .f32) = (V c (Pipeline.arrRef spec5 5) : S64.Idx → EReal) := by
  obtain ⟨-, -, -, e0, -⟩ := idx_params t
  funext j
  obtain ⟨k, rfl⟩ : ∃ (k : Fin 64), j = ix1 k := ⟨j 0, eq_ix1 (n := 64) j⟩
  unfold iblk5
  rw [View.read_apply]
  refine congrArg (V c (Pipeline.arrRef spec5 5)) ?_
  funext a
  apply Fin.ext
  match a with
  | ⟨0, _⟩ => show win5_5.index t (0 : Fin 1) * 64 + 1 * k.val = k.val; rw [e0]; omega

theorem blk6_eq (c : Dev nD) (t : Fin cfg5.N) :
    (iblk5 V c 6 t : Vec Ideal S64 .f32) = (V c (Pipeline.arrRef spec5 6) : S64.Idx → EReal) := by
  obtain ⟨-, -, -, -, e0, -⟩ := idx_params t
  funext j
  obtain ⟨k, rfl⟩ : ∃ (k : Fin 64), j = ix1 k := ⟨j 0, eq_ix1 (n := 64) j⟩
  unfold iblk5
  rw [View.read_apply]
  refine congrArg (V c (Pipeline.arrRef spec5 6)) ?_
  funext a
  apply Fin.ext
  match a with
  | ⟨0, _⟩ => show win5_6.index t (0 : Fin 1) * 64 + 1 * k.val = k.val; rw [e0]; omega

theorem blk7_eq (c : Dev nD) (t : Fin cfg5.N) :
    (iblk5 V c 7 t : Vec Ideal S64x128 .f32) = (V c (Pipeline.arrRef spec5 7) : S64x128.Idx → EReal) := by
  obtain ⟨-, -, -, -, -, e0, e1, -⟩ := idx_params t
  funext j
  obtain ⟨k, q, rfl⟩ : ∃ (k : Fin 64) (q : Fin 128), j = ix2 k q := ⟨j 0, j 1, eq_ix2 (n0 := 64) (n1 := 128) j⟩
  unfold iblk5
  rw [View.read_apply]
  refine congrArg (V c (Pipeline.arrRef spec5 7)) ?_
  funext a
  apply Fin.ext
  match a with
  | ⟨0, _⟩ => show win5_7.index t (0 : Fin 2) * 64 + 1 * k.val = k.val; rw [e0]; omega
  | ⟨1, _⟩ => show win5_7.index t (1 : Fin 2) * 128 + 1 * q.val = q.val; rw [e1]; omega

theorem blk8_eq (c : Dev nD) (t : Fin cfg5.N) :
    (iblk5 V c 8 t : Vec Ideal S128 .f32) = (V c (Pipeline.arrRef spec5 8) : S128.Idx → EReal) := by
  obtain ⟨-, -, -, -, -, -, -, e0, -⟩ := idx_params t
  funext j
  obtain ⟨k, rfl⟩ : ∃ (k : Fin 128), j = ix1 k := ⟨j 0, eq_ix1 (n := 128) j⟩
  unfold iblk5
  rw [View.read_apply]
  refine congrArg (V c (Pipeline.arrRef spec5 8)) ?_
  funext a
  apply Fin.ext
  match a with
  | ⟨0, _⟩ => show win5_8.index t (0 : Fin 1) * 128 + 1 * k.val = k.val; rw [e0]; omega

theorem blk9_eq (c : Dev nD) (t : Fin cfg5.N) :
    (iblk5 V c 9 t : Vec Ideal S128x64 .f32) = (V c (Pipeline.arrRef spec5 9) : S128x64.Idx → EReal) := by
  obtain ⟨-, -, -, -, -, -, -, -, e0, e1, -⟩ := idx_params t
  funext j
  obtain ⟨k, q, rfl⟩ : ∃ (k : Fin 128) (q : Fin 64), j = ix2 k q := ⟨j 0, j 1, eq_ix2 (n0 := 128) (n1 := 64) j⟩
  unfold iblk5
  rw [View.read_apply]
  refine congrArg (V c (Pipeline.arrRef spec5 9)) ?_
  funext a
  apply Fin.ext
  match a with
  | ⟨0, _⟩ => show win5_9.index t (0 : Fin 2) * 128 + 1 * k.val = k.val; rw [e0]; omega
  | ⟨1, _⟩ => show win5_9.index t (1 : Fin 2) * 64 + 1 * q.val = q.val; rw [e1]; omega

theorem blk10_eq (c : Dev nD) (t : Fin cfg5.N) :
    (iblk5 V c 10 t : Vec Ideal S64 .f32) = (V c (Pipeline.arrRef spec5 10) : S64.Idx → EReal) := by
  obtain ⟨-, -, -, -, -, -, -, -, -, -, e0, -⟩ := idx_params t
  funext j
  obtain ⟨k, rfl⟩ : ∃ (k : Fin 64), j = ix1 k := ⟨j 0, eq_ix1 (n := 64) j⟩
  unfold iblk5
  rw [View.read_apply]
  refine congrArg (V c (Pipeline.arrRef spec5 10)) ?_
  funext a
  apply Fin.ext
  match a with
  | ⟨0, _⟩ => show win5_10.index t (0 : Fin 1) * 64 + 1 * k.val = k.val; rw [e0]; omega

theorem blk11_eq (c : Dev nD) (t : Fin cfg5.N) :
    (iblk5 V c 11 t : Vec Ideal S64 .f32) = (V c (Pipeline.arrRef spec5 11) : S64.Idx → EReal) := by
  obtain ⟨-, -, -, -, -, -, -, -, -, -, -, e0, -⟩ := idx_params t
  funext j
  obtain ⟨k, rfl⟩ : ∃ (k : Fin 64), j = ix1 k := ⟨j 0, eq_ix1 (n := 64) j⟩
  unfold iblk5
  rw [View.read_apply]
  refine congrArg (V c (Pipeline.arrRef spec5 11)) ?_
  funext a
  apply Fin.ext
  match a with
  | ⟨0, _⟩ => show win5_11.index t (0 : Fin 1) * 64 + 1 * k.val = k.val; rw [e0]; omega

theorem blk12_eq (c : Dev nD) (t : Fin cfg5.N) :
    (iblk5 V c 12 t : Vec Ideal S64 .f32) = (V c (Pipeline.arrRef spec5 12) : S64.Idx → EReal) := by
  obtain ⟨-, -, -, -, -, -, -, -, -, -, -, -, e0⟩ := idx_params t
  funext j
  obtain ⟨k, rfl⟩ : ∃ (k : Fin 64), j = ix1 k := ⟨j 0, eq_ix1 (n := 64) j⟩
  unfold iblk5
  rw [View.read_apply]
  refine congrArg (V c (Pipeline.arrRef spec5 12)) ?_
  funext a
  apply Fin.ext
  match a with
  | ⟨0, _⟩ => show win5_12.index t (0 : Fin 1) * 64 + 1 * k.val = k.val; rw [e0]; omega

end Cert.KernelIdeal.Node5

end
-- ==== Proof.KNode5Pay.lean ====
import proofs.«135486_j17549236371616_1_alg».proof.Proof.Gen.KernelIdeal.Skeleton
import proofs.«135486_j17549236371616_1_alg».proof.Proof.KNodeRow

/-! # The second node-update region's block computation is the node update of the block's rows

The region's body loads a block of 5000 rows of the three node arrays (features, summed weighted values, summed
weights) and the whole parameter arrays, and stores one block of 5000 rows.  Its computation is cut into named values:
the first residual `h + attn` (a function of the three node blocks and the attention output parameters); its row
means, as a column; the residual minus its row means; the reciprocal root of "row variance + 1e-5", spread over the
lanes; the two layer normalisations' scales and shifts (identity casts of their vectors); the second residual (a
function of the last two blocks, the first normalisation's scale and shift and the feed-forward parameters); its row
means and row variances, as columns; and the stored value (the second layer normalisation assembled from those).
Each is read here at an entry `(p, d)` of the block — row `p` of 5000, lane `d` of 64 — over arbitrary block
contents, and the stored value comes out as the specification's node update of row `p` of the loaded blocks, at
lane `d`. -/

set_option maxRecDepth 16384

noncomputable section

namespace Cert.KernelIdeal.Node5

open Cert.KernelIdeal Cert.KernelIdeal.Gen
open Idealize.ShloMosaic Idealize.ShloMosaic.ValueIdx
open Cert.NodeOps

/-- The layer-normalisation parameter vectors pass through identity casts. -/
theorem pay3_eq (v : FVec Ideal S64 .f32) : k5_pay3 v = v := by
  unfold k5_pay3; exact shapeCast_self v _
theorem pay4_eq (v : FVec Ideal S64 .f32) : k5_pay4 v = v := by
  unfold k5_pay4; exact shapeCast_self v _
theorem pay9_eq (v : FVec Ideal S64 .f32) : k5_pay9 v = v := by
  unfold k5_pay9; exact shapeCast_self v _
theorem pay10_eq (v : FVec Ideal S64 .f32) : k5_pay10 v = v := by
  unfold k5_pay10; exact shapeCast_self v _

/-- The first residual at `(p, k)`: the node's features plus the projected attention mean of row `p`. -/
theorem pay2_apply (v0 v2 v4 : FVec Ideal S5000x64 .f32) (v9 : FVec Ideal S64x64 .f32) (v14 : FVec Ideal S64 .f32)
    (p : Fin 5000) (k : Fin 64) :
    k5_pay2 (F := Ideal) v0 v2 v4 v9 v14 (ix2 p k) = NodeSpec.a1 (R := 5000) v0 v2 v4 v9 v14 p k := by
  unfold k5_pay2
  refine (attnResidual_apply _ _ v2 v4 v9 v14 _ _ _ _ _ _ _ _ p k).trans ?_
  exact congrArg (fun t => t + NodeSpec.attn (R := 5000) v2 v4 v9 v14 p k) (congrFun (shapeCast_self v0 _) (ix2 p k))

/-- The first residual's row means, as a column. -/
theorem pay5_apply (v0 v2 v4 : FVec Ideal S5000x64 .f32) (v9 : FVec Ideal S64x64 .f32) (v14 : FVec Ideal S64 .f32)
    (p : Fin 5000) (u : Fin 1) :
    k5_pay5 (F := Ideal) v0 v2 v4 v9 v14 (ix2 p u)
      = NodeSpec.mean (fun k => k5_pay2 (F := Ideal) v0 v2 v4 v9 v14 (ix2 p k)) := by
  unfold k5_pay5
  exact rowStat_apply (k5_pay2 v0 v2 v4 v9 v14) _ _ _ _ _ _ p u

/-- The first residual minus its row means. -/
theorem pay6_apply (v0 v2 v4 : FVec Ideal S5000x64 .f32) (v9 : FVec Ideal S64x64 .f32) (v14 : FVec Ideal S64 .f32)
    (p : Fin 5000) (d : Fin 64) :
    k5_pay6 (F := Ideal) v0 v2 v4 v9 v14 (ix2 p d)
      = k5_pay2 (F := Ideal) v0 v2 v4 v9 v14 (ix2 p d)
          - NodeSpec.mean (fun k => k5_pay2 (F := Ideal) v0 v2 v4 v9 v14 (ix2 p k)) := by
  unfold k5_pay6
  refine (centered_apply (k5_pay2 v0 v2 v4 v9 v14) (k5_pay5 v0 v2 v4 v9 v14) _ p d).trans ?_
  rw [pay5_apply]

/-- The reciprocal root of "the first residual's row variance + 1e-5", spread over the lanes. -/
theorem pay7_apply (v0 v2 v4 : FVec Ideal S5000x64 .f32) (v9 : FVec Ideal S64x64 .f32) (v14 : FVec Ideal S64 .f32)
    (p : Fin 5000) (d : Fin 64) :
    k5_pay7 (F := Ideal) v0 v2 v4 v9 v14 (ix2 p d)
      = Ideal.rsqrt (NodeSpec.var (fun k => k5_pay2 (F := Ideal) v0 v2 v4 v9 v14 (ix2 p k))
          + Ideal.ofBits .f32 0x3727C5AC#32) := by
  unfold k5_pay7
  refine (rsqrtCol_apply _ _ _ p d).trans ?_
  refine congrArg (fun t => Ideal.rsqrt (t + Ideal.ofBits .f32 0x3727C5AC#32)) ?_
  refine (rowDevStat_apply (k5_pay2 v0 v2 v4 v9 v14) (k5_pay5 v0 v2 v4 v9 v14) _ _ _ _ _ _ _ p 0).trans ?_
  rw [pay5_apply]
  rfl

/-- The second residual at `(p, d)`, for any row function `r` that the first layer normalisation's row `p` is. -/
theorem pay8_apply (v21 v23 : FVec Ideal S64 .f32) (v36 v40 : FVec Ideal S5000x64 .f32) (v48 : FVec Ideal S64x128 .f32)
    (v53 : FVec Ideal S128 .f32) (v60 : FVec Ideal S128x64 .f32) (v65 : FVec Ideal S64 .f32) (p : Fin 5000)
    (r : Fin 64 → EReal) (hr : ∀ k, (v36 (ix2 p k) * v40 (ix2 p k)) * v21 (ix1 k) + v23 (ix1 k) = r k) (d : Fin 64) :
    k5_pay8 v21 v23 v36 v40 v48 v53 v60 v65 (ix2 p d)
      = r d + ((∑ j : Fin 128, max ((∑ k : Fin 64, r k * v48 (ix2 k j)) + v53 (ix1 j)) (Ideal.ofBits .f32 0x00000000#32)
          * v60 (ix2 j d)) + v65 (ix1 d)) := by
  unfold k5_pay8
  exact ffnResidual_apply _ _ _ v48 v53 v60 v65 _ _ _ _ _ _ _ _ _ _ _ _ _ p r
    (fun k => (affine_apply (mulf v36 v40) v21 v23 _ _ p k).trans (hr k)) d

/-- The second residual's row means, as a column. -/
theorem pay11_apply (v21 v23 : FVec Ideal S64 .f32) (v36 v40 : FVec Ideal S5000x64 .f32) (v48 : FVec Ideal S64x128 .f32)
    (v53 : FVec Ideal S128 .f32) (v60 : FVec Ideal S128x64 .f32) (v65 : FVec Ideal S64 .f32) (p : Fin 5000) (u : Fin 1) :
    k5_pay11 v21 v23 v36 v40 v48 v53 v60 v65 (ix2 p u)
      = NodeSpec.mean (fun k => k5_pay8 v21 v23 v36 v40 v48 v53 v60 v65 (ix2 p k)) := by
  unfold k5_pay11
  exact rowStat_apply (k5_pay8 v21 v23 v36 v40 v48 v53 v60 v65) _ _ _ _ _ _ p u

/-- The second residual's row variances, as a column. -/
theorem pay12_apply (v21 v23 : FVec Ideal S64 .f32) (v36 v40 : FVec Ideal S5000x64 .f32) (v48 : FVec Ideal S64x128 .f32)
    (v53 : FVec Ideal S128 .f32) (v60 : FVec Ideal S128x64 .f32) (v65 : FVec Ideal S64 .f32) (p : Fin 5000) (u : Fin 1) :
    k5_pay12 v21 v23 v36 v40 v48 v53 v60 v65 (ix2 p u)
      = NodeSpec.var (fun k => k5_pay8 v21 v23 v36 v40 v48 v53 v60 v65 (ix2 p k)) := by
  unfold k5_pay12
  refine (rowDevStat_apply (k5_pay8 v21 v23 v36 v40 v48 v53 v60 v65) (k5_pay11 v21 v23 v36 v40 v48 v53 v60 v65)
    _ _ _ _ _ _ _ p u).trans ?_
  rw [pay11_apply]
  rfl

/-- The stored value assembled from its parts, at `(p, d)`. -/
theorem pay1_apply (v70 : FVec Ideal S5000x64 .f32) (v72 v74 : FVec Ideal S64 .f32) (v78 v85 : FVec Ideal S5000x1 .f32)
    (p : Fin 5000) (d : Fin 64) :
    k5_pay1 v70 v72 v74 v78 v85 (ix2 p d)
      = ((v70 (ix2 p d) - v78 (ix2 p (0 : Fin 1))) * Ideal.rsqrt (v85 (ix2 p (0 : Fin 1)) + Ideal.ofBits .f32 0x3727C5AC#32))
          * v72 (ix1 d) + v74 (ix1 d) := by
  unfold k5_pay1
  refine (affine_apply _ v72 v74 _ _ p d).trans ?_
  refine congrArg (fun t => t * v72 (ix1 d) + v74 (ix1 d)) ?_
  exact congrArg₂ (fun a b : EReal => a * b) (centered_apply v70 v78 _ p d) (rsqrtCol_apply v85 _ _ p d)

/-- THE BLOCK COMPUTATION: what the body stores, as a function of the thirteen loaded blocks, is at `(p, d)` the
    specification's node update of row `p` of those blocks, at lane `d`. -/
theorem stored_apply (x0 x1 x2 : FVec Ideal S5000x64 .f32) (x3 : FVec Ideal S64x64 .f32) (x4 x5 x6 : FVec Ideal S64 .f32)
    (x7 : FVec Ideal S64x128 .f32) (x8 : FVec Ideal S128 .f32) (x9 : FVec Ideal S128x64 .f32)
    (x10 x11 x12 : FVec Ideal S64 .f32) (p : Fin 5000) (d : Fin 64) :
    k5_pay1 (F := Ideal)
        (k5_pay8 (k5_pay3 x5) (k5_pay4 x6) (k5_pay6 x0 x1 x2 x3 x4) (k5_pay7 x0 x1 x2 x3 x4) x7 x8 x9 x10)
        (k5_pay9 x11) (k5_pay10 x12)
        (k5_pay11 (k5_pay3 x5) (k5_pay4 x6) (k5_pay6 x0 x1 x2 x3 x4) (k5_pay7 x0 x1 x2 x3 x4) x7 x8 x9 x10)
        (k5_pay12 (k5_pay3 x5) (k5_pay4 x6) (k5_pay6 x0 x1 x2 x3 x4) (k5_pay7 x0 x1 x2 x3 x4) x7 x8 x9 x10) (ix2 p d)
      = NodeSpec.out (R := 5000) x0 x1 x2 x3 x4 x5 x6 x7 x8 x9 x10 x11 x12 p d := by
  have h2 : ∀ k : Fin 64, k5_pay2 (F := Ideal) x0 x1 x2 x3 x4 (ix2 p k) = NodeSpec.a1 (R := 5000) x0 x1 x2 x3 x4 p k :=
    fun k => pay2_apply x0 x1 x2 x3 x4 p k
  have h8 : ∀ k : Fin 64,
      k5_pay8 (F := Ideal) (k5_pay3 x5) (k5_pay4 x6) (k5_pay6 x0 x1 x2 x3 x4) (k5_pay7 x0 x1 x2 x3 x4) x7 x8 x9 x10 (ix2 p k)
        = NodeSpec.a2 (R := 5000) x0 x1 x2 x3 x4 x5 x6 x7 x8 x9 x10 p k := fun k =>
    pay8_apply _ _ _ _ x7 x8 x9 x10 p (fun k => NodeSpec.h1 (R := 5000) x0 x1 x2 x3 x4 x5 x6 p k)
      (fun k => by rw [pay6_apply, pay7_apply, pay3_eq, pay4_eq]; simp only [h2]; rfl) k
  rw [pay1_apply, pay11_apply, pay12_apply, pay9_eq, pay10_eq]
  simp only [h8]
  rfl

end Cert.KernelIdeal.Node5

end
-- ==== Proof.KNode5Arr.lean ====
import proofs.«135486_j17549236371616_1_alg».proof.Proof.KNode5Blocks
import proofs.«135486_j17549236371616_1_alg».proof.Proof.KNode5Pay
import proofs.«135486_j17549236371616_1_alg».proof.Proof.KNodeLocal

/-! # The second node-update region, as a whole array

Point `t` of the ten writes rows `5000·t … 5000·t + 4999` of the output array: the node update of the rows of the
three loaded node blocks, with the parameter arrays whole.  A node's update reads only the node's own row of the three
node arrays, and row `p` of the blocks at point `t` is row `5000·t + p` of the arrays; so what point `t` writes is
the same rows of the one function "node update of the whole arrays" on the [50000,64] index set.  The ten row blocks
tile the 50000 rows (row `r` lies in the block of point `r / 5000`), so after the region the output array is the
node update of the arrays the region found, entry by entry, for arbitrary contents `V` of the buffers on entry. -/

set_option maxRecDepth 16384

noncomputable section

namespace Cert.KernelIdeal.Node5

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The node update of one family of arrays at row `n` is that of another family at row `n'` when the node arrays'
    rows agree entry by entry and the parameter arrays are equal. -/
theorem out_of_rows_params {R R' : ℕ}
    (h wV Z : (⟨2, ![R, 64]⟩ : Shape).Idx → EReal) (h' wV' Z' : (⟨2, ![R', 64]⟩ : Shape).Idx → EReal)
    (wo wo' : (⟨2, ![64, 64]⟩ : Shape).Idx → EReal) (bo bo' ln1g ln1g' ln1b ln1b' : (⟨1, ![64]⟩ : Shape).Idx → EReal)
    (w1 w1' : (⟨2, ![64, 128]⟩ : Shape).Idx → EReal) (b1 b1' : (⟨1, ![128]⟩ : Shape).Idx → EReal)
    (w2 w2' : (⟨2, ![128, 64]⟩ : Shape).Idx → EReal) (b2 b2' ln2g ln2g' ln2b ln2b' : (⟨1, ![64]⟩ : Shape).Idx → EReal)
    (n : Fin R) (n' : Fin R')
    (e0 : ∀ k : Fin 64, h (ix2 n k) = h' (ix2 n' k)) (e1 : ∀ k : Fin 64, wV (ix2 n k) = wV' (ix2 n' k))
    (e2 : ∀ k : Fin 64, Z (ix2 n k) = Z' (ix2 n' k))
    (e3 : wo = wo') (e4 : bo = bo') (e5 : ln1g = ln1g') (e6 : ln1b = ln1b') (e7 : w1 = w1') (e8 : b1 = b1')
    (e9 : w2 = w2') (e10 : b2 = b2') (e11 : ln2g = ln2g') (e12 : ln2b = ln2b') (d : Fin 64) :
    NodeSpec.out h wV Z wo bo ln1g ln1b w1 b1 w2 b2 ln2g ln2b n d
      = NodeSpec.out h' wV' Z' wo' bo' ln1g' ln1b' w1' b1' w2' b2' ln2g' ln2b' n' d := by
  subst e3 e4 e5 e6 e7 e8 e9 e10 e11 e12
  exact NodeSpec.out_of_rows h wV Z h' wV' Z' wo bo ln1g ln1b w1 b1 w2 b2 ln2g ln2b n n' e0 e1 e2 d

/-- What the body stores at `(p, q)`, when row `p` of the three loaded node blocks is row `n` of three arrays and the
    loaded parameter blocks are the parameter arrays, is the node update of those arrays at `(n, q)`. -/
theorem stored_rows (x0 x1 x2 : FVec Ideal S5000x64 .f32) (x3 : FVec Ideal S64x64 .f32) (x4 x5 x6 : FVec Ideal S64 .f32)
    (x7 : FVec Ideal S64x128 .f32) (x8 : FVec Ideal S128 .f32) (x9 : FVec Ideal S128x64 .f32)
    (x10 x11 x12 : FVec Ideal S64 .f32)
    (A0 A1 A2 : S50000x64.Idx → EReal) (A3 : S64x64.Idx → EReal) (A4 A5 A6 : S64.Idx → EReal)
    (A7 : S64x128.Idx → EReal) (A8 : S128.Idx → EReal) (A9 : S128x64.Idx → EReal) (A10 A11 A12 : S64.Idx → EReal)
    (p : Fin 5000) (n : Fin 50000)
    (e0 : ∀ k : Fin 64, x0 (ix2 p k) = A0 (ix2 n k)) (e1 : ∀ k : Fin 64, x1 (ix2 p k) = A1 (ix2 n k))
    (e2 : ∀ k : Fin 64, x2 (ix2 p k) = A2 (ix2 n k))
    (e3 : x3 = A3) (e4 : x4 = A4) (e5 : x5 = A5) (e6 : x6 = A6) (e7 : x7 = A7) (e8 : x8 = A8)
    (e9 : x9 = A9) (e10 : x10 = A10) (e11 : x11 = A11) (e12 : x12 = A12) (q : Fin 64) :
    k5_pay1 (F := Ideal)
        (k5_pay8 (k5_pay3 x5) (k5_pay4 x6) (k5_pay6 x0 x1 x2 x3 x4) (k5_pay7 x0 x1 x2 x3 x4) x7 x8 x9 x10)
        (k5_pay9 x11) (k5_pay10 x12)
        (k5_pay11 (k5_pay3 x5) (k5_pay4 x6) (k5_pay6 x0 x1 x2 x3 x4) (k5_pay7 x0 x1 x2 x3 x4) x7 x8 x9 x10)
        (k5_pay12 (k5_pay3 x5) (k5_pay4 x6) (k5_pay6 x0 x1 x2 x3 x4) (k5_pay7 x0 x1 x2 x3 x4) x7 x8 x9 x10) (ix2 p q)
      = NodeSpec.out (R := 50000) A0 A1 A2 A3 A4 A5 A6 A7 A8 A9 A10 A11 A12 n q :=
  (stored_apply x0 x1 x2 x3 x4 x5 x6 x7 x8 x9 x10 x11 x12 p q).trans
    (out_of_rows_params (R := 5000) (R' := 50000) x0 x1 x2 A0 A1 A2 x3 A3 x4 A4 x5 A5 x6 A6 x7 A7 x8 A8 x9 A9 x10 A10
      x11 A11 x12 A12 p n e0 e1 e2 e3 e4 e5 e6 e7 e8 e9 e10 e11 e12 q)

/-- The output window's buffer after the body, at `(p, q)`: the body's one store covers the whole block, and its
    loads read the whole loaded blocks, so the buffer holds the stored value — the node update of the arrays at
    `(n, q)` under the same hypotheses. -/
theorem out5_13_rows (x0 x1 x2 : FVec Ideal S5000x64 .f32) (x3 : FVec Ideal S64x64 .f32) (x4 x5 x6 : FVec Ideal S64 .f32)
    (x7 : FVec Ideal S64x128 .f32) (x8 : FVec Ideal S128 .f32) (x9 : FVec Ideal S128x64 .f32)
    (x10 x11 x12 : FVec Ideal S64 .f32)
    (A0 A1 A2 : S50000x64.Idx → EReal) (A3 : S64x64.Idx → EReal) (A4 A5 A6 : S64.Idx → EReal)
    (A7 : S64x128.Idx → EReal) (A8 : S128.Idx → EReal) (A9 : S128x64.Idx → EReal) (A10 A11 A12 : S64.Idx → EReal)
    (p : Fin 5000) (n : Fin 50000)
    (e0 : ∀ k : Fin 64, x0 (ix2 p k) = A0 (ix2 n k)) (e1 : ∀ k : Fin 64, x1 (ix2 p k) = A1 (ix2 n k))
    (e2 : ∀ k : Fin 64, x2 (ix2 p k) = A2 (ix2 n k))
    (e3 : x3 = A3) (e4 : x4 = A4) (e5 : x5 = A5) (e6 : x6 = A6) (e7 : x7 = A7) (e8 : x8 = A8)
    (e9 : x9 = A9) (e10 : x10 = A10) (e11 : x11 = A11) (e12 : x12 = A12) (q : Fin 64) :
    out5_13 (F := Ideal) x0 x1 x2 x3 x4 x5 x6 x7 x8 x9 x10 x11 x12 (ix2 p q)
      = NodeSpec.out (R := 50000) A0 A1 A2 A3 A4 A5 A6 A7 A8 A9 A10 A11 A12 n q := by
  unfold out5_13
  rw [View.canon_unit_zero hz2]
  simp only [View.ld_unit_zero (S := S5000x64) hz2, View.ld_unit_zero (S := S64x64) hz2,
    View.ld_unit_zero (S := S64x128) hz2, View.ld_unit_zero (S := S128x64) hz2,
    View.ld_unit_zero (S := S64) hz1, View.ld_unit_zero (S := S128) hz1]
  exact stored_rows x0 x1 x2 x3 x4 x5 x6 x7 x8 x9 x10 x11 x12 A0 A1 A2 A3 A4 A5 A6 A7 A8 A9 A10 A11 A12 p n
    e0 e1 e2 e3 e4 e5 e6 e7 e8 e9 e10 e11 e12 q

set_option maxHeartbeats 1000000 in
/-- What point `t` writes back: rows `5000·t …` of the node update of the arrays the region found. -/
theorem flushed13_eq (c : Dev nD) (t : Fin cfg5.N) :
    (dat5 V c).flushed 13 t = ((cfg5.win 13).blk t).view.read (Elt Ideal)
      (NodeSpec.outArr (R := 50000) (V c (Pipeline.arrRef spec5 0)) (V c (Pipeline.arrRef spec5 1))
        (V c (Pipeline.arrRef spec5 2)) (V c (Pipeline.arrRef spec5 3)) (V c (Pipeline.arrRef spec5 4))
        (V c (Pipeline.arrRef spec5 5)) (V c (Pipeline.arrRef spec5 6)) (V c (Pipeline.arrRef spec5 7))
        (V c (Pipeline.arrRef spec5 8)) (V c (Pipeline.arrRef spec5 9)) (V c (Pipeline.arrRef spec5 10))
        (V c (Pipeline.arrRef spec5 11)) (V c (Pipeline.arrRef spec5 12))) := by
  show (cfg5.win 13).cut (grid5.coords t) ((dat5 V c).after 13 t) = _
  generalize hX : (dat5 V c).after 13 t = X
  rw [after5_13] at hX
  obtain ⟨-, -, -, -, -, -, e0, e1⟩ := idx_rows t
  have hN : t.val < 10 := lt_of_lt_of_eq t.isLt N_5
  funext j
  obtain ⟨p, q, rfl⟩ : ∃ (p : Fin 5000) (q : Fin 64), j = ix2 p q := ⟨j 0, j 1, eq_ix2 (n0 := 5000) (n1 := 64) j⟩
  rw [View.read_apply]
  have he : ((cfg5.win 13).blk t).view.emb (ix2 p q)
      = ix2 (n0 := 50000) (n1 := 64) ⟨5000 * t.val + p.val, by have := p.isLt; omega⟩ q := by
    funext a
    apply Fin.ext
    match a with
    | ⟨0, _⟩ => show win5_13.index t (0 : Fin 2) * 5000 + 1 * p.val = 5000 * t.val + p.val; rw [e0]; omega
    | ⟨1, _⟩ => show win5_13.index t (1 : Fin 2) * 64 + 1 * q.val = q.val; rw [e1]; omega
  rw [he, NodeSpec.outArr_apply]
  refine (congrFun hX.symm (ix2 p q)).trans ?_
  exact out5_13_rows (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) (iblk5 V c 11 t) (iblk5 V c 12 t)
    (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (V c (Pipeline.arrRef spec5 6)) (V c (Pipeline.arrRef spec5 7)) (V c (Pipeline.arrRef spec5 8))
    (V c (Pipeline.arrRef spec5 9)) (V c (Pipeline.arrRef spec5 10)) (V c (Pipeline.arrRef spec5 11))
    (V c (Pipeline.arrRef spec5 12)) p ⟨5000 * t.val + p.val, by have := p.isLt; omega⟩
    (fun k => blk0_apply V c t p k ⟨5000 * t.val + p.val, by have := p.isLt; omega⟩ rfl)
    (fun k => blk1_apply V c t p k ⟨5000 * t.val + p.val, by have := p.isLt; omega⟩ rfl)
    (fun k => blk2_apply V c t p k ⟨5000 * t.val + p.val, by have := p.isLt; omega⟩ rfl)
    (blk3_eq V c t) (blk4_eq V c t) (blk5_eq V c t) (blk6_eq V c t) (blk7_eq V c t) (blk8_eq V c t)
    (blk9_eq V c t) (blk10_eq V c t) (blk11_eq V c t) (blk12_eq V c t) q

/-- An index of the output array is in point `t`'s block iff each coordinate is in the block's range on its axis. -/
theorem mem_blk13 (t : Fin cfg5.N) (i : S50000x64.Idx) :
    i ∈ ((cfg5.win 13).blk t).view.set ↔ ∀ a : Fin 2, win5_13.index t a * S5000x64.size a ≤ (i a).val
      ∧ (i a).val < win5_13.index t a * S5000x64.size a + S5000x64.size a := by
  show i ∈ ((View.whole main_v119).slice (win5_13.rect t)).set ↔ _
  rw [View.set_slice_whole, Rect.mem_set_unit]
  exact Iff.rfl

/-- Every row of the output is written: row `r` lies in the block of point `r / 5000`. -/
theorem cover13 (i : S50000x64.Idx) :
    ∃ t : Fin cfg5.N, (cfg5.win 13).flush t = true ∧ i ∈ ((cfg5.win 13).blk t).view.set := by
  have hi0 : (i 0).val < 50000 := idx2_lt0 i
  have hi1 : (i 1).val < 64 := idx2_lt1 i
  have hN : cfg5.N = 10 := N_5
  let t : Fin cfg5.N := ⟨(i 0).val / 5000, by rw [hN]; omega⟩
  have ht : t.val = (i 0).val / 5000 := rfl
  obtain ⟨-, -, -, -, -, -, e0, e1⟩ := idx_rows t
  refine ⟨t, flush5_13 t, ?_⟩
  rw [mem_blk13]
  intro a
  match a with
  | ⟨0, _⟩ => show win5_13.index t (0 : Fin 2) * 5000 ≤ (i 0).val ∧ (i 0).val < win5_13.index t (0 : Fin 2) * 5000 + 5000; rw [e0, ht]; omega
  | ⟨1, _⟩ => show win5_13.index t (1 : Fin 2) * 64 ≤ (i 1).val ∧ (i 1).val < win5_13.index t (1 : Fin 2) * 64 + 64; rw [e1]; omega

/-- THE OUTPUT AFTER THE REGION: the node update of the arrays the region found, whatever the buffers held on entry. -/
theorem arr5_13_fn (c : Dev nD) :
    (dat5 (F := Ideal) V c).arrAt 13 cfg5.N
      = NodeSpec.outArr (R := 50000) (V c (Pipeline.arrRef spec5 0)) (V c (Pipeline.arrRef spec5 1))
        (V c (Pipeline.arrRef spec5 2)) (V c (Pipeline.arrRef spec5 3)) (V c (Pipeline.arrRef spec5 4))
        (V c (Pipeline.arrRef spec5 5)) (V c (Pipeline.arrRef spec5 6)) (V c (Pipeline.arrRef spec5 7))
        (V c (Pipeline.arrRef spec5 8)) (V c (Pipeline.arrRef spec5 9)) (V c (Pipeline.arrRef spec5 10))
        (V c (Pipeline.arrRef spec5 11)) (V c (Pipeline.arrRef spec5 12)) :=
  (dat5 V c).arrAt_eq_of_cover 13
    (NodeSpec.outArr (R := 50000) (V c (Pipeline.arrRef spec5 0)) (V c (Pipeline.arrRef spec5 1))
        (V c (Pipeline.arrRef spec5 2)) (V c (Pipeline.arrRef spec5 3)) (V c (Pipeline.arrRef spec5 4))
        (V c (Pipeline.arrRef spec5 5)) (V c (Pipeline.arrRef spec5 6)) (V c (Pipeline.arrRef spec5 7))
        (V c (Pipeline.arrRef spec5 8)) (V c (Pipeline.arrRef spec5 9)) (V c (Pipeline.arrRef spec5 10))
        (V c (Pipeline.arrRef spec5 11)) (V c (Pipeline.arrRef spec5 12)))
    (fun t _ => flushed13_eq V c t) (cover13)

end Cert.KernelIdeal.Node5

end
-- ==== Proof.KQkvDot.lean ====
import proofs.«135486_j17549236371616_1_alg».proof.Proof.Gen.KernelIdeal
import Idealize.ShloMosaic.Lib.ValueIdx
import Idealize.ShloMosaic.PureOps.Ideal.Laws

/-! # A [5000,64] block times a [64,64] matrix, entry by entry

The product unit's contraction of a block of 5000 rows of 64 features with a 64×64 matrix, into a zero
accumulator, is at the extended reals the plain matrix product: entry (p, q) is the sum over the contracted
coordinate k of (entry (p, k) of the block) · (entry (k, q) of the matrix).  Only commutativity-free facts are
used: the sum is re-indexed along the bijection between the one-axis contraction index and its coordinate, and
the accumulator's zero is the additive unit. -/

noncomputable section

namespace Cert.KernelIdeal.QkvDot

open Cert.KernelIdeal Cert.KernelIdeal.Gen
open Idealize.ShloMosaic Idealize.ShloMosaic.ValueIdx
open scoped BigOperators

/-- The left operand's index at output entry (p, q) and contraction coordinate k is (p, k). -/
theorem lhs_idx (p : Fin 5000) (q : Fin 64) (k : Fin 64) :
    dot_S5000x64_S64x64_S5000x64_1_0_0_1_n_n.lhsIdx (ix2 p q)
      ((contrEquiv1 dot_S5000x64_S64x64_S5000x64_1_0_0_1_n_n 64 rfl rfl).symm k) = ix2 p k := by
  have c2 := contrEquiv1_symm_val dot_S5000x64_S64x64_S5000x64_1_0_0_1_n_n 64 rfl rfl k
  funext ax; apply Fin.ext
  match ax with
  | ⟨0, _⟩ => simp [DotDims.lhsIdx, dot_S5000x64_S64x64_S5000x64_1_0_0_1_n_n]; rfl
  | ⟨1, _⟩ => simp [DotDims.lhsIdx, dot_S5000x64_S64x64_S5000x64_1_0_0_1_n_n]; exact c2

/-- The right operand's index at output entry (p, q) and contraction coordinate k is (k, q). -/
theorem rhs_idx (p : Fin 5000) (q : Fin 64) (k : Fin 64) :
    dot_S5000x64_S64x64_S5000x64_1_0_0_1_n_n.rhsIdx (ix2 p q)
      ((contrEquiv1 dot_S5000x64_S64x64_S5000x64_1_0_0_1_n_n 64 rfl rfl).symm k) = ix2 k q := by
  have c2 := contrEquiv1_symm_val dot_S5000x64_S64x64_S5000x64_1_0_0_1_n_n 64 rfl rfl k
  funext ax; apply Fin.ext
  match ax with
  | ⟨0, _⟩ => simp [DotDims.rhsIdx, dot_S5000x64_S64x64_S5000x64_1_0_0_1_n_n]; exact c2
  | ⟨1, _⟩ => simp [DotDims.rhsIdx, dot_S5000x64_S64x64_S5000x64_1_0_0_1_n_n]; rfl

/-- The product into the zero accumulator, read at entry (p, q): the sum over k of A(p,k) · B(k,q). -/
theorem matmul_zero_apply {φ₁ φ₂ : FTy} (prec : Option ContractPrecision)
    (A : FVec Ideal S5000x64 φ₁) (B : FVec Ideal S64x64 φ₂) (p : Fin 5000) (q : Fin 64) :
    matmul dot_S5000x64_S64x64_S5000x64_1_0_0_1_n_n prec A B (constant (F := Ideal) S5000x64 .f32 0x00000000#32) (ix2 p q)
      = ∑ k : Fin 64, A (ix2 p k) * B (ix2 k q) := by
  refine (Ideal.matmul_constant_zero_apply dot_S5000x64_S64x64_S5000x64_1_0_0_1_n_n prec A B (ix2 p q)).trans ?_
  rw [← Equiv.sum_comp (contrEquiv1 dot_S5000x64_S64x64_S5000x64_1_0_0_1_n_n 64 rfl rfl).symm]
  refine Finset.sum_congr rfl fun k _ => ?_
  rw [lhs_idx, rhs_idx]

/-- The product of the [50000,64] node-feature array by a [64,64] weight matrix, entry by entry:
    entry (n, d) is the sum over k of h(n,k) · w(k,d). -/
def prod (h : S50000x64.Idx → EReal) (w : S64x64.Idx → EReal) : S50000x64.Idx → EReal :=
  fun i => ∑ k : Fin 64, h (ix2 (n0 := 50000) (i 0) k) * w (ix2 (n1 := 64) k (i 1))

/-- The product at explicit coordinates. -/
theorem prod_apply (h : S50000x64.Idx → EReal) (w : S64x64.Idx → EReal) (n : Fin 50000) (d : Fin 64) :
    prod h w (ix2 n d) = ∑ k : Fin 64, h (ix2 n k) * w (ix2 k d) := rfl

end Cert.KernelIdeal.QkvDot

end
-- ==== Proof.KQkv0Blocks.lean ====
import proofs.«135486_j17549236371616_1_alg».proof.Proof.Gen.KernelIdeal.Frame
import proofs.«135486_j17549236371616_1_alg».proof.Proof.KQkvDot
import Idealize.ShloMosaic.Lib.Pipeline.Value
import Idealize.ShloMosaic.Lib.ValueIdx

/-! # The first layer's three projections: what one grid point reads and stores

The projection region runs over ten grid points.  Point `t` reads rows `5000·t … 5000·t + 4999` of the
node-feature array `h` ([50000,64]) and the three weight matrices whole ([64,64] each), and writes rows
`5000·t … 5000·t + 4999` of each of its three output arrays: the block of `h` times the matrix.  At the extended
reals the rounding to the narrow float format before the product is the identity, so entry (p, q) of a written block
is `∑ k, h(5000·t + p, k) · w(k, q)`.  Here: the stored value at an entry as that sum over the loaded blocks, the
windows' block positions at each grid point, and each loaded block as the rows of its array.  Everything is stated
for arbitrary contents `V` of the buffers when the region is entered. -/

set_option maxRecDepth 16384

noncomputable section

namespace Cert.KernelIdeal.Qkv0

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## What the body stores: the block times the matrix, entry by entry -/

/-- The value stored to the first output block, at entry (p, q). -/
theorem pay2_apply (x0 : Vec Ideal S5000x64 .f32) (x1 : Vec Ideal S64x64 .f32) (p : Fin 5000) (q : Fin 64) :
    k0_pay2 x0 x1 (ix2 p q) = ∑ k : Fin 64, x0 (ix2 p k) * x1 (ix2 k q) := by
  unfold k0_pay2 k0_pay1
  refine (QkvDot.matmul_zero_apply none _ _ p q).trans ?_
  refine Finset.sum_congr rfl fun k _ => ?_
  show x0 (ix2 p k) * shapeCast S64x64 x1 shapeCasts_S64x64_S64x64 (ix2 k q) = _
  rw [shapeCast_self]

/-- The value stored to the second output block, at entry (p, q). -/
theorem pay3_apply (x0 : Vec Ideal S5000x64 .f32) (x1 : Vec Ideal S64x64 .f32) (p : Fin 5000) (q : Fin 64) :
    k0_pay3 x0 x1 (ix2 p q) = ∑ k : Fin 64, x0 (ix2 p k) * x1 (ix2 k q) := by
  unfold k0_pay3 k0_pay1
  refine (QkvDot.matmul_zero_apply none _ _ p q).trans ?_
  refine Finset.sum_congr rfl fun k _ => ?_
  show x0 (ix2 p k) * shapeCast S64x64 x1 shapeCasts_S64x64_S64x64 (ix2 k q) = _
  rw [shapeCast_self]

/-- The value stored to the third output block, at entry (p, q). -/
theorem pay4_apply (x0 : Vec Ideal S5000x64 .f32) (x1 : Vec Ideal S64x64 .f32) (p : Fin 5000) (q : Fin 64) :
    k0_pay4 x0 x1 (ix2 p q) = ∑ k : Fin 64, x0 (ix2 p k) * x1 (ix2 k q) := by
  unfold k0_pay4 k0_pay1
  refine (QkvDot.matmul_zero_apply none _ _ p q).trans ?_
  refine Finset.sum_congr rfl fun k _ => ?_
  show x0 (ix2 p k) * shapeCast S64x64 x1 shapeCasts_S64x64_S64x64 (ix2 k q) = _
  rw [shapeCast_self]

/-! ## The index maps over the grid -/

theorem hz : (![0, 0] : Fin 2 → Nat) = fun _ => 0 := funext fun a => by fin_cases a <;> rfl

/-- The windows' index maps at each of the ten grid points: the node-feature window and the three output windows
    sit at row block `t`, column block 0; the weight windows at block (0, 0). -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks, read off the arrays -/

/-- The node-feature block at point `t`, entry (p, k), is entry (5000·t + p, k) of the array. -/
theorem hblk_apply (c : Dev nD) (t : Fin cfg0.N) (p : Fin 5000) (k : Fin 64) (n : Fin 50000)
    (hn : n.val = 5000 * t.val + p.val) :
    (iblk0 V c 0 t : Vec Ideal S5000x64 .f32) (ix2 p k)
      = (V c (Pipeline.arrRef spec0 0) : S50000x64.Idx → EReal) (ix2 n k) := by
  obtain ⟨e0, e1, -⟩ := idx_facts t
  unfold iblk0
  rw [View.read_apply]
  refine congrArg (V c (Pipeline.arrRef spec0 0)) ?_
  funext a
  apply Fin.ext
  match a with
  | ⟨0, _⟩ => show win0_0.index t (0 : Fin 2) * 5000 + 1 * p.val = n.val; rw [e0, hn]; omega
  | ⟨1, _⟩ => show win0_0.index t (1 : Fin 2) * 64 + 1 * k.val = k.val; rw [e1]; omega

/-- The first weight block at any point is the whole matrix. -/
theorem wblk1_apply (c : Dev nD) (t : Fin cfg0.N) (k : Fin 64) (q : Fin 64) :
    (iblk0 V c 1 t : Vec Ideal S64x64 .f32) (ix2 k q)
      = (V c (Pipeline.arrRef spec0 1) : S64x64.Idx → EReal) (ix2 k q) := by
  obtain ⟨-, -, e0, e1, -⟩ := idx_facts t
  unfold iblk0
  rw [View.read_apply]
  refine congrArg (V c (Pipeline.arrRef spec0 1)) ?_
  funext a
  apply Fin.ext
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-- The second weight block at any point is the whole matrix. -/
theorem wblk2_apply (c : Dev nD) (t : Fin cfg0.N) (k : Fin 64) (q : Fin 64) :
    (iblk0 V c 2 t : Vec Ideal S64x64 .f32) (ix2 k q)
      = (V c (Pipeline.arrRef spec0 2) : S64x64.Idx → EReal) (ix2 k q) := by
  obtain ⟨-, -, -, -, e0, e1, -⟩ := idx_facts t
  unfold iblk0
  rw [View.read_apply]
  refine congrArg (V c (Pipeline.arrRef spec0 2)) ?_
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The third weight block at any point is the whole matrix. -/
theorem wblk3_apply (c : Dev nD) (t : Fin cfg0.N) (k : Fin 64) (q : Fin 64) :
    (iblk0 V c 3 t : Vec Ideal S64x64 .f32) (ix2 k q)
      = (V c (Pipeline.arrRef spec0 3) : S64x64.Idx → EReal) (ix2 k q) := by
  obtain ⟨-, -, -, -, -, -, e0, e1, -⟩ := idx_facts t
  unfold iblk0
  rw [View.read_apply]
  refine congrArg (V c (Pipeline.arrRef spec0 3)) ?_
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

end Cert.KernelIdeal.Qkv0

end
-- ==== Proof.KQkv0.lean ====
import proofs.«135486_j17549236371616_1_alg».proof.Proof.KQkv0Blocks

/-! # The first layer's three projections, as whole arrays

Point `t` of the ten writes rows `5000·t … 5000·t + 4999` of each of the three output arrays: the block of the
node-feature array `h` times a weight matrix `w`, entry (p, q) being `∑ k, h(5000·t + p, k) · w(k, q)`.  That is
the same rows of the one function `h · w` on the whole [50000,64] index set.  The ten row blocks tile the 50000 rows
(row `r` lies in the block of point `r / 5000`), so after the region each output array is the whole product: entry
(n, d) is `∑ k, h(n, k) · w(k, d)`, for arbitrary contents `V` of the buffers when the region is entered. -/

set_option maxRecDepth 16384

noncomputable section

namespace Cert.KernelIdeal.Qkv0

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## Output window 4 -/

/-- What point `t` writes back to output 4: rows `5000·t …` of the product of the node features by weight matrix 1. -/
theorem flushed4_eq (c : Dev nD) (t : Fin cfg0.N) :
    (dat0 V c).flushed 4 t = ((cfg0.win 4).blk t).view.read (Elt Ideal)
      (QkvDot.prod (V c (Pipeline.arrRef spec0 0)) (V c (Pipeline.arrRef spec0 1))) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz]
  obtain ⟨-, -, -, -, -, -, -, -, e0, e1, -⟩ := idx_facts t
  have hN : t.val < 10 := lt_of_lt_of_eq t.isLt N_0
  funext j
  obtain ⟨p, q, rfl⟩ : ∃ (p : Fin 5000) (q : Fin 64), j = ix2 p q := ⟨j 0, j 1, eq_ix2 (n0 := 5000) (n1 := 64) j⟩
  rw [View.read_apply]
  have he : ((cfg0.win 4).blk t).view.emb (ix2 p q)
      = ix2 (n0 := 50000) (n1 := 64) ⟨5000 * t.val + p.val, by have := p.isLt; omega⟩ q := by
    funext a
    apply Fin.ext
    match a with
    | ⟨0, _⟩ => show win0_4.index t (0 : Fin 2) * 5000 + 1 * p.val = 5000 * t.val + p.val; rw [e0]; omega
    | ⟨1, _⟩ => show win0_4.index t (1 : Fin 2) * 64 + 1 * q.val = q.val; rw [e1]; omega
  rw [he, QkvDot.prod_apply]
  refine (pay2_apply (iblk0 V c 0 t) (iblk0 V c 1 t) p q).trans ?_
  refine Finset.sum_congr rfl fun k _ => ?_
  rw [hblk_apply V c t p k ⟨5000 * t.val + p.val, by have := p.isLt; omega⟩ rfl, wblk1_apply V c t k q]

/-- An index of output 4's array is in point `t`'s block iff each coordinate is in the block's range on its axis. -/
theorem mem_blk4 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v10_0).slice (win0_4.rect t)).set ↔ _
  rw [View.set_slice_whole, Rect.mem_set_unit]
  exact Iff.rfl

/-- Every row of output 4 is written: row `r` lies in the block of point `r / 5000`. -/
theorem cover4 (i : S50000x64.Idx) :
    ∃ t : Fin cfg0.N, (cfg0.win 4).flush t = true ∧ i ∈ ((cfg0.win 4).blk t).view.set := by
  have hi0 : (i 0).val < 50000 := idx2_lt0 i
  have hi1 : (i 1).val < 64 := idx2_lt1 i
  have hN : cfg0.N = 10 := N_0
  let t : Fin cfg0.N := ⟨(i 0).val / 5000, by rw [hN]; omega⟩
  have ht : t.val = (i 0).val / 5000 := rfl
  obtain ⟨-, -, -, -, -, -, -, -, e0, e1, -⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 64 ≤ (i 1).val ∧ (i 1).val < win0_4.index t (1 : Fin 2) * 64 + 64; rw [e1]; omega

/-- OUTPUT 4 AFTER THE REGION: the node features times weight matrix 1, whatever the buffers held on entry. -/
theorem arr0_4 (c : Dev nD) :
    (dat0 (F := Ideal) V c).arrAt 4 cfg0.N
      = QkvDot.prod (V c (Pipeline.arrRef spec0 0)) (V c (Pipeline.arrRef spec0 1)) :=
  (dat0 V c).arrAt_eq_of_cover 4 (QkvDot.prod (V c (Pipeline.arrRef spec0 0)) (V c (Pipeline.arrRef spec0 1)))
    (fun t _ => flushed4_eq V c t) cover4

/-! ## Output window 5 -/

/-- What point `t` writes back to output 5: rows `5000·t …` of the product of the node features by weight matrix 2. -/
theorem flushed5_eq (c : Dev nD) (t : Fin cfg0.N) :
    (dat0 V c).flushed 5 t = ((cfg0.win 5).blk t).view.read (Elt Ideal)
      (QkvDot.prod (V c (Pipeline.arrRef spec0 0)) (V c (Pipeline.arrRef spec0 2))) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz]
  obtain ⟨-, -, -, -, -, -, -, -, -, -, e0, e1, -⟩ := idx_facts t
  have hN : t.val < 10 := lt_of_lt_of_eq t.isLt N_0
  funext j
  obtain ⟨p, q, rfl⟩ : ∃ (p : Fin 5000) (q : Fin 64), j = ix2 p q := ⟨j 0, j 1, eq_ix2 (n0 := 5000) (n1 := 64) j⟩
  rw [View.read_apply]
  have he : ((cfg0.win 5).blk t).view.emb (ix2 p q)
      = ix2 (n0 := 50000) (n1 := 64) ⟨5000 * t.val + p.val, by have := p.isLt; omega⟩ q := by
    funext a
    apply Fin.ext
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega
  rw [he, QkvDot.prod_apply]
  refine (pay3_apply (iblk0 V c 0 t) (iblk0 V c 2 t) p q).trans ?_
  refine Finset.sum_congr rfl fun k _ => ?_
  rw [hblk_apply V c t p k ⟨5000 * t.val + p.val, by have := p.isLt; omega⟩ rfl, wblk2_apply V c t k q]

/-- An index of output 5's array is in point `t`'s block iff each coordinate is in the block's range on its axis. -/
theorem mem_blk5 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v10_1).slice (win0_5.rect t)).set ↔ _
  rw [View.set_slice_whole, Rect.mem_set_unit]
  exact Iff.rfl

/-- Every row of output 5 is written: row `r` lies in the block of point `r / 5000`. -/
theorem cover5 (i : S50000x64.Idx) :
    ∃ t : Fin cfg0.N, (cfg0.win 5).flush t = true ∧ i ∈ ((cfg0.win 5).blk t).view.set := by
  have hi0 : (i 0).val < 50000 := idx2_lt0 i
  have hi1 : (i 1).val < 64 := idx2_lt1 i
  have hN : cfg0.N = 10 := N_0
  let t : Fin cfg0.N := ⟨(i 0).val / 5000, by rw [hN]; omega⟩
  have ht : t.val = (i 0).val / 5000 := rfl
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

/-- OUTPUT 5 AFTER THE REGION: the node features times weight matrix 2, whatever the buffers held on entry. -/
theorem arr0_5 (c : Dev nD) :
    (dat0 (F := Ideal) V c).arrAt 5 cfg0.N
      = QkvDot.prod (V c (Pipeline.arrRef spec0 0)) (V c (Pipeline.arrRef spec0 2)) :=
  (dat0 V c).arrAt_eq_of_cover 5 (QkvDot.prod (V c (Pipeline.arrRef spec0 0)) (V c (Pipeline.arrRef spec0 2)))
    (fun t _ => flushed5_eq V c t) cover5

/-! ## Output window 6 -/

/-- What point `t` writes back to output 6: rows `5000·t …` of the product of the node features by weight matrix 3. -/
theorem flushed6_eq (c : Dev nD) (t : Fin cfg0.N) :
    (dat0 V c).flushed 6 t = ((cfg0.win 6).blk t).view.read (Elt Ideal)
      (QkvDot.prod (V c (Pipeline.arrRef spec0 0)) (V c (Pipeline.arrRef spec0 3))) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz]
  obtain ⟨-, -, -, -, -, -, -, -, -, -, -, -, e0, e1⟩ := idx_facts t
  have hN : t.val < 10 := lt_of_lt_of_eq t.isLt N_0
  funext j
  obtain ⟨p, q, rfl⟩ : ∃ (p : Fin 5000) (q : Fin 64), j = ix2 p q := ⟨j 0, j 1, eq_ix2 (n0 := 5000) (n1 := 64) j⟩
  rw [View.read_apply]
  have he : ((cfg0.win 6).blk t).view.emb (ix2 p q)
      = ix2 (n0 := 50000) (n1 := 64) ⟨5000 * t.val + p.val, by have := p.isLt; omega⟩ q := by
    funext a
    apply Fin.ext
    match a with
    | ⟨0, _⟩ => show win0_6.index t (0 : Fin 2) * 5000 + 1 * p.val = 5000 * t.val + p.val; rw [e0]; omega
    | ⟨1, _⟩ => show win0_6.index t (1 : Fin 2) * 64 + 1 * q.val = q.val; rw [e1]; omega
  rw [he, QkvDot.prod_apply]
  refine (pay4_apply (iblk0 V c 0 t) (iblk0 V c 3 t) p q).trans ?_
  refine Finset.sum_congr rfl fun k _ => ?_
  rw [hblk_apply V c t p k ⟨5000 * t.val + p.val, by have := p.isLt; omega⟩ rfl, wblk3_apply V c t k q]

/-- An index of output 6's array is in point `t`'s block iff each coordinate is in the block's range on its axis. -/
theorem mem_blk6 (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v10_2).slice (win0_6.rect t)).set ↔ _
  rw [View.set_slice_whole, Rect.mem_set_unit]
  exact Iff.rfl

/-- Every row of output 6 is written: row `r` lies in the block of point `r / 5000`. -/
theorem cover6 (i : S50000x64.Idx) :
    ∃ t : Fin cfg0.N, (cfg0.win 6).flush t = true ∧ i ∈ ((cfg0.win 6).blk t).view.set := by
  have hi0 : (i 0).val < 50000 := idx2_lt0 i
  have hi1 : (i 1).val < 64 := idx2_lt1 i
  have hN : cfg0.N = 10 := N_0
  let t : Fin cfg0.N := ⟨(i 0).val / 5000, by rw [hN]; omega⟩
  have ht : t.val = (i 0).val / 5000 := rfl
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

/-- OUTPUT 6 AFTER THE REGION: the node features times weight matrix 3, whatever the buffers held on entry. -/
theorem arr0_6 (c : Dev nD) :
    (dat0 (F := Ideal) V c).arrAt 6 cfg0.N
      = QkvDot.prod (V c (Pipeline.arrRef spec0 0)) (V c (Pipeline.arrRef spec0 3)) :=
  (dat0 V c).arrAt_eq_of_cover 6 (QkvDot.prod (V c (Pipeline.arrRef spec0 0)) (V c (Pipeline.arrRef spec0 3)))
    (fun t _ => flushed6_eq V c t) cover6

end Cert.KernelIdeal.Qkv0

end
-- ==== Proof.KQkv3Blocks.lean ====
import proofs.«135486_j17549236371616_1_alg».proof.Proof.Gen.KernelIdeal.Frame
import proofs.«135486_j17549236371616_1_alg».proof.Proof.KQkvDot
import Idealize.ShloMosaic.Lib.Pipeline.Value
import Idealize.ShloMosaic.Lib.ValueIdx

/-! # The second layer's three projections: what one grid point reads and stores

The projection region runs over ten grid points.  Point `t` reads rows `5000·t … 5000·t + 4999` of the
node-feature array `h` ([50000,64]) and the three weight matrices whole ([64,64] each), and writes rows
`5000·t … 5000·t + 4999` of each of its three output arrays: the block of `h` times the matrix.  At the extended
reals the rounding to the narrow float format before the product is the identity (and the block's re-shaping to its own shape moves nothing), so entry (p, q) of a written block
is `∑ k, h(5000·t + p, k) · w(k, q)`.  Here: the stored value at an entry as that sum over the loaded blocks, the
windows' block positions at each grid point, and each loaded block as the rows of its array.  Everything is stated
for arbitrary contents `V` of the buffers when the region is entered. -/

set_option maxRecDepth 16384

noncomputable section

namespace Cert.KernelIdeal.Qkv3

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## What the body stores: the block times the matrix, entry by entry -/

/-- The value stored to the first output block, at entry (p, q). -/
theorem pay2_apply (x0 : Vec Ideal S5000x64 .f32) (x1 : Vec Ideal S64x64 .f32) (p : Fin 5000) (q : Fin 64) :
    k3_pay2 x0 x1 (ix2 p q) = ∑ k : Fin 64, x0 (ix2 p k) * x1 (ix2 k q) := by
  unfold k3_pay2 k3_pay1
  refine (QkvDot.matmul_zero_apply none _ _ p q).trans ?_
  refine Finset.sum_congr rfl fun k _ => ?_
  show shapeCast S5000x64 x0 shapeCasts_S5000x64_S5000x64 (ix2 p k) * shapeCast S64x64 x1 shapeCasts_S64x64_S64x64 (ix2 k q) = _
  rw [shapeCast_self, shapeCast_self]

/-- The value stored to the second output block, at entry (p, q). -/
theorem pay3_apply (x0 : Vec Ideal S5000x64 .f32) (x1 : Vec Ideal S64x64 .f32) (p : Fin 5000) (q : Fin 64) :
    k3_pay3 x0 x1 (ix2 p q) = ∑ k : Fin 64, x0 (ix2 p k) * x1 (ix2 k q) := by
  unfold k3_pay3 k3_pay1
  refine (QkvDot.matmul_zero_apply none _ _ p q).trans ?_
  refine Finset.sum_congr rfl fun k _ => ?_
  show shapeCast S5000x64 x0 shapeCasts_S5000x64_S5000x64 (ix2 p k) * shapeCast S64x64 x1 shapeCasts_S64x64_S64x64 (ix2 k q) = _
  rw [shapeCast_self, shapeCast_self]

/-- The value stored to the third output block, at entry (p, q). -/
theorem pay4_apply (x0 : Vec Ideal S5000x64 .f32) (x1 : Vec Ideal S64x64 .f32) (p : Fin 5000) (q : Fin 64) :
    k3_pay4 x0 x1 (ix2 p q) = ∑ k : Fin 64, x0 (ix2 p k) * x1 (ix2 k q) := by
  unfold k3_pay4 k3_pay1
  refine (QkvDot.matmul_zero_apply none _ _ p q).trans ?_
  refine Finset.sum_congr rfl fun k _ => ?_
  show shapeCast S5000x64 x0 shapeCasts_S5000x64_S5000x64 (ix2 p k) * shapeCast S64x64 x1 shapeCasts_S64x64_S64x64 (ix2 k q) = _
  rw [shapeCast_self, shapeCast_self]

/-! ## The index maps over the grid -/

theorem hz : (![0, 0] : Fin 2 → Nat) = fun _ => 0 := funext fun a => by fin_cases a <;> rfl

/-- The windows' index maps at each of the ten grid points: the node-feature window and the three output windows
    sit at row block `t`, column block 0; the weight windows at block (0, 0). -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-! ## The input blocks, read off the arrays -/

/-- The node-feature block at point `t`, entry (p, k), is entry (5000·t + p, k) of the array. -/
theorem hblk_apply (c : Dev nD) (t : Fin cfg3.N) (p : Fin 5000) (k : Fin 64) (n : Fin 50000)
    (hn : n.val = 5000 * t.val + p.val) :
    (iblk3 V c 0 t : Vec Ideal S5000x64 .f32) (ix2 p k)
      = (V c (Pipeline.arrRef spec3 0) : S50000x64.Idx → EReal) (ix2 n k) := by
  obtain ⟨e0, e1, -⟩ := idx_facts t
  unfold iblk3
  rw [View.read_apply]
  refine congrArg (V c (Pipeline.arrRef spec3 0)) ?_
  funext a
  apply Fin.ext
  match a with
  | ⟨0, _⟩ => show win3_0.index t (0 : Fin 2) * 5000 + 1 * p.val = n.val; rw [e0, hn]; omega
  | ⟨1, _⟩ => show win3_0.index t (1 : Fin 2) * 64 + 1 * k.val = k.val; rw [e1]; omega

/-- The first weight block at any point is the whole matrix. -/
theorem wblk1_apply (c : Dev nD) (t : Fin cfg3.N) (k : Fin 64) (q : Fin 64) :
    (iblk3 V c 1 t : Vec Ideal S64x64 .f32) (ix2 k q)
      = (V c (Pipeline.arrRef spec3 1) : S64x64.Idx → EReal) (ix2 k q) := by
  obtain ⟨-, -, e0, e1, -⟩ := idx_facts t
  unfold iblk3
  rw [View.read_apply]
  refine congrArg (V c (Pipeline.arrRef spec3 1)) ?_
  funext a
  apply Fin.ext
  match a with
  | ⟨0, _⟩ => show win3_1.index t (0 : Fin 2) * 64 + 1 * k.val = k.val; rw [e0]; omega
  | ⟨1, _⟩ => show win3_1.index t (1 : Fin 2) * 64 + 1 * q.val = q.val; rw [e1]; omega

/-- The second weight block at any point is the whole matrix. -/
theorem wblk2_apply (c : Dev nD) (t : Fin cfg3.N) (k : Fin 64) (q : Fin 64) :
    (iblk3 V c 2 t : Vec Ideal S64x64 .f32) (ix2 k q)
      = (V c (Pipeline.arrRef spec3 2) : S64x64.Idx → EReal) (ix2 k q) := by
  obtain ⟨-, -, -, -, e0, e1, -⟩ := idx_facts t
  unfold iblk3
  rw [View.read_apply]
  refine congrArg (V c (Pipeline.arrRef spec3 2)) ?_
  funext a
  apply Fin.ext
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- The third weight block at any point is the whole matrix. -/
theorem wblk3_apply (c : Dev nD) (t : Fin cfg3.N) (k : Fin 64) (q : Fin 64) :
    (iblk3 V c 3 t : Vec Ideal S64x64 .f32) (ix2 k q)
      = (V c (Pipeline.arrRef spec3 3) : S64x64.Idx → EReal) (ix2 k q) := by
  obtain ⟨-, -, -, -, -, -, e0, e1, -⟩ := idx_facts t
  unfold iblk3
  rw [View.read_apply]
  refine congrArg (V c (Pipeline.arrRef spec3 3)) ?_
  funext a
  apply Fin.ext
  match a with
  | ⟨0, _⟩ => show win3_3.index t (0 : Fin 2) * 64 + 1 * k.val = k.val; rw [e0]; omega
  | ⟨1, _⟩ => show win3_3.index t (1 : Fin 2) * 64 + 1 * q.val = q.val; rw [e1]; omega

end Cert.KernelIdeal.Qkv3

end
-- ==== Proof.KQkv3.lean ====
import proofs.«135486_j17549236371616_1_alg».proof.Proof.KQkv3Blocks

/-! # The second layer's three projections, as whole arrays

Point `t` of the ten writes rows `5000·t … 5000·t + 4999` of each of the three output arrays: the block of the
node-feature array `h` times a weight matrix `w`, entry (p, q) being `∑ k, h(5000·t + p, k) · w(k, q)`.  That is
the same rows of the one function `h · w` on the whole [50000,64] index set.  The ten row blocks tile the 50000 rows
(row `r` lies in the block of point `r / 5000`), so after the region each output array is the whole product: entry
(n, d) is `∑ k, h(n, k) · w(k, d)`, for arbitrary contents `V` of the buffers when the region is entered. -/

set_option maxRecDepth 16384

noncomputable section

namespace Cert.KernelIdeal.Qkv3

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## Output window 4 -/

set_option maxHeartbeats 1000000 in
/-- What point `t` writes back to output 4: rows `5000·t …` of the product of the node features by weight matrix 1. -/
theorem flushed4_eq (c : Dev nD) (t : Fin cfg3.N) :
    (dat3 V c).flushed 4 t = ((cfg3.win 4).blk t).view.read (Elt Ideal)
      (QkvDot.prod (V c (Pipeline.arrRef spec3 0)) (V c (Pipeline.arrRef spec3 1))) := by
  show (cfg3.win 4).cut (grid3.coords t) ((dat3 V c).after 4 t) = _
  rw [after3_4]
  unfold out3_4
  rw [View.canon_unit_zero hz]
  simp only [View.ld_unit_zero (S := S5000x64) hz, View.ld_unit_zero (S := S64x64) hz]
  obtain ⟨-, -, -, -, -, -, -, -, e0, e1, -⟩ := idx_facts t
  have hN : t.val < 10 := lt_of_lt_of_eq t.isLt N_3
  funext j
  obtain ⟨p, q, rfl⟩ : ∃ (p : Fin 5000) (q : Fin 64), j = ix2 p q := ⟨j 0, j 1, eq_ix2 (n0 := 5000) (n1 := 64) j⟩
  rw [View.read_apply]
  have he : ((cfg3.win 4).blk t).view.emb (ix2 p q)
      = ix2 (n0 := 50000) (n1 := 64) ⟨5000 * t.val + p.val, by have := p.isLt; omega⟩ q := by
    funext a
    apply Fin.ext
    match a with
    | ⟨0, _⟩ => show win3_4.index t (0 : Fin 2) * 5000 + 1 * p.val = 5000 * t.val + p.val; rw [e0]; omega
    | ⟨1, _⟩ => show win3_4.index t (1 : Fin 2) * 64 + 1 * q.val = q.val; rw [e1]; omega
  rw [he, QkvDot.prod_apply]
  refine (pay2_apply (iblk3 V c 0 t) (iblk3 V c 1 t) p q).trans ?_
  refine Finset.sum_congr rfl fun k _ => ?_
  rw [hblk_apply V c t p k ⟨5000 * t.val + p.val, by have := p.isLt; omega⟩ rfl, wblk1_apply V c t k q]

/-- An index of output 4's array is in point `t`'s block iff each coordinate is in the block's range on its axis. -/
theorem mem_blk4 (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v68_0).slice (win3_4.rect t)).set ↔ _
  rw [View.set_slice_whole, Rect.mem_set_unit]
  exact Iff.rfl

/-- Every row of output 4 is written: row `r` lies in the block of point `r / 5000`. -/
theorem cover4 (i : S50000x64.Idx) :
    ∃ t : Fin cfg3.N, (cfg3.win 4).flush t = true ∧ i ∈ ((cfg3.win 4).blk t).view.set := by
  have hi0 : (i 0).val < 50000 := idx2_lt0 i
  have hi1 : (i 1).val < 64 := idx2_lt1 i
  have hN : cfg3.N = 10 := N_3
  let t : Fin cfg3.N := ⟨(i 0).val / 5000, by rw [hN]; omega⟩
  have ht : t.val = (i 0).val / 5000 := rfl
  obtain ⟨-, -, -, -, -, -, -, -, e0, e1, -⟩ := idx_facts t
  refine ⟨t, flush3_4 t, ?_⟩
  rw [mem_blk4]
  intro a
  match a with
  | ⟨0, _⟩ => show win3_4.index t (0 : Fin 2) * 5000 ≤ (i 0).val ∧ (i 0).val < win3_4.index t (0 : Fin 2) * 5000 + 5000; rw [e0, ht]; omega
  | ⟨1, _⟩ => show win3_4.index t (1 : Fin 2) * 64 ≤ (i 1).val ∧ (i 1).val < win3_4.index t (1 : Fin 2) * 64 + 64; rw [e1]; omega

/-- OUTPUT 4 AFTER THE REGION: the node features times weight matrix 1, whatever the buffers held on entry. -/
theorem arr3_4 (c : Dev nD) :
    (dat3 (F := Ideal) V c).arrAt 4 cfg3.N
      = QkvDot.prod (V c (Pipeline.arrRef spec3 0)) (V c (Pipeline.arrRef spec3 1)) :=
  (dat3 V c).arrAt_eq_of_cover 4 (QkvDot.prod (V c (Pipeline.arrRef spec3 0)) (V c (Pipeline.arrRef spec3 1)))
    (fun t _ => flushed4_eq V c t) cover4

/-! ## Output window 5 -/

set_option maxHeartbeats 1000000 in
/-- What point `t` writes back to output 5: rows `5000·t …` of the product of the node features by weight matrix 2. -/
theorem flushed5_eq (c : Dev nD) (t : Fin cfg3.N) :
    (dat3 V c).flushed 5 t = ((cfg3.win 5).blk t).view.read (Elt Ideal)
      (QkvDot.prod (V c (Pipeline.arrRef spec3 0)) (V c (Pipeline.arrRef spec3 2))) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz]
  obtain ⟨-, -, -, -, -, -, -, -, -, -, e0, e1, -⟩ := idx_facts t
  have hN : t.val < 10 := lt_of_lt_of_eq t.isLt N_3
  funext j
  obtain ⟨p, q, rfl⟩ : ∃ (p : Fin 5000) (q : Fin 64), j = ix2 p q := ⟨j 0, j 1, eq_ix2 (n0 := 5000) (n1 := 64) j⟩
  rw [View.read_apply]
  have he : ((cfg3.win 5).blk t).view.emb (ix2 p q)
      = ix2 (n0 := 50000) (n1 := 64) ⟨5000 * t.val + p.val, by have := p.isLt; omega⟩ q := by
    funext a
    apply Fin.ext
    match a with
    | ⟨0, _⟩ => show win3_5.index t (0 : Fin 2) * 5000 + 1 * p.val = 5000 * t.val + p.val; rw [e0]; omega
    | ⟨1, _⟩ => show win3_5.index t (1 : Fin 2) * 64 + 1 * q.val = q.val; rw [e1]; omega
  rw [he, QkvDot.prod_apply]
  refine (pay3_apply (iblk3 V c 0 t) (iblk3 V c 2 t) p q).trans ?_
  refine Finset.sum_congr rfl fun k _ => ?_
  rw [hblk_apply V c t p k ⟨5000 * t.val + p.val, by have := p.isLt; omega⟩ rfl, wblk2_apply V c t k q]

/-- An index of output 5's array is in point `t`'s block iff each coordinate is in the block's range on its axis. -/
theorem mem_blk5 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v68_1).slice (win3_5.rect t)).set ↔ _
  rw [View.set_slice_whole, Rect.mem_set_unit]
  exact Iff.rfl

/-- Every row of output 5 is written: row `r` lies in the block of point `r / 5000`. -/
theorem cover5 (i : S50000x64.Idx) :
    ∃ t : Fin cfg3.N, (cfg3.win 5).flush t = true ∧ i ∈ ((cfg3.win 5).blk t).view.set := by
  have hi0 : (i 0).val < 50000 := idx2_lt0 i
  have hi1 : (i 1).val < 64 := idx2_lt1 i
  have hN : cfg3.N = 10 := N_3
  let t : Fin cfg3.N := ⟨(i 0).val / 5000, by rw [hN]; omega⟩
  have ht : t.val = (i 0).val / 5000 := rfl
  obtain ⟨-, -, -, -, -, -, -, -, -, -, e0, e1, -⟩ := idx_facts t
  refine ⟨t, flush3_5 t, ?_⟩
  rw [mem_blk5]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 64 ≤ (i 1).val ∧ (i 1).val < win3_5.index t (1 : Fin 2) * 64 + 64; rw [e1]; omega

/-- OUTPUT 5 AFTER THE REGION: the node features times weight matrix 2, whatever the buffers held on entry. -/
theorem arr3_5 (c : Dev nD) :
    (dat3 (F := Ideal) V c).arrAt 5 cfg3.N
      = QkvDot.prod (V c (Pipeline.arrRef spec3 0)) (V c (Pipeline.arrRef spec3 2)) :=
  (dat3 V c).arrAt_eq_of_cover 5 (QkvDot.prod (V c (Pipeline.arrRef spec3 0)) (V c (Pipeline.arrRef spec3 2)))
    (fun t _ => flushed5_eq V c t) cover5

/-! ## Output window 6 -/

set_option maxHeartbeats 1000000 in
/-- What point `t` writes back to output 6: rows `5000·t …` of the product of the node features by weight matrix 3. -/
theorem flushed6_eq (c : Dev nD) (t : Fin cfg3.N) :
    (dat3 V c).flushed 6 t = ((cfg3.win 6).blk t).view.read (Elt Ideal)
      (QkvDot.prod (V c (Pipeline.arrRef spec3 0)) (V c (Pipeline.arrRef spec3 3))) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz]
  obtain ⟨-, -, -, -, -, -, -, -, -, -, -, -, e0, e1⟩ := idx_facts t
  have hN : t.val < 10 := lt_of_lt_of_eq t.isLt N_3
  funext j
  obtain ⟨p, q, rfl⟩ : ∃ (p : Fin 5000) (q : Fin 64), j = ix2 p q := ⟨j 0, j 1, eq_ix2 (n0 := 5000) (n1 := 64) j⟩
  rw [View.read_apply]
  have he : ((cfg3.win 6).blk t).view.emb (ix2 p q)
      = ix2 (n0 := 50000) (n1 := 64) ⟨5000 * t.val + p.val, by have := p.isLt; omega⟩ q := by
    funext a
    apply Fin.ext
    match a with
    | ⟨0, _⟩ => show win3_6.index t (0 : Fin 2) * 5000 + 1 * p.val = 5000 * t.val + p.val; rw [e0]; omega
    | ⟨1, _⟩ => show win3_6.index t (1 : Fin 2) * 64 + 1 * q.val = q.val; rw [e1]; omega
  rw [he, QkvDot.prod_apply]
  refine (pay4_apply (iblk3 V c 0 t) (iblk3 V c 3 t) p q).trans ?_
  refine Finset.sum_congr rfl fun k _ => ?_
  rw [hblk_apply V c t p k ⟨5000 * t.val + p.val, by have := p.isLt; omega⟩ rfl, wblk3_apply V c t k q]

/-- An index of output 6's array is in point `t`'s block iff each coordinate is in the block's range on its axis. -/
theorem mem_blk6 (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v68_2).slice (win3_6.rect t)).set ↔ _
  rw [View.set_slice_whole, Rect.mem_set_unit]
  exact Iff.rfl

/-- Every row of output 6 is written: row `r` lies in the block of point `r / 5000`. -/
theorem cover6 (i : S50000x64.Idx) :
    ∃ t : Fin cfg3.N, (cfg3.win 6).flush t = true ∧ i ∈ ((cfg3.win 6).blk t).view.set := by
  have hi0 : (i 0).val < 50000 := idx2_lt0 i
  have hi1 : (i 1).val < 64 := idx2_lt1 i
  have hN : cfg3.N = 10 := N_3
  let t : Fin cfg3.N := ⟨(i 0).val / 5000, by rw [hN]; omega⟩
  have ht : t.val = (i 0).val / 5000 := rfl
  obtain ⟨-, -, -, -, -, -, -, -, -, -, -, -, e0, e1⟩ := idx_facts t
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 64 ≤ (i 1).val ∧ (i 1).val < win3_6.index t (1 : Fin 2) * 64 + 64; rw [e1]; omega

/-- OUTPUT 6 AFTER THE REGION: the node features times weight matrix 3, whatever the buffers held on entry. -/
theorem arr3_6 (c : Dev nD) :
    (dat3 (F := Ideal) V c).arrAt 6 cfg3.N
      = QkvDot.prod (V c (Pipeline.arrRef spec3 0)) (V c (Pipeline.arrRef spec3 3)) :=
  (dat3 V c).arrAt_eq_of_cover 6 (QkvDot.prod (V c (Pipeline.arrRef spec3 0)) (V c (Pipeline.arrRef spec3 3)))
    (fun t _ => flushed6_eq V c t) cover6

end Cert.KernelIdeal.Qkv3

end
-- ==== Proof.KWeightsKeep.lean ====
import proofs.«135486_j17549236371616_1_alg».proof.Proof.Gen.KernelIdeal.Frame

/-! # Buffers the host stretches and the regions leave alone

The program is six regions among six stretches of host operations.  A buffer's contents at a region's entry are read
back through that chain: a stretch changes only the buffers its operations write, a region only its own arrays.  This
module lists, per stretch, the buffers it writes, and proves that any other buffer passes through it unchanged; a
buffer that no stretch writes and that is no region's array — every stacked parameter array is one — holds its launch
contents at every boundary. -/

set_option maxRecDepth 16384

noncomputable section

namespace Cert.KernelIdeal.Wt

open Cert.KernelIdeal Cert.KernelIdeal.Gen
open Idealize.ShloMosaic Idealize.ShloMosaic.TcCoe Idealize.SL.Sem

variable {F : FTy → Type} [FloatOps F]

/-- A written buffer that is on a list lies in the list's set of device buffers. -/
theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers stretch 0 writes, in order. -/
abbrev wr0 : List (Ref sig .tc) :=
  [main_cst, main_cst_0, main_v0, main_v1, main_v2, main_v3, main_v4, main_v5, main_v6, main_v7, main_v8, main_v9]
theorem hW0 : (hostOps0 : List (HloOp τ sig (Elt F))).Forall
    fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact writes_sub (by decide)
/-- Stretch 0 leaves every other buffer as it was. -/
theorem keep0 (V : Valuation τ sig (Elt F)) (r : Ref sig .tc) (hr : r ∉ wr0) :
    StableHlo.after hostOps0 V (Proc.devRef .tc r) = V (Proc.devRef .tc r) :=
  StableHlo.after_of_writes_sub hostOps0 V hW0 hr

/-- The buffers stretch 1 writes, in order. -/
abbrev wr1 : List (Ref sig .tc) :=
  [main_c, main_v11, main_v12, main_c_1, main_v13, main_v14, main_v15, main_v16, main_v17, main_c_2, main_v18, main_v19, main_c_3, main_v20, main_v21, main_v22, main_v23, main_v24, main_c_4, main_v25, main_v26, main_c_5, main_v27, main_v28, main_v29, main_v30, main_v31, main_v32, main_v33]
theorem hW1 : (hostOps1 : List (HloOp τ sig (Elt F))).Forall
    fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact writes_sub (by decide)
/-- Stretch 1 leaves every other buffer as it was. -/
theorem keep1 (V : Valuation τ sig (Elt F)) (r : Ref sig .tc) (hr : r ∉ wr1) :
    StableHlo.after hostOps1 V (Proc.devRef .tc r) = V (Proc.devRef .tc r) :=
  StableHlo.after_of_writes_sub hostOps1 V hW1 hr

/-- The buffers stretch 2 writes, in order. -/
abbrev wr2 : List (Ref sig .tc) :=
  [main_cst_6, main_v35, main_v36, main_v37, main_cst_7, main_v38, main_v39, main_v40, main_v41, main_v42, main_v43, main_v44, main_v45, main_v46, main_v47, main_v48, main_v49, main_v50, main_v51, main_v52, main_v53, main_v54, main_v55, main_v56, main_v57, main_v58, main_v59, main_v60]
theorem hW2 : (hostOps2 : List (HloOp τ sig (Elt F))).Forall
    fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact writes_sub (by decide)
/-- Stretch 2 leaves every other buffer as it was. -/
theorem keep2 (V : Valuation τ sig (Elt F)) (r : Ref sig .tc) (hr : r ∉ wr2) :
    StableHlo.after hostOps2 V (Proc.devRef .tc r) = V (Proc.devRef .tc r) :=
  StableHlo.after_of_writes_sub hostOps2 V hW2 hr

/-- The buffers stretch 3 writes, in order. -/
abbrev wr3 : List (Ref sig .tc) :=
  [main_v62, main_v63, main_v64, main_v65, main_v66, main_v67]
theorem hW3 : (hostOps3 : List (HloOp τ sig (Elt F))).Forall
    fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact writes_sub (by decide)
/-- Stretch 3 leaves every other buffer as it was. -/
theorem keep3 (V : Valuation τ sig (Elt F)) (r : Ref sig .tc) (hr : r ∉ wr3) :
    StableHlo.after hostOps3 V (Proc.devRef .tc r) = V (Proc.devRef .tc r) :=
  StableHlo.after_of_writes_sub hostOps3 V hW3 hr

/-- The buffers stretch 4 writes, in order. -/
abbrev wr4 : List (Ref sig .tc) :=
  [main_c_8, main_v69, main_v70, main_c_9, main_v71, main_v72, main_v73, main_v74, main_v75, main_c_10, main_v76, main_v77, main_c_11, main_v78, main_v79, main_v80, main_v81, main_v82, main_c_12, main_v83, main_v84, main_c_13, main_v85, main_v86, main_v87, main_v88, main_v89, main_v90, main_v91]
theorem hW4 : (hostOps4 : List (HloOp τ sig (Elt F))).Forall
    fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes]
  repeat' apply And.intro
  all_goals exact writes_sub (by decide)
/-- Stretch 4 leaves every other buffer as it was. -/
theorem keep4 (V : Valuation τ sig (Elt F)) (r : Ref sig .tc) (hr : r ∉ wr4) :
    StableHlo.after hostOps4 V (Proc.devRef .tc r) = V (Proc.devRef .tc r) :=
  StableHlo.after_of_writes_sub hostOps4 V hW4 hr

/-- The buffers stretch 5 writes, in order. -/
abbrev wr5 : List (Ref sig .tc) :=
  [main_cst_14, main_v93, main_v94, main_v95, main_cst_15, main_v96, main_v97, main_v98, main_v99, main_v100, main_v101, main_v102, main_v103, main_v104, main_v105, main_v106, main_v107, main_v108, main_v109, main_v110, main_v111, main_v112, main_v113, main_v114, main_v115, main_v116, main_v117, main_v118]
theorem hW5 : (hostOps5 : List (HloOp τ sig (Elt F))).Forall
    fun op => op.writes ⊆ (wr5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact writes_sub (by decide)
/-- Stretch 5 leaves every other buffer as it was. -/
theorem keep5 (V : Valuation τ sig (Elt F)) (r : Ref sig .tc) (hr : r ∉ wr5) :
    StableHlo.after hostOps5 V (Proc.devRef .tc r) = V (Proc.devRef .tc r) :=
  StableHlo.after_of_writes_sub hostOps5 V hW5 hr

/-! ## A buffer nothing touches holds its launch contents throughout -/

/-- No stretch writes `b` and `b` is no region's array. -/
structure Kept (b : Ref sig .tc) : Prop where
  h0 : b ∉ wr0
  h1 : b ∉ wr1
  h2 : b ∉ wr2
  h3 : b ∉ wr3
  h4 : b ∉ wr4
  h5 : b ∉ wr5
  r0 : ∀ w, Pipeline.arrRef spec0 w ≠ b
  r1 : ∀ w, Pipeline.arrRef spec1 w ≠ b
  r2 : ∀ w, Pipeline.arrRef spec2 w ≠ b
  r3 : ∀ w, Pipeline.arrRef spec3 w ≠ b
  r4 : ∀ w, Pipeline.arrRef spec4 w ≠ b

variable (m : (ℓ : Loc nD τ sig) → Buf (Elt F) ℓ) (ρ : Dev nD → PrngReg)
variable {b : Ref sig .tc}

theorem W1_kept (hb : Kept b) (c : Dev nD) : W1 m ρ c (Proc.devRef .tc b) = m ((c : Thread nD τ).loc b) := keep0 _ b hb.h0
theorem W2_kept (hb : Kept b) (c : Dev nD) : W2 m ρ c (Proc.devRef .tc b) = m ((c : Thread nD τ).loc b) :=
  (W2_of_ne m ρ c b hb.r0).trans (W1_kept m ρ hb c)
theorem W3_kept (hb : Kept b) (c : Dev nD) : W3 m ρ c (Proc.devRef .tc b) = m ((c : Thread nD τ).loc b) :=
  (keep1 _ b hb.h1).trans (W2_kept m ρ hb c)
theorem W4_kept (hb : Kept b) (c : Dev nD) : W4 m ρ c (Proc.devRef .tc b) = m ((c : Thread nD τ).loc b) :=
  (W4_of_ne m ρ c b hb.r1).trans (W3_kept m ρ hb c)
theorem W5_kept (hb : Kept b) (c : Dev nD) : W5 m ρ c (Proc.devRef .tc b) = m ((c : Thread nD τ).loc b) :=
  (keep2 _ b hb.h2).trans (W4_kept m ρ hb c)
theorem W6_kept (hb : Kept b) (c : Dev nD) : W6 m ρ c (Proc.devRef .tc b) = m ((c : Thread nD τ).loc b) :=
  (W6_of_ne m ρ c b hb.r2).trans (W5_kept m ρ hb c)
theorem W7_kept (hb : Kept b) (c : Dev nD) : W7 m ρ c (Proc.devRef .tc b) = m ((c : Thread nD τ).loc b) :=
  (keep3 _ b hb.h3).trans (W6_kept m ρ hb c)
theorem W8_kept (hb : Kept b) (c : Dev nD) : W8 m ρ c (Proc.devRef .tc b) = m ((c : Thread nD τ).loc b) :=
  (W8_of_ne m ρ c b hb.r3).trans (W7_kept m ρ hb c)
theorem W9_kept (hb : Kept b) (c : Dev nD) : W9 m ρ c (Proc.devRef .tc b) = m ((c : Thread nD τ).loc b) :=
  (keep4 _ b hb.h4).trans (W8_kept m ρ hb c)
theorem W10_kept (hb : Kept b) (c : Dev nD) : W10 m ρ c (Proc.devRef .tc b) = m ((c : Thread nD τ).loc b) :=
  (W10_of_ne m ρ c b hb.r4).trans (W9_kept m ρ hb c)

/-- The stacked parameter arrays are such buffers. -/
theorem kept_arg3 : Kept main_arg3 := ⟨by decide, by decide, by decide, by decide, by decide, by decide, by decide, by decide, by decide, by decide, by decide⟩
theorem kept_arg4 : Kept main_arg4 := ⟨by decide, by decide, by decide, by decide, by decide, by decide, by decide, by decide, by decide, by decide, by decide⟩
theorem kept_arg5 : Kept main_arg5 := ⟨by decide, by decide, by decide, by decide, by decide, by decide, by decide, by decide, by decide, by decide, by decide⟩
theorem kept_arg6 : Kept main_arg6 := ⟨by decide, by decide, by decide, by decide, by decide, by decide, by decide, by decide, by decide, by decide, by decide⟩
theorem kept_arg7 : Kept main_arg7 := ⟨by decide, by decide, by decide, by decide, by decide, by decide, by decide, by decide, by decide, by decide, by decide⟩
theorem kept_arg8 : Kept main_arg8 := ⟨by decide, by decide, by decide, by decide, by decide, by decide, by decide, by decide, by decide, by decide, by decide⟩
theorem kept_arg9 : Kept main_arg9 := ⟨by decide, by decide, by decide, by decide, by decide, by decide, by decide, by decide, by decide, by decide, by decide⟩
theorem kept_arg10 : Kept main_arg10 := ⟨by decide, by decide, by decide, by decide, by decide, by decide, by decide, by decide, by decide, by decide, by decide⟩
theorem kept_arg11 : Kept main_arg11 := ⟨by decide, by decide, by decide, by decide, by decide, by decide, by decide, by decide, by decide, by decide, by decide⟩
theorem kept_arg12 : Kept main_arg12 := ⟨by decide, by decide, by decide, by decide, by decide, by decide, by decide, by decide, by decide, by decide, by decide⟩
theorem kept_arg13 : Kept main_arg13 := ⟨by decide, by decide, by decide, by decide, by decide, by decide, by decide, by decide, by decide, by decide, by decide⟩
theorem kept_arg14 : Kept main_arg14 := ⟨by decide, by decide, by decide, by decide, by decide, by decide, by decide, by decide, by decide, by decide, by decide⟩
theorem kept_arg15 : Kept main_arg15 := ⟨by decide, by decide, by decide, by decide, by decide, by decide, by decide, by decide, by decide, by decide, by decide⟩
theorem kept_arg16 : Kept main_arg16 := ⟨by decide, by decide, by decide, by decide, by decide, by decide, by decide, by decide, by decide, by decide, by decide⟩

end Cert.KernelIdeal.Wt

end
-- ==== Proof.LibLayerSlice.lean ====
import Idealize.ShloMosaic.Lib.Pipeline.Value
import Idealize.ShloMosaic.Lib.ValueIdx
import Idealize.ShloMosaic.Lib.ValueLayout

/-! # One leading coordinate of a stacked array

An array stacked along a leading axis of extent `n` is sliced at one leading coordinate `l` (a unit-stride slice with
offset `l` on the leading axis and `0` on the others, of extent 1 on the leading axis) and the unit axis is then
dropped by a shape cast.  The result read at `(i, j)` — at `i` for a stacked vector — is the stacked array at
`(l, i, j)` — at `(l, i)`: the cast keeps the row-major position, and on a leading unit axis that position is the
position of the remaining coordinates. -/

namespace Cert.LayerSlice

open Idealize.ShloMosaic Idealize.ShloMosaic.ValueIdx

variable {α : Type}

/-- The slice `[l : l+1, :, :]` of an `[n, a, b]` array, cast to `[a, b]`, reads `(l, i, j)` at `(i, j)`. -/
theorem slice3 {n a b : ℕ} (l : Fin n) (off : Fin 3 → ℕ) (h0 : off 0 = l.val) (h1 : off 1 = 0) (h2 : off 2 = 0)
    (x : (⟨3, ![n, a, b]⟩ : Shape).Idx → α) (hs : (⟨3, ![n, a, b]⟩ : Shape).Slices off ⟨3, ![1, a, b]⟩)
    (hc : (⟨3, ![1, a, b]⟩ : Shape).ShapeCasts ⟨2, ![a, b]⟩) :
    shapeCast ⟨2, ![a, b]⟩ (extractStridedSlice ⟨3, ![1, a, b]⟩ off x hs) hc = fun i => x (ix3 l (i 0) (i 1)) := by
  funext i
  rw [eq_ix2 i]
  refine (shapeCast_1ab_ab_apply _ hc (i 0) (i 1)).trans ?_
  refine extractStridedSlice_apply off x hs _ (ix3 l (i 0) (i 1)) fun ax => ?_
  match ax with
  | ⟨0, _⟩ => show l.val = off 0 + 0; omega
  | ⟨1, _⟩ => show (i 0).val = off 1 + (i 0).val; omega
  | ⟨2, _⟩ => show (i 1).val = off 2 + (i 1).val; omega

/-- The slice `[l : l+1, :]` of an `[n, a]` array, cast to `[a]`, reads `(l, i)` at `i`. -/
theorem slice2 {n a : ℕ} (l : Fin n) (off : Fin 2 → ℕ) (h0 : off 0 = l.val) (h1 : off 1 = 0)
    (x : (⟨2, ![n, a]⟩ : Shape).Idx → α) (hs : (⟨2, ![n, a]⟩ : Shape).Slices off ⟨2, ![1, a]⟩)
    (hc : (⟨2, ![1, a]⟩ : Shape).ShapeCasts ⟨1, ![a]⟩) :
    shapeCast ⟨1, ![a]⟩ (extractStridedSlice ⟨2, ![1, a]⟩ off x hs) hc = fun i => x (ix2 l (i 0)) := by
  funext i
  rw [eq_ix1 i]
  refine (shapeCast_1a_a_apply _ hc (i 0)).trans ?_
  refine extractStridedSlice_apply off x hs _ (ix2 l (i 0)) fun ax => ?_
  match ax with
  | ⟨0, _⟩ => show l.val = off 0 + 0; omega
  | ⟨1, _⟩ => show (i 0).val = off 1 + (i 0).val; omega

end Cert.LayerSlice
-- ==== Proof.KWeightsA.lean ====
import proofs.«135486_j17549236371616_1_alg».proof.Proof.Gen.KernelIdeal.Frame
import proofs.«135486_j17549236371616_1_alg».proof.Proof.KWeightsSpec
import proofs.«135486_j17549236371616_1_alg».proof.Proof.KWeightsKeep
import proofs.«135486_j17549236371616_1_alg».proof.Proof.LibLayerSlice
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # The projection matrices at the entries of the projection and edge regions

Before each projection region the host slices the layer's three projection matrices (query, key, value) out of the
stacked `[2, 64, 64]` parameter arrays and drops the unit axis; before each edge region it does the same for the edge
projection matrix.  The stacked arrays are never written, so the sliced buffers hold the layer's slice of the LAUNCH
contents: layer 0 for the first projection and edge regions, layer 1 for the second. -/

set_option maxRecDepth 16384

noncomputable section

namespace Cert.KernelIdeal.Wt

open Cert.KernelIdeal Cert.KernelIdeal.Gen
open Idealize.ShloMosaic Idealize.ShloMosaic.TcCoe Idealize.SL.Sem
open Idealize.ShloMosaic.ValueIdx

open Cert.LayerSlice

variable (m : (ℓ : Loc nD τ sig) → Buf (Elt Ideal) ℓ) (ρ : Dev nD → PrngReg)

theorem V1_w1 (c : Dev nD) :
    V1 m ρ c (Pipeline.arrRef spec0 1) = mat 0 (m ((c : Thread nD τ).loc main_arg3)) := by
  show StableHlo.after hostOps0 (W0 m ρ c) (Proc.devRef .tc main_v5) = _
  after_results
  exact slice3 (0 : Fin 2) ![0, 0, 0] rfl rfl rfl _ _ _

theorem V1_w2 (c : Dev nD) :
    V1 m ρ c (Pipeline.arrRef spec0 2) = mat 0 (m ((c : Thread nD τ).loc main_arg4)) := by
  show StableHlo.after hostOps0 (W0 m ρ c) (Proc.devRef .tc main_v7) = _
  after_results
  exact slice3 (0 : Fin 2) ![0, 0, 0] rfl rfl rfl _ _ _

theorem V1_w3 (c : Dev nD) :
    V1 m ρ c (Pipeline.arrRef spec0 3) = mat 0 (m ((c : Thread nD τ).loc main_arg6)) := by
  show StableHlo.after hostOps0 (W0 m ρ c) (Proc.devRef .tc main_v9) = _
  after_results
  exact slice3 (0 : Fin 2) ![0, 0, 0] rfl rfl rfl _ _ _

theorem V3_w4 (c : Dev nD) :
    V3 m ρ c (Pipeline.arrRef spec1 4) = mat 0 (m ((c : Thread nD τ).loc main_arg5)) := by
  show StableHlo.after hostOps1 (W2 m ρ c) (Proc.devRef .tc main_v33) = _
  after_results
  rw [W2_kept m ρ kept_arg5 c]
  exact slice3 (0 : Fin 2) ![0, 0, 0] rfl rfl rfl _ _ _

theorem V7_w1 (c : Dev nD) :
    V7 m ρ c (Pipeline.arrRef spec3 1) = mat 1 (m ((c : Thread nD τ).loc main_arg3)) := by
  show StableHlo.after hostOps3 (W6 m ρ c) (Proc.devRef .tc main_v63) = _
  after_results
  rw [W6_kept m ρ kept_arg3 c]
  exact slice3 (1 : Fin 2) ![1, 0, 0] rfl rfl rfl _ _ _

theorem V7_w2 (c : Dev nD) :
    V7 m ρ c (Pipeline.arrRef spec3 2) = mat 1 (m ((c : Thread nD τ).loc main_arg4)) := by
  show StableHlo.after hostOps3 (W6 m ρ c) (Proc.devRef .tc main_v65) = _
  after_results
  rw [W6_kept m ρ kept_arg4 c]
  exact slice3 (1 : Fin 2) ![1, 0, 0] rfl rfl rfl _ _ _

theorem V7_w3 (c : Dev nD) :
    V7 m ρ c (Pipeline.arrRef spec3 3) = mat 1 (m ((c : Thread nD τ).loc main_arg6)) := by
  show StableHlo.after hostOps3 (W6 m ρ c) (Proc.devRef .tc main_v67) = _
  after_results
  rw [W6_kept m ρ kept_arg6 c]
  exact slice3 (1 : Fin 2) ![1, 0, 0] rfl rfl rfl _ _ _

theorem V9_w4 (c : Dev nD) :
    V9 m ρ c (Pipeline.arrRef spec4 4) = mat 1 (m ((c : Thread nD τ).loc main_arg5)) := by
  show StableHlo.after hostOps4 (W8 m ρ c) (Proc.devRef .tc main_v91) = _
  after_results
  rw [W8_kept m ρ kept_arg5 c]
  exact slice3 (1 : Fin 2) ![1, 0, 0] rfl rfl rfl _ _ _

end Cert.KernelIdeal.Wt

end
-- ==== Proof.KWeightsG.lean ====
import proofs.«135486_j17549236371616_1_alg».proof.Proof.Gen.KernelIdeal.Frame
import proofs.«135486_j17549236371616_1_alg».proof.Proof.KWeightsSpec
import proofs.«135486_j17549236371616_1_alg».proof.Proof.KWeightsKeep
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # The head-selection matrices at the entries of the two edge regions

The first two host operations write the head-selection matrix (`[64, 4]`, from a table of 256 f32 words read in
row-major order) and its transpose (`[4, 64]`).  Word `k` of the first table is the word of one exactly when
`(k / 4) / 16 = k % 4` — row `k / 4` is feature `f`, column `k % 4` is head `h`, and the entry is one when `f / 16 = h` —
and word `k` of the second exactly when `(k % 64) / 16 = k / 64`.  Nothing writes the two buffers afterwards: the
stretches up to the second edge region do not, the regions in between do not hold them, and the first edge region
only reads them.  So both edge regions are entered with the two matrices in place. -/

set_option maxRecDepth 16384

noncomputable section

namespace Cert.KernelIdeal.Wt

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The two tables -/

theorem lit0_table : ∀ k : Fin 256, lit0 k = if (k.val / 4) / 16 = k.val % 4 then 0x3F800000#32 else 0x00000000#32 := by
  decide
theorem lit1_table : ∀ k : Fin 256, lit1 k = if (k.val % 64) / 16 = k.val / 64 then 0x3F800000#32 else 0x00000000#32 := by
  decide

/-- Word `k = 4·f + h` of the first table, as an extended real. -/
theorem table0_word (k : Fin 256) (f : Fin 64) (h : Fin 4) (hk : k.val = f.val * 4 + h.val) :
    Ideal.ofBits .f32 (lit0 k)
      = if f.val / 16 = h.val then Ideal.ofBits .f32 0x3F800000#32 else Ideal.ofBits .f32 0x00000000#32 := by
  have hh := h.isLt
  have h1 : k.val / 4 = f.val := by omega
  have h2 : k.val % 4 = h.val := by omega
  rw [lit0_table, h1, h2]
  by_cases e : f.val / 16 = h.val
  · rw [if_pos e, if_pos e]
  · rw [if_neg e, if_neg e]

/-- Word `k = 64·h + f` of the second table, as an extended real. -/
theorem table1_word (k : Fin 256) (h : Fin 4) (f : Fin 64) (hk : k.val = h.val * 64 + f.val) :
    Ideal.ofBits .f32 (lit1 k)
      = if f.val / 16 = h.val then Ideal.ofBits .f32 0x3F800000#32 else Ideal.ofBits .f32 0x00000000#32 := by
  have hf := f.isLt
  have h1 : k.val / 64 = h.val := by omega
  have h2 : k.val % 64 = f.val := by omega
  rw [lit1_table, h1, h2]
  by_cases e : f.val / 16 = h.val
  · rw [if_pos e, if_pos e]
  · rw [if_neg e, if_neg e]

/-- The first table read in row-major order is the head-selection matrix. -/
theorem table0_eq : (fun i : S64x4.Idx => Ideal.ofBits .f32 (lit0 (S64x4.rowMajor i))) = onehot := by
  funext i
  exact table0_word (S64x4.rowMajor i) (i 0) (i 1) (Shape.rowMajor_val_two i)

/-- The second table read in row-major order is its transpose. -/
theorem table1_eq : (fun i : S4x64.Idx => Ideal.ofBits .f32 (lit1 (S4x64.rowMajor i))) = onehotT := by
  funext i
  exact table1_word (S4x64.rowMajor i) (i 0) (i 1) (Shape.rowMajor_val_two i)

/-- The two words are the extended reals one and zero. -/
theorem onehot_one_zero (f : Fin 64) (h : Fin 4) : onehot (ix2 f h) = if f.val / 16 = h.val then 1 else 0 := by
  rw [onehot_apply, Ideal.ofBits_one_f32, Ideal.ofBits_zero_f32]
theorem onehotT_one_zero (h : Fin 4) (f : Fin 64) : onehotT (ix2 h f) = if f.val / 16 = h.val then 1 else 0 := by
  rw [onehotT_apply, Ideal.ofBits_one_f32, Ideal.ofBits_zero_f32]

/-! ## After the first stretch -/

theorem W1_cst (c : Dev nD) : W1 m ρ c (Proc.devRef .tc main_cst) = onehot := by
  show StableHlo.after hostOps0 (W0 m ρ c) (Proc.devRef .tc main_cst) = _
  after_results
  exact table0_eq
theorem W1_cst_0 (c : Dev nD) : W1 m ρ c (Proc.devRef .tc main_cst_0) = onehotT := by
  show StableHlo.after hostOps0 (W0 m ρ c) (Proc.devRef .tc main_cst_0) = _
  after_results
  exact table1_eq

/-! ## At the first edge region's entry: through the first projection region and the second stretch -/

theorem V3_w5 (c : Dev nD) : V3 m ρ c (Pipeline.arrRef spec1 5) = onehot := by
  show W3 m ρ c (Proc.devRef .tc main_cst) = _
  exact (keep1 _ main_cst (by decide)).trans ((W2_of_ne m ρ c main_cst (by decide)).trans (W1_cst m ρ c))
theorem V3_w6 (c : Dev nD) : V3 m ρ c (Pipeline.arrRef spec1 6) = onehotT := by
  show W3 m ρ c (Proc.devRef .tc main_cst_0) = _
  exact (keep1 _ main_cst_0 (by decide)).trans ((W2_of_ne m ρ c main_cst_0 (by decide)).trans (W1_cst_0 m ρ c))

/-! ## At the second edge region's entry: the first edge region only reads the two matrices; the node region, the
    second projection region and the three stretches in between do not touch them -/

theorem W4_cst (c : Dev nD) : W4 m ρ c (Proc.devRef .tc main_cst) = onehot :=
  (W4_arr m ρ c 5).trans (((dat1 (V3 m ρ) c).arrAt_in 5 rfl _).trans ((A_eq1 (V3 m ρ) c 5).trans (V3_w5 m ρ c)))
theorem W4_cst_0 (c : Dev nD) : W4 m ρ c (Proc.devRef .tc main_cst_0) = onehotT :=
  (W4_arr m ρ c 6).trans (((dat1 (V3 m ρ) c).arrAt_in 6 rfl _).trans ((A_eq1 (V3 m ρ) c 6).trans (V3_w6 m ρ c)))

theorem V9_w5 (c : Dev nD) : V9 m ρ c (Pipeline.arrRef spec4 5) = onehot := by
  show W9 m ρ c (Proc.devRef .tc main_cst) = _
  exact (keep4 _ main_cst (by decide)).trans ((W8_of_ne m ρ c main_cst (by decide)).trans
    ((keep3 _ main_cst (by decide)).trans ((W6_of_ne m ρ c main_cst (by decide)).trans
    ((keep2 _ main_cst (by decide)).trans (W4_cst m ρ c)))))
theorem V9_w6 (c : Dev nD) : V9 m ρ c (Pipeline.arrRef spec4 6) = onehotT := by
  show W9 m ρ c (Proc.devRef .tc main_cst_0) = _
  exact (keep4 _ main_cst_0 (by decide)).trans ((W8_of_ne m ρ c main_cst_0 (by decide)).trans
    ((keep3 _ main_cst_0 (by decide)).trans ((W6_of_ne m ρ c main_cst_0 (by decide)).trans
    ((keep2 _ main_cst_0 (by decide)).trans (W4_cst_0 m ρ c)))))

end Cert.KernelIdeal.Wt

end
-- ==== Proof.KWeightsIdx.lean ====
import proofs.«135486_j17549236371616_1_alg».proof.Proof.Gen.KernelIdeal.Frame
import proofs.«135486_j17549236371616_1_alg».proof.Proof.KWeightsSpec
import proofs.«135486_j17549236371616_1_alg».proof.Proof.KWeightsKeep
import proofs.«135486_j17549236371616_1_alg».proof.Proof.LibLayerSlice
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # The two edge-endpoint vectors after the first stretch

The first stretch slices row 0 and row 1 out of the `[2, 800000]` edge-endpoint array and drops the unit axis: the two
vectors of 800000 endpoints.  Entry `e` of each is the array's entry `(0, e)`, respectively `(1, e)`, at launch. -/

set_option maxRecDepth 16384

noncomputable section

namespace Cert.KernelIdeal.Wt

open Cert.KernelIdeal Cert.KernelIdeal.Gen
open Idealize.ShloMosaic Idealize.ShloMosaic.TcCoe Idealize.SL.Sem
open Idealize.ShloMosaic.ValueIdx

open Cert.LayerSlice

variable (m : (ℓ : Loc nD τ sig) → Buf (Elt Ideal) ℓ) (ρ : Dev nD → PrngReg)

theorem W1_v1_eq (c : Dev nD) :
    W1 m ρ c (Proc.devRef .tc main_v1) = row 0 (m ((c : Thread nD τ).loc main_arg2)) := by
  show StableHlo.after hostOps0 (W0 m ρ c) (Proc.devRef .tc main_v1) = _
  after_results
  exact slice2 (0 : Fin 2) ![0, 0] rfl rfl _ _ _

theorem W1_v3_eq (c : Dev nD) :
    W1 m ρ c (Proc.devRef .tc main_v3) = row 1 (m ((c : Thread nD τ).loc main_arg2)) := by
  show StableHlo.after hostOps0 (W0 m ρ c) (Proc.devRef .tc main_v3) = _
  after_results
  exact slice2 (1 : Fin 2) ![1, 0] rfl rfl _ _ _

theorem W1_v1_apply (c : Dev nD) (e : Fin 800000) :
    W1 m ρ c (Proc.devRef .tc main_v1) (ix1 e) = m ((c : Thread nD τ).loc main_arg2) (ix2 (0 : Fin 2) e) :=
  congrFun (W1_v1_eq m ρ c) (ix1 e)

theorem W1_v3_apply (c : Dev nD) (e : Fin 800000) :
    W1 m ρ c (Proc.devRef .tc main_v3) (ix1 e) = m ((c : Thread nD τ).loc main_arg2) (ix2 (1 : Fin 2) e) :=
  congrFun (W1_v3_eq m ρ c) (ix1 e)

end Cert.KernelIdeal.Wt

end
-- ==== Proof.KWeightsN2.lean ====
import proofs.«135486_j17549236371616_1_alg».proof.Proof.Gen.KernelIdeal.Frame
import proofs.«135486_j17549236371616_1_alg».proof.Proof.KWeightsSpec
import proofs.«135486_j17549236371616_1_alg».proof.Proof.KWeightsKeep
import proofs.«135486_j17549236371616_1_alg».proof.Proof.LibLayerSlice
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # The node region's parameters at its entry, layer 0

Before the first node region the host slices the layer's ten node parameters out of their stacked arrays and drops the
unit axis: the output projection matrix and its bias, the first normalisation's scale and shift, the two feed-forward
matrices and their biases, the second normalisation's scale and shift.  The stacked arrays are never written, so each
sliced buffer holds layer 0's slice of the launch contents. -/

set_option maxRecDepth 16384

noncomputable section

namespace Cert.KernelIdeal.Wt

open Cert.KernelIdeal Cert.KernelIdeal.Gen
open Idealize.ShloMosaic Idealize.ShloMosaic.TcCoe Idealize.SL.Sem
open Idealize.ShloMosaic.ValueIdx

open Cert.LayerSlice

variable (m : (ℓ : Loc nD τ sig) → Buf (Elt Ideal) ℓ) (ρ : Dev nD → PrngReg)

theorem V5_w3 (c : Dev nD) :
    V5 m ρ c (Pipeline.arrRef spec2 3) = mat 0 (m ((c : Thread nD τ).loc main_arg7)) := by
  show StableHlo.after hostOps2 (W4 m ρ c) (Proc.devRef .tc main_v42) = _
  after_results
  rw [W4_kept m ρ kept_arg7 c]
  exact slice3 (0 : Fin 2) ![0, 0, 0] rfl rfl rfl _ _ _

theorem V5_w4 (c : Dev nD) :
    V5 m ρ c (Pipeline.arrRef spec2 4) = vec 0 (m ((c : Thread nD τ).loc main_arg8)) := by
  show StableHlo.after hostOps2 (W4 m ρ c) (Proc.devRef .tc main_v44) = _
  after_results
  rw [W4_kept m ρ kept_arg8 c]
  exact slice2 (0 : Fin 2) ![0, 0] rfl rfl _ _ _

theorem V5_w5 (c : Dev nD) :
    V5 m ρ c (Pipeline.arrRef spec2 5) = vec 0 (m ((c : Thread nD τ).loc main_arg9)) := by
  show StableHlo.after hostOps2 (W4 m ρ c) (Proc.devRef .tc main_v46) = _
  after_results
  rw [W4_kept m ρ kept_arg9 c]
  exact slice2 (0 : Fin 2) ![0, 0] rfl rfl _ _ _

theorem V5_w6 (c : Dev nD) :
    V5 m ρ c (Pipeline.arrRef spec2 6) = vec 0 (m ((c : Thread nD τ).loc main_arg10)) := by
  show StableHlo.after hostOps2 (W4 m ρ c) (Proc.devRef .tc main_v48) = _
  after_results
  rw [W4_kept m ρ kept_arg10 c]
  exact slice2 (0 : Fin 2) ![0, 0] rfl rfl _ _ _

theorem V5_w7 (c : Dev nD) :
    V5 m ρ c (Pipeline.arrRef spec2 7) = mat1 0 (m ((c : Thread nD τ).loc main_arg11)) := by
  show StableHlo.after hostOps2 (W4 m ρ c) (Proc.devRef .tc main_v50) = _
  after_results
  rw [W4_kept m ρ kept_arg11 c]
  exact slice3 (0 : Fin 2) ![0, 0, 0] rfl rfl rfl _ _ _

theorem V5_w8 (c : Dev nD) :
    V5 m ρ c (Pipeline.arrRef spec2 8) = vec1 0 (m ((c : Thread nD τ).loc main_arg12)) := by
  show StableHlo.after hostOps2 (W4 m ρ c) (Proc.devRef .tc main_v52) = _
  after_results
  rw [W4_kept m ρ kept_arg12 c]
  exact slice2 (0 : Fin 2) ![0, 0] rfl rfl _ _ _

theorem V5_w9 (c : Dev nD) :
    V5 m ρ c (Pipeline.arrRef spec2 9) = mat2 0 (m ((c : Thread nD τ).loc main_arg13)) := by
  show StableHlo.after hostOps2 (W4 m ρ c) (Proc.devRef .tc main_v54) = _
  after_results
  rw [W4_kept m ρ kept_arg13 c]
  exact slice3 (0 : Fin 2) ![0, 0, 0] rfl rfl rfl _ _ _

theorem V5_w10 (c : Dev nD) :
    V5 m ρ c (Pipeline.arrRef spec2 10) = vec 0 (m ((c : Thread nD τ).loc main_arg14)) := by
  show StableHlo.after hostOps2 (W4 m ρ c) (Proc.devRef .tc main_v56) = _
  after_results
  rw [W4_kept m ρ kept_arg14 c]
  exact slice2 (0 : Fin 2) ![0, 0] rfl rfl _ _ _

theorem V5_w11 (c : Dev nD) :
    V5 m ρ c (Pipeline.arrRef spec2 11) = vec 0 (m ((c : Thread nD τ).loc main_arg15)) := by
  show StableHlo.after hostOps2 (W4 m ρ c) (Proc.devRef .tc main_v58) = _
  after_results
  rw [W4_kept m ρ kept_arg15 c]
  exact slice2 (0 : Fin 2) ![0, 0] rfl rfl _ _ _

theorem V5_w12 (c : Dev nD) :
    V5 m ρ c (Pipeline.arrRef spec2 12) = vec 0 (m ((c : Thread nD τ).loc main_arg16)) := by
  show StableHlo.after hostOps2 (W4 m ρ c) (Proc.devRef .tc main_v60) = _
  after_results
  rw [W4_kept m ρ kept_arg16 c]
  exact slice2 (0 : Fin 2) ![0, 0] rfl rfl _ _ _

end Cert.KernelIdeal.Wt

end
-- ==== Proof.KWeightsN5.lean ====
import proofs.«135486_j17549236371616_1_alg».proof.Proof.Gen.KernelIdeal.Frame
import proofs.«135486_j17549236371616_1_alg».proof.Proof.KWeightsSpec
import proofs.«135486_j17549236371616_1_alg».proof.Proof.KWeightsKeep
import proofs.«135486_j17549236371616_1_alg».proof.Proof.LibLayerSlice
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # The node region's parameters at its entry, layer 1

Before the second node region the host slices the layer's ten node parameters out of their stacked arrays and drops
the unit axis: the output projection matrix and its bias, the first normalisation's scale and shift, the two
feed-forward matrices and their biases, the second normalisation's scale and shift.  The stacked arrays are never
written, so each sliced buffer holds layer 1's slice of the launch contents. -/

set_option maxRecDepth 16384

noncomputable section

namespace Cert.KernelIdeal.Wt

open Cert.KernelIdeal Cert.KernelIdeal.Gen
open Idealize.ShloMosaic Idealize.ShloMosaic.TcCoe Idealize.SL.Sem
open Idealize.ShloMosaic.ValueIdx

open Cert.LayerSlice

variable (m : (ℓ : Loc nD τ sig) → Buf (Elt Ideal) ℓ) (ρ : Dev nD → PrngReg)

theorem V11_w3 (c : Dev nD) :
    V11 m ρ c (Pipeline.arrRef spec5 3) = mat 1 (m ((c : Thread nD τ).loc main_arg7)) := by
  show StableHlo.after hostOps5 (W10 m ρ c) (Proc.devRef .tc main_v100) = _
  after_results
  rw [W10_kept m ρ kept_arg7 c]
  exact slice3 (1 : Fin 2) ![1, 0, 0] rfl rfl rfl _ _ _

theorem V11_w4 (c : Dev nD) :
    V11 m ρ c (Pipeline.arrRef spec5 4) = vec 1 (m ((c : Thread nD τ).loc main_arg8)) := by
  show StableHlo.after hostOps5 (W10 m ρ c) (Proc.devRef .tc main_v102) = _
  after_results
  rw [W10_kept m ρ kept_arg8 c]
  exact slice2 (1 : Fin 2) ![1, 0] rfl rfl _ _ _

theorem V11_w5 (c : Dev nD) :
    V11 m ρ c (Pipeline.arrRef spec5 5) = vec 1 (m ((c : Thread nD τ).loc main_arg9)) := by
  show StableHlo.after hostOps5 (W10 m ρ c) (Proc.devRef .tc main_v104) = _
  after_results
  rw [W10_kept m ρ kept_arg9 c]
  exact slice2 (1 : Fin 2) ![1, 0] rfl rfl _ _ _

theorem V11_w6 (c : Dev nD) :
    V11 m ρ c (Pipeline.arrRef spec5 6) = vec 1 (m ((c : Thread nD τ).loc main_arg10)) := by
  show StableHlo.after hostOps5 (W10 m ρ c) (Proc.devRef .tc main_v106) = _
  after_results
  rw [W10_kept m ρ kept_arg10 c]
  exact slice2 (1 : Fin 2) ![1, 0] rfl rfl _ _ _

theorem V11_w7 (c : Dev nD) :
    V11 m ρ c (Pipeline.arrRef spec5 7) = mat1 1 (m ((c : Thread nD τ).loc main_arg11)) := by
  show StableHlo.after hostOps5 (W10 m ρ c) (Proc.devRef .tc main_v108) = _
  after_results
  rw [W10_kept m ρ kept_arg11 c]
  exact slice3 (1 : Fin 2) ![1, 0, 0] rfl rfl rfl _ _ _

theorem V11_w8 (c : Dev nD) :
    V11 m ρ c (Pipeline.arrRef spec5 8) = vec1 1 (m ((c : Thread nD τ).loc main_arg12)) := by
  show StableHlo.after hostOps5 (W10 m ρ c) (Proc.devRef .tc main_v110) = _
  after_results
  rw [W10_kept m ρ kept_arg12 c]
  exact slice2 (1 : Fin 2) ![1, 0] rfl rfl _ _ _

theorem V11_w9 (c : Dev nD) :
    V11 m ρ c (Pipeline.arrRef spec5 9) = mat2 1 (m ((c : Thread nD τ).loc main_arg13)) := by
  show StableHlo.after hostOps5 (W10 m ρ c) (Proc.devRef .tc main_v112) = _
  after_results
  rw [W10_kept m ρ kept_arg13 c]
  exact slice3 (1 : Fin 2) ![1, 0, 0] rfl rfl rfl _ _ _

theorem V11_w10 (c : Dev nD) :
    V11 m ρ c (Pipeline.arrRef spec5 10) = vec 1 (m ((c : Thread nD τ).loc main_arg14)) := by
  show StableHlo.after hostOps5 (W10 m ρ c) (Proc.devRef .tc main_v114) = _
  after_results
  rw [W10_kept m ρ kept_arg14 c]
  exact slice2 (1 : Fin 2) ![1, 0] rfl rfl _ _ _

theorem V11_w11 (c : Dev nD) :
    V11 m ρ c (Pipeline.arrRef spec5 11) = vec 1 (m ((c : Thread nD τ).loc main_arg15)) := by
  show StableHlo.after hostOps5 (W10 m ρ c) (Proc.devRef .tc main_v116) = _
  after_results
  rw [W10_kept m ρ kept_arg15 c]
  exact slice2 (1 : Fin 2) ![1, 0] rfl rfl _ _ _

theorem V11_w12 (c : Dev nD) :
    V11 m ρ c (Pipeline.arrRef spec5 12) = vec 1 (m ((c : Thread nD τ).loc main_arg16)) := by
  show StableHlo.after hostOps5 (W10 m ρ c) (Proc.devRef .tc main_v118) = _
  after_results
  rw [W10_kept m ρ kept_arg16 c]
  exact slice2 (1 : Fin 2) ![1, 0] rfl rfl _ _ _

end Cert.KernelIdeal.Wt

end
-- ==== Proof.KWeights.lean ====
import proofs.«135486_j17549236371616_1_alg».proof.Proof.KWeightsA
import proofs.«135486_j17549236371616_1_alg».proof.Proof.KWeightsG
import proofs.«135486_j17549236371616_1_alg».proof.Proof.KWeightsN2
import proofs.«135486_j17549236371616_1_alg».proof.Proof.KWeightsN5
import proofs.«135486_j17549236371616_1_alg».proof.Proof.KWeightsIdx

/-! # The parameter and constant windows of the six regions, at each region's entry

Every region reads its layer's parameters through windows whose buffers the host fills just before the region: a
slice of a stacked parameter array with the unit axis dropped.  The modules imported here read each such window back
to the launch contents:

* the projection matrices of both projection regions and the edge projection matrix of both edge regions;
* the head-selection matrix and its transpose at both edge regions;
* the ten node parameters at each of the two node regions;
* the two edge-endpoint vectors after the first stretch.

Each statement is an equation of functions whose right-hand side is one of the slice functions `mat`, `mat1`, `mat2`,
`vec`, `vec1`, `row`, or `onehot` / `onehotT`. -/
-- ==== Proof.LibLineStep.lean ====
import proofs.«135486_j17549236371616_1_alg».proof.Proof.LibLineRead

/-! # One operation of a line, read over values already named

`LineRead.unary_final` and its companions say: the line's final value at the buffer of operation `k` is that operation's
function of the line's final values of its operands.  When each operand's final value has already been identified with
some value `u` (an equation proved for an earlier operation), the result is the function of those values.  The lemmas
below are the two steps composed, so that a table of such equations can be written one line per operation, each line
citing the lines of its operands. -/

namespace Cert.LineRead

open Idealize.ShloMosaic Idealize.ShloMosaic.StableHlo

variable {τ : Topo} {sig : RefSig} {Val : EltTy → Type}

section Steps

variable {ops : List (HloOp τ sig Val)} {ws : List (Ref sig .tc)} (hw : WritesAt ops ws) (V : Valuation τ sig Val)
  (k : Nat) (hk : k < ops.length)

include hw

/-- A unary operation over an operand whose final value is `u`. -/
theorem unary_step {x y : Ref sig .tc} (f : x.ty.Contents Val → y.ty.Contents Val) (hx' hy')
    (hop : ops[k] = unary (τ := τ) x y f hx' hy') (hy : y ∉ ws.drop (k + 1)) (hx : x ∉ ws.drop k)
    {u : x.ty.Contents Val} (ex : after ops V (Proc.devRef .tc x) = u) :
    after ops V (Proc.devRef .tc y) = f u := by
  rw [unary_final hw V k hk f hx' hy' hop hy hx, ex]

/-- A binary operation over operands whose final values are `u` and `v`. -/
theorem binary_step {a b y : Ref sig .tc} (f : a.ty.Contents Val → b.ty.Contents Val → y.ty.Contents Val) (ha' hb' hy')
    (hop : ops[k] = binary (τ := τ) a b y f ha' hb' hy') (hy : y ∉ ws.drop (k + 1))
    (ha : a ∉ ws.drop k) (hb : b ∉ ws.drop k)
    {u : a.ty.Contents Val} {v : b.ty.Contents Val}
    (ea : after ops V (Proc.devRef .tc a) = u) (eb : after ops V (Proc.devRef .tc b) = v) :
    after ops V (Proc.devRef .tc y) = f u v := by
  rw [binary_final hw V k hk f ha' hb' hy' hop hy ha hb, ea, eb]

/-- A ternary operation over operands whose final values are `w`, `u` and `v`. -/
theorem ternary_step {c a b y : Ref sig .tc}
    (f : c.ty.Contents Val → a.ty.Contents Val → b.ty.Contents Val → y.ty.Contents Val) (hc' ha' hb' hy')
    (hop : ops[k] = ternary (τ := τ) c a b y f hc' ha' hb' hy') (hy : y ∉ ws.drop (k + 1))
    (hc : c ∉ ws.drop k) (ha : a ∉ ws.drop k) (hb : b ∉ ws.drop k)
    {w : c.ty.Contents Val} {u : a.ty.Contents Val} {v : b.ty.Contents Val}
    (ec : after ops V (Proc.devRef .tc c) = w) (ea : after ops V (Proc.devRef .tc a) = u)
    (eb : after ops V (Proc.devRef .tc b) = v) :
    after ops V (Proc.devRef .tc y) = f w u v := by
  rw [ternary_final hw V k hk f hc' ha' hb' hy' hop hy hc ha hb, ec, ea, eb]

/-- A reshape of an operand whose final value is `u`. -/
theorem reshape_step {x y : Ref sig .tc} (he : x.ty.elt = y.ty.elt) (hn : x.ty.shape.ShapeCasts y.ty.shape) (hx' hy')
    (hop : ops[k] = reshape (τ := τ) (Val := Val) x y he hn hx' hy') (hy : y ∉ ws.drop (k + 1)) (hx : x ∉ ws.drop k)
    {u : x.ty.Contents Val} (ex : after ops V (Proc.devRef .tc x) = u) :
    after ops V (Proc.devRef .tc y) = fun i => he ▸ shapeCast y.ty.shape u hn i := by
  rw [reshape_final hw V k hk he hn hx' hy' hop hy hx, ex]

end Steps

end Cert.LineRead
-- ==== Proof.LibSlabGather.lean ====
/-
  A slab gather read at an index.

  What `x[idx]` of a rank-3 array `x : [N, H, W]` (per node, `H` heads of `W` features) at an index column
  `idx : [R, 1]` lowers to: `stablehlo.gather` with offset_dims `[1, 2]`, collapsed_slice_dims `[0]`,
  start_index_map `[0]`, index_vector_dim 1, slice_sizes `[1, H, W]` and no batching axes; the result has shape
  `[R, H, W]`. Result element `(r, h, j)` is `x` at the slab "`idx[r, 0]` read as a signed integer and clamped into
  `[0, N − 1]`" and the position `(h, j)` inside it: on operand axis 0 (in the start index map, collapsed) the operand
  index is the clamped start alone; on operand axes 1 and 2 (not in the start index map, so their starts are 0; the two
  offset axes, in order) it is the result's second and third coordinate.
-/
import Idealize.ShloMosaic.PureOps.ShapeOps
import Idealize.ShloMosaic.Lib.ValueIdx

namespace Cert.SlabGather

open Idealize.ShloMosaic Idealize.ShloMosaic.ValueIdx

variable {α : Type}

/-- The slab gather's dimension numbers for an operand `[N, H, W]`, start indices `[R, 1]` and result `[R, H, W]`;
    their conditions `wf` are decided on a program's literal shapes. -/
abbrev slabDims (N H W R : Nat)
    (wf : GatherDims.WF ⟨3, ![N, H, W]⟩ ⟨2, ![R, 1]⟩ ⟨3, ![R, H, W]⟩ [1, 2] [0] [] [0] [] 1 ![1, H, W]) :
    GatherDims ⟨3, ![N, H, W]⟩ ⟨2, ![R, 1]⟩ ⟨3, ![R, H, W]⟩ where
  offsetDims := [1, 2]
  collapsedSliceDims := [0]
  operandBatchingDims := []
  startIndicesBatchingDims := []
  startIndexMap := [0]
  indexVectorDim := 1
  sliceSizes := ![1, H, W]
  wf := wf

/-- THE SLAB GATHER READ AT `(r, h, j)`, for the record `slabDims`: the operand at slab `idx[r, 0]`, read signed and
    clamped into `[0, N − 1]`, and position `(h, j)`. -/
theorem slabDims_gather_apply {N H W R w : Nat} (hN : 0 < N)
    (wf : GatherDims.WF ⟨3, ![N, H, W]⟩ ⟨2, ![R, 1]⟩ ⟨3, ![R, H, W]⟩ [1, 2] [0] [] [0] [] 1 ![1, H, W])
    (x : (⟨3, ![N, H, W]⟩ : Shape).Idx → α) (idx : IVec ⟨2, ![R, 1]⟩ w) (r : Fin R) (h : Fin H) (j : Fin W) :
    Host.gather (slabDims N H W R wf) x idx (ix3 r h j)
      = x (ix3 ⟨min (idx (ix2 r ⟨0, Nat.one_pos⟩)).toInt.toNat (N - 1), by omega⟩ h j) := by
  unfold Host.gather
  congr 1
  funext a
  refine Fin.ext ?_
  match a with
  | ⟨0, _⟩ =>
    show (slabDims N H W R wf).start (ix3 r h j) idx 0 + (slabDims N H W R wf).batchCoord (ix3 r h j) 0
      + (slabDims N H W R wf).offCoord (ix3 r h j) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ (slabDims N H W R wf).startIndexMap from List.mem_singleton.mpr rfl)]
    have hsi : (slabDims N H W R wf).siIdx (ix3 r h j) ⟨List.idxOf (0 : Fin 3) (slabDims N H W R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (slabDims N H W R wf).start (ix3 r h j) idx 1 + (slabDims N H W R wf).batchCoord (ix3 r h j) 1
      + (slabDims N H W R wf).offCoord (ix3 r h j) 1 = h.val
    have hst : (slabDims N H W R wf).start (ix3 r h j) idx 1 = 0 := by
      unfold GatherDims.start
      rw [dif_neg (show ¬ (1 : Fin 3) ∈ (slabDims N H W R wf).startIndexMap from
        (by decide : (1 : Fin 3) ∉ ([0] : List (Fin 3))))]
    have hk : (1 : Fin 3) ∈ (slabDims N H W R wf).sKept :=
      (GatherDims.mem_sKept _ _).mpr ⟨(by decide : (1 : Fin 3) ∉ ([0] : List (Fin 3))), List.not_mem_nil⟩
    rw [hst, GatherDims.batchCoord_eq_zero _ _ _ List.not_mem_nil]
    simp only [Nat.zero_add]
    unfold GatherDims.offCoord
    rw [dif_pos hk]
    rfl
  | ⟨2, _⟩ =>
    show (slabDims N H W R wf).start (ix3 r h j) idx 2 + (slabDims N H W R wf).batchCoord (ix3 r h j) 2
      + (slabDims N H W R wf).offCoord (ix3 r h j) 2 = j.val
    have hst : (slabDims N H W R wf).start (ix3 r h j) idx 2 = 0 := by
      unfold GatherDims.start
      rw [dif_neg (show ¬ (2 : Fin 3) ∈ (slabDims N H W R wf).startIndexMap from
        (by decide : (2 : Fin 3) ∉ ([0] : List (Fin 3))))]
    have hk : (2 : Fin 3) ∈ (slabDims N H W R wf).sKept :=
      (GatherDims.mem_sKept _ _).mpr ⟨(by decide : (2 : Fin 3) ∉ ([0] : List (Fin 3))), List.not_mem_nil⟩
    rw [hst, GatherDims.batchCoord_eq_zero _ _ _ List.not_mem_nil]
    simp only [Nat.zero_add]
    unfold GatherDims.offCoord
    rw [dif_pos hk]
    rfl

/-- THE SLAB GATHER READ AT `(r, h, j)`, for any record with the slab gather's dimension numbers: the operand at slab
    `idx[r, 0]`, read signed and clamped into `[0, N − 1]`, and position `(h, j)`. -/
theorem slabGather_apply {N H W R w : Nat} (hN : 0 < N)
    (d : GatherDims ⟨3, ![N, H, W]⟩ ⟨2, ![R, 1]⟩ ⟨3, ![R, H, W]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, H, W])
    (x : (⟨3, ![N, H, W]⟩ : Shape).Idx → α) (idx : IVec ⟨2, ![R, 1]⟩ w) (r : Fin R) (h : Fin H) (j : Fin W) :
    Host.gather d x idx (ix3 r h j)
      = x (ix3 ⟨min (idx (ix2 r ⟨0, Nat.one_pos⟩)).toInt.toNat (N - 1), by omega⟩ h j) := by
  obtain ⟨od, cd, ob, sb, sm, iv, ss, wf⟩ := d
  simp only at h1 h2 h3 h4 h5 h6 h7
  subst h1 h2 h3 h4 h5 h6 h7
  exact slabDims_gather_apply hN wf x idx r h j

end Cert.SlabGather
-- ==== Proof.RAttnA.lean ====
import proofs.«135486_j17549236371616_1_alg».proof.Proof.RefLayer
import proofs.«135486_j17549236371616_1_alg».proof.Proof.RAttnSpec
import proofs.«135486_j17549236371616_1_alg».proof.Proof.LibSlabGather
import Idealize.ShloMosaic.PureOps.Ideal.Laws
import Idealize.ShloMosaic.Lib.Pipeline.Value

/-! # The attention half of a layer, read at an index: projections, scores, weights

Each stage of the layer up to the edge weights is read at explicit coordinates, one small fact per stage, and the
facts are chained into the formulas of `Cert.RAttnSpec`: the four projections per head, the gathered keys and
queries, the score (a sum over a head's 16 features from the reduction's initial value), and the weight (the
exponential of the clipped, scaled score).  A matrix product read at an entry is the sum over the contracted
coordinate, re-indexed along the bijection between the one-axis contraction index and its coordinate; a reshape
`[N, 64] → [N, 4, 16]` reads column `j + 16 · hd`; a broadcast reads the operand at the kept coordinates; a slab
gather reads the slab its index column names.  No arithmetic law beyond these readings is used. -/

open scoped BigOperators

noncomputable section

namespace Cert.RAttn

open Cert.ReferenceIdeal Cert.ReferenceIdeal.Gen Idealize.ShloMosaic Idealize.ShloMosaic.ValueIdx Cert.RefLayer

/-- The source index column the reads use. -/
abbrev srcC (p : Params Ideal) : IVec ⟨2, ![800000, 1]⟩ 32 :=
  Cert.IndexCol.wrapCol 50000#32 bcast_S_S800000 bcast_S800000_S800000x1_0 p.src
/-- The destination index column the reads use. -/
abbrev dstWC (p : Params Ideal) : IVec ⟨2, ![800000, 1]⟩ 32 :=
  Cert.IndexCol.wrapCol 50000#32 bcast_S_S800000 bcast_S800000_S800000x1_0 p.dst
/-- The destination index column the sums use. -/
abbrev dstC (p : Params Ideal) : IVec ⟨2, ![800000, 1]⟩ 32 :=
  Cert.IndexCol.col bcast_S800000_S800000x1_0 p.dst

/-! ## A matrix product at an entry -/

/-- Node features times a weight: the left operand's index at entry (n, c), contraction coordinate k, is (n, k). -/
theorem dotN_lhs (n : Fin 50000) (c k : Fin 64) :
    dot_S50000x64_S64x64_S50000x64_1_0_0_1_n_n.lhsIdx (ix2 n c)
      ((contrEquiv1 dot_S50000x64_S64x64_S50000x64_1_0_0_1_n_n 64 rfl rfl).symm k) = ix2 n k := by
  have c2 := contrEquiv1_symm_val dot_S50000x64_S64x64_S50000x64_1_0_0_1_n_n 64 rfl rfl k
  funext ax; apply Fin.ext
  match ax with
  | ⟨0, _⟩ => simp [DotDims.lhsIdx, dot_S50000x64_S64x64_S50000x64_1_0_0_1_n_n]; rfl
  | ⟨1, _⟩ => simp [DotDims.lhsIdx, dot_S50000x64_S64x64_S50000x64_1_0_0_1_n_n]; exact c2

/-- … and the right operand's is (k, c). -/
theorem dotN_rhs (n : Fin 50000) (c k : Fin 64) :
    dot_S50000x64_S64x64_S50000x64_1_0_0_1_n_n.rhsIdx (ix2 n c)
      ((contrEquiv1 dot_S50000x64_S64x64_S50000x64_1_0_0_1_n_n 64 rfl rfl).symm k) = ix2 k c := by
  have c2 := contrEquiv1_symm_val dot_S50000x64_S64x64_S50000x64_1_0_0_1_n_n 64 rfl rfl k
  funext ax; apply Fin.ext
  match ax with
  | ⟨0, _⟩ => simp [DotDims.rhsIdx, dot_S50000x64_S64x64_S50000x64_1_0_0_1_n_n]; exact c2
  | ⟨1, _⟩ => simp [DotDims.rhsIdx, dot_S50000x64_S64x64_S50000x64_1_0_0_1_n_n]; rfl

/-- Node features times a weight, at entry (n, c): the sum over k of A(n, k) · B(k, c). -/
theorem dotN_apply (A : FVec Ideal S50000x64 .f32) (B : FVec Ideal S64x64 .f32) (n : Fin 50000) (c : Fin 64) :
    Host.dotGeneral dot_S50000x64_S64x64_S50000x64_1_0_0_1_n_n none A B (ix2 n c)
      = ∑ k : Fin 64, A (ix2 n k) * B (ix2 k c) := by
  refine (Ideal.dotGeneral_apply dot_S50000x64_S64x64_S50000x64_1_0_0_1_n_n none .single A B (ix2 n c)).trans ?_
  rw [← Equiv.sum_comp (contrEquiv1 dot_S50000x64_S64x64_S50000x64_1_0_0_1_n_n 64 rfl rfl).symm]
  refine Finset.sum_congr rfl fun k _ => ?_
  rw [dotN_lhs, dotN_rhs]

/-- Edge features times a weight: the left operand's index at entry (e, c), contraction coordinate k, is (e, k). -/
theorem dotE_lhs (e : Fin 800000) (c k : Fin 64) :
    dot_S800000x64_S64x64_S800000x64_1_0_0_1_n_n.lhsIdx (ix2 e c)
      ((contrEquiv1 dot_S800000x64_S64x64_S800000x64_1_0_0_1_n_n 64 rfl rfl).symm k) = ix2 e k := by
  have c2 := contrEquiv1_symm_val dot_S800000x64_S64x64_S800000x64_1_0_0_1_n_n 64 rfl rfl k
  funext ax; apply Fin.ext
  match ax with
  | ⟨0, _⟩ => simp [DotDims.lhsIdx, dot_S800000x64_S64x64_S800000x64_1_0_0_1_n_n]; rfl
  | ⟨1, _⟩ => simp [DotDims.lhsIdx, dot_S800000x64_S64x64_S800000x64_1_0_0_1_n_n]; exact c2

/-- … and the right operand's is (k, c). -/
theorem dotE_rhs (e : Fin 800000) (c k : Fin 64) :
    dot_S800000x64_S64x64_S800000x64_1_0_0_1_n_n.rhsIdx (ix2 e c)
      ((contrEquiv1 dot_S800000x64_S64x64_S800000x64_1_0_0_1_n_n 64 rfl rfl).symm k) = ix2 k c := by
  have c2 := contrEquiv1_symm_val dot_S800000x64_S64x64_S800000x64_1_0_0_1_n_n 64 rfl rfl k
  funext ax; apply Fin.ext
  match ax with
  | ⟨0, _⟩ => simp [DotDims.rhsIdx, dot_S800000x64_S64x64_S800000x64_1_0_0_1_n_n]; exact c2
  | ⟨1, _⟩ => simp [DotDims.rhsIdx, dot_S800000x64_S64x64_S800000x64_1_0_0_1_n_n]; rfl

/-- Edge features times a weight, at entry (e, c): the sum over k of A(e, k) · B(k, c). -/
theorem dotE_apply (A : FVec Ideal S800000x64 .f32) (B : FVec Ideal S64x64 .f32) (e : Fin 800000) (c : Fin 64) :
    Host.dotGeneral dot_S800000x64_S64x64_S800000x64_1_0_0_1_n_n none A B (ix2 e c)
      = ∑ k : Fin 64, A (ix2 e k) * B (ix2 k c) := by
  refine (Ideal.dotGeneral_apply dot_S800000x64_S64x64_S800000x64_1_0_0_1_n_n none .single A B (ix2 e c)).trans ?_
  rw [← Equiv.sum_comp (contrEquiv1 dot_S800000x64_S64x64_S800000x64_1_0_0_1_n_n 64 rfl rfl).symm]
  refine Finset.sum_congr rfl fun k _ => ?_
  rw [dotE_lhs, dotE_rhs]

/-! ## The four projections per head -/

/-- Queries at (n, hd, j). -/
theorem v33_apply (p : Params Ideal) (n : Fin 50000) (hd : Fin 4) (j : Fin 16) :
    v33 p (ix3 n hd j) = Cert.RAttnSpec.q3 p.h p.wq n hd j :=
  (Cert.HeadSplit.shapeCast_split_apply (rfl : 64 = 4 * 16) (v32 p) shapeCasts_S50000x64_S50000x4x16 n hd j).trans
    (dotN_apply p.h p.wq n _)

/-- Keys at (n, hd, j). -/
theorem v35_apply (p : Params Ideal) (n : Fin 50000) (hd : Fin 4) (j : Fin 16) :
    v35 p (ix3 n hd j) = Cert.RAttnSpec.k3 p.h p.wk n hd j :=
  (Cert.HeadSplit.shapeCast_split_apply (rfl : 64 = 4 * 16) (v34 p) shapeCasts_S50000x64_S50000x4x16 n hd j).trans
    (dotN_apply p.h p.wk n _)

/-- Values at (n, hd, j). -/
theorem v37_apply (p : Params Ideal) (n : Fin 50000) (hd : Fin 4) (j : Fin 16) :
    v37 p (ix3 n hd j) = Cert.RAttnSpec.v3 p.h p.wv n hd j :=
  (Cert.HeadSplit.shapeCast_split_apply (rfl : 64 = 4 * 16) (v36 p) shapeCasts_S50000x64_S50000x4x16 n hd j).trans
    (dotN_apply p.h p.wv n _)

/-- Edge projections at (e, hd, j). -/
theorem v39_apply (p : Params Ideal) (e : Fin 800000) (hd : Fin 4) (j : Fin 16) :
    v39 p (ix3 e hd j) = Cert.RAttnSpec.e3 p.ea p.we e hd j :=
  (Cert.HeadSplit.shapeCast_split_apply (rfl : 64 = 4 * 16) (v38 p) shapeCasts_S800000x64_S800000x4x16 e hd j).trans
    (dotE_apply p.ea p.we e _)

/-! ## The index columns, and the gathered keys and queries -/

theorem v45_eq (p : Params Ideal) : v45 p = srcC p := rfl
theorem v52_eq (p : Params Ideal) : v52 p = dstWC p := rfl
theorem v67_eq (p : Params Ideal) : v67 p = srcC p := rfl
theorem v72_eq (p : Params Ideal) : v72 p = dstC p := rfl
theorem v75_eq (p : Params Ideal) : v75 p = dstC p := rfl

/-- The keys an edge reads: those of the node its source column names. -/
theorem v46_apply (p : Params Ideal) (e : Fin 800000) (hd : Fin 4) (j : Fin 16) :
    v46 p (ix3 e hd j) = Cert.RAttnSpec.k3 p.h p.wk (Cert.RAttnSpec.rowOf (srcC p) e) hd j :=
  (Cert.SlabGather.slabGather_apply (by decide) gather_S50000x4x16_S800000x1_S800000x4x16_12_0_n_n_0_1_1416
    rfl rfl rfl rfl rfl rfl rfl (v35 p) (v45 p) e hd j).trans (v35_apply p _ hd j)

/-- The queries an edge reads: those of the node its destination column names. -/
theorem v53_apply (p : Params Ideal) (e : Fin 800000) (hd : Fin 4) (j : Fin 16) :
    v53 p (ix3 e hd j) = Cert.RAttnSpec.q3 p.h p.wq (Cert.RAttnSpec.rowOf (dstWC p) e) hd j :=
  (Cert.SlabGather.slabGather_apply (by decide) gather_S50000x4x16_S800000x1_S800000x4x16_12_0_n_n_0_1_1416
    rfl rfl rfl rfl rfl rfl rfl (v33 p) (v52 p) e hd j).trans (v33_apply p _ hd j)

/-! ## The score -/

/-- The summand of the score: (key · query) · edge projection. -/
theorem v55_apply (p : Params Ideal) (e : Fin 800000) (hd : Fin 4) (j : Fin 16) :
    v55 p (ix3 e hd j)
      = (Cert.RAttnSpec.k3 p.h p.wk (Cert.RAttnSpec.rowOf (srcC p) e) hd j
          * Cert.RAttnSpec.q3 p.h p.wq (Cert.RAttnSpec.rowOf (dstWC p) e) hd j) * Cert.RAttnSpec.e3 p.ea p.we e hd j := by
  show (v46 p (ix3 e hd j) * v53 p (ix3 e hd j)) * v39 p (ix3 e hd j) = _
  rw [v46_apply, v53_apply, v39_apply]

/-- The reduction over a head's features inserts the feature as the third coordinate. -/
theorem lift_eq (hR : S800000x4x16.Reduces [2] S800000x4) (e : Fin 800000) (hd : Fin 4) (j : Fin 16) :
    hR.lift (ix2 e hd) j = ix3 e hd j := by
  funext a; refine Fin.ext ?_
  match a with
  | ⟨0, _⟩ => rfl
  | ⟨1, _⟩ => rfl
  | ⟨2, _⟩ => rfl

/-- The score of edge `e` at head `hd`. -/
theorem v56_apply (p : Params Ideal) (e : Fin 800000) (hd : Fin 4) :
    v56 p (ix2 e hd) = Cert.RAttnSpec.s p.h p.ea (srcC p) (dstWC p) p.wq p.wk p.we e hd := by
  have hR : S800000x4x16.Reduces [2] S800000x4 := by decide
  refine (Ideal.hostReduceAdd_single reducesTo_S800000x4x16_S800000x4_d2 hR (v55 p)
    (Cert.RAttnSpec.zero) (ix2 e hd)).trans ?_
  show Cert.RAttnSpec.zero + ∑ j : Fin 16, v55 p (hR.lift (ix2 e hd) j) = _
  unfold Cert.RAttnSpec.s
  congr 1
  refine Finset.sum_congr rfl fun j _ => ?_
  rw [lift_eq, v55_apply]

/-! ## The weight -/

/-- The score as a `[E, 4, 1]` array. -/
theorem v57_apply (p : Params Ideal) (e : Fin 800000) (hd : Fin 4) :
    v57 p (ix3 e hd (0 : Fin 1)) = v56 p (ix2 e hd) :=
  broadcastInDim_apply _ _ (v56 p) (ix3 e hd (0 : Fin 1)) (ix2 e hd) (fun a => by
    match a with
    | ⟨0, _⟩ => rfl
    | ⟨1, _⟩ => rfl)

/-- The weight of edge `e` at head `hd`: the exponential of the score over 4, clipped into `[-5, 5]`. -/
theorem v61_apply (p : Params Ideal) (e : Fin 800000) (hd : Fin 4) :
    v61 p (ix3 e hd (0 : Fin 1)) = Cert.RAttnSpec.sc p.h p.ea (srcC p) (dstWC p) p.wq p.wk p.we e hd := by
  show Ideal.exp (min Cert.RAttnSpec.c5 (max Cert.RAttnSpec.cm5
    (Ideal.div (v57 p (ix3 e hd (0 : Fin 1))) Cert.RAttnSpec.c4))) = _
  rw [v57_apply, v56_apply]
  rfl

end Cert.RAttn

end
-- ==== Proof.RAttnB.lean ====
import proofs.«135486_j17549236371616_1_alg».proof.Proof.RAttnA
import proofs.«135486_j17549236371616_1_alg».proof.Proof.LibSlabScatter

/-! # The attention half of a layer, read at an index: messages, segment sums, the output

The second half of the chain: the values an edge reads at its source, the message (values times the edge's weight), the
two segment sums over the edges landing on a node (an accumulating slab scatter into zeros reads, at a node, the
initial zero plus the sum of the updates whose target is that node — for the weights the slabs have one feature), the
division of the summed messages by the summed weights plus 1e-6, and the reshape `[N, 4, 16] → [N, 64]` back to
columns.  The result is the formula `Cert.RAttnSpec.hattn` at the layer's three index columns. -/

open scoped BigOperators

noncomputable section

namespace Cert.RAttn

open Cert.ReferenceIdeal Cert.ReferenceIdeal.Gen Idealize.ShloMosaic Idealize.ShloMosaic.ValueIdx Cert.RefLayer

/-! ## The message -/

/-- The values an edge reads: those of the node its source column names. -/
theorem v68_apply (p : Params Ideal) (e : Fin 800000) (hd : Fin 4) (j : Fin 16) :
    v68 p (ix3 e hd j) = Cert.RAttnSpec.v3 p.h p.wv (Cert.RAttnSpec.rowOf (srcC p) e) hd j :=
  (Cert.SlabGather.slabGather_apply (by decide) gather_S50000x4x16_S800000x1_S800000x4x16_12_0_n_n_0_1_1416
    rfl rfl rfl rfl rfl rfl rfl (v37 p) (v67 p) e hd j).trans (v37_apply p _ hd j)

/-- The weight spread over the head's features. -/
theorem v69_apply (p : Params Ideal) (e : Fin 800000) (hd : Fin 4) (j : Fin 16) :
    v69 p (ix3 e hd j) = v61 p (ix3 e hd (0 : Fin 1)) :=
  broadcastInDim_apply _ _ (v61 p) (ix3 e hd j) (ix3 e hd (0 : Fin 1)) (fun a => by
    match a with
    | ⟨0, _⟩ => rfl
    | ⟨1, _⟩ => rfl
    | ⟨2, _⟩ => rfl)

/-- The message of edge `e`: values at the source times the edge's weight. -/
theorem v70_apply (p : Params Ideal) (e : Fin 800000) (hd : Fin 4) (j : Fin 16) :
    v70 p (ix3 e hd j) = Cert.RAttnSpec.msg p.h p.ea (srcC p) (dstWC p) p.wq p.wk p.we p.wv e hd j := by
  show v68 p (ix3 e hd j) * v69 p (ix3 e hd j) = _
  rw [v68_apply, v69_apply, v61_apply]
  rfl

/-! ## The two segment sums -/

/-- The summed messages at node `n`. -/
theorem v73_apply (p : Params Ideal) (n : Fin 50000) (hd : Fin 4) (j : Fin 16) :
    v73 p (ix3 n hd j)
      = Cert.RAttnSpec.wV p.h p.ea (srcC p) (dstWC p) (dstC p) p.wq p.wk p.we p.wv n hd j := by
  refine (Cert.SlabScatter.slabScatterAdd_apply scatter_S50000x4x16_S800000x1_S800000x4x16_12_0_0_1
    rfl rfl rfl rfl (v71 p) (v72 p) (v70 p) n hd j).trans ?_
  unfold Cert.RAttnSpec.wV
  exact congrArg₂ (· + ·) rfl (Finset.sum_congr rfl fun e _ => v70_apply p e hd j)

/-- The summed weights at node `n`. -/
theorem v76_apply (p : Params Ideal) (n : Fin 50000) (hd : Fin 4) :
    v76 p (ix3 n hd (0 : Fin 1))
      = Cert.RAttnSpec.Z p.h p.ea (srcC p) (dstWC p) (dstC p) p.wq p.wk p.we n hd := by
  refine (Cert.SlabScatter.slabScatterAdd_apply scatter_S50000x4x1_S800000x1_S800000x4x1_12_0_0_1
    rfl rfl rfl rfl (v74 p) (v75 p) (v61 p) n hd (0 : Fin 1)).trans ?_
  unfold Cert.RAttnSpec.Z
  exact congrArg₂ (· + ·) rfl (Finset.sum_congr rfl fun e _ => v61_apply p e hd)

/-! ## The output -/

/-- The denominator: summed weights plus 1e-6. -/
theorem v78_apply (p : Params Ideal) (n : Fin 50000) (hd : Fin 4) :
    v78 p (ix3 n hd (0 : Fin 1))
      = Cert.RAttnSpec.Z p.h p.ea (srcC p) (dstWC p) (dstC p) p.wq p.wk p.we n hd + Cert.RAttnSpec.eps6 :=
  (addf_apply (v76 p) (v77 p) (ix3 n hd (0 : Fin 1))).trans
    (congrArg (· + v77 p (ix3 n hd (0 : Fin 1))) (v76_apply p n hd))

/-- The denominator spread over the head's features. -/
theorem v79_apply (p : Params Ideal) (n : Fin 50000) (hd : Fin 4) (j : Fin 16) :
    v79 p (ix3 n hd j) = v78 p (ix3 n hd (0 : Fin 1)) :=
  broadcastInDim_apply _ _ (v78 p) (ix3 n hd j) (ix3 n hd (0 : Fin 1)) (fun a => by
    match a with
    | ⟨0, _⟩ => rfl
    | ⟨1, _⟩ => rfl
    | ⟨2, _⟩ => rfl)

/-- The host's division at an index. -/
theorem hostDivf_apply {s : Shape} {φ : FTy} (a b : FVec Ideal s φ) (i : s.Idx) :
    Host.divf a b i = Ideal.div (a i) (b i) := rfl

/-- The attention output at (n, hd, j). -/
theorem v80_apply (p : Params Ideal) (n : Fin 50000) (hd : Fin 4) (j : Fin 16) :
    v80 p (ix3 n hd j)
      = Cert.RAttnSpec.hattn p.h p.ea (srcC p) (dstWC p) (dstC p) p.wq p.wk p.we p.wv n hd j := by
  refine (hostDivf_apply (v73 p) (v79 p) (ix3 n hd j)).trans ?_
  unfold Cert.RAttnSpec.hattn
  rw [v73_apply, v79_apply, v78_apply]

/-- THE ATTENTION HALF AT AN INDEX: the layer's attention output at node `n`, column `j` of head `hd`, is the
    formula `hattn` at the layer's arrays and its three index columns. -/
theorem v81_apply (p : Params Ideal) (n : Fin 50000) (hd : Fin 4) (j : Fin 16) :
    v81 p (ix2 n (Cert.HeadSplit.col (rfl : 64 = 4 * 16) hd j))
      = Cert.RAttnSpec.hattn p.h p.ea
          (Cert.IndexCol.wrapCol 50000#32 bcast_S_S800000 bcast_S800000_S800000x1_0 p.src)
          (Cert.IndexCol.wrapCol 50000#32 bcast_S_S800000 bcast_S800000_S800000x1_0 p.dst)
          (Cert.IndexCol.col bcast_S800000_S800000x1_0 p.dst)
          p.wq p.wk p.we p.wv n hd j :=
  (Cert.HeadSplit.shapeCast_merge_apply (rfl : 64 = 4 * 16) (v80 p) shapeCasts_S50000x4x16_S50000x64 n hd j).trans
    (v80_apply p n hd j)

end Cert.RAttn

end
-- ==== Proof.RefInputs.lean ====
import proofs.«135486_j17549236371616_1_alg».proof.Proof.RefRead
import proofs.«135486_j17549236371616_1_alg».proof.Proof.LibLineStep
import Idealize.ShloMosaic.Lib.ValueLayout

/-! # The layers' input arrays, read at an index

The launch arguments end as launched (no operation writes them).  Each index row and each weight of a layer is cut
out of a launch argument that stacks the two layers' arrays: operation `2m` (resp. `175 + 2m`) slices row `0` (resp. `1`)
of the stack as an array with a leading unit axis, and the next operation drops that axis.  Read at an index, the
result is the stack at that index under the layer's row.  First the two general facts (a stack of vectors, a stack of
matrices), then the table: one equation per sliced array. -/

namespace Cert.StackRow

open Idealize.ShloMosaic Idealize.ShloMosaic.ValueIdx

variable {α : Type}

/-- A rank-3 array cut along axis 0 from `o` reads, at `(j, a, e)`, the source at `(k, a, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row `l` of a stack of `L` vectors: the `[1, n]` slice from row `o = l`, its unit axis dropped, reads at `e` the
    stack at `(l, e)`. -/
theorem vec_apply {L n : Nat} (o : Nat) (X : (⟨2, ![L, n]⟩ : Shape).Idx → α)
    (hs : (⟨2, ![L, n]⟩ : Shape).Slices ![o, 0] ⟨2, ![1, n]⟩) (hc : (⟨2, ![1, n]⟩ : Shape).ShapeCasts ⟨1, ![n]⟩)
    (l : Fin L) (hl : l.val = o) (e : Fin n) :
    shapeCast ⟨1, ![n]⟩ (extractStridedSlice ⟨2, ![1, n]⟩ ![o, 0] X hs) hc (ix1 e) = X (ix2 l e) := by
  rw [shapeCast_1a_a_apply]
  exact slice2_axis0_apply o X hs 0 e l (by rw [hl]; rfl)

/-- Row `l` of a stack of `L` matrices: the `[1, a, b]` slice from row `o = l`, its unit axis dropped, reads at `(i, j)`
    the stack at `(l, i, j)`. -/
theorem mat_apply {L a b : Nat} (o : Nat) (X : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩) (l : Fin L) (hl : l.val = o) (i : Fin a) (j : Fin b) :
    shapeCast ⟨2, ![a, b]⟩ (extractStridedSlice ⟨3, ![1, a, b]⟩ ![o, 0, 0] X hs) hc (ix2 i j) = X (ix3 l i j) := by
  rw [shapeCast_1ab_ab_apply]
  exact slice3_axis0_apply o X hs 0 i j l (by rw [hl]; rfl)

end Cert.StackRow

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead Idealize.ShloMosaic.ValueIdx

variable {F : FTy → Type} [FloatOps F] (V : Valuation τ sig (Elt F))

/-! ## The launch arguments end as launched -/

theorem val_arg0 : val V main_arg0 = V (Proc.devRef .tc main_arg0) := after_arg writesAt V main_arg0 (by decide)
theorem val_arg1 : val V main_arg1 = V (Proc.devRef .tc main_arg1) := after_arg writesAt V main_arg1 (by decide)
theorem val_arg2 : val V main_arg2 = V (Proc.devRef .tc main_arg2) := after_arg writesAt V main_arg2 (by decide)
theorem val_arg3 : val V main_arg3 = V (Proc.devRef .tc main_arg3) := after_arg writesAt V main_arg3 (by decide)
theorem val_arg4 : val V main_arg4 = V (Proc.devRef .tc main_arg4) := after_arg writesAt V main_arg4 (by decide)
theorem val_arg5 : val V main_arg5 = V (Proc.devRef .tc main_arg5) := after_arg writesAt V main_arg5 (by decide)
theorem val_arg6 : val V main_arg6 = V (Proc.devRef .tc main_arg6) := after_arg writesAt V main_arg6 (by decide)
theorem val_arg7 : val V main_arg7 = V (Proc.devRef .tc main_arg7) := after_arg writesAt V main_arg7 (by decide)
theorem val_arg8 : val V main_arg8 = V (Proc.devRef .tc main_arg8) := after_arg writesAt V main_arg8 (by decide)
theorem val_arg9 : val V main_arg9 = V (Proc.devRef .tc main_arg9) := after_arg writesAt V main_arg9 (by decide)
theorem val_arg10 : val V main_arg10 = V (Proc.devRef .tc main_arg10) := after_arg writesAt V main_arg10 (by decide)
theorem val_arg11 : val V main_arg11 = V (Proc.devRef .tc main_arg11) := after_arg writesAt V main_arg11 (by decide)
theorem val_arg12 : val V main_arg12 = V (Proc.devRef .tc main_arg12) := after_arg writesAt V main_arg12 (by decide)
theorem val_arg13 : val V main_arg13 = V (Proc.devRef .tc main_arg13) := after_arg writesAt V main_arg13 (by decide)
theorem val_arg14 : val V main_arg14 = V (Proc.devRef .tc main_arg14) := after_arg writesAt V main_arg14 (by decide)
theorem val_arg15 : val V main_arg15 = V (Proc.devRef .tc main_arg15) := after_arg writesAt V main_arg15 (by decide)
theorem val_arg16 : val V main_arg16 = V (Proc.devRef .tc main_arg16) := after_arg writesAt V main_arg16 (by decide)

/-! ## The sliced arrays at an index -/

theorem val_v1_apply (e : Fin 800000) : val V main_v1 (ix1 e) = val V main_arg2 (ix2 (0 : Fin 2) e) :=
  (congrFun (reshape_step writesAt V 1 (pos (by decide)) (x := main_v0) (y := main_v1) rfl shapeCasts_S1x800000_S800000
      ⟨by decide, rfl⟩ ⟨by decide, rfl⟩ rfl (by decide) (by decide)
      (unary_final writesAt V 0 (pos (by decide)) (x := main_arg2) (y := main_v0)
        ((extractStridedSlice S1x800000 ![0, 0] · slices_S2x800000_S1x800000_0_0) : (⟨S2x800000, .i32⟩ : BufTy).Contents (Elt F) → (⟨S1x800000, .i32⟩ : BufTy).Contents (Elt F))
        ⟨by decide, rfl⟩ ⟨by decide, rfl⟩ rfl (by decide) (by decide))) (ix1 e)).trans
    (Cert.StackRow.vec_apply 0 (val V main_arg2) slices_S2x800000_S1x800000_0_0 shapeCasts_S1x800000_S800000 (0 : Fin 2) rfl e)

theorem val_v3_apply (e : Fin 800000) : val V main_v3 (ix1 e) = val V main_arg2 (ix2 (1 : Fin 2) e) :=
  (congrFun (reshape_step writesAt V 3 (pos (by decide)) (x := main_v2) (y := main_v3) rfl shapeCasts_S1x800000_S800000
      ⟨by decide, rfl⟩ ⟨by decide, rfl⟩ rfl (by decide) (by decide)
      (unary_final writesAt V 2 (pos (by decide)) (x := main_arg2) (y := main_v2)
        ((extractStridedSlice S1x800000 ![1, 0] · slices_S2x800000_S1x800000_1_0) : (⟨S2x800000, .i32⟩ : BufTy).Contents (Elt F) → (⟨S1x800000, .i32⟩ : BufTy).Contents (Elt F))
        ⟨by decide, rfl⟩ ⟨by decide, rfl⟩ rfl (by decide) (by decide))) (ix1 e)).trans
    (Cert.StackRow.vec_apply 1 (val V main_arg2) slices_S2x800000_S1x800000_1_0 shapeCasts_S1x800000_S800000 (1 : Fin 2) rfl e)

theorem val_v5_apply (i : Fin 64) (j : Fin 64) : val V main_v5 (ix2 i j) = val V main_arg3 (ix3 (0 : Fin 2) i j) :=
  (congrFun (reshape_step writesAt V 5 (pos (by decide)) (x := main_v4) (y := main_v5) rfl shapeCasts_S1x64x64_S64x64
      ⟨by decide, rfl⟩ ⟨by decide, rfl⟩ rfl (by decide) (by decide)
      (unary_final writesAt V 4 (pos (by decide)) (x := main_arg3) (y := main_v4)
        ((extractStridedSlice S1x64x64 ![0, 0, 0] · slices_S2x64x64_S1x64x64_0_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 0 (val V main_arg3) slices_S2x64x64_S1x64x64_0_0_0 shapeCasts_S1x64x64_S64x64 (0 : Fin 2) rfl i j)

theorem val_v7_apply (i : Fin 64) (j : Fin 64) : val V main_v7 (ix2 i j) = val V main_arg4 (ix3 (0 : Fin 2) i j) :=
  (congrFun (reshape_step writesAt V 7 (pos (by decide)) (x := main_v6) (y := main_v7) rfl shapeCasts_S1x64x64_S64x64
      ⟨by decide, rfl⟩ ⟨by decide, rfl⟩ rfl (by decide) (by decide)
      (unary_final writesAt V 6 (pos (by decide)) (x := main_arg4) (y := main_v6)
        ((extractStridedSlice S1x64x64 ![0, 0, 0] · slices_S2x64x64_S1x64x64_0_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 0 (val V main_arg4) slices_S2x64x64_S1x64x64_0_0_0 shapeCasts_S1x64x64_S64x64 (0 : Fin 2) rfl i j)

theorem val_v9_apply (i : Fin 64) (j : Fin 64) : val V main_v9 (ix2 i j) = val V main_arg5 (ix3 (0 : Fin 2) i j) :=
  (congrFun (reshape_step writesAt V 9 (pos (by decide)) (x := main_v8) (y := main_v9) rfl shapeCasts_S1x64x64_S64x64
      ⟨by decide, rfl⟩ ⟨by decide, rfl⟩ rfl (by decide) (by decide)
      (unary_final writesAt V 8 (pos (by decide)) (x := main_arg5) (y := main_v8)
        ((extractStridedSlice S1x64x64 ![0, 0, 0] · slices_S2x64x64_S1x64x64_0_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 0 (val V main_arg5) slices_S2x64x64_S1x64x64_0_0_0 shapeCasts_S1x64x64_S64x64 (0 : Fin 2) rfl i j)

theorem val_v11_apply (i : Fin 64) (j : Fin 64) : val V main_v11 (ix2 i j) = val V main_arg6 (ix3 (0 : Fin 2) i j) :=
  (congrFun (reshape_step writesAt V 11 (pos (by decide)) (x := main_v10) (y := main_v11) rfl shapeCasts_S1x64x64_S64x64
      ⟨by decide, rfl⟩ ⟨by decide, rfl⟩ rfl (by decide) (by decide)
      (unary_final writesAt V 10 (pos (by decide)) (x := main_arg6) (y := main_v10)
        ((extractStridedSlice S1x64x64 ![0, 0, 0] · slices_S2x64x64_S1x64x64_0_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 0 (val V main_arg6) slices_S2x64x64_S1x64x64_0_0_0 shapeCasts_S1x64x64_S64x64 (0 : Fin 2) rfl i j)

theorem val_v13_apply (i : Fin 64) (j : Fin 64) : val V main_v13 (ix2 i j) = val V main_arg7 (ix3 (0 : Fin 2) i j) :=
  (congrFun (reshape_step writesAt V 13 (pos (by decide)) (x := main_v12) (y := main_v13) rfl shapeCasts_S1x64x64_S64x64
      ⟨by decide, rfl⟩ ⟨by decide, rfl⟩ rfl (by decide) (by decide)
      (unary_final writesAt V 12 (pos (by decide)) (x := main_arg7) (y := main_v12)
        ((extractStridedSlice S1x64x64 ![0, 0, 0] · slices_S2x64x64_S1x64x64_0_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 0 (val V main_arg7) slices_S2x64x64_S1x64x64_0_0_0 shapeCasts_S1x64x64_S64x64 (0 : Fin 2) rfl i j)

theorem val_v15_apply (e : Fin 64) : val V main_v15 (ix1 e) = val V main_arg8 (ix2 (0 : Fin 2) e) :=
  (congrFun (reshape_step writesAt V 15 (pos (by decide)) (x := main_v14) (y := main_v15) rfl shapeCasts_S1x64_S64
      ⟨by decide, rfl⟩ ⟨by decide, rfl⟩ rfl (by decide) (by decide)
      (unary_final writesAt V 14 (pos (by decide)) (x := main_arg8) (y := main_v14)
        ((extractStridedSlice S1x64 ![0, 0] · slices_S2x64_S1x64_0_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 0 (val V main_arg8) slices_S2x64_S1x64_0_0 shapeCasts_S1x64_S64 (0 : Fin 2) rfl e)

theorem val_v17_apply (e : Fin 64) : val V main_v17 (ix1 e) = val V main_arg9 (ix2 (0 : Fin 2) e) :=
  (congrFun (reshape_step writesAt V 17 (pos (by decide)) (x := main_v16) (y := main_v17) rfl shapeCasts_S1x64_S64
      ⟨by decide, rfl⟩ ⟨by decide, rfl⟩ rfl (by decide) (by decide)
      (unary_final writesAt V 16 (pos (by decide)) (x := main_arg9) (y := main_v16)
        ((extractStridedSlice S1x64 ![0, 0] · slices_S2x64_S1x64_0_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 0 (val V main_arg9) slices_S2x64_S1x64_0_0 shapeCasts_S1x64_S64 (0 : Fin 2) rfl e)

theorem val_v19_apply (e : Fin 64) : val V main_v19 (ix1 e) = val V main_arg10 (ix2 (0 : Fin 2) e) :=
  (congrFun (reshape_step writesAt V 19 (pos (by decide)) (x := main_v18) (y := main_v19) rfl shapeCasts_S1x64_S64
      ⟨by decide, rfl⟩ ⟨by decide, rfl⟩ rfl (by decide) (by decide)
      (unary_final writesAt V 18 (pos (by decide)) (x := main_arg10) (y := main_v18)
        ((extractStridedSlice S1x64 ![0, 0] · slices_S2x64_S1x64_0_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 0 (val V main_arg10) slices_S2x64_S1x64_0_0 shapeCasts_S1x64_S64 (0 : Fin 2) rfl e)

theorem val_v21_apply (i : Fin 64) (j : Fin 128) : val V main_v21 (ix2 i j) = val V main_arg11 (ix3 (0 : Fin 2) i j) :=
  (congrFun (reshape_step writesAt V 21 (pos (by decide)) (x := main_v20) (y := main_v21) rfl shapeCasts_S1x64x128_S64x128
      ⟨by decide, rfl⟩ ⟨by decide, rfl⟩ rfl (by decide) (by decide)
      (unary_final writesAt V 20 (pos (by decide)) (x := main_arg11) (y := main_v20)
        ((extractStridedSlice S1x64x128 ![0, 0, 0] · slices_S2x64x128_S1x64x128_0_0_0) : (⟨S2x64x128, .f32⟩ : BufTy).Contents (Elt F) → (⟨S1x64x128, .f32⟩ : BufTy).Contents (Elt F))
        ⟨by decide, rfl⟩ ⟨by decide, rfl⟩ rfl (by decide) (by decide))) (ix2 i j)).trans
    (Cert.StackRow.mat_apply 0 (val V main_arg11) slices_S2x64x128_S1x64x128_0_0_0 shapeCasts_S1x64x128_S64x128 (0 : Fin 2) rfl i j)

theorem val_v23_apply (e : Fin 128) : val V main_v23 (ix1 e) = val V main_arg12 (ix2 (0 : Fin 2) e) :=
  (congrFun (reshape_step writesAt V 23 (pos (by decide)) (x := main_v22) (y := main_v23) rfl shapeCasts_S1x128_S128
      ⟨by decide, rfl⟩ ⟨by decide, rfl⟩ rfl (by decide) (by decide)
      (unary_final writesAt V 22 (pos (by decide)) (x := main_arg12) (y := main_v22)
        ((extractStridedSlice S1x128 ![0, 0] · slices_S2x128_S1x128_0_0) : (⟨S2x128, .f32⟩ : BufTy).Contents (Elt F) → (⟨S1x128, .f32⟩ : BufTy).Contents (Elt F))
        ⟨by decide, rfl⟩ ⟨by decide, rfl⟩ rfl (by decide) (by decide))) (ix1 e)).trans
    (Cert.StackRow.vec_apply 0 (val V main_arg12) slices_S2x128_S1x128_0_0 shapeCasts_S1x128_S128 (0 : Fin 2) rfl e)

theorem val_v25_apply (i : Fin 128) (j : Fin 64) : val V main_v25 (ix2 i j) = val V main_arg13 (ix3 (0 : Fin 2) i j) :=
  (congrFun (reshape_step writesAt V 25 (pos (by decide)) (x := main_v24) (y := main_v25) rfl shapeCasts_S1x128x64_S128x64
      ⟨by decide, rfl⟩ ⟨by decide, rfl⟩ rfl (by decide) (by decide)
      (unary_final writesAt V 24 (pos (by decide)) (x := main_arg13) (y := main_v24)
        ((extractStridedSlice S1x128x64 ![0, 0, 0] · slices_S2x128x64_S1x128x64_0_0_0) : (⟨S2x128x64, .f32⟩ : BufTy).Contents (Elt F) → (⟨S1x128x64, .f32⟩ : BufTy).Contents (Elt F))
        ⟨by decide, rfl⟩ ⟨by decide, rfl⟩ rfl (by decide) (by decide))) (ix2 i j)).trans
    (Cert.StackRow.mat_apply 0 (val V main_arg13) slices_S2x128x64_S1x128x64_0_0_0 shapeCasts_S1x128x64_S128x64 (0 : Fin 2) rfl i j)

theorem val_v27_apply (e : Fin 64) : val V main_v27 (ix1 e) = val V main_arg14 (ix2 (0 : Fin 2) e) :=
  (congrFun (reshape_step writesAt V 27 (pos (by decide)) (x := main_v26) (y := main_v27) rfl shapeCasts_S1x64_S64
      ⟨by decide, rfl⟩ ⟨by decide, rfl⟩ rfl (by decide) (by decide)
      (unary_final writesAt V 26 (pos (by decide)) (x := main_arg14) (y := main_v26)
        ((extractStridedSlice S1x64 ![0, 0] · slices_S2x64_S1x64_0_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 0 (val V main_arg14) slices_S2x64_S1x64_0_0 shapeCasts_S1x64_S64 (0 : Fin 2) rfl e)

theorem val_v29_apply (e : Fin 64) : val V main_v29 (ix1 e) = val V main_arg15 (ix2 (0 : Fin 2) e) :=
  (congrFun (reshape_step writesAt V 29 (pos (by decide)) (x := main_v28) (y := main_v29) rfl shapeCasts_S1x64_S64
      ⟨by decide, rfl⟩ ⟨by decide, rfl⟩ rfl (by decide) (by decide)
      (unary_final writesAt V 28 (pos (by decide)) (x := main_arg15) (y := main_v28)
        ((extractStridedSlice S1x64 ![0, 0] · slices_S2x64_S1x64_0_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 0 (val V main_arg15) slices_S2x64_S1x64_0_0 shapeCasts_S1x64_S64 (0 : Fin 2) rfl e)

theorem val_v31_apply (e : Fin 64) : val V main_v31 (ix1 e) = val V main_arg16 (ix2 (0 : Fin 2) e) :=
  (congrFun (reshape_step writesAt V 31 (pos (by decide)) (x := main_v30) (y := main_v31) rfl shapeCasts_S1x64_S64
      ⟨by decide, rfl⟩ ⟨by decide, rfl⟩ rfl (by decide) (by decide)
      (unary_final writesAt V 30 (pos (by decide)) (x := main_arg16) (y := main_v30)
        ((extractStridedSlice S1x64 ![0, 0] · slices_S2x64_S1x64_0_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 0 (val V main_arg16) slices_S2x64_S1x64_0_0 shapeCasts_S1x64_S64 (0 : Fin 2) rfl e)

theorem val_v146_apply (i : Fin 64) (j : Fin 64) : val V main_v146 (ix2 i j) = val V main_arg3 (ix3 (1 : Fin 2) i j) :=
  (congrFun (reshape_step writesAt V 176 (pos (by decide)) (x := main_v145) (y := main_v146) rfl shapeCasts_S1x64x64_S64x64
      ⟨by decide, rfl⟩ ⟨by decide, rfl⟩ rfl (by decide) (by decide)
      (unary_final writesAt V 175 (pos (by decide)) (x := main_arg3) (y := main_v145)
        ((extractStridedSlice S1x64x64 ![1, 0, 0] · slices_S2x64x64_S1x64x64_1_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 1 (val V main_arg3) slices_S2x64x64_S1x64x64_1_0_0 shapeCasts_S1x64x64_S64x64 (1 : Fin 2) rfl i j)

theorem val_v148_apply (i : Fin 64) (j : Fin 64) : val V main_v148 (ix2 i j) = val V main_arg4 (ix3 (1 : Fin 2) i j) :=
  (congrFun (reshape_step writesAt V 178 (pos (by decide)) (x := main_v147) (y := main_v148) rfl shapeCasts_S1x64x64_S64x64
      ⟨by decide, rfl⟩ ⟨by decide, rfl⟩ rfl (by decide) (by decide)
      (unary_final writesAt V 177 (pos (by decide)) (x := main_arg4) (y := main_v147)
        ((extractStridedSlice S1x64x64 ![1, 0, 0] · slices_S2x64x64_S1x64x64_1_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 1 (val V main_arg4) slices_S2x64x64_S1x64x64_1_0_0 shapeCasts_S1x64x64_S64x64 (1 : Fin 2) rfl i j)

theorem val_v150_apply (i : Fin 64) (j : Fin 64) : val V main_v150 (ix2 i j) = val V main_arg5 (ix3 (1 : Fin 2) i j) :=
  (congrFun (reshape_step writesAt V 180 (pos (by decide)) (x := main_v149) (y := main_v150) rfl shapeCasts_S1x64x64_S64x64
      ⟨by decide, rfl⟩ ⟨by decide, rfl⟩ rfl (by decide) (by decide)
      (unary_final writesAt V 179 (pos (by decide)) (x := main_arg5) (y := main_v149)
        ((extractStridedSlice S1x64x64 ![1, 0, 0] · slices_S2x64x64_S1x64x64_1_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 1 (val V main_arg5) slices_S2x64x64_S1x64x64_1_0_0 shapeCasts_S1x64x64_S64x64 (1 : Fin 2) rfl i j)

theorem val_v152_apply (i : Fin 64) (j : Fin 64) : val V main_v152 (ix2 i j) = val V main_arg6 (ix3 (1 : Fin 2) i j) :=
  (congrFun (reshape_step writesAt V 182 (pos (by decide)) (x := main_v151) (y := main_v152) rfl shapeCasts_S1x64x64_S64x64
      ⟨by decide, rfl⟩ ⟨by decide, rfl⟩ rfl (by decide) (by decide)
      (unary_final writesAt V 181 (pos (by decide)) (x := main_arg6) (y := main_v151)
        ((extractStridedSlice S1x64x64 ![1, 0, 0] · slices_S2x64x64_S1x64x64_1_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 1 (val V main_arg6) slices_S2x64x64_S1x64x64_1_0_0 shapeCasts_S1x64x64_S64x64 (1 : Fin 2) rfl i j)

theorem val_v154_apply (i : Fin 64) (j : Fin 64) : val V main_v154 (ix2 i j) = val V main_arg7 (ix3 (1 : Fin 2) i j) :=
  (congrFun (reshape_step writesAt V 184 (pos (by decide)) (x := main_v153) (y := main_v154) rfl shapeCasts_S1x64x64_S64x64
      ⟨by decide, rfl⟩ ⟨by decide, rfl⟩ rfl (by decide) (by decide)
      (unary_final writesAt V 183 (pos (by decide)) (x := main_arg7) (y := main_v153)
        ((extractStridedSlice S1x64x64 ![1, 0, 0] · slices_S2x64x64_S1x64x64_1_0_0) : (⟨S2x64x64, .f32⟩ : BufTy).Contents (Elt F) → (⟨S1x64x64, .f32⟩ : BufTy).Contents (Elt F))
        ⟨by decide, rfl⟩ ⟨by decide, rfl⟩ rfl (by decide) (by decide))) (ix2 i j)).trans
    (Cert.StackRow.mat_apply 1 (val V main_arg7) slices_S2x64x64_S1x64x64_1_0_0 shapeCasts_S1x64x64_S64x64 (1 : Fin 2) rfl i j)

theorem val_v156_apply (e : Fin 64) : val V main_v156 (ix1 e) = val V main_arg8 (ix2 (1 : Fin 2) e) :=
  (congrFun (reshape_step writesAt V 186 (pos (by decide)) (x := main_v155) (y := main_v156) rfl shapeCasts_S1x64_S64
      ⟨by decide, rfl⟩ ⟨by decide, rfl⟩ rfl (by decide) (by decide)
      (unary_final writesAt V 185 (pos (by decide)) (x := main_arg8) (y := main_v155)
        ((extractStridedSlice S1x64 ![1, 0] · slices_S2x64_S1x64_1_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 1 (val V main_arg8) slices_S2x64_S1x64_1_0 shapeCasts_S1x64_S64 (1 : Fin 2) rfl e)

theorem val_v158_apply (e : Fin 64) : val V main_v158 (ix1 e) = val V main_arg9 (ix2 (1 : Fin 2) e) :=
  (congrFun (reshape_step writesAt V 188 (pos (by decide)) (x := main_v157) (y := main_v158) rfl shapeCasts_S1x64_S64
      ⟨by decide, rfl⟩ ⟨by decide, rfl⟩ rfl (by decide) (by decide)
      (unary_final writesAt V 187 (pos (by decide)) (x := main_arg9) (y := main_v157)
        ((extractStridedSlice S1x64 ![1, 0] · slices_S2x64_S1x64_1_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 1 (val V main_arg9) slices_S2x64_S1x64_1_0 shapeCasts_S1x64_S64 (1 : Fin 2) rfl e)

theorem val_v160_apply (e : Fin 64) : val V main_v160 (ix1 e) = val V main_arg10 (ix2 (1 : Fin 2) e) :=
  (congrFun (reshape_step writesAt V 190 (pos (by decide)) (x := main_v159) (y := main_v160) rfl shapeCasts_S1x64_S64
      ⟨by decide, rfl⟩ ⟨by decide, rfl⟩ rfl (by decide) (by decide)
      (unary_final writesAt V 189 (pos (by decide)) (x := main_arg10) (y := main_v159)
        ((extractStridedSlice S1x64 ![1, 0] · slices_S2x64_S1x64_1_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 1 (val V main_arg10) slices_S2x64_S1x64_1_0 shapeCasts_S1x64_S64 (1 : Fin 2) rfl e)

theorem val_v162_apply (i : Fin 64) (j : Fin 128) : val V main_v162 (ix2 i j) = val V main_arg11 (ix3 (1 : Fin 2) i j) :=
  (congrFun (reshape_step writesAt V 192 (pos (by decide)) (x := main_v161) (y := main_v162) rfl shapeCasts_S1x64x128_S64x128
      ⟨by decide, rfl⟩ ⟨by decide, rfl⟩ rfl (by decide) (by decide)
      (unary_final writesAt V 191 (pos (by decide)) (x := main_arg11) (y := main_v161)
        ((extractStridedSlice S1x64x128 ![1, 0, 0] · slices_S2x64x128_S1x64x128_1_0_0) : (⟨S2x64x128, .f32⟩ : BufTy).Contents (Elt F) → (⟨S1x64x128, .f32⟩ : BufTy).Contents (Elt F))
        ⟨by decide, rfl⟩ ⟨by decide, rfl⟩ rfl (by decide) (by decide))) (ix2 i j)).trans
    (Cert.StackRow.mat_apply 1 (val V main_arg11) slices_S2x64x128_S1x64x128_1_0_0 shapeCasts_S1x64x128_S64x128 (1 : Fin 2) rfl i j)

theorem val_v164_apply (e : Fin 128) : val V main_v164 (ix1 e) = val V main_arg12 (ix2 (1 : Fin 2) e) :=
  (congrFun (reshape_step writesAt V 194 (pos (by decide)) (x := main_v163) (y := main_v164) rfl shapeCasts_S1x128_S128
      ⟨by decide, rfl⟩ ⟨by decide, rfl⟩ rfl (by decide) (by decide)
      (unary_final writesAt V 193 (pos (by decide)) (x := main_arg12) (y := main_v163)
        ((extractStridedSlice S1x128 ![1, 0] · slices_S2x128_S1x128_1_0) : (⟨S2x128, .f32⟩ : BufTy).Contents (Elt F) → (⟨S1x128, .f32⟩ : BufTy).Contents (Elt F))
        ⟨by decide, rfl⟩ ⟨by decide, rfl⟩ rfl (by decide) (by decide))) (ix1 e)).trans
    (Cert.StackRow.vec_apply 1 (val V main_arg12) slices_S2x128_S1x128_1_0 shapeCasts_S1x128_S128 (1 : Fin 2) rfl e)

theorem val_v166_apply (i : Fin 128) (j : Fin 64) : val V main_v166 (ix2 i j) = val V main_arg13 (ix3 (1 : Fin 2) i j) :=
  (congrFun (reshape_step writesAt V 196 (pos (by decide)) (x := main_v165) (y := main_v166) rfl shapeCasts_S1x128x64_S128x64
      ⟨by decide, rfl⟩ ⟨by decide, rfl⟩ rfl (by decide) (by decide)
      (unary_final writesAt V 195 (pos (by decide)) (x := main_arg13) (y := main_v165)
        ((extractStridedSlice S1x128x64 ![1, 0, 0] · slices_S2x128x64_S1x128x64_1_0_0) : (⟨S2x128x64, .f32⟩ : BufTy).Contents (Elt F) → (⟨S1x128x64, .f32⟩ : BufTy).Contents (Elt F))
        ⟨by decide, rfl⟩ ⟨by decide, rfl⟩ rfl (by decide) (by decide))) (ix2 i j)).trans
    (Cert.StackRow.mat_apply 1 (val V main_arg13) slices_S2x128x64_S1x128x64_1_0_0 shapeCasts_S1x128x64_S128x64 (1 : Fin 2) rfl i j)

theorem val_v168_apply (e : Fin 64) : val V main_v168 (ix1 e) = val V main_arg14 (ix2 (1 : Fin 2) e) :=
  (congrFun (reshape_step writesAt V 198 (pos (by decide)) (x := main_v167) (y := main_v168) rfl shapeCasts_S1x64_S64
      ⟨by decide, rfl⟩ ⟨by decide, rfl⟩ rfl (by decide) (by decide)
      (unary_final writesAt V 197 (pos (by decide)) (x := main_arg14) (y := main_v167)
        ((extractStridedSlice S1x64 ![1, 0] · slices_S2x64_S1x64_1_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 1 (val V main_arg14) slices_S2x64_S1x64_1_0 shapeCasts_S1x64_S64 (1 : Fin 2) rfl e)

theorem val_v170_apply (e : Fin 64) : val V main_v170 (ix1 e) = val V main_arg15 (ix2 (1 : Fin 2) e) :=
  (congrFun (reshape_step writesAt V 200 (pos (by decide)) (x := main_v169) (y := main_v170) rfl shapeCasts_S1x64_S64
      ⟨by decide, rfl⟩ ⟨by decide, rfl⟩ rfl (by decide) (by decide)
      (unary_final writesAt V 199 (pos (by decide)) (x := main_arg15) (y := main_v169)
        ((extractStridedSlice S1x64 ![1, 0] · slices_S2x64_S1x64_1_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 1 (val V main_arg15) slices_S2x64_S1x64_1_0 shapeCasts_S1x64_S64 (1 : Fin 2) rfl e)

theorem val_v172_apply (e : Fin 64) : val V main_v172 (ix1 e) = val V main_arg16 (ix2 (1 : Fin 2) e) :=
  (congrFun (reshape_step writesAt V 202 (pos (by decide)) (x := main_v171) (y := main_v172) rfl shapeCasts_S1x64_S64
      ⟨by decide, rfl⟩ ⟨by decide, rfl⟩ rfl (by decide) (by decide)
      (unary_final writesAt V 201 (pos (by decide)) (x := main_arg16) (y := main_v171)
        ((extractStridedSlice S1x64 ![1, 0] · slices_S2x64_S1x64_1_0) : (⟨S2x64, .f32⟩ : BufTy).Contents (Elt F) → (⟨S1x64, .f32⟩ : BufTy).Contents (Elt F))
        ⟨by decide, rfl⟩ ⟨by decide, rfl⟩ rfl (by decide) (by decide))) (ix1 e)).trans
    (Cert.StackRow.vec_apply 1 (val V main_arg16) slices_S2x64_S1x64_1_0 shapeCasts_S1x64_S64 (1 : Fin 2) rfl e)

end Cert.ReferenceIdeal.RunFold

end
-- ==== Proof.RefL1a.lean ====
import proofs.«135486_j17549236371616_1_alg».proof.Proof.RefRead
import proofs.«135486_j17549236371616_1_alg».proof.Proof.RefLayer
import proofs.«135486_j17549236371616_1_alg».proof.Proof.LibLineStep

/-! # The reference's first layer, operation by operation (operations 32 to 67 of the line)

A table: for each operation of the layer, the line's final value at the operation's buffer is the corresponding stage
of `Cert.RefLayer` at the layer's input arrays (`params1`).  Each row is the operation read over the final values of
its operands (`LineRead.*_step`), which are either input arrays of the layer or results of earlier rows; the stage is
by definition the operation's function of the stages of its operands, so each row closes by unfolding.
The two bundles of input arrays are defined here. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

/-- The first layer's eighteen input arrays, as the line leaves them: the node and edge features are the launch
    arguments, the index rows and the weights are the first-layer slices (operations 0 to 31). -/
def params1 (V : Valuation τ sig (Elt F)) : Cert.RefLayer.Params F :=
  ⟨val V main_arg0, val V main_arg1, val V main_v1, val V main_v3, val V main_v5, val V main_v7, val V main_v9, val V main_v11, val V main_v13, val V main_v15, val V main_v17, val V main_v19, val V main_v21, val V main_v23, val V main_v25, val V main_v27, val V main_v29, val V main_v31⟩

/-- The second layer's: the node features are the first layer's result, the edge features and index rows are the same,
    the weights are the second-layer slices (operations 175 to 202). -/
def params2 (V : Valuation τ sig (Elt F)) : Cert.RefLayer.Params F :=
  ⟨val V main_v144, val V main_arg1, val V main_v1, val V main_v3, val V main_v146, val V main_v148, val V main_v150, val V main_v152, val V main_v154, val V main_v156, val V main_v158, val V main_v160, val V main_v162, val V main_v164, val V main_v166, val V main_v168, val V main_v170, val V main_v172⟩

variable (V : Valuation τ sig (Elt F))

/-! Each input array of a layer is the corresponding field of the bundle, by definition. -/
theorem in1_h : val V main_arg0 = (params1 V).h := rfl
theorem in1_ea : val V main_arg1 = (params1 V).ea := rfl
theorem in1_src : val V main_v1 = (params1 V).src := rfl
theorem in1_dst : val V main_v3 = (params1 V).dst := rfl
theorem in1_wq : val V main_v5 = (params1 V).wq := rfl
theorem in1_wk : val V main_v7 = (params1 V).wk := rfl
theorem in1_we : val V main_v9 = (params1 V).we := rfl
theorem in1_wv : val V main_v11 = (params1 V).wv := rfl
theorem in1_wo : val V main_v13 = (params1 V).wo := rfl
theorem in1_bo : val V main_v15 = (params1 V).bo := rfl
theorem in1_g1 : val V main_v17 = (params1 V).g1 := rfl
theorem in1_be1 : val V main_v19 = (params1 V).be1 := rfl
theorem in1_w1 : val V main_v21 = (params1 V).w1 := rfl
theorem in1_b1 : val V main_v23 = (params1 V).b1 := rfl
theorem in1_w2 : val V main_v25 = (params1 V).w2 := rfl
theorem in1_b2 : val V main_v27 = (params1 V).b2 := rfl
theorem in1_g2 : val V main_v29 = (params1 V).g2 := rfl
theorem in1_be2 : val V main_v31 = (params1 V).be2 := rfl
theorem in2_h : val V main_v144 = (params2 V).h := rfl
theorem in2_ea : val V main_arg1 = (params2 V).ea := rfl
theorem in2_src : val V main_v1 = (params2 V).src := rfl
theorem in2_dst : val V main_v3 = (params2 V).dst := rfl
theorem in2_wq : val V main_v146 = (params2 V).wq := rfl
theorem in2_wk : val V main_v148 = (params2 V).wk := rfl
theorem in2_we : val V main_v150 = (params2 V).we := rfl
theorem in2_wv : val V main_v152 = (params2 V).wv := rfl
theorem in2_wo : val V main_v154 = (params2 V).wo := rfl
theorem in2_bo : val V main_v156 = (params2 V).bo := rfl
theorem in2_g1 : val V main_v158 = (params2 V).g1 := rfl
theorem in2_be1 : val V main_v160 = (params2 V).be1 := rfl
theorem in2_w1 : val V main_v162 = (params2 V).w1 := rfl
theorem in2_b1 : val V main_v164 = (params2 V).b1 := rfl
theorem in2_w2 : val V main_v166 = (params2 V).w2 := rfl
theorem in2_b2 : val V main_v168 = (params2 V).b2 := rfl
theorem in2_g2 : val V main_v170 = (params2 V).g2 := rfl
theorem in2_be2 : val V main_v172 = (params2 V).be2 := rfl

theorem e1_v32 : val V main_v32 = Cert.RefLayer.v32 (params1 V) :=
  binary_step writesAt V 32 (pos (by decide)) (a := main_arg0) (b := main_v5) (y := main_v32)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in1_h V) (in1_wq V)

theorem e1_v33 : val V main_v33 = Cert.RefLayer.v33 (params1 V) :=
  reshape_step writesAt V 33 (pos (by decide)) (x := main_v32) (y := main_v33) rfl shapeCasts_S50000x64_S50000x4x16
    ⟨by decide, rfl⟩ ⟨by decide, rfl⟩ rfl (by decide) (by decide) (e1_v32 V)

theorem e1_v34 : val V main_v34 = Cert.RefLayer.v34 (params1 V) :=
  binary_step writesAt V 34 (pos (by decide)) (a := main_arg0) (b := main_v7) (y := main_v34)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in1_h V) (in1_wk V)

theorem e1_v35 : val V main_v35 = Cert.RefLayer.v35 (params1 V) :=
  reshape_step writesAt V 35 (pos (by decide)) (x := main_v34) (y := main_v35) rfl shapeCasts_S50000x64_S50000x4x16
    ⟨by decide, rfl⟩ ⟨by decide, rfl⟩ rfl (by decide) (by decide) (e1_v34 V)

theorem e1_v36 : val V main_v36 = Cert.RefLayer.v36 (params1 V) :=
  binary_step writesAt V 36 (pos (by decide)) (a := main_arg0) (b := main_v11) (y := main_v36)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in1_h V) (in1_wv V)

theorem e1_v37 : val V main_v37 = Cert.RefLayer.v37 (params1 V) :=
  reshape_step writesAt V 37 (pos (by decide)) (x := main_v36) (y := main_v37) rfl shapeCasts_S50000x64_S50000x4x16
    ⟨by decide, rfl⟩ ⟨by decide, rfl⟩ rfl (by decide) (by decide) (e1_v36 V)

theorem e1_v38 : val V main_v38 = Cert.RefLayer.v38 (params1 V) :=
  binary_step writesAt V 38 (pos (by decide)) (a := main_arg1) (b := main_v9) (y := main_v38)
    ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F))
    ⟨by decide, rfl⟩ ⟨by decide, rfl⟩ ⟨by decide, rfl⟩ rfl (by decide) (by decide) (by decide) (in1_ea V) (in1_we V)

theorem e1_v39 : val V main_v39 = Cert.RefLayer.v39 (params1 V) :=
  reshape_step writesAt V 39 (pos (by decide)) (x := main_v38) (y := main_v39) rfl shapeCasts_S800000x64_S800000x4x16
    ⟨by decide, rfl⟩ ⟨by decide, rfl⟩ rfl (by decide) (by decide) (e1_v38 V)

theorem e1_c : val V main_c = Cert.RefLayer.c (params1 V) :=
  nullary_final writesAt V 40 (pos (by decide)) (y := main_c) (constantI S_ 32 0#32 : (⟨S_, .i32⟩ : BufTy).Contents (Elt F)) ⟨by decide, rfl⟩ rfl (by decide)

theorem e1_v40 : val V main_v40 = Cert.RefLayer.v40 (params1 V) :=
  unary_step writesAt V 41 (pos (by decide)) (x := main_c) (y := main_v40)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e1_c V)

theorem e1_v41 : val V main_v41 = Cert.RefLayer.v41 (params1 V) :=
  binary_step writesAt V 42 (pos (by decide)) (a := main_v1) (b := main_v40) (y := main_v41)
    (cmpi .slt : (⟨S800000, .i32⟩ : BufTy).Contents (Elt F) → (⟨S800000, .i32⟩ : BufTy).Contents (Elt F) → (⟨S800000, .i1⟩ : BufTy).Contents (Elt F))
    ⟨by decide, rfl⟩ ⟨by decide, rfl⟩ ⟨by decide, rfl⟩ rfl (by decide) (by decide) (by decide) (in1_src V) (e1_v40 V)

theorem e1_c_0 : val V main_c_0 = Cert.RefLayer.c_0 (params1 V) :=
  nullary_final writesAt V 43 (pos (by decide)) (y := main_c_0) (constantI S_ 32 50000#32 : (⟨S_, .i32⟩ : BufTy).Contents (Elt F)) ⟨by decide, rfl⟩ rfl (by decide)

theorem e1_v42 : val V main_v42 = Cert.RefLayer.v42 (params1 V) :=
  unary_step writesAt V 44 (pos (by decide)) (x := main_c_0) (y := main_v42)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e1_c_0 V)

theorem e1_v43 : val V main_v43 = Cert.RefLayer.v43 (params1 V) :=
  binary_step writesAt V 45 (pos (by decide)) (a := main_v1) (b := main_v42) (y := main_v43)
    (addi : (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ rfl (by decide) (by decide) (by decide) (in1_src V) (e1_v42 V)

theorem e1_v44 : val V main_v44 = Cert.RefLayer.v44 (params1 V) :=
  ternary_step writesAt V 46 (pos (by decide)) (c := main_v41) (a := main_v43) (b := main_v1) (y := main_v44)
    (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ ⟨by decide, rfl⟩ rfl (by decide) (by decide) (by decide) (by decide) (e1_v41 V) (e1_v43 V) (in1_src V)

theorem e1_v45 : val V main_v45 = Cert.RefLayer.v45 (params1 V) :=
  unary_step writesAt V 47 (pos (by decide)) (x := main_v44) (y := main_v45)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (e1_v44 V)

theorem e1_v46 : val V main_v46 = Cert.RefLayer.v46 (params1 V) :=
  binary_step writesAt V 48 (pos (by decide)) (a := main_v35) (b := main_v45) (y := main_v46)
    ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F))
    ⟨by decide, rfl⟩ ⟨by decide, rfl⟩ ⟨by decide, rfl⟩ rfl (by decide) (by decide) (by decide) (e1_v35 V) (e1_v45 V)

theorem e1_c_1 : val V main_c_1 = Cert.RefLayer.c_1 (params1 V) :=
  nullary_final writesAt V 49 (pos (by decide)) (y := main_c_1) (constantI S_ 32 0#32 : (⟨S_, .i32⟩ : BufTy).Contents (Elt F)) ⟨by decide, rfl⟩ rfl (by decide)

theorem e1_v47 : val V main_v47 = Cert.RefLayer.v47 (params1 V) :=
  unary_step writesAt V 50 (pos (by decide)) (x := main_c_1) (y := main_v47)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e1_c_1 V)

theorem e1_v48 : val V main_v48 = Cert.RefLayer.v48 (params1 V) :=
  binary_step writesAt V 51 (pos (by decide)) (a := main_v3) (b := main_v47) (y := main_v48)
    (cmpi .slt : (⟨S800000, .i32⟩ : BufTy).Contents (Elt F) → (⟨S800000, .i32⟩ : BufTy).Contents (Elt F) → (⟨S800000, .i1⟩ : BufTy).Contents (Elt F))
    ⟨by decide, rfl⟩ ⟨by decide, rfl⟩ ⟨by decide, rfl⟩ rfl (by decide) (by decide) (by decide) (in1_dst V) (e1_v47 V)

theorem e1_c_2 : val V main_c_2 = Cert.RefLayer.c_2 (params1 V) :=
  nullary_final writesAt V 52 (pos (by decide)) (y := main_c_2) (constantI S_ 32 50000#32 : (⟨S_, .i32⟩ : BufTy).Contents (Elt F)) ⟨by decide, rfl⟩ rfl (by decide)

theorem e1_v49 : val V main_v49 = Cert.RefLayer.v49 (params1 V) :=
  unary_step writesAt V 53 (pos (by decide)) (x := main_c_2) (y := main_v49)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e1_c_2 V)

theorem e1_v50 : val V main_v50 = Cert.RefLayer.v50 (params1 V) :=
  binary_step writesAt V 54 (pos (by decide)) (a := main_v3) (b := main_v49) (y := main_v50)
    (addi : (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ rfl (by decide) (by decide) (by decide) (in1_dst V) (e1_v49 V)

theorem e1_v51 : val V main_v51 = Cert.RefLayer.v51 (params1 V) :=
  ternary_step writesAt V 55 (pos (by decide)) (c := main_v48) (a := main_v50) (b := main_v3) (y := main_v51)
    (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ ⟨by decide, rfl⟩ rfl (by decide) (by decide) (by decide) (by decide) (e1_v48 V) (e1_v50 V) (in1_dst V)

theorem e1_v52 : val V main_v52 = Cert.RefLayer.v52 (params1 V) :=
  unary_step writesAt V 56 (pos (by decide)) (x := main_v51) (y := main_v52)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (e1_v51 V)

theorem e1_v53 : val V main_v53 = Cert.RefLayer.v53 (params1 V) :=
  binary_step writesAt V 57 (pos (by decide)) (a := main_v33) (b := main_v52) (y := main_v53)
    ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F))
    ⟨by decide, rfl⟩ ⟨by decide, rfl⟩ ⟨by decide, rfl⟩ rfl (by decide) (by decide) (by decide) (e1_v33 V) (e1_v52 V)

theorem e1_v54 : val V main_v54 = Cert.RefLayer.v54 (params1 V) :=
  binary_step writesAt V 58 (pos (by decide)) (a := main_v46) (b := main_v53) (y := main_v54)
    (mulf : (⟨S800000x4x16, .f32⟩ : BufTy).Contents (Elt F) → (⟨S800000x4x16, .f32⟩ : BufTy).Contents (Elt F) → (⟨S800000x4x16, .f32⟩ : BufTy).Contents (Elt F))
    ⟨by decide, rfl⟩ ⟨by decide, rfl⟩ ⟨by decide, rfl⟩ rfl (by decide) (by decide) (by decide) (e1_v46 V) (e1_v53 V)

theorem e1_v55 : val V main_v55 = Cert.RefLayer.v55 (params1 V) :=
  binary_step writesAt V 59 (pos (by decide)) (a := main_v54) (b := main_v39) (y := main_v55)
    (mulf : (⟨S800000x4x16, .f32⟩ : BufTy).Contents (Elt F) → (⟨S800000x4x16, .f32⟩ : BufTy).Contents (Elt F) → (⟨S800000x4x16, .f32⟩ : BufTy).Contents (Elt F))
    ⟨by decide, rfl⟩ ⟨by decide, rfl⟩ ⟨by decide, rfl⟩ rfl (by decide) (by decide) (by decide) (e1_v54 V) (e1_v39 V)

theorem e1_cst : val V main_cst = Cert.RefLayer.cst (params1 V) :=
  nullary_final writesAt V 60 (pos (by decide)) (y := main_cst) (constant S_ .f32 0x00000000#32 : (⟨S_, .f32⟩ : BufTy).Contents (Elt F)) ⟨by decide, rfl⟩ rfl (by decide)

theorem e1_v56 : val V main_v56 = Cert.RefLayer.v56 (params1 V) :=
  binary_step writesAt V 61 (pos (by decide)) (a := main_v55) (b := main_cst) (y := main_v56)
    ((fun x v => Host.reduceAdd x v reducesTo_S800000x4x16_S800000x4_d2 h_S_) : (⟨S800000x4x16, .f32⟩ : BufTy).Contents (Elt F) → (⟨S_, .f32⟩ : BufTy).Contents (Elt F) → (⟨S800000x4, .f32⟩ : BufTy).Contents (Elt F))
    ⟨by decide, rfl⟩ ⟨by decide, rfl⟩ ⟨by decide, rfl⟩ rfl (by decide) (by decide) (by decide) (e1_v55 V) (e1_cst V)

theorem e1_v57 : val V main_v57 = Cert.RefLayer.v57 (params1 V) :=
  unary_step writesAt V 62 (pos (by decide)) (x := main_v56) (y := main_v57)
    (broadcastInDim S800000x4x1 ![0, 1] bcast_S800000x4_S800000x4x1_0_1 : (⟨S800000x4, .f32⟩ : BufTy).Contents (Elt F) → (⟨S800000x4x1, .f32⟩ : BufTy).Contents (Elt F))
    ⟨by decide, rfl⟩ ⟨by decide, rfl⟩ rfl (by decide) (by decide) (e1_v56 V)

theorem e1_cst_3 : val V main_cst_3 = Cert.RefLayer.cst_3 (params1 V) :=
  nullary_final writesAt V 63 (pos (by decide)) (y := main_cst_3) (constant S_ .f32 0x40800000#32 : (⟨S_, .f32⟩ : BufTy).Contents (Elt F)) ⟨by decide, rfl⟩ rfl (by decide)

theorem e1_v58 : val V main_v58 = Cert.RefLayer.v58 (params1 V) :=
  unary_step writesAt V 64 (pos (by decide)) (x := main_cst_3) (y := main_v58)
    (broadcastInDim S800000x4x1 ![] bcast_S_S800000x4x1 : (⟨S_, .f32⟩ : BufTy).Contents (Elt F) → (⟨S800000x4x1, .f32⟩ : BufTy).Contents (Elt F))
    ⟨by decide, rfl⟩ ⟨by decide, rfl⟩ rfl (by decide) (by decide) (e1_cst_3 V)

theorem e1_v59 : val V main_v59 = Cert.RefLayer.v59 (params1 V) :=
  binary_step writesAt V 65 (pos (by decide)) (a := main_v57) (b := main_v58) (y := main_v59)
    (Host.divf : (⟨S800000x4x1, .f32⟩ : BufTy).Contents (Elt F) → (⟨S800000x4x1, .f32⟩ : BufTy).Contents (Elt F) → (⟨S800000x4x1, .f32⟩ : BufTy).Contents (Elt F))
    ⟨by decide, rfl⟩ ⟨by decide, rfl⟩ ⟨by decide, rfl⟩ rfl (by decide) (by decide) (by decide) (e1_v57 V) (e1_v58 V)

theorem e1_cst_4 : val V main_cst_4 = Cert.RefLayer.cst_4 (params1 V) :=
  nullary_final writesAt V 66 (pos (by decide)) (y := main_cst_4) (constant S_ .f32 0xC0A00000#32 : (⟨S_, .f32⟩ : BufTy).Contents (Elt F)) ⟨by decide, rfl⟩ rfl (by decide)

theorem e1_cst_5 : val V main_cst_5 = Cert.RefLayer.cst_5 (params1 V) :=
  nullary_final writesAt V 67 (pos (by decide)) (y := main_cst_5) (constant S_ .f32 0x40A00000#32 : (⟨S_, .f32⟩ : BufTy).Contents (Elt F)) ⟨by decide, rfl⟩ rfl (by decide)

end Cert.ReferenceIdeal.RunFold

end
-- ==== Proof.RefL1b.lean ====
import proofs.«135486_j17549236371616_1_alg».proof.Proof.RefL1a

/-! # The reference's first layer, operation by operation (operations 68 to 103 of the line)

A table: for each operation of the layer, the line's final value at the operation's buffer is the corresponding stage
of `Cert.RefLayer` at the layer's input arrays (`params1`).  Each row is the operation read over the final values of
its operands (`LineRead.*_step`), which are either input arrays of the layer or results of earlier rows; the stage is
by definition the operation's function of the stages of its operands, so each row closes by unfolding. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

variable (V : Valuation τ sig (Elt F))

theorem e1_call0_v0 : val V main_call0_v0 = Cert.RefLayer.call0_v0 (params1 V) :=
  unary_step writesAt V 68 (pos (by decide)) (x := main_cst_4) (y := main_call0_v0)
    (id : (⟨S_, .f32⟩ : BufTy).Contents (Elt F) → (⟨S_, .f32⟩ : BufTy).Contents (Elt F))
    ⟨by decide, rfl⟩ ⟨by decide, rfl⟩ rfl (by decide) (by decide) (e1_cst_4 V)

theorem e1_call0_v1 : val V main_call0_v1 = Cert.RefLayer.call0_v1 (params1 V) :=
  unary_step writesAt V 69 (pos (by decide)) (x := main_call0_v0) (y := main_call0_v1)
    ((broadcastInDim S800000x4x1 ![] bcast_S_S800000x4x1) : (⟨S_, .f32⟩ : BufTy).Contents (Elt F) → (⟨S800000x4x1, .f32⟩ : BufTy).Contents (Elt F))
    ⟨by decide, rfl⟩ ⟨by decide, rfl⟩ rfl (by decide) (by decide) (e1_call0_v0 V)

theorem e1_call0_v2 : val V main_call0_v2 = Cert.RefLayer.call0_v2 (params1 V) :=
  binary_step writesAt V 70 (pos (by decide)) (a := main_call0_v1) (b := main_v59) (y := main_call0_v2)
    (maximumf : (⟨S800000x4x1, .f32⟩ : BufTy).Contents (Elt F) → (⟨S800000x4x1, .f32⟩ : BufTy).Contents (Elt F) → (⟨S800000x4x1, .f32⟩ : BufTy).Contents (Elt F))
    ⟨by decide, rfl⟩ ⟨by decide, rfl⟩ ⟨by decide, rfl⟩ rfl (by decide) (by decide) (by decide) (e1_call0_v1 V) (e1_v59 V)

theorem e1_call0_v3 : val V main_call0_v3 = Cert.RefLayer.call0_v3 (params1 V) :=
  unary_step writesAt V 71 (pos (by decide)) (x := main_cst_5) (y := main_call0_v3)
    (id : (⟨S_, .f32⟩ : BufTy).Contents (Elt F) → (⟨S_, .f32⟩ : BufTy).Contents (Elt F))
    ⟨by decide, rfl⟩ ⟨by decide, rfl⟩ rfl (by decide) (by decide) (e1_cst_5 V)

theorem e1_call0_v4 : val V main_call0_v4 = Cert.RefLayer.call0_v4 (params1 V) :=
  unary_step writesAt V 72 (pos (by decide)) (x := main_call0_v3) (y := main_call0_v4)
    ((broadcastInDim S800000x4x1 ![] bcast_S_S800000x4x1) : (⟨S_, .f32⟩ : BufTy).Contents (Elt F) → (⟨S800000x4x1, .f32⟩ : BufTy).Contents (Elt F))
    ⟨by decide, rfl⟩ ⟨by decide, rfl⟩ rfl (by decide) (by decide) (e1_call0_v3 V)

theorem e1_v60 : val V main_v60 = Cert.RefLayer.v60 (params1 V) :=
  binary_step writesAt V 73 (pos (by decide)) (a := main_call0_v4) (b := main_call0_v2) (y := main_v60)
    (minimumf : (⟨S800000x4x1, .f32⟩ : BufTy).Contents (Elt F) → (⟨S800000x4x1, .f32⟩ : BufTy).Contents (Elt F) → (⟨S800000x4x1, .f32⟩ : BufTy).Contents (Elt F))
    ⟨by decide, rfl⟩ ⟨by decide, rfl⟩ ⟨by decide, rfl⟩ rfl (by decide) (by decide) (by decide) (e1_call0_v4 V) (e1_call0_v2 V)

theorem e1_v61 : val V main_v61 = Cert.RefLayer.v61 (params1 V) :=
  unary_step writesAt V 74 (pos (by decide)) (x := main_v60) (y := main_v61)
    (Host.exp : (⟨S800000x4x1, .f32⟩ : BufTy).Contents (Elt F) → (⟨S800000x4x1, .f32⟩ : BufTy).Contents (Elt F))
    ⟨by decide, rfl⟩ ⟨by decide, rfl⟩ rfl (by decide) (by decide) (e1_v60 V)

theorem e1_c_6 : val V main_c_6 = Cert.RefLayer.c_6 (params1 V) :=
  nullary_final writesAt V 75 (pos (by decide)) (y := main_c_6) (constantI S_ 32 0#32 : (⟨S_, .i32⟩ : BufTy).Contents (Elt F)) ⟨by decide, rfl⟩ rfl (by decide)

theorem e1_v62 : val V main_v62 = Cert.RefLayer.v62 (params1 V) :=
  unary_step writesAt V 76 (pos (by decide)) (x := main_c_6) (y := main_v62)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e1_c_6 V)

theorem e1_v63 : val V main_v63 = Cert.RefLayer.v63 (params1 V) :=
  binary_step writesAt V 77 (pos (by decide)) (a := main_v1) (b := main_v62) (y := main_v63)
    (cmpi .slt : (⟨S800000, .i32⟩ : BufTy).Contents (Elt F) → (⟨S800000, .i32⟩ : BufTy).Contents (Elt F) → (⟨S800000, .i1⟩ : BufTy).Contents (Elt F))
    ⟨by decide, rfl⟩ ⟨by decide, rfl⟩ ⟨by decide, rfl⟩ rfl (by decide) (by decide) (by decide) (in1_src V) (e1_v62 V)

theorem e1_c_7 : val V main_c_7 = Cert.RefLayer.c_7 (params1 V) :=
  nullary_final writesAt V 78 (pos (by decide)) (y := main_c_7) (constantI S_ 32 50000#32 : (⟨S_, .i32⟩ : BufTy).Contents (Elt F)) ⟨by decide, rfl⟩ rfl (by decide)

theorem e1_v64 : val V main_v64 = Cert.RefLayer.v64 (params1 V) :=
  unary_step writesAt V 79 (pos (by decide)) (x := main_c_7) (y := main_v64)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e1_c_7 V)

theorem e1_v65 : val V main_v65 = Cert.RefLayer.v65 (params1 V) :=
  binary_step writesAt V 80 (pos (by decide)) (a := main_v1) (b := main_v64) (y := main_v65)
    (addi : (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ rfl (by decide) (by decide) (by decide) (in1_src V) (e1_v64 V)

theorem e1_v66 : val V main_v66 = Cert.RefLayer.v66 (params1 V) :=
  ternary_step writesAt V 81 (pos (by decide)) (c := main_v63) (a := main_v65) (b := main_v1) (y := main_v66)
    (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ ⟨by decide, rfl⟩ rfl (by decide) (by decide) (by decide) (by decide) (e1_v63 V) (e1_v65 V) (in1_src V)

theorem e1_v67 : val V main_v67 = Cert.RefLayer.v67 (params1 V) :=
  unary_step writesAt V 82 (pos (by decide)) (x := main_v66) (y := main_v67)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (e1_v66 V)

theorem e1_v68 : val V main_v68 = Cert.RefLayer.v68 (params1 V) :=
  binary_step writesAt V 83 (pos (by decide)) (a := main_v37) (b := main_v67) (y := main_v68)
    ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F))
    ⟨by decide, rfl⟩ ⟨by decide, rfl⟩ ⟨by decide, rfl⟩ rfl (by decide) (by decide) (by decide) (e1_v37 V) (e1_v67 V)

theorem e1_v69 : val V main_v69 = Cert.RefLayer.v69 (params1 V) :=
  unary_step writesAt V 84 (pos (by decide)) (x := main_v61) (y := main_v69)
    (broadcastInDim S800000x4x16 ![0, 1, 2] bcast_S800000x4x1_S800000x4x16_0_1_2 : (⟨S800000x4x1, .f32⟩ : BufTy).Contents (Elt F) → (⟨S800000x4x16, .f32⟩ : BufTy).Contents (Elt F))
    ⟨by decide, rfl⟩ ⟨by decide, rfl⟩ rfl (by decide) (by decide) (e1_v61 V)

theorem e1_v70 : val V main_v70 = Cert.RefLayer.v70 (params1 V) :=
  binary_step writesAt V 85 (pos (by decide)) (a := main_v68) (b := main_v69) (y := main_v70)
    (mulf : (⟨S800000x4x16, .f32⟩ : BufTy).Contents (Elt F) → (⟨S800000x4x16, .f32⟩ : BufTy).Contents (Elt F) → (⟨S800000x4x16, .f32⟩ : BufTy).Contents (Elt F))
    ⟨by decide, rfl⟩ ⟨by decide, rfl⟩ ⟨by decide, rfl⟩ rfl (by decide) (by decide) (by decide) (e1_v68 V) (e1_v69 V)

theorem e1_cst_8 : val V main_cst_8 = Cert.RefLayer.cst_8 (params1 V) :=
  nullary_final writesAt V 86 (pos (by decide)) (y := main_cst_8) (constant S_ .f32 0x00000000#32 : (⟨S_, .f32⟩ : BufTy).Contents (Elt F)) ⟨by decide, rfl⟩ rfl (by decide)

theorem e1_v71 : val V main_v71 = Cert.RefLayer.v71 (params1 V) :=
  unary_step writesAt V 87 (pos (by decide)) (x := main_cst_8) (y := main_v71)
    (broadcastInDim S50000x4x16 ![] bcast_S_S50000x4x16 : (⟨S_, .f32⟩ : BufTy).Contents (Elt F) → (⟨S50000x4x16, .f32⟩ : BufTy).Contents (Elt F))
    ⟨by decide, rfl⟩ ⟨by decide, rfl⟩ rfl (by decide) (by decide) (e1_cst_8 V)

theorem e1_v72 : val V main_v72 = Cert.RefLayer.v72 (params1 V) :=
  unary_step writesAt V 88 (pos (by decide)) (x := main_v3) (y := main_v72)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (in1_dst V)

theorem e1_v73 : val V main_v73 = Cert.RefLayer.v73 (params1 V) :=
  ternary_step writesAt V 89 (pos (by decide)) (c := main_v71) (a := main_v72) (b := main_v70) (y := main_v73)
    ((fun x i u => Host.scatterAdd scatter_S50000x4x16_S800000x1_S800000x4x16_12_0_0_1 x i u) : (⟨S50000x4x16, .f32⟩ : BufTy).Contents (Elt F) → (⟨S800000x1, .i32⟩ : BufTy).Contents (Elt F) → (⟨S800000x4x16, .f32⟩ : BufTy).Contents (Elt F) → (⟨S50000x4x16, .f32⟩ : BufTy).Contents (Elt F))
    ⟨by decide, rfl⟩ ⟨by decide, rfl⟩ ⟨by decide, rfl⟩ ⟨by decide, rfl⟩ rfl (by decide) (by decide) (by decide) (by decide) (e1_v71 V) (e1_v72 V) (e1_v70 V)

theorem e1_cst_9 : val V main_cst_9 = Cert.RefLayer.cst_9 (params1 V) :=
  nullary_final writesAt V 90 (pos (by decide)) (y := main_cst_9) (constant S_ .f32 0x00000000#32 : (⟨S_, .f32⟩ : BufTy).Contents (Elt F)) ⟨by decide, rfl⟩ rfl (by decide)

theorem e1_v74 : val V main_v74 = Cert.RefLayer.v74 (params1 V) :=
  unary_step writesAt V 91 (pos (by decide)) (x := main_cst_9) (y := main_v74)
    (broadcastInDim S50000x4x1 ![] bcast_S_S50000x4x1 : (⟨S_, .f32⟩ : BufTy).Contents (Elt F) → (⟨S50000x4x1, .f32⟩ : BufTy).Contents (Elt F))
    ⟨by decide, rfl⟩ ⟨by decide, rfl⟩ rfl (by decide) (by decide) (e1_cst_9 V)

theorem e1_v75 : val V main_v75 = Cert.RefLayer.v75 (params1 V) :=
  unary_step writesAt V 92 (pos (by decide)) (x := main_v3) (y := main_v75)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (in1_dst V)

theorem e1_v76 : val V main_v76 = Cert.RefLayer.v76 (params1 V) :=
  ternary_step writesAt V 93 (pos (by decide)) (c := main_v74) (a := main_v75) (b := main_v61) (y := main_v76)
    ((fun x i u => Host.scatterAdd scatter_S50000x4x1_S800000x1_S800000x4x1_12_0_0_1 x i u) : (⟨S50000x4x1, .f32⟩ : BufTy).Contents (Elt F) → (⟨S800000x1, .i32⟩ : BufTy).Contents (Elt F) → (⟨S800000x4x1, .f32⟩ : BufTy).Contents (Elt F) → (⟨S50000x4x1, .f32⟩ : BufTy).Contents (Elt F))
    ⟨by decide, rfl⟩ ⟨by decide, rfl⟩ ⟨by decide, rfl⟩ ⟨by decide, rfl⟩ rfl (by decide) (by decide) (by decide) (by decide) (e1_v74 V) (e1_v75 V) (e1_v61 V)

theorem e1_cst_10 : val V main_cst_10 = Cert.RefLayer.cst_10 (params1 V) :=
  nullary_final writesAt V 94 (pos (by decide)) (y := main_cst_10) (constant S_ .f32 0x358637BD#32 : (⟨S_, .f32⟩ : BufTy).Contents (Elt F)) ⟨by decide, rfl⟩ rfl (by decide)

theorem e1_v77 : val V main_v77 = Cert.RefLayer.v77 (params1 V) :=
  unary_step writesAt V 95 (pos (by decide)) (x := main_cst_10) (y := main_v77)
    (broadcastInDim S50000x4x1 ![] bcast_S_S50000x4x1 : (⟨S_, .f32⟩ : BufTy).Contents (Elt F) → (⟨S50000x4x1, .f32⟩ : BufTy).Contents (Elt F))
    ⟨by decide, rfl⟩ ⟨by decide, rfl⟩ rfl (by decide) (by decide) (e1_cst_10 V)

theorem e1_v78 : val V main_v78 = Cert.RefLayer.v78 (params1 V) :=
  binary_step writesAt V 96 (pos (by decide)) (a := main_v76) (b := main_v77) (y := main_v78)
    (addf : (⟨S50000x4x1, .f32⟩ : BufTy).Contents (Elt F) → (⟨S50000x4x1, .f32⟩ : BufTy).Contents (Elt F) → (⟨S50000x4x1, .f32⟩ : BufTy).Contents (Elt F))
    ⟨by decide, rfl⟩ ⟨by decide, rfl⟩ ⟨by decide, rfl⟩ rfl (by decide) (by decide) (by decide) (e1_v76 V) (e1_v77 V)

theorem e1_v79 : val V main_v79 = Cert.RefLayer.v79 (params1 V) :=
  unary_step writesAt V 97 (pos (by decide)) (x := main_v78) (y := main_v79)
    (broadcastInDim S50000x4x16 ![0, 1, 2] bcast_S50000x4x1_S50000x4x16_0_1_2 : (⟨S50000x4x1, .f32⟩ : BufTy).Contents (Elt F) → (⟨S50000x4x16, .f32⟩ : BufTy).Contents (Elt F))
    ⟨by decide, rfl⟩ ⟨by decide, rfl⟩ rfl (by decide) (by decide) (e1_v78 V)

theorem e1_v80 : val V main_v80 = Cert.RefLayer.v80 (params1 V) :=
  binary_step writesAt V 98 (pos (by decide)) (a := main_v73) (b := main_v79) (y := main_v80)
    (Host.divf : (⟨S50000x4x16, .f32⟩ : BufTy).Contents (Elt F) → (⟨S50000x4x16, .f32⟩ : BufTy).Contents (Elt F) → (⟨S50000x4x16, .f32⟩ : BufTy).Contents (Elt F))
    ⟨by decide, rfl⟩ ⟨by decide, rfl⟩ ⟨by decide, rfl⟩ rfl (by decide) (by decide) (by decide) (e1_v73 V) (e1_v79 V)

theorem e1_v81 : val V main_v81 = Cert.RefLayer.v81 (params1 V) :=
  reshape_step writesAt V 99 (pos (by decide)) (x := main_v80) (y := main_v81) rfl shapeCasts_S50000x4x16_S50000x64
    ⟨by decide, rfl⟩ ⟨by decide, rfl⟩ rfl (by decide) (by decide) (e1_v80 V)

theorem e1_v82 : val V main_v82 = Cert.RefLayer.v82 (params1 V) :=
  binary_step writesAt V 100 (pos (by decide)) (a := main_v81) (b := main_v13) (y := main_v82)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v81 V) (in1_wo V)

theorem e1_v83 : val V main_v83 = Cert.RefLayer.v83 (params1 V) :=
  unary_step writesAt V 101 (pos (by decide)) (x := main_v15) (y := main_v83)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in1_bo V)

theorem e1_v84 : val V main_v84 = Cert.RefLayer.v84 (params1 V) :=
  unary_step writesAt V 102 (pos (by decide)) (x := main_v83) (y := main_v84)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e1_v83 V)

theorem e1_v85 : val V main_v85 = Cert.RefLayer.v85 (params1 V) :=
  binary_step writesAt V 103 (pos (by decide)) (a := main_v82) (b := main_v84) (y := main_v85)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v82 V) (e1_v84 V)

end Cert.ReferenceIdeal.RunFold

end
-- ==== Proof.RefL1c.lean ====
import proofs.«135486_j17549236371616_1_alg».proof.Proof.RefL1b

/-! # The reference's first layer, operation by operation (operations 104 to 139 of the line)

A table: for each operation of the layer, the line's final value at the operation's buffer is the corresponding stage
of `Cert.RefLayer` at the layer's input arrays (`params1`).  Each row is the operation read over the final values of
its operands (`LineRead.*_step`), which are either input arrays of the layer or results of earlier rows; the stage is
by definition the operation's function of the stages of its operands, so each row closes by unfolding. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

variable (V : Valuation τ sig (Elt F))

theorem e1_v86 : val V main_v86 = Cert.RefLayer.v86 (params1 V) :=
  binary_step writesAt V 104 (pos (by decide)) (a := main_arg0) (b := main_v85) (y := main_v86)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in1_h V) (e1_v85 V)

theorem e1_cst_11 : val V main_cst_11 = Cert.RefLayer.cst_11 (params1 V) :=
  nullary_final writesAt V 105 (pos (by decide)) (y := main_cst_11) (constant S_ .f32 0x00000000#32 : (⟨S_, .f32⟩ : BufTy).Contents (Elt F)) ⟨by decide, rfl⟩ rfl (by decide)

theorem e1_v87 : val V main_v87 = Cert.RefLayer.v87 (params1 V) :=
  binary_step writesAt V 106 (pos (by decide)) (a := main_v86) (b := main_cst_11) (y := main_v87)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e1_v86 V) (e1_cst_11 V)

theorem e1_v88 : val V main_v88 = Cert.RefLayer.v88 (params1 V) :=
  unary_step writesAt V 107 (pos (by decide)) (x := main_v87) (y := main_v88)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e1_v87 V)

theorem e1_cst_12 : val V main_cst_12 = Cert.RefLayer.cst_12 (params1 V) :=
  nullary_final writesAt V 108 (pos (by decide)) (y := main_cst_12) (constant S_ .f32 0x42800000#32 : (⟨S_, .f32⟩ : BufTy).Contents (Elt F)) ⟨by decide, rfl⟩ rfl (by decide)

theorem e1_v89 : val V main_v89 = Cert.RefLayer.v89 (params1 V) :=
  unary_step writesAt V 109 (pos (by decide)) (x := main_cst_12) (y := main_v89)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e1_cst_12 V)

theorem e1_v90 : val V main_v90 = Cert.RefLayer.v90 (params1 V) :=
  binary_step writesAt V 110 (pos (by decide)) (a := main_v88) (b := main_v89) (y := main_v90)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e1_v88 V) (e1_v89 V)

theorem e1_v91 : val V main_v91 = Cert.RefLayer.v91 (params1 V) :=
  unary_step writesAt V 111 (pos (by decide)) (x := main_v90) (y := main_v91)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e1_v90 V)

theorem e1_v92 : val V main_v92 = Cert.RefLayer.v92 (params1 V) :=
  binary_step writesAt V 112 (pos (by decide)) (a := main_v86) (b := main_v91) (y := main_v92)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v86 V) (e1_v91 V)

theorem e1_v93 : val V main_v93 = Cert.RefLayer.v93 (params1 V) :=
  binary_step writesAt V 113 (pos (by decide)) (a := main_v92) (b := main_v92) (y := main_v93)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v92 V) (e1_v92 V)

theorem e1_cst_13 : val V main_cst_13 = Cert.RefLayer.cst_13 (params1 V) :=
  nullary_final writesAt V 114 (pos (by decide)) (y := main_cst_13) (constant S_ .f32 0x00000000#32 : (⟨S_, .f32⟩ : BufTy).Contents (Elt F)) ⟨by decide, rfl⟩ rfl (by decide)

theorem e1_v94 : val V main_v94 = Cert.RefLayer.v94 (params1 V) :=
  binary_step writesAt V 115 (pos (by decide)) (a := main_v93) (b := main_cst_13) (y := main_v94)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e1_v93 V) (e1_cst_13 V)

theorem e1_v95 : val V main_v95 = Cert.RefLayer.v95 (params1 V) :=
  unary_step writesAt V 116 (pos (by decide)) (x := main_v94) (y := main_v95)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e1_v94 V)

theorem e1_cst_14 : val V main_cst_14 = Cert.RefLayer.cst_14 (params1 V) :=
  nullary_final writesAt V 117 (pos (by decide)) (y := main_cst_14) (constant S_ .f32 0x42800000#32 : (⟨S_, .f32⟩ : BufTy).Contents (Elt F)) ⟨by decide, rfl⟩ rfl (by decide)

theorem e1_v96 : val V main_v96 = Cert.RefLayer.v96 (params1 V) :=
  unary_step writesAt V 118 (pos (by decide)) (x := main_cst_14) (y := main_v96)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e1_cst_14 V)

theorem e1_v97 : val V main_v97 = Cert.RefLayer.v97 (params1 V) :=
  binary_step writesAt V 119 (pos (by decide)) (a := main_v95) (b := main_v96) (y := main_v97)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e1_v95 V) (e1_v96 V)

theorem e1_v98 : val V main_v98 = Cert.RefLayer.v98 (params1 V) :=
  unary_step writesAt V 120 (pos (by decide)) (x := main_v90) (y := main_v98)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e1_v90 V)

theorem e1_v99 : val V main_v99 = Cert.RefLayer.v99 (params1 V) :=
  binary_step writesAt V 121 (pos (by decide)) (a := main_v86) (b := main_v98) (y := main_v99)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v86 V) (e1_v98 V)

theorem e1_cst_15 : val V main_cst_15 = Cert.RefLayer.cst_15 (params1 V) :=
  nullary_final writesAt V 122 (pos (by decide)) (y := main_cst_15) (constant S_ .f32 0x3727C5AC#32 : (⟨S_, .f32⟩ : BufTy).Contents (Elt F)) ⟨by decide, rfl⟩ rfl (by decide)

theorem e1_v100 : val V main_v100 = Cert.RefLayer.v100 (params1 V) :=
  unary_step writesAt V 123 (pos (by decide)) (x := main_cst_15) (y := main_v100)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e1_cst_15 V)

theorem e1_v101 : val V main_v101 = Cert.RefLayer.v101 (params1 V) :=
  binary_step writesAt V 124 (pos (by decide)) (a := main_v97) (b := main_v100) (y := main_v101)
    (addf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e1_v97 V) (e1_v100 V)

theorem e1_v102 : val V main_v102 = Cert.RefLayer.v102 (params1 V) :=
  unary_step writesAt V 125 (pos (by decide)) (x := main_v101) (y := main_v102)
    (Host.sqrt : (⟨S50000x1, .f32⟩ : BufTy).Contents (Elt F) → (⟨S50000x1, .f32⟩ : BufTy).Contents (Elt F))
    ⟨by decide, rfl⟩ ⟨by decide, rfl⟩ rfl (by decide) (by decide) (e1_v101 V)

theorem e1_v103 : val V main_v103 = Cert.RefLayer.v103 (params1 V) :=
  unary_step writesAt V 126 (pos (by decide)) (x := main_v102) (y := main_v103)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e1_v102 V)

theorem e1_v104 : val V main_v104 = Cert.RefLayer.v104 (params1 V) :=
  binary_step writesAt V 127 (pos (by decide)) (a := main_v99) (b := main_v103) (y := main_v104)
    (Host.divf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v99 V) (e1_v103 V)

theorem e1_v105 : val V main_v105 = Cert.RefLayer.v105 (params1 V) :=
  unary_step writesAt V 128 (pos (by decide)) (x := main_v17) (y := main_v105)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in1_g1 V)

theorem e1_v106 : val V main_v106 = Cert.RefLayer.v106 (params1 V) :=
  unary_step writesAt V 129 (pos (by decide)) (x := main_v105) (y := main_v106)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e1_v105 V)

theorem e1_v107 : val V main_v107 = Cert.RefLayer.v107 (params1 V) :=
  binary_step writesAt V 130 (pos (by decide)) (a := main_v104) (b := main_v106) (y := main_v107)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v104 V) (e1_v106 V)

theorem e1_v108 : val V main_v108 = Cert.RefLayer.v108 (params1 V) :=
  unary_step writesAt V 131 (pos (by decide)) (x := main_v19) (y := main_v108)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in1_be1 V)

theorem e1_v109 : val V main_v109 = Cert.RefLayer.v109 (params1 V) :=
  unary_step writesAt V 132 (pos (by decide)) (x := main_v108) (y := main_v109)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e1_v108 V)

theorem e1_v110 : val V main_v110 = Cert.RefLayer.v110 (params1 V) :=
  binary_step writesAt V 133 (pos (by decide)) (a := main_v107) (b := main_v109) (y := main_v110)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v107 V) (e1_v109 V)

theorem e1_v111 : val V main_v111 = Cert.RefLayer.v111 (params1 V) :=
  binary_step writesAt V 134 (pos (by decide)) (a := main_v110) (b := main_v21) (y := main_v111)
    ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F))
    ⟨by decide, rfl⟩ ⟨by decide, rfl⟩ ⟨by decide, rfl⟩ rfl (by decide) (by decide) (by decide) (e1_v110 V) (in1_w1 V)

theorem e1_v112 : val V main_v112 = Cert.RefLayer.v112 (params1 V) :=
  unary_step writesAt V 135 (pos (by decide)) (x := main_v23) (y := main_v112)
    (broadcastInDim S1x128 ![1] bcast_S128_S1x128_1 : (⟨S128, .f32⟩ : BufTy).Contents (Elt F) → (⟨S1x128, .f32⟩ : BufTy).Contents (Elt F))
    ⟨by decide, rfl⟩ ⟨by decide, rfl⟩ rfl (by decide) (by decide) (in1_b1 V)

theorem e1_v113 : val V main_v113 = Cert.RefLayer.v113 (params1 V) :=
  unary_step writesAt V 136 (pos (by decide)) (x := main_v112) (y := main_v113)
    (broadcastInDim S50000x128 ![0, 1] bcast_S1x128_S50000x128_0_1 : (⟨S1x128, .f32⟩ : BufTy).Contents (Elt F) → (⟨S50000x128, .f32⟩ : BufTy).Contents (Elt F))
    ⟨by decide, rfl⟩ ⟨by decide, rfl⟩ rfl (by decide) (by decide) (e1_v112 V)

theorem e1_v114 : val V main_v114 = Cert.RefLayer.v114 (params1 V) :=
  binary_step writesAt V 137 (pos (by decide)) (a := main_v111) (b := main_v113) (y := main_v114)
    (addf : (⟨S50000x128, .f32⟩ : BufTy).Contents (Elt F) → (⟨S50000x128, .f32⟩ : BufTy).Contents (Elt F) → (⟨S50000x128, .f32⟩ : BufTy).Contents (Elt F))
    ⟨by decide, rfl⟩ ⟨by decide, rfl⟩ ⟨by decide, rfl⟩ rfl (by decide) (by decide) (by decide) (e1_v111 V) (e1_v113 V)

theorem e1_call1_cst : val V main_call1_cst = Cert.RefLayer.call1_cst (params1 V) :=
  nullary_final writesAt V 138 (pos (by decide)) (y := main_call1_cst) (constant S_ .f32 0x00000000#32 : (⟨S_, .f32⟩ : BufTy).Contents (Elt F)) ⟨by decide, rfl⟩ rfl (by decide)

theorem e1_call1_v0 : val V main_call1_v0 = Cert.RefLayer.call1_v0 (params1 V) :=
  unary_step writesAt V 139 (pos (by decide)) (x := main_call1_cst) (y := main_call1_v0)
    ((broadcastInDim S50000x128 ![] bcast_S_S50000x128) : (⟨S_, .f32⟩ : BufTy).Contents (Elt F) → (⟨S50000x128, .f32⟩ : BufTy).Contents (Elt F))
    ⟨by decide, rfl⟩ ⟨by decide, rfl⟩ rfl (by decide) (by decide) (e1_call1_cst V)

end Cert.ReferenceIdeal.RunFold

end
-- ==== Proof.RefL1d.lean ====
import proofs.«135486_j17549236371616_1_alg».proof.Proof.RefL1c

/-! # The reference's first layer, operation by operation (operations 140 to 174 of the line)

A table: for each operation of the layer, the line's final value at the operation's buffer is the corresponding stage
of `Cert.RefLayer` at the layer's input arrays (`params1`).  Each row is the operation read over the final values of
its operands (`LineRead.*_step`), which are either input arrays of the layer or results of earlier rows; the stage is
by definition the operation's function of the stages of its operands, so each row closes by unfolding. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

variable (V : Valuation τ sig (Elt F))

theorem e1_v115 : val V main_v115 = Cert.RefLayer.v115 (params1 V) :=
  binary_step writesAt V 140 (pos (by decide)) (a := main_v114) (b := main_call1_v0) (y := main_v115)
    (maximumf : (⟨S50000x128, .f32⟩ : BufTy).Contents (Elt F) → (⟨S50000x128, .f32⟩ : BufTy).Contents (Elt F) → (⟨S50000x128, .f32⟩ : BufTy).Contents (Elt F))
    ⟨by decide, rfl⟩ ⟨by decide, rfl⟩ ⟨by decide, rfl⟩ rfl (by decide) (by decide) (by decide) (e1_v114 V) (e1_call1_v0 V)

theorem e1_v116 : val V main_v116 = Cert.RefLayer.v116 (params1 V) :=
  binary_step writesAt V 141 (pos (by decide)) (a := main_v115) (b := main_v25) (y := main_v116)
    ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v115 V) (in1_w2 V)

theorem e1_v117 : val V main_v117 = Cert.RefLayer.v117 (params1 V) :=
  unary_step writesAt V 142 (pos (by decide)) (x := main_v27) (y := main_v117)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in1_b2 V)

theorem e1_v118 : val V main_v118 = Cert.RefLayer.v118 (params1 V) :=
  unary_step writesAt V 143 (pos (by decide)) (x := main_v117) (y := main_v118)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e1_v117 V)

theorem e1_v119 : val V main_v119 = Cert.RefLayer.v119 (params1 V) :=
  binary_step writesAt V 144 (pos (by decide)) (a := main_v116) (b := main_v118) (y := main_v119)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v116 V) (e1_v118 V)

theorem e1_v120 : val V main_v120 = Cert.RefLayer.v120 (params1 V) :=
  binary_step writesAt V 145 (pos (by decide)) (a := main_v110) (b := main_v119) (y := main_v120)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v110 V) (e1_v119 V)

theorem e1_cst_16 : val V main_cst_16 = Cert.RefLayer.cst_16 (params1 V) :=
  nullary_final writesAt V 146 (pos (by decide)) (y := main_cst_16) (constant S_ .f32 0x00000000#32 : (⟨S_, .f32⟩ : BufTy).Contents (Elt F)) ⟨by decide, rfl⟩ rfl (by decide)

theorem e1_v121 : val V main_v121 = Cert.RefLayer.v121 (params1 V) :=
  binary_step writesAt V 147 (pos (by decide)) (a := main_v120) (b := main_cst_16) (y := main_v121)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e1_v120 V) (e1_cst_16 V)

theorem e1_v122 : val V main_v122 = Cert.RefLayer.v122 (params1 V) :=
  unary_step writesAt V 148 (pos (by decide)) (x := main_v121) (y := main_v122)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e1_v121 V)

theorem e1_cst_17 : val V main_cst_17 = Cert.RefLayer.cst_17 (params1 V) :=
  nullary_final writesAt V 149 (pos (by decide)) (y := main_cst_17) (constant S_ .f32 0x42800000#32 : (⟨S_, .f32⟩ : BufTy).Contents (Elt F)) ⟨by decide, rfl⟩ rfl (by decide)

theorem e1_v123 : val V main_v123 = Cert.RefLayer.v123 (params1 V) :=
  unary_step writesAt V 150 (pos (by decide)) (x := main_cst_17) (y := main_v123)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e1_cst_17 V)

theorem e1_v124 : val V main_v124 = Cert.RefLayer.v124 (params1 V) :=
  binary_step writesAt V 151 (pos (by decide)) (a := main_v122) (b := main_v123) (y := main_v124)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e1_v122 V) (e1_v123 V)

theorem e1_v125 : val V main_v125 = Cert.RefLayer.v125 (params1 V) :=
  unary_step writesAt V 152 (pos (by decide)) (x := main_v124) (y := main_v125)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e1_v124 V)

theorem e1_v126 : val V main_v126 = Cert.RefLayer.v126 (params1 V) :=
  binary_step writesAt V 153 (pos (by decide)) (a := main_v120) (b := main_v125) (y := main_v126)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v120 V) (e1_v125 V)

theorem e1_v127 : val V main_v127 = Cert.RefLayer.v127 (params1 V) :=
  binary_step writesAt V 154 (pos (by decide)) (a := main_v126) (b := main_v126) (y := main_v127)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v126 V) (e1_v126 V)

theorem e1_cst_18 : val V main_cst_18 = Cert.RefLayer.cst_18 (params1 V) :=
  nullary_final writesAt V 155 (pos (by decide)) (y := main_cst_18) (constant S_ .f32 0x00000000#32 : (⟨S_, .f32⟩ : BufTy).Contents (Elt F)) ⟨by decide, rfl⟩ rfl (by decide)

theorem e1_v128 : val V main_v128 = Cert.RefLayer.v128 (params1 V) :=
  binary_step writesAt V 156 (pos (by decide)) (a := main_v127) (b := main_cst_18) (y := main_v128)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e1_v127 V) (e1_cst_18 V)

theorem e1_v129 : val V main_v129 = Cert.RefLayer.v129 (params1 V) :=
  unary_step writesAt V 157 (pos (by decide)) (x := main_v128) (y := main_v129)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e1_v128 V)

theorem e1_cst_19 : val V main_cst_19 = Cert.RefLayer.cst_19 (params1 V) :=
  nullary_final writesAt V 158 (pos (by decide)) (y := main_cst_19) (constant S_ .f32 0x42800000#32 : (⟨S_, .f32⟩ : BufTy).Contents (Elt F)) ⟨by decide, rfl⟩ rfl (by decide)

theorem e1_v130 : val V main_v130 = Cert.RefLayer.v130 (params1 V) :=
  unary_step writesAt V 159 (pos (by decide)) (x := main_cst_19) (y := main_v130)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e1_cst_19 V)

theorem e1_v131 : val V main_v131 = Cert.RefLayer.v131 (params1 V) :=
  binary_step writesAt V 160 (pos (by decide)) (a := main_v129) (b := main_v130) (y := main_v131)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e1_v129 V) (e1_v130 V)

theorem e1_v132 : val V main_v132 = Cert.RefLayer.v132 (params1 V) :=
  unary_step writesAt V 161 (pos (by decide)) (x := main_v124) (y := main_v132)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e1_v124 V)

theorem e1_v133 : val V main_v133 = Cert.RefLayer.v133 (params1 V) :=
  binary_step writesAt V 162 (pos (by decide)) (a := main_v120) (b := main_v132) (y := main_v133)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v120 V) (e1_v132 V)

theorem e1_cst_20 : val V main_cst_20 = Cert.RefLayer.cst_20 (params1 V) :=
  nullary_final writesAt V 163 (pos (by decide)) (y := main_cst_20) (constant S_ .f32 0x3727C5AC#32 : (⟨S_, .f32⟩ : BufTy).Contents (Elt F)) ⟨by decide, rfl⟩ rfl (by decide)

theorem e1_v134 : val V main_v134 = Cert.RefLayer.v134 (params1 V) :=
  unary_step writesAt V 164 (pos (by decide)) (x := main_cst_20) (y := main_v134)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e1_cst_20 V)

theorem e1_v135 : val V main_v135 = Cert.RefLayer.v135 (params1 V) :=
  binary_step writesAt V 165 (pos (by decide)) (a := main_v131) (b := main_v134) (y := main_v135)
    (addf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e1_v131 V) (e1_v134 V)

theorem e1_v136 : val V main_v136 = Cert.RefLayer.v136 (params1 V) :=
  unary_step writesAt V 166 (pos (by decide)) (x := main_v135) (y := main_v136)
    (Host.sqrt : (⟨S50000x1, .f32⟩ : BufTy).Contents (Elt F) → (⟨S50000x1, .f32⟩ : BufTy).Contents (Elt F))
    ⟨by decide, rfl⟩ ⟨by decide, rfl⟩ rfl (by decide) (by decide) (e1_v135 V)

theorem e1_v137 : val V main_v137 = Cert.RefLayer.v137 (params1 V) :=
  unary_step writesAt V 167 (pos (by decide)) (x := main_v136) (y := main_v137)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e1_v136 V)

theorem e1_v138 : val V main_v138 = Cert.RefLayer.v138 (params1 V) :=
  binary_step writesAt V 168 (pos (by decide)) (a := main_v133) (b := main_v137) (y := main_v138)
    (Host.divf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v133 V) (e1_v137 V)

theorem e1_v139 : val V main_v139 = Cert.RefLayer.v139 (params1 V) :=
  unary_step writesAt V 169 (pos (by decide)) (x := main_v29) (y := main_v139)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in1_g2 V)

theorem e1_v140 : val V main_v140 = Cert.RefLayer.v140 (params1 V) :=
  unary_step writesAt V 170 (pos (by decide)) (x := main_v139) (y := main_v140)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e1_v139 V)

theorem e1_v141 : val V main_v141 = Cert.RefLayer.v141 (params1 V) :=
  binary_step writesAt V 171 (pos (by decide)) (a := main_v138) (b := main_v140) (y := main_v141)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v138 V) (e1_v140 V)

theorem e1_v142 : val V main_v142 = Cert.RefLayer.v142 (params1 V) :=
  unary_step writesAt V 172 (pos (by decide)) (x := main_v31) (y := main_v142)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in1_be2 V)

theorem e1_v143 : val V main_v143 = Cert.RefLayer.v143 (params1 V) :=
  unary_step writesAt V 173 (pos (by decide)) (x := main_v142) (y := main_v143)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e1_v142 V)

theorem e1_v144 : val V main_v144 = Cert.RefLayer.v144 (params1 V) :=
  binary_step writesAt V 174 (pos (by decide)) (a := main_v141) (b := main_v143) (y := main_v144)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e1_v141 V) (e1_v143 V)

/-- The first layer's result buffer holds the layer's last stage at the layer's input arrays. -/
theorem val_layer1 : val V main_v144 = Cert.RefLayer.v144 (params1 V) := e1_v144 V

end Cert.ReferenceIdeal.RunFold

end
-- ==== Proof.RefL2a.lean ====
import proofs.«135486_j17549236371616_1_alg».proof.Proof.RefL1a

/-! # The reference's second layer, operation by operation (operations 203 to 238 of the line)

A table: for each operation of the layer, the line's final value at the operation's buffer is the corresponding stage
of `Cert.RefLayer` at the layer's input arrays (`params2`).  Each row is the operation read over the final values of
its operands (`LineRead.*_step`), which are either input arrays of the layer or results of earlier rows; the stage is
by definition the operation's function of the stages of its operands, so each row closes by unfolding. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

variable (V : Valuation τ sig (Elt F))

theorem e2_v173 : val V main_v173 = Cert.RefLayer.v32 (params2 V) :=
  binary_step writesAt V 203 (pos (by decide)) (a := main_v144) (b := main_v146) (y := main_v173)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in2_h V) (in2_wq V)

theorem e2_v174 : val V main_v174 = Cert.RefLayer.v33 (params2 V) :=
  reshape_step writesAt V 204 (pos (by decide)) (x := main_v173) (y := main_v174) rfl shapeCasts_S50000x64_S50000x4x16
    ⟨by decide, rfl⟩ ⟨by decide, rfl⟩ rfl (by decide) (by decide) (e2_v173 V)

theorem e2_v175 : val V main_v175 = Cert.RefLayer.v34 (params2 V) :=
  binary_step writesAt V 205 (pos (by decide)) (a := main_v144) (b := main_v148) (y := main_v175)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in2_h V) (in2_wk V)

theorem e2_v176 : val V main_v176 = Cert.RefLayer.v35 (params2 V) :=
  reshape_step writesAt V 206 (pos (by decide)) (x := main_v175) (y := main_v176) rfl shapeCasts_S50000x64_S50000x4x16
    ⟨by decide, rfl⟩ ⟨by decide, rfl⟩ rfl (by decide) (by decide) (e2_v175 V)

theorem e2_v177 : val V main_v177 = Cert.RefLayer.v36 (params2 V) :=
  binary_step writesAt V 207 (pos (by decide)) (a := main_v144) (b := main_v152) (y := main_v177)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in2_h V) (in2_wv V)

theorem e2_v178 : val V main_v178 = Cert.RefLayer.v37 (params2 V) :=
  reshape_step writesAt V 208 (pos (by decide)) (x := main_v177) (y := main_v178) rfl shapeCasts_S50000x64_S50000x4x16
    ⟨by decide, rfl⟩ ⟨by decide, rfl⟩ rfl (by decide) (by decide) (e2_v177 V)

theorem e2_v179 : val V main_v179 = Cert.RefLayer.v38 (params2 V) :=
  binary_step writesAt V 209 (pos (by decide)) (a := main_arg1) (b := main_v150) (y := main_v179)
    ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F))
    ⟨by decide, rfl⟩ ⟨by decide, rfl⟩ ⟨by decide, rfl⟩ rfl (by decide) (by decide) (by decide) (in2_ea V) (in2_we V)

theorem e2_v180 : val V main_v180 = Cert.RefLayer.v39 (params2 V) :=
  reshape_step writesAt V 210 (pos (by decide)) (x := main_v179) (y := main_v180) rfl shapeCasts_S800000x64_S800000x4x16
    ⟨by decide, rfl⟩ ⟨by decide, rfl⟩ rfl (by decide) (by decide) (e2_v179 V)

theorem e2_c_21 : val V main_c_21 = Cert.RefLayer.c (params2 V) :=
  nullary_final writesAt V 211 (pos (by decide)) (y := main_c_21) (constantI S_ 32 0#32 : (⟨S_, .i32⟩ : BufTy).Contents (Elt F)) ⟨by decide, rfl⟩ rfl (by decide)

theorem e2_v181 : val V main_v181 = Cert.RefLayer.v40 (params2 V) :=
  unary_step writesAt V 212 (pos (by decide)) (x := main_c_21) (y := main_v181)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e2_c_21 V)

theorem e2_v182 : val V main_v182 = Cert.RefLayer.v41 (params2 V) :=
  binary_step writesAt V 213 (pos (by decide)) (a := main_v1) (b := main_v181) (y := main_v182)
    (cmpi .slt : (⟨S800000, .i32⟩ : BufTy).Contents (Elt F) → (⟨S800000, .i32⟩ : BufTy).Contents (Elt F) → (⟨S800000, .i1⟩ : BufTy).Contents (Elt F))
    ⟨by decide, rfl⟩ ⟨by decide, rfl⟩ ⟨by decide, rfl⟩ rfl (by decide) (by decide) (by decide) (in2_src V) (e2_v181 V)

theorem e2_c_22 : val V main_c_22 = Cert.RefLayer.c_0 (params2 V) :=
  nullary_final writesAt V 214 (pos (by decide)) (y := main_c_22) (constantI S_ 32 50000#32 : (⟨S_, .i32⟩ : BufTy).Contents (Elt F)) ⟨by decide, rfl⟩ rfl (by decide)

theorem e2_v183 : val V main_v183 = Cert.RefLayer.v42 (params2 V) :=
  unary_step writesAt V 215 (pos (by decide)) (x := main_c_22) (y := main_v183)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e2_c_22 V)

theorem e2_v184 : val V main_v184 = Cert.RefLayer.v43 (params2 V) :=
  binary_step writesAt V 216 (pos (by decide)) (a := main_v1) (b := main_v183) (y := main_v184)
    (addi : (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ rfl (by decide) (by decide) (by decide) (in2_src V) (e2_v183 V)

theorem e2_v185 : val V main_v185 = Cert.RefLayer.v44 (params2 V) :=
  ternary_step writesAt V 217 (pos (by decide)) (c := main_v182) (a := main_v184) (b := main_v1) (y := main_v185)
    (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ ⟨by decide, rfl⟩ rfl (by decide) (by decide) (by decide) (by decide) (e2_v182 V) (e2_v184 V) (in2_src V)

theorem e2_v186 : val V main_v186 = Cert.RefLayer.v45 (params2 V) :=
  unary_step writesAt V 218 (pos (by decide)) (x := main_v185) (y := main_v186)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (e2_v185 V)

theorem e2_v187 : val V main_v187 = Cert.RefLayer.v46 (params2 V) :=
  binary_step writesAt V 219 (pos (by decide)) (a := main_v176) (b := main_v186) (y := main_v187)
    ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F))
    ⟨by decide, rfl⟩ ⟨by decide, rfl⟩ ⟨by decide, rfl⟩ rfl (by decide) (by decide) (by decide) (e2_v176 V) (e2_v186 V)

theorem e2_c_23 : val V main_c_23 = Cert.RefLayer.c_1 (params2 V) :=
  nullary_final writesAt V 220 (pos (by decide)) (y := main_c_23) (constantI S_ 32 0#32 : (⟨S_, .i32⟩ : BufTy).Contents (Elt F)) ⟨by decide, rfl⟩ rfl (by decide)

theorem e2_v188 : val V main_v188 = Cert.RefLayer.v47 (params2 V) :=
  unary_step writesAt V 221 (pos (by decide)) (x := main_c_23) (y := main_v188)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e2_c_23 V)

theorem e2_v189 : val V main_v189 = Cert.RefLayer.v48 (params2 V) :=
  binary_step writesAt V 222 (pos (by decide)) (a := main_v3) (b := main_v188) (y := main_v189)
    (cmpi .slt : (⟨S800000, .i32⟩ : BufTy).Contents (Elt F) → (⟨S800000, .i32⟩ : BufTy).Contents (Elt F) → (⟨S800000, .i1⟩ : BufTy).Contents (Elt F))
    ⟨by decide, rfl⟩ ⟨by decide, rfl⟩ ⟨by decide, rfl⟩ rfl (by decide) (by decide) (by decide) (in2_dst V) (e2_v188 V)

theorem e2_c_24 : val V main_c_24 = Cert.RefLayer.c_2 (params2 V) :=
  nullary_final writesAt V 223 (pos (by decide)) (y := main_c_24) (constantI S_ 32 50000#32 : (⟨S_, .i32⟩ : BufTy).Contents (Elt F)) ⟨by decide, rfl⟩ rfl (by decide)

theorem e2_v190 : val V main_v190 = Cert.RefLayer.v49 (params2 V) :=
  unary_step writesAt V 224 (pos (by decide)) (x := main_c_24) (y := main_v190)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e2_c_24 V)

theorem e2_v191 : val V main_v191 = Cert.RefLayer.v50 (params2 V) :=
  binary_step writesAt V 225 (pos (by decide)) (a := main_v3) (b := main_v190) (y := main_v191)
    (addi : (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ rfl (by decide) (by decide) (by decide) (in2_dst V) (e2_v190 V)

theorem e2_v192 : val V main_v192 = Cert.RefLayer.v51 (params2 V) :=
  ternary_step writesAt V 226 (pos (by decide)) (c := main_v189) (a := main_v191) (b := main_v3) (y := main_v192)
    (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ ⟨by decide, rfl⟩ rfl (by decide) (by decide) (by decide) (by decide) (e2_v189 V) (e2_v191 V) (in2_dst V)

theorem e2_v193 : val V main_v193 = Cert.RefLayer.v52 (params2 V) :=
  unary_step writesAt V 227 (pos (by decide)) (x := main_v192) (y := main_v193)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (e2_v192 V)

theorem e2_v194 : val V main_v194 = Cert.RefLayer.v53 (params2 V) :=
  binary_step writesAt V 228 (pos (by decide)) (a := main_v174) (b := main_v193) (y := main_v194)
    ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F))
    ⟨by decide, rfl⟩ ⟨by decide, rfl⟩ ⟨by decide, rfl⟩ rfl (by decide) (by decide) (by decide) (e2_v174 V) (e2_v193 V)

theorem e2_v195 : val V main_v195 = Cert.RefLayer.v54 (params2 V) :=
  binary_step writesAt V 229 (pos (by decide)) (a := main_v187) (b := main_v194) (y := main_v195)
    (mulf : (⟨S800000x4x16, .f32⟩ : BufTy).Contents (Elt F) → (⟨S800000x4x16, .f32⟩ : BufTy).Contents (Elt F) → (⟨S800000x4x16, .f32⟩ : BufTy).Contents (Elt F))
    ⟨by decide, rfl⟩ ⟨by decide, rfl⟩ ⟨by decide, rfl⟩ rfl (by decide) (by decide) (by decide) (e2_v187 V) (e2_v194 V)

theorem e2_v196 : val V main_v196 = Cert.RefLayer.v55 (params2 V) :=
  binary_step writesAt V 230 (pos (by decide)) (a := main_v195) (b := main_v180) (y := main_v196)
    (mulf : (⟨S800000x4x16, .f32⟩ : BufTy).Contents (Elt F) → (⟨S800000x4x16, .f32⟩ : BufTy).Contents (Elt F) → (⟨S800000x4x16, .f32⟩ : BufTy).Contents (Elt F))
    ⟨by decide, rfl⟩ ⟨by decide, rfl⟩ ⟨by decide, rfl⟩ rfl (by decide) (by decide) (by decide) (e2_v195 V) (e2_v180 V)

theorem e2_cst_25 : val V main_cst_25 = Cert.RefLayer.cst (params2 V) :=
  nullary_final writesAt V 231 (pos (by decide)) (y := main_cst_25) (constant S_ .f32 0x00000000#32 : (⟨S_, .f32⟩ : BufTy).Contents (Elt F)) ⟨by decide, rfl⟩ rfl (by decide)

theorem e2_v197 : val V main_v197 = Cert.RefLayer.v56 (params2 V) :=
  binary_step writesAt V 232 (pos (by decide)) (a := main_v196) (b := main_cst_25) (y := main_v197)
    ((fun x v => Host.reduceAdd x v reducesTo_S800000x4x16_S800000x4_d2 h_S_) : (⟨S800000x4x16, .f32⟩ : BufTy).Contents (Elt F) → (⟨S_, .f32⟩ : BufTy).Contents (Elt F) → (⟨S800000x4, .f32⟩ : BufTy).Contents (Elt F))
    ⟨by decide, rfl⟩ ⟨by decide, rfl⟩ ⟨by decide, rfl⟩ rfl (by decide) (by decide) (by decide) (e2_v196 V) (e2_cst_25 V)

theorem e2_v198 : val V main_v198 = Cert.RefLayer.v57 (params2 V) :=
  unary_step writesAt V 233 (pos (by decide)) (x := main_v197) (y := main_v198)
    (broadcastInDim S800000x4x1 ![0, 1] bcast_S800000x4_S800000x4x1_0_1 : (⟨S800000x4, .f32⟩ : BufTy).Contents (Elt F) → (⟨S800000x4x1, .f32⟩ : BufTy).Contents (Elt F))
    ⟨by decide, rfl⟩ ⟨by decide, rfl⟩ rfl (by decide) (by decide) (e2_v197 V)

theorem e2_cst_26 : val V main_cst_26 = Cert.RefLayer.cst_3 (params2 V) :=
  nullary_final writesAt V 234 (pos (by decide)) (y := main_cst_26) (constant S_ .f32 0x40800000#32 : (⟨S_, .f32⟩ : BufTy).Contents (Elt F)) ⟨by decide, rfl⟩ rfl (by decide)

theorem e2_v199 : val V main_v199 = Cert.RefLayer.v58 (params2 V) :=
  unary_step writesAt V 235 (pos (by decide)) (x := main_cst_26) (y := main_v199)
    (broadcastInDim S800000x4x1 ![] bcast_S_S800000x4x1 : (⟨S_, .f32⟩ : BufTy).Contents (Elt F) → (⟨S800000x4x1, .f32⟩ : BufTy).Contents (Elt F))
    ⟨by decide, rfl⟩ ⟨by decide, rfl⟩ rfl (by decide) (by decide) (e2_cst_26 V)

theorem e2_v200 : val V main_v200 = Cert.RefLayer.v59 (params2 V) :=
  binary_step writesAt V 236 (pos (by decide)) (a := main_v198) (b := main_v199) (y := main_v200)
    (Host.divf : (⟨S800000x4x1, .f32⟩ : BufTy).Contents (Elt F) → (⟨S800000x4x1, .f32⟩ : BufTy).Contents (Elt F) → (⟨S800000x4x1, .f32⟩ : BufTy).Contents (Elt F))
    ⟨by decide, rfl⟩ ⟨by decide, rfl⟩ ⟨by decide, rfl⟩ rfl (by decide) (by decide) (by decide) (e2_v198 V) (e2_v199 V)

theorem e2_cst_27 : val V main_cst_27 = Cert.RefLayer.cst_4 (params2 V) :=
  nullary_final writesAt V 237 (pos (by decide)) (y := main_cst_27) (constant S_ .f32 0xC0A00000#32 : (⟨S_, .f32⟩ : BufTy).Contents (Elt F)) ⟨by decide, rfl⟩ rfl (by decide)

theorem e2_cst_28 : val V main_cst_28 = Cert.RefLayer.cst_5 (params2 V) :=
  nullary_final writesAt V 238 (pos (by decide)) (y := main_cst_28) (constant S_ .f32 0x40A00000#32 : (⟨S_, .f32⟩ : BufTy).Contents (Elt F)) ⟨by decide, rfl⟩ rfl (by decide)

end Cert.ReferenceIdeal.RunFold

end
-- ==== Proof.RefL2b.lean ====
import proofs.«135486_j17549236371616_1_alg».proof.Proof.RefL2a

/-! # The reference's second layer, operation by operation (operations 239 to 274 of the line)

A table: for each operation of the layer, the line's final value at the operation's buffer is the corresponding stage
of `Cert.RefLayer` at the layer's input arrays (`params2`).  Each row is the operation read over the final values of
its operands (`LineRead.*_step`), which are either input arrays of the layer or results of earlier rows; the stage is
by definition the operation's function of the stages of its operands, so each row closes by unfolding. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

variable (V : Valuation τ sig (Elt F))

theorem e2_call2_v0 : val V main_call2_v0 = Cert.RefLayer.call0_v0 (params2 V) :=
  unary_step writesAt V 239 (pos (by decide)) (x := main_cst_27) (y := main_call2_v0)
    (id : (⟨S_, .f32⟩ : BufTy).Contents (Elt F) → (⟨S_, .f32⟩ : BufTy).Contents (Elt F))
    ⟨by decide, rfl⟩ ⟨by decide, rfl⟩ rfl (by decide) (by decide) (e2_cst_27 V)

theorem e2_call2_v1 : val V main_call2_v1 = Cert.RefLayer.call0_v1 (params2 V) :=
  unary_step writesAt V 240 (pos (by decide)) (x := main_call2_v0) (y := main_call2_v1)
    ((broadcastInDim S800000x4x1 ![] bcast_S_S800000x4x1) : (⟨S_, .f32⟩ : BufTy).Contents (Elt F) → (⟨S800000x4x1, .f32⟩ : BufTy).Contents (Elt F))
    ⟨by decide, rfl⟩ ⟨by decide, rfl⟩ rfl (by decide) (by decide) (e2_call2_v0 V)

theorem e2_call2_v2 : val V main_call2_v2 = Cert.RefLayer.call0_v2 (params2 V) :=
  binary_step writesAt V 241 (pos (by decide)) (a := main_call2_v1) (b := main_v200) (y := main_call2_v2)
    (maximumf : (⟨S800000x4x1, .f32⟩ : BufTy).Contents (Elt F) → (⟨S800000x4x1, .f32⟩ : BufTy).Contents (Elt F) → (⟨S800000x4x1, .f32⟩ : BufTy).Contents (Elt F))
    ⟨by decide, rfl⟩ ⟨by decide, rfl⟩ ⟨by decide, rfl⟩ rfl (by decide) (by decide) (by decide) (e2_call2_v1 V) (e2_v200 V)

theorem e2_call2_v3 : val V main_call2_v3 = Cert.RefLayer.call0_v3 (params2 V) :=
  unary_step writesAt V 242 (pos (by decide)) (x := main_cst_28) (y := main_call2_v3)
    (id : (⟨S_, .f32⟩ : BufTy).Contents (Elt F) → (⟨S_, .f32⟩ : BufTy).Contents (Elt F))
    ⟨by decide, rfl⟩ ⟨by decide, rfl⟩ rfl (by decide) (by decide) (e2_cst_28 V)

theorem e2_call2_v4 : val V main_call2_v4 = Cert.RefLayer.call0_v4 (params2 V) :=
  unary_step writesAt V 243 (pos (by decide)) (x := main_call2_v3) (y := main_call2_v4)
    ((broadcastInDim S800000x4x1 ![] bcast_S_S800000x4x1) : (⟨S_, .f32⟩ : BufTy).Contents (Elt F) → (⟨S800000x4x1, .f32⟩ : BufTy).Contents (Elt F))
    ⟨by decide, rfl⟩ ⟨by decide, rfl⟩ rfl (by decide) (by decide) (e2_call2_v3 V)

theorem e2_v201 : val V main_v201 = Cert.RefLayer.v60 (params2 V) :=
  binary_step writesAt V 244 (pos (by decide)) (a := main_call2_v4) (b := main_call2_v2) (y := main_v201)
    (minimumf : (⟨S800000x4x1, .f32⟩ : BufTy).Contents (Elt F) → (⟨S800000x4x1, .f32⟩ : BufTy).Contents (Elt F) → (⟨S800000x4x1, .f32⟩ : BufTy).Contents (Elt F))
    ⟨by decide, rfl⟩ ⟨by decide, rfl⟩ ⟨by decide, rfl⟩ rfl (by decide) (by decide) (by decide) (e2_call2_v4 V) (e2_call2_v2 V)

theorem e2_v202 : val V main_v202 = Cert.RefLayer.v61 (params2 V) :=
  unary_step writesAt V 245 (pos (by decide)) (x := main_v201) (y := main_v202)
    (Host.exp : (⟨S800000x4x1, .f32⟩ : BufTy).Contents (Elt F) → (⟨S800000x4x1, .f32⟩ : BufTy).Contents (Elt F))
    ⟨by decide, rfl⟩ ⟨by decide, rfl⟩ rfl (by decide) (by decide) (e2_v201 V)

theorem e2_c_29 : val V main_c_29 = Cert.RefLayer.c_6 (params2 V) :=
  nullary_final writesAt V 246 (pos (by decide)) (y := main_c_29) (constantI S_ 32 0#32 : (⟨S_, .i32⟩ : BufTy).Contents (Elt F)) ⟨by decide, rfl⟩ rfl (by decide)

theorem e2_v203 : val V main_v203 = Cert.RefLayer.v62 (params2 V) :=
  unary_step writesAt V 247 (pos (by decide)) (x := main_c_29) (y := main_v203)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e2_c_29 V)

theorem e2_v204 : val V main_v204 = Cert.RefLayer.v63 (params2 V) :=
  binary_step writesAt V 248 (pos (by decide)) (a := main_v1) (b := main_v203) (y := main_v204)
    (cmpi .slt : (⟨S800000, .i32⟩ : BufTy).Contents (Elt F) → (⟨S800000, .i32⟩ : BufTy).Contents (Elt F) → (⟨S800000, .i1⟩ : BufTy).Contents (Elt F))
    ⟨by decide, rfl⟩ ⟨by decide, rfl⟩ ⟨by decide, rfl⟩ rfl (by decide) (by decide) (by decide) (in2_src V) (e2_v203 V)

theorem e2_c_30 : val V main_c_30 = Cert.RefLayer.c_7 (params2 V) :=
  nullary_final writesAt V 249 (pos (by decide)) (y := main_c_30) (constantI S_ 32 50000#32 : (⟨S_, .i32⟩ : BufTy).Contents (Elt F)) ⟨by decide, rfl⟩ rfl (by decide)

theorem e2_v205 : val V main_v205 = Cert.RefLayer.v64 (params2 V) :=
  unary_step writesAt V 250 (pos (by decide)) (x := main_c_30) (y := main_v205)
    (broadcastInDim S800000 ![] bcast_S_S800000 : (⟨S_, .i32⟩ : BufTy).Contents (Elt F) → (⟨S800000, .i32⟩ : BufTy).Contents (Elt F))
    ⟨by decide, rfl⟩ ⟨by decide, rfl⟩ rfl (by decide) (by decide) (e2_c_30 V)

theorem e2_v206 : val V main_v206 = Cert.RefLayer.v65 (params2 V) :=
  binary_step writesAt V 251 (pos (by decide)) (a := main_v1) (b := main_v205) (y := main_v206)
    (addi : (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ rfl (by decide) (by decide) (by decide) (in2_src V) (e2_v205 V)

theorem e2_v207 : val V main_v207 = Cert.RefLayer.v66 (params2 V) :=
  ternary_step writesAt V 252 (pos (by decide)) (c := main_v204) (a := main_v206) (b := main_v1) (y := main_v207)
    (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
    ⟨by decide, rfl⟩ ⟨by decide, rfl⟩ ⟨by decide, rfl⟩ ⟨by decide, rfl⟩ rfl (by decide) (by decide) (by decide) (by decide) (e2_v204 V) (e2_v206 V) (in2_src V)

theorem e2_v208 : val V main_v208 = Cert.RefLayer.v67 (params2 V) :=
  unary_step writesAt V 253 (pos (by decide)) (x := main_v207) (y := main_v208)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (e2_v207 V)

theorem e2_v209 : val V main_v209 = Cert.RefLayer.v68 (params2 V) :=
  binary_step writesAt V 254 (pos (by decide)) (a := main_v178) (b := main_v208) (y := main_v209)
    ((fun x i => Host.gather gather_S50000x4x16_S800000x1_S800000x4x16_12_0_n_n_0_1_1416 x i) : (⟨S50000x4x16, .f32⟩ : BufTy).Contents (Elt F) → (⟨S800000x1, .i32⟩ : BufTy).Contents (Elt F) → (⟨S800000x4x16, .f32⟩ : BufTy).Contents (Elt F))
    ⟨by decide, rfl⟩ ⟨by decide, rfl⟩ ⟨by decide, rfl⟩ rfl (by decide) (by decide) (by decide) (e2_v178 V) (e2_v208 V)

theorem e2_v210 : val V main_v210 = Cert.RefLayer.v69 (params2 V) :=
  unary_step writesAt V 255 (pos (by decide)) (x := main_v202) (y := main_v210)
    (broadcastInDim S800000x4x16 ![0, 1, 2] bcast_S800000x4x1_S800000x4x16_0_1_2 : (⟨S800000x4x1, .f32⟩ : BufTy).Contents (Elt F) → (⟨S800000x4x16, .f32⟩ : BufTy).Contents (Elt F))
    ⟨by decide, rfl⟩ ⟨by decide, rfl⟩ rfl (by decide) (by decide) (e2_v202 V)

theorem e2_v211 : val V main_v211 = Cert.RefLayer.v70 (params2 V) :=
  binary_step writesAt V 256 (pos (by decide)) (a := main_v209) (b := main_v210) (y := main_v211)
    (mulf : (⟨S800000x4x16, .f32⟩ : BufTy).Contents (Elt F) → (⟨S800000x4x16, .f32⟩ : BufTy).Contents (Elt F) → (⟨S800000x4x16, .f32⟩ : BufTy).Contents (Elt F))
    ⟨by decide, rfl⟩ ⟨by decide, rfl⟩ ⟨by decide, rfl⟩ rfl (by decide) (by decide) (by decide) (e2_v209 V) (e2_v210 V)

theorem e2_cst_31 : val V main_cst_31 = Cert.RefLayer.cst_8 (params2 V) :=
  nullary_final writesAt V 257 (pos (by decide)) (y := main_cst_31) (constant S_ .f32 0x00000000#32 : (⟨S_, .f32⟩ : BufTy).Contents (Elt F)) ⟨by decide, rfl⟩ rfl (by decide)

theorem e2_v212 : val V main_v212 = Cert.RefLayer.v71 (params2 V) :=
  unary_step writesAt V 258 (pos (by decide)) (x := main_cst_31) (y := main_v212)
    (broadcastInDim S50000x4x16 ![] bcast_S_S50000x4x16 : (⟨S_, .f32⟩ : BufTy).Contents (Elt F) → (⟨S50000x4x16, .f32⟩ : BufTy).Contents (Elt F))
    ⟨by decide, rfl⟩ ⟨by decide, rfl⟩ rfl (by decide) (by decide) (e2_cst_31 V)

theorem e2_v213 : val V main_v213 = Cert.RefLayer.v72 (params2 V) :=
  unary_step writesAt V 259 (pos (by decide)) (x := main_v3) (y := main_v213)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (in2_dst V)

theorem e2_v214 : val V main_v214 = Cert.RefLayer.v73 (params2 V) :=
  ternary_step writesAt V 260 (pos (by decide)) (c := main_v212) (a := main_v213) (b := main_v211) (y := main_v214)
    ((fun x i u => Host.scatterAdd scatter_S50000x4x16_S800000x1_S800000x4x16_12_0_0_1 x i u) : (⟨S50000x4x16, .f32⟩ : BufTy).Contents (Elt F) → (⟨S800000x1, .i32⟩ : BufTy).Contents (Elt F) → (⟨S800000x4x16, .f32⟩ : BufTy).Contents (Elt F) → (⟨S50000x4x16, .f32⟩ : BufTy).Contents (Elt F))
    ⟨by decide, rfl⟩ ⟨by decide, rfl⟩ ⟨by decide, rfl⟩ ⟨by decide, rfl⟩ rfl (by decide) (by decide) (by decide) (by decide) (e2_v212 V) (e2_v213 V) (e2_v211 V)

theorem e2_cst_32 : val V main_cst_32 = Cert.RefLayer.cst_9 (params2 V) :=
  nullary_final writesAt V 261 (pos (by decide)) (y := main_cst_32) (constant S_ .f32 0x00000000#32 : (⟨S_, .f32⟩ : BufTy).Contents (Elt F)) ⟨by decide, rfl⟩ rfl (by decide)

theorem e2_v215 : val V main_v215 = Cert.RefLayer.v74 (params2 V) :=
  unary_step writesAt V 262 (pos (by decide)) (x := main_cst_32) (y := main_v215)
    (broadcastInDim S50000x4x1 ![] bcast_S_S50000x4x1 : (⟨S_, .f32⟩ : BufTy).Contents (Elt F) → (⟨S50000x4x1, .f32⟩ : BufTy).Contents (Elt F))
    ⟨by decide, rfl⟩ ⟨by decide, rfl⟩ rfl (by decide) (by decide) (e2_cst_32 V)

theorem e2_v216 : val V main_v216 = Cert.RefLayer.v75 (params2 V) :=
  unary_step writesAt V 263 (pos (by decide)) (x := main_v3) (y := main_v216)
    (broadcastInDim S800000x1 ![0] bcast_S800000_S800000x1_0 : (⟨S800000, .i32⟩ : BufTy).Contents (Elt F) → (⟨S800000x1, .i32⟩ : BufTy).Contents (Elt F))
    ⟨by decide, rfl⟩ ⟨by decide, rfl⟩ rfl (by decide) (by decide) (in2_dst V)

theorem e2_v217 : val V main_v217 = Cert.RefLayer.v76 (params2 V) :=
  ternary_step writesAt V 264 (pos (by decide)) (c := main_v215) (a := main_v216) (b := main_v202) (y := main_v217)
    ((fun x i u => Host.scatterAdd scatter_S50000x4x1_S800000x1_S800000x4x1_12_0_0_1 x i u) : (⟨S50000x4x1, .f32⟩ : BufTy).Contents (Elt F) → (⟨S800000x1, .i32⟩ : BufTy).Contents (Elt F) → (⟨S800000x4x1, .f32⟩ : BufTy).Contents (Elt F) → (⟨S50000x4x1, .f32⟩ : BufTy).Contents (Elt F))
    ⟨by decide, rfl⟩ ⟨by decide, rfl⟩ ⟨by decide, rfl⟩ ⟨by decide, rfl⟩ rfl (by decide) (by decide) (by decide) (by decide) (e2_v215 V) (e2_v216 V) (e2_v202 V)

theorem e2_cst_33 : val V main_cst_33 = Cert.RefLayer.cst_10 (params2 V) :=
  nullary_final writesAt V 265 (pos (by decide)) (y := main_cst_33) (constant S_ .f32 0x358637BD#32 : (⟨S_, .f32⟩ : BufTy).Contents (Elt F)) ⟨by decide, rfl⟩ rfl (by decide)

theorem e2_v218 : val V main_v218 = Cert.RefLayer.v77 (params2 V) :=
  unary_step writesAt V 266 (pos (by decide)) (x := main_cst_33) (y := main_v218)
    (broadcastInDim S50000x4x1 ![] bcast_S_S50000x4x1 : (⟨S_, .f32⟩ : BufTy).Contents (Elt F) → (⟨S50000x4x1, .f32⟩ : BufTy).Contents (Elt F))
    ⟨by decide, rfl⟩ ⟨by decide, rfl⟩ rfl (by decide) (by decide) (e2_cst_33 V)

theorem e2_v219 : val V main_v219 = Cert.RefLayer.v78 (params2 V) :=
  binary_step writesAt V 267 (pos (by decide)) (a := main_v217) (b := main_v218) (y := main_v219)
    (addf : (⟨S50000x4x1, .f32⟩ : BufTy).Contents (Elt F) → (⟨S50000x4x1, .f32⟩ : BufTy).Contents (Elt F) → (⟨S50000x4x1, .f32⟩ : BufTy).Contents (Elt F))
    ⟨by decide, rfl⟩ ⟨by decide, rfl⟩ ⟨by decide, rfl⟩ rfl (by decide) (by decide) (by decide) (e2_v217 V) (e2_v218 V)

theorem e2_v220 : val V main_v220 = Cert.RefLayer.v79 (params2 V) :=
  unary_step writesAt V 268 (pos (by decide)) (x := main_v219) (y := main_v220)
    (broadcastInDim S50000x4x16 ![0, 1, 2] bcast_S50000x4x1_S50000x4x16_0_1_2 : (⟨S50000x4x1, .f32⟩ : BufTy).Contents (Elt F) → (⟨S50000x4x16, .f32⟩ : BufTy).Contents (Elt F))
    ⟨by decide, rfl⟩ ⟨by decide, rfl⟩ rfl (by decide) (by decide) (e2_v219 V)

theorem e2_v221 : val V main_v221 = Cert.RefLayer.v80 (params2 V) :=
  binary_step writesAt V 269 (pos (by decide)) (a := main_v214) (b := main_v220) (y := main_v221)
    (Host.divf : (⟨S50000x4x16, .f32⟩ : BufTy).Contents (Elt F) → (⟨S50000x4x16, .f32⟩ : BufTy).Contents (Elt F) → (⟨S50000x4x16, .f32⟩ : BufTy).Contents (Elt F))
    ⟨by decide, rfl⟩ ⟨by decide, rfl⟩ ⟨by decide, rfl⟩ rfl (by decide) (by decide) (by decide) (e2_v214 V) (e2_v220 V)

theorem e2_v222 : val V main_v222 = Cert.RefLayer.v81 (params2 V) :=
  reshape_step writesAt V 270 (pos (by decide)) (x := main_v221) (y := main_v222) rfl shapeCasts_S50000x4x16_S50000x64
    ⟨by decide, rfl⟩ ⟨by decide, rfl⟩ rfl (by decide) (by decide) (e2_v221 V)

theorem e2_v223 : val V main_v223 = Cert.RefLayer.v82 (params2 V) :=
  binary_step writesAt V 271 (pos (by decide)) (a := main_v222) (b := main_v154) (y := main_v223)
    ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v222 V) (in2_wo V)

theorem e2_v224 : val V main_v224 = Cert.RefLayer.v83 (params2 V) :=
  unary_step writesAt V 272 (pos (by decide)) (x := main_v156) (y := main_v224)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in2_bo V)

theorem e2_v225 : val V main_v225 = Cert.RefLayer.v84 (params2 V) :=
  unary_step writesAt V 273 (pos (by decide)) (x := main_v224) (y := main_v225)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e2_v224 V)

theorem e2_v226 : val V main_v226 = Cert.RefLayer.v85 (params2 V) :=
  binary_step writesAt V 274 (pos (by decide)) (a := main_v223) (b := main_v225) (y := main_v226)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v223 V) (e2_v225 V)

end Cert.ReferenceIdeal.RunFold

end
-- ==== Proof.RefL2c.lean ====
import proofs.«135486_j17549236371616_1_alg».proof.Proof.RefL2b

/-! # The reference's second layer, operation by operation (operations 275 to 310 of the line)

A table: for each operation of the layer, the line's final value at the operation's buffer is the corresponding stage
of `Cert.RefLayer` at the layer's input arrays (`params2`).  Each row is the operation read over the final values of
its operands (`LineRead.*_step`), which are either input arrays of the layer or results of earlier rows; the stage is
by definition the operation's function of the stages of its operands, so each row closes by unfolding. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

variable (V : Valuation τ sig (Elt F))

theorem e2_v227 : val V main_v227 = Cert.RefLayer.v86 (params2 V) :=
  binary_step writesAt V 275 (pos (by decide)) (a := main_v144) (b := main_v226) (y := main_v227)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (in2_h V) (e2_v226 V)

theorem e2_cst_34 : val V main_cst_34 = Cert.RefLayer.cst_11 (params2 V) :=
  nullary_final writesAt V 276 (pos (by decide)) (y := main_cst_34) (constant S_ .f32 0x00000000#32 : (⟨S_, .f32⟩ : BufTy).Contents (Elt F)) ⟨by decide, rfl⟩ rfl (by decide)

theorem e2_v228 : val V main_v228 = Cert.RefLayer.v87 (params2 V) :=
  binary_step writesAt V 277 (pos (by decide)) (a := main_v227) (b := main_cst_34) (y := main_v228)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e2_v227 V) (e2_cst_34 V)

theorem e2_v229 : val V main_v229 = Cert.RefLayer.v88 (params2 V) :=
  unary_step writesAt V 278 (pos (by decide)) (x := main_v228) (y := main_v229)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e2_v228 V)

theorem e2_cst_35 : val V main_cst_35 = Cert.RefLayer.cst_12 (params2 V) :=
  nullary_final writesAt V 279 (pos (by decide)) (y := main_cst_35) (constant S_ .f32 0x42800000#32 : (⟨S_, .f32⟩ : BufTy).Contents (Elt F)) ⟨by decide, rfl⟩ rfl (by decide)

theorem e2_v230 : val V main_v230 = Cert.RefLayer.v89 (params2 V) :=
  unary_step writesAt V 280 (pos (by decide)) (x := main_cst_35) (y := main_v230)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e2_cst_35 V)

theorem e2_v231 : val V main_v231 = Cert.RefLayer.v90 (params2 V) :=
  binary_step writesAt V 281 (pos (by decide)) (a := main_v229) (b := main_v230) (y := main_v231)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e2_v229 V) (e2_v230 V)

theorem e2_v232 : val V main_v232 = Cert.RefLayer.v91 (params2 V) :=
  unary_step writesAt V 282 (pos (by decide)) (x := main_v231) (y := main_v232)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e2_v231 V)

theorem e2_v233 : val V main_v233 = Cert.RefLayer.v92 (params2 V) :=
  binary_step writesAt V 283 (pos (by decide)) (a := main_v227) (b := main_v232) (y := main_v233)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v227 V) (e2_v232 V)

theorem e2_v234 : val V main_v234 = Cert.RefLayer.v93 (params2 V) :=
  binary_step writesAt V 284 (pos (by decide)) (a := main_v233) (b := main_v233) (y := main_v234)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v233 V) (e2_v233 V)

theorem e2_cst_36 : val V main_cst_36 = Cert.RefLayer.cst_13 (params2 V) :=
  nullary_final writesAt V 285 (pos (by decide)) (y := main_cst_36) (constant S_ .f32 0x00000000#32 : (⟨S_, .f32⟩ : BufTy).Contents (Elt F)) ⟨by decide, rfl⟩ rfl (by decide)

theorem e2_v235 : val V main_v235 = Cert.RefLayer.v94 (params2 V) :=
  binary_step writesAt V 286 (pos (by decide)) (a := main_v234) (b := main_cst_36) (y := main_v235)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e2_v234 V) (e2_cst_36 V)

theorem e2_v236 : val V main_v236 = Cert.RefLayer.v95 (params2 V) :=
  unary_step writesAt V 287 (pos (by decide)) (x := main_v235) (y := main_v236)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e2_v235 V)

theorem e2_cst_37 : val V main_cst_37 = Cert.RefLayer.cst_14 (params2 V) :=
  nullary_final writesAt V 288 (pos (by decide)) (y := main_cst_37) (constant S_ .f32 0x42800000#32 : (⟨S_, .f32⟩ : BufTy).Contents (Elt F)) ⟨by decide, rfl⟩ rfl (by decide)

theorem e2_v237 : val V main_v237 = Cert.RefLayer.v96 (params2 V) :=
  unary_step writesAt V 289 (pos (by decide)) (x := main_cst_37) (y := main_v237)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e2_cst_37 V)

theorem e2_v238 : val V main_v238 = Cert.RefLayer.v97 (params2 V) :=
  binary_step writesAt V 290 (pos (by decide)) (a := main_v236) (b := main_v237) (y := main_v238)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e2_v236 V) (e2_v237 V)

theorem e2_v239 : val V main_v239 = Cert.RefLayer.v98 (params2 V) :=
  unary_step writesAt V 291 (pos (by decide)) (x := main_v231) (y := main_v239)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e2_v231 V)

theorem e2_v240 : val V main_v240 = Cert.RefLayer.v99 (params2 V) :=
  binary_step writesAt V 292 (pos (by decide)) (a := main_v227) (b := main_v239) (y := main_v240)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v227 V) (e2_v239 V)

theorem e2_cst_38 : val V main_cst_38 = Cert.RefLayer.cst_15 (params2 V) :=
  nullary_final writesAt V 293 (pos (by decide)) (y := main_cst_38) (constant S_ .f32 0x3727C5AC#32 : (⟨S_, .f32⟩ : BufTy).Contents (Elt F)) ⟨by decide, rfl⟩ rfl (by decide)

theorem e2_v241 : val V main_v241 = Cert.RefLayer.v100 (params2 V) :=
  unary_step writesAt V 294 (pos (by decide)) (x := main_cst_38) (y := main_v241)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e2_cst_38 V)

theorem e2_v242 : val V main_v242 = Cert.RefLayer.v101 (params2 V) :=
  binary_step writesAt V 295 (pos (by decide)) (a := main_v238) (b := main_v241) (y := main_v242)
    (addf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e2_v238 V) (e2_v241 V)

theorem e2_v243 : val V main_v243 = Cert.RefLayer.v102 (params2 V) :=
  unary_step writesAt V 296 (pos (by decide)) (x := main_v242) (y := main_v243)
    (Host.sqrt : (⟨S50000x1, .f32⟩ : BufTy).Contents (Elt F) → (⟨S50000x1, .f32⟩ : BufTy).Contents (Elt F))
    ⟨by decide, rfl⟩ ⟨by decide, rfl⟩ rfl (by decide) (by decide) (e2_v242 V)

theorem e2_v244 : val V main_v244 = Cert.RefLayer.v103 (params2 V) :=
  unary_step writesAt V 297 (pos (by decide)) (x := main_v243) (y := main_v244)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e2_v243 V)

theorem e2_v245 : val V main_v245 = Cert.RefLayer.v104 (params2 V) :=
  binary_step writesAt V 298 (pos (by decide)) (a := main_v240) (b := main_v244) (y := main_v245)
    (Host.divf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v240 V) (e2_v244 V)

theorem e2_v246 : val V main_v246 = Cert.RefLayer.v105 (params2 V) :=
  unary_step writesAt V 299 (pos (by decide)) (x := main_v158) (y := main_v246)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in2_g1 V)

theorem e2_v247 : val V main_v247 = Cert.RefLayer.v106 (params2 V) :=
  unary_step writesAt V 300 (pos (by decide)) (x := main_v246) (y := main_v247)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e2_v246 V)

theorem e2_v248 : val V main_v248 = Cert.RefLayer.v107 (params2 V) :=
  binary_step writesAt V 301 (pos (by decide)) (a := main_v245) (b := main_v247) (y := main_v248)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v245 V) (e2_v247 V)

theorem e2_v249 : val V main_v249 = Cert.RefLayer.v108 (params2 V) :=
  unary_step writesAt V 302 (pos (by decide)) (x := main_v160) (y := main_v249)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in2_be1 V)

theorem e2_v250 : val V main_v250 = Cert.RefLayer.v109 (params2 V) :=
  unary_step writesAt V 303 (pos (by decide)) (x := main_v249) (y := main_v250)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e2_v249 V)

theorem e2_v251 : val V main_v251 = Cert.RefLayer.v110 (params2 V) :=
  binary_step writesAt V 304 (pos (by decide)) (a := main_v248) (b := main_v250) (y := main_v251)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v248 V) (e2_v250 V)

theorem e2_v252 : val V main_v252 = Cert.RefLayer.v111 (params2 V) :=
  binary_step writesAt V 305 (pos (by decide)) (a := main_v251) (b := main_v162) (y := main_v252)
    ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F))
    ⟨by decide, rfl⟩ ⟨by decide, rfl⟩ ⟨by decide, rfl⟩ rfl (by decide) (by decide) (by decide) (e2_v251 V) (in2_w1 V)

theorem e2_v253 : val V main_v253 = Cert.RefLayer.v112 (params2 V) :=
  unary_step writesAt V 306 (pos (by decide)) (x := main_v164) (y := main_v253)
    (broadcastInDim S1x128 ![1] bcast_S128_S1x128_1 : (⟨S128, .f32⟩ : BufTy).Contents (Elt F) → (⟨S1x128, .f32⟩ : BufTy).Contents (Elt F))
    ⟨by decide, rfl⟩ ⟨by decide, rfl⟩ rfl (by decide) (by decide) (in2_b1 V)

theorem e2_v254 : val V main_v254 = Cert.RefLayer.v113 (params2 V) :=
  unary_step writesAt V 307 (pos (by decide)) (x := main_v253) (y := main_v254)
    (broadcastInDim S50000x128 ![0, 1] bcast_S1x128_S50000x128_0_1 : (⟨S1x128, .f32⟩ : BufTy).Contents (Elt F) → (⟨S50000x128, .f32⟩ : BufTy).Contents (Elt F))
    ⟨by decide, rfl⟩ ⟨by decide, rfl⟩ rfl (by decide) (by decide) (e2_v253 V)

theorem e2_v255 : val V main_v255 = Cert.RefLayer.v114 (params2 V) :=
  binary_step writesAt V 308 (pos (by decide)) (a := main_v252) (b := main_v254) (y := main_v255)
    (addf : (⟨S50000x128, .f32⟩ : BufTy).Contents (Elt F) → (⟨S50000x128, .f32⟩ : BufTy).Contents (Elt F) → (⟨S50000x128, .f32⟩ : BufTy).Contents (Elt F))
    ⟨by decide, rfl⟩ ⟨by decide, rfl⟩ ⟨by decide, rfl⟩ rfl (by decide) (by decide) (by decide) (e2_v252 V) (e2_v254 V)

theorem e2_call3_cst : val V main_call3_cst = Cert.RefLayer.call1_cst (params2 V) :=
  nullary_final writesAt V 309 (pos (by decide)) (y := main_call3_cst) (constant S_ .f32 0x00000000#32 : (⟨S_, .f32⟩ : BufTy).Contents (Elt F)) ⟨by decide, rfl⟩ rfl (by decide)

theorem e2_call3_v0 : val V main_call3_v0 = Cert.RefLayer.call1_v0 (params2 V) :=
  unary_step writesAt V 310 (pos (by decide)) (x := main_call3_cst) (y := main_call3_v0)
    ((broadcastInDim S50000x128 ![] bcast_S_S50000x128) : (⟨S_, .f32⟩ : BufTy).Contents (Elt F) → (⟨S50000x128, .f32⟩ : BufTy).Contents (Elt F))
    ⟨by decide, rfl⟩ ⟨by decide, rfl⟩ rfl (by decide) (by decide) (e2_call3_cst V)

end Cert.ReferenceIdeal.RunFold

end
-- ==== Proof.RefL2d.lean ====
import proofs.«135486_j17549236371616_1_alg».proof.Proof.RefL2c

/-! # The reference's second layer, operation by operation (operations 311 to 345 of the line)

A table: for each operation of the layer, the line's final value at the operation's buffer is the corresponding stage
of `Cert.RefLayer` at the layer's input arrays (`params2`).  Each row is the operation read over the final values of
its operands (`LineRead.*_step`), which are either input arrays of the layer or results of earlier rows; the stage is
by definition the operation's function of the stages of its operands, so each row closes by unfolding. -/

noncomputable section

namespace Cert.ReferenceIdeal.RunFold

open Cert.ReferenceIdeal Cert.ReferenceIdeal.Gen Idealize.ShloMosaic Idealize.ShloMosaic.TcCoe Idealize.SL.Sem Idealize.ShloMosaic.StableHlo
open Cert.LineRead

variable {F : FTy → Type} [FloatOps F]

variable (V : Valuation τ sig (Elt F))

theorem e2_v256 : val V main_v256 = Cert.RefLayer.v115 (params2 V) :=
  binary_step writesAt V 311 (pos (by decide)) (a := main_v255) (b := main_call3_v0) (y := main_v256)
    (maximumf : (⟨S50000x128, .f32⟩ : BufTy).Contents (Elt F) → (⟨S50000x128, .f32⟩ : BufTy).Contents (Elt F) → (⟨S50000x128, .f32⟩ : BufTy).Contents (Elt F))
    ⟨by decide, rfl⟩ ⟨by decide, rfl⟩ ⟨by decide, rfl⟩ rfl (by decide) (by decide) (by decide) (e2_v255 V) (e2_call3_v0 V)

theorem e2_v257 : val V main_v257 = Cert.RefLayer.v116 (params2 V) :=
  binary_step writesAt V 312 (pos (by decide)) (a := main_v256) (b := main_v166) (y := main_v257)
    ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v256 V) (in2_w2 V)

theorem e2_v258 : val V main_v258 = Cert.RefLayer.v117 (params2 V) :=
  unary_step writesAt V 313 (pos (by decide)) (x := main_v168) (y := main_v258)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in2_b2 V)

theorem e2_v259 : val V main_v259 = Cert.RefLayer.v118 (params2 V) :=
  unary_step writesAt V 314 (pos (by decide)) (x := main_v258) (y := main_v259)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e2_v258 V)

theorem e2_v260 : val V main_v260 = Cert.RefLayer.v119 (params2 V) :=
  binary_step writesAt V 315 (pos (by decide)) (a := main_v257) (b := main_v259) (y := main_v260)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v257 V) (e2_v259 V)

theorem e2_v261 : val V main_v261 = Cert.RefLayer.v120 (params2 V) :=
  binary_step writesAt V 316 (pos (by decide)) (a := main_v251) (b := main_v260) (y := main_v261)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v251 V) (e2_v260 V)

theorem e2_cst_39 : val V main_cst_39 = Cert.RefLayer.cst_16 (params2 V) :=
  nullary_final writesAt V 317 (pos (by decide)) (y := main_cst_39) (constant S_ .f32 0x00000000#32 : (⟨S_, .f32⟩ : BufTy).Contents (Elt F)) ⟨by decide, rfl⟩ rfl (by decide)

theorem e2_v262 : val V main_v262 = Cert.RefLayer.v121 (params2 V) :=
  binary_step writesAt V 318 (pos (by decide)) (a := main_v261) (b := main_cst_39) (y := main_v262)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e2_v261 V) (e2_cst_39 V)

theorem e2_v263 : val V main_v263 = Cert.RefLayer.v122 (params2 V) :=
  unary_step writesAt V 319 (pos (by decide)) (x := main_v262) (y := main_v263)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e2_v262 V)

theorem e2_cst_40 : val V main_cst_40 = Cert.RefLayer.cst_17 (params2 V) :=
  nullary_final writesAt V 320 (pos (by decide)) (y := main_cst_40) (constant S_ .f32 0x42800000#32 : (⟨S_, .f32⟩ : BufTy).Contents (Elt F)) ⟨by decide, rfl⟩ rfl (by decide)

theorem e2_v264 : val V main_v264 = Cert.RefLayer.v123 (params2 V) :=
  unary_step writesAt V 321 (pos (by decide)) (x := main_cst_40) (y := main_v264)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e2_cst_40 V)

theorem e2_v265 : val V main_v265 = Cert.RefLayer.v124 (params2 V) :=
  binary_step writesAt V 322 (pos (by decide)) (a := main_v263) (b := main_v264) (y := main_v265)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e2_v263 V) (e2_v264 V)

theorem e2_v266 : val V main_v266 = Cert.RefLayer.v125 (params2 V) :=
  unary_step writesAt V 323 (pos (by decide)) (x := main_v265) (y := main_v266)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e2_v265 V)

theorem e2_v267 : val V main_v267 = Cert.RefLayer.v126 (params2 V) :=
  binary_step writesAt V 324 (pos (by decide)) (a := main_v261) (b := main_v266) (y := main_v267)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v261 V) (e2_v266 V)

theorem e2_v268 : val V main_v268 = Cert.RefLayer.v127 (params2 V) :=
  binary_step writesAt V 325 (pos (by decide)) (a := main_v267) (b := main_v267) (y := main_v268)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v267 V) (e2_v267 V)

theorem e2_cst_41 : val V main_cst_41 = Cert.RefLayer.cst_18 (params2 V) :=
  nullary_final writesAt V 326 (pos (by decide)) (y := main_cst_41) (constant S_ .f32 0x00000000#32 : (⟨S_, .f32⟩ : BufTy).Contents (Elt F)) ⟨by decide, rfl⟩ rfl (by decide)

theorem e2_v269 : val V main_v269 = Cert.RefLayer.v128 (params2 V) :=
  binary_step writesAt V 327 (pos (by decide)) (a := main_v268) (b := main_cst_41) (y := main_v269)
    ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F))
    ⟨by decide, rfl⟩ ⟨by decide, rfl⟩ ⟨by decide, rfl⟩ rfl (by decide) (by decide) (by decide) (e2_v268 V) (e2_cst_41 V)

theorem e2_v270 : val V main_v270 = Cert.RefLayer.v129 (params2 V) :=
  unary_step writesAt V 328 (pos (by decide)) (x := main_v269) (y := main_v270)
    (broadcastInDim S50000x1 ![0] bcast_S50000_S50000x1_0 : (⟨S50000, .f32⟩ : BufTy).Contents (Elt F) → (⟨S50000x1, .f32⟩ : BufTy).Contents (Elt F))
    ⟨by decide, rfl⟩ ⟨by decide, rfl⟩ rfl (by decide) (by decide) (e2_v269 V)

theorem e2_cst_42 : val V main_cst_42 = Cert.RefLayer.cst_19 (params2 V) :=
  nullary_final writesAt V 329 (pos (by decide)) (y := main_cst_42) (constant S_ .f32 0x42800000#32 : (⟨S_, .f32⟩ : BufTy).Contents (Elt F)) ⟨by decide, rfl⟩ rfl (by decide)

theorem e2_v271 : val V main_v271 = Cert.RefLayer.v130 (params2 V) :=
  unary_step writesAt V 330 (pos (by decide)) (x := main_cst_42) (y := main_v271)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e2_cst_42 V)

theorem e2_v272 : val V main_v272 = Cert.RefLayer.v131 (params2 V) :=
  binary_step writesAt V 331 (pos (by decide)) (a := main_v270) (b := main_v271) (y := main_v272)
    (Host.divf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e2_v270 V) (e2_v271 V)

theorem e2_v273 : val V main_v273 = Cert.RefLayer.v132 (params2 V) :=
  unary_step writesAt V 332 (pos (by decide)) (x := main_v265) (y := main_v273)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e2_v265 V)

theorem e2_v274 : val V main_v274 = Cert.RefLayer.v133 (params2 V) :=
  binary_step writesAt V 333 (pos (by decide)) (a := main_v261) (b := main_v273) (y := main_v274)
    (subf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v261 V) (e2_v273 V)

theorem e2_cst_43 : val V main_cst_43 = Cert.RefLayer.cst_20 (params2 V) :=
  nullary_final writesAt V 334 (pos (by decide)) (y := main_cst_43) (constant S_ .f32 0x3727C5AC#32 : (⟨S_, .f32⟩ : BufTy).Contents (Elt F)) ⟨by decide, rfl⟩ rfl (by decide)

theorem e2_v275 : val V main_v275 = Cert.RefLayer.v134 (params2 V) :=
  unary_step writesAt V 335 (pos (by decide)) (x := main_cst_43) (y := main_v275)
    (broadcastInDim S50000x1 ![] bcast_S_S50000x1 : (⟨S_, .f32⟩ : BufTy).Contents (Elt F) → (⟨S50000x1, .f32⟩ : BufTy).Contents (Elt F))
    ⟨by decide, rfl⟩ ⟨by decide, rfl⟩ rfl (by decide) (by decide) (e2_cst_43 V)

theorem e2_v276 : val V main_v276 = Cert.RefLayer.v135 (params2 V) :=
  binary_step writesAt V 336 (pos (by decide)) (a := main_v272) (b := main_v275) (y := main_v276)
    (addf : (⟨S50000x1, .f32⟩ : BufTy).Contents (Elt F) → (⟨S50000x1, .f32⟩ : BufTy).Contents (Elt F) → (⟨S50000x1, .f32⟩ : BufTy).Contents (Elt F))
    ⟨by decide, rfl⟩ ⟨by decide, rfl⟩ ⟨by decide, rfl⟩ rfl (by decide) (by decide) (by decide) (e2_v272 V) (e2_v275 V)

theorem e2_v277 : val V main_v277 = Cert.RefLayer.v136 (params2 V) :=
  unary_step writesAt V 337 (pos (by decide)) (x := main_v276) (y := main_v277)
    (Host.sqrt : (⟨S50000x1, .f32⟩ : BufTy).Contents (Elt F) → (⟨S50000x1, .f32⟩ : BufTy).Contents (Elt F))
    ⟨by decide, rfl⟩ ⟨by decide, rfl⟩ rfl (by decide) (by decide) (e2_v276 V)

theorem e2_v278 : val V main_v278 = Cert.RefLayer.v137 (params2 V) :=
  unary_step writesAt V 338 (pos (by decide)) (x := main_v277) (y := main_v278)
    (broadcastInDim S50000x64 ![0, 1] bcast_S50000x1_S50000x64_0_1 : (⟨S50000x1, .f32⟩ : BufTy).Contents (Elt F) → (⟨S50000x64, .f32⟩ : BufTy).Contents (Elt F))
    ⟨by decide, rfl⟩ ⟨by decide, rfl⟩ rfl (by decide) (by decide) (e2_v277 V)

theorem e2_v279 : val V main_v279 = Cert.RefLayer.v138 (params2 V) :=
  binary_step writesAt V 339 (pos (by decide)) (a := main_v274) (b := main_v278) (y := main_v279)
    (Host.divf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v274 V) (e2_v278 V)

theorem e2_v280 : val V main_v280 = Cert.RefLayer.v139 (params2 V) :=
  unary_step writesAt V 340 (pos (by decide)) (x := main_v170) (y := main_v280)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in2_g2 V)

theorem e2_v281 : val V main_v281 = Cert.RefLayer.v140 (params2 V) :=
  unary_step writesAt V 341 (pos (by decide)) (x := main_v280) (y := main_v281)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e2_v280 V)

theorem e2_v282 : val V main_v282 = Cert.RefLayer.v141 (params2 V) :=
  binary_step writesAt V 342 (pos (by decide)) (a := main_v279) (b := main_v281) (y := main_v282)
    (mulf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v279 V) (e2_v281 V)

theorem e2_v283 : val V main_v283 = Cert.RefLayer.v142 (params2 V) :=
  unary_step writesAt V 343 (pos (by decide)) (x := main_v172) (y := main_v283)
    (broadcastInDim S1x64 ![1] bcast_S64_S1x64_1 : (⟨S64, .f32⟩ : BufTy).Contents (Elt F) → (⟨S1x64, .f32⟩ : BufTy).Contents (Elt F))
    ⟨by decide, rfl⟩ ⟨by decide, rfl⟩ rfl (by decide) (by decide) (in2_be2 V)

theorem e2_v284 : val V main_v284 = Cert.RefLayer.v143 (params2 V) :=
  unary_step writesAt V 344 (pos (by decide)) (x := main_v283) (y := main_v284)
    (broadcastInDim S50000x64 ![0, 1] bcast_S1x64_S50000x64_0_1 : (⟨S1x64, .f32⟩ : BufTy).Contents (Elt F) → (⟨S50000x64, .f32⟩ : BufTy).Contents (Elt F))
    ⟨by decide, rfl⟩ ⟨by decide, rfl⟩ rfl (by decide) (by decide) (e2_v283 V)

theorem e2_v285 : val V main_v285 = Cert.RefLayer.v144 (params2 V) :=
  binary_step writesAt V 345 (pos (by decide)) (a := main_v282) (b := main_v284) (y := main_v285)
    (addf : (⟨S50000x64, .f32⟩ : BufTy).Contents (Elt F) → (⟨S50000x64, .f32⟩ : BufTy).Contents (Elt F) → (⟨S50000x64, .f32⟩ : BufTy).Contents (Elt F))
    ⟨by decide, rfl⟩ ⟨by decide, rfl⟩ ⟨by decide, rfl⟩ rfl (by decide) (by decide) (by decide) (e2_v282 V) (e2_v284 V)

/-- The second layer's result buffer holds the layer's last stage at the layer's input arrays. -/
theorem val_layer2 : val V main_v285 = Cert.RefLayer.v144 (params2 V) := e2_v285 V

end Cert.ReferenceIdeal.RunFold

end
-- ==== Proof.RNodeOps.lean ====
import proofs.«135486_j17549236371616_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.IdealHost

/-! # The reference's node-side operations read at an entry, over the extended reals

Each lemma reads ONE array operation of the node update at explicit coordinates: a matrix product at entry (n, d) is
the sum over the contracted coordinate of the products of the operands' entries; a row vector laid along every row
reads its entry at the column; a row sum reads the initial value plus the sum over the row; a column of per-row
numbers broadcast along the row reads the row's number; a scalar broadcast reads the scalar. -/

noncomputable section

namespace Cert.RNode

open Cert.ReferenceIdeal Cert.ReferenceIdeal.Gen
open Idealize.ShloMosaic Idealize.ShloMosaic.ValueIdx
open scoped BigOperators

/-! ## Matrix products -/

/-- [50000,64] · [64,64] at entry (n, d): the sum over k of A(n,k) · B(k,d). -/
theorem dot_64_64_apply (A : S50000x64.Idx → EReal) (B : S64x64.Idx → EReal) (n : Fin 50000) (d : Fin 64) :
    (Host.dotGeneral (F := Ideal) (φ₁ := .f32) (φ₂ := .f32) dot_S50000x64_S64x64_S50000x64_1_0_0_1_n_n none A B) (ix2 n d)
      = ∑ k : Fin 64, A (ix2 n k) * B (ix2 k d) := by
  refine (Ideal.dotGeneral_apply dot_S50000x64_S64x64_S50000x64_1_0_0_1_n_n none .single A B (ix2 n d)).trans ?_
  rw [← Equiv.sum_comp (contrEquiv1 dot_S50000x64_S64x64_S50000x64_1_0_0_1_n_n 64 rfl rfl).symm]
  refine Finset.sum_congr rfl fun k _ => ?_
  have c2 := contrEquiv1_symm_val dot_S50000x64_S64x64_S50000x64_1_0_0_1_n_n 64 rfl rfl k
  congr 2
  · funext ax; apply Fin.ext
    match ax with
    | ⟨0, _⟩ => simp [DotDims.lhsIdx, dot_S50000x64_S64x64_S50000x64_1_0_0_1_n_n]; rfl
    | ⟨1, _⟩ => simp [DotDims.lhsIdx, dot_S50000x64_S64x64_S50000x64_1_0_0_1_n_n]; exact c2
  · funext ax; apply Fin.ext
    match ax with
    | ⟨0, _⟩ => simp [DotDims.rhsIdx, dot_S50000x64_S64x64_S50000x64_1_0_0_1_n_n]; exact c2
    | ⟨1, _⟩ => simp [DotDims.rhsIdx, dot_S50000x64_S64x64_S50000x64_1_0_0_1_n_n]; rfl

/-- [50000,64] · [64,128] at entry (n, j): the sum over k of A(n,k) · B(k,j). -/
theorem dot_64_128_apply (A : S50000x64.Idx → EReal) (B : S64x128.Idx → EReal) (n : Fin 50000) (j : Fin 128) :
    (Host.dotGeneral (F := Ideal) (φ₁ := .f32) (φ₂ := .f32) dot_S50000x64_S64x128_S50000x128_1_0_0_1_n_n none A B) (ix2 n j)
      = ∑ k : Fin 64, A (ix2 n k) * B (ix2 k j) := by
  refine (Ideal.dotGeneral_apply dot_S50000x64_S64x128_S50000x128_1_0_0_1_n_n none .single A B (ix2 n j)).trans ?_
  rw [← Equiv.sum_comp (contrEquiv1 dot_S50000x64_S64x128_S50000x128_1_0_0_1_n_n 64 rfl rfl).symm]
  refine Finset.sum_congr rfl fun k _ => ?_
  have c2 := contrEquiv1_symm_val dot_S50000x64_S64x128_S50000x128_1_0_0_1_n_n 64 rfl rfl k
  congr 2
  · funext ax; apply Fin.ext
    match ax with
    | ⟨0, _⟩ => simp [DotDims.lhsIdx, dot_S50000x64_S64x128_S50000x128_1_0_0_1_n_n]; rfl
    | ⟨1, _⟩ => simp [DotDims.lhsIdx, dot_S50000x64_S64x128_S50000x128_1_0_0_1_n_n]; exact c2
  · funext ax; apply Fin.ext
    match ax with
    | ⟨0, _⟩ => simp [DotDims.rhsIdx, dot_S50000x64_S64x128_S50000x128_1_0_0_1_n_n]; exact c2
    | ⟨1, _⟩ => simp [DotDims.rhsIdx, dot_S50000x64_S64x128_S50000x128_1_0_0_1_n_n]; rfl

/-- [50000,128] · [128,64] at entry (n, d): the sum over j of A(n,j) · B(j,d). -/
theorem dot_128_64_apply (A : S50000x128.Idx → EReal) (B : S128x64.Idx → EReal) (n : Fin 50000) (d : Fin 64) :
    (Host.dotGeneral (F := Ideal) (φ₁ := .f32) (φ₂ := .f32) dot_S50000x128_S128x64_S50000x64_1_0_0_1_n_n none A B) (ix2 n d)
      = ∑ j : Fin 128, A (ix2 n j) * B (ix2 j d) := by
  refine (Ideal.dotGeneral_apply dot_S50000x128_S128x64_S50000x64_1_0_0_1_n_n none .single A B (ix2 n d)).trans ?_
  rw [← Equiv.sum_comp (contrEquiv1 dot_S50000x128_S128x64_S50000x64_1_0_0_1_n_n 128 rfl rfl).symm]
  refine Finset.sum_congr rfl fun k _ => ?_
  have c2 := contrEquiv1_symm_val dot_S50000x128_S128x64_S50000x64_1_0_0_1_n_n 128 rfl rfl k
  congr 2
  · funext ax; apply Fin.ext
    match ax with
    | ⟨0, _⟩ => simp [DotDims.lhsIdx, dot_S50000x128_S128x64_S50000x64_1_0_0_1_n_n]; rfl
    | ⟨1, _⟩ => simp [DotDims.lhsIdx, dot_S50000x128_S128x64_S50000x64_1_0_0_1_n_n]; exact c2
  · funext ax; apply Fin.ext
    match ax with
    | ⟨0, _⟩ => simp [DotDims.rhsIdx, dot_S50000x128_S128x64_S50000x64_1_0_0_1_n_n]; exact c2
    | ⟨1, _⟩ => simp [DotDims.rhsIdx, dot_S50000x128_S128x64_S50000x64_1_0_0_1_n_n]; rfl

/-! ## A vector of per-column numbers laid along every row -/

/-- A 64-vector made a one-row matrix and broadcast down the rows reads, at (n, d), its entry d. -/
theorem bias64_apply (b : S64.Idx → EReal) (n : Fin 50000) (d : Fin 64) :
    broadcastInDim S50000x64 ![0, 1] bcast_S1x64_S50000x64_0_1 (broadcastInDim S1x64 ![1] bcast_S64_S1x64_1 b) (ix2 n d)
      = b (ix1 d) := by
  refine (broadcastInDim_apply ![0, 1] bcast_S1x64_S50000x64_0_1 _ (ix2 n d) (ix2 (0 : Fin 1) d) ?_).trans ?_
  · intro a
    match a with
    | ⟨0, _⟩ => rfl
    | ⟨1, _⟩ => rfl
  · exact broadcastInDim_apply ![1] bcast_S64_S1x64_1 b (ix2 (0 : Fin 1) d) (ix1 d) fun a =>
      match a with
      | ⟨0, _⟩ => rfl

/-- A 128-vector made a one-row matrix and broadcast down the rows reads, at (n, j), its entry j. -/
theorem bias128_apply (b : S128.Idx → EReal) (n : Fin 50000) (j : Fin 128) :
    broadcastInDim S50000x128 ![0, 1] bcast_S1x128_S50000x128_0_1 (broadcastInDim S1x128 ![1] bcast_S128_S1x128_1 b) (ix2 n j)
      = b (ix1 j) := by
  refine (broadcastInDim_apply ![0, 1] bcast_S1x128_S50000x128_0_1 _ (ix2 n j) (ix2 (0 : Fin 1) j) ?_).trans ?_
  · intro a
    match a with
    | ⟨0, _⟩ => rfl
    | ⟨1, _⟩ => rfl
  · exact broadcastInDim_apply ![1] bcast_S128_S1x128_1 b (ix2 (0 : Fin 1) j) (ix1 j) fun a =>
      match a with
      | ⟨0, _⟩ => rfl

/-! ## Row sums and per-row numbers -/

/-- The sum of a [50000,64] array over its second axis, from a scalar initial value: at row n, the initial value plus
the sum over the row. -/
theorem rowsum_apply (x : S50000x64.Idx → EReal) (init : S_.Idx → EReal) (n : Fin 50000) :
    Host.reduceAdd (F := Ideal) (φ := .f32) x init reducesTo_S50000x64_S50000_d1 h_S_ (ix1 n)
      = init ix0 + ∑ k : Fin 64, x (ix2 n k) := by
  have hr : S50000x64.Reduces [1] S50000 := by decide
  rw [hostReduceAdd_apply, Ideal.hostReduceAdd_single reducesTo_S50000x64_S50000_d1 hr]
  congr 1
  · exact congrArg init (funext fun a => a.elim0)
  · refine Finset.sum_congr rfl fun k _ => congrArg x ?_
    funext ax; apply Fin.ext
    match ax with
    | ⟨0, _⟩ => rfl
    | ⟨1, _⟩ => rfl

/-- A vector of per-row numbers made a one-column matrix reads, at (n, 0), the row's number. -/
theorem col_apply (x : S50000.Idx → EReal) (n : Fin 50000) :
    broadcastInDim S50000x1 ![0] bcast_S50000_S50000x1_0 x (ix2 n (0 : Fin 1)) = x (ix1 n) :=
  broadcastInDim_apply ![0] bcast_S50000_S50000x1_0 x (ix2 n (0 : Fin 1)) (ix1 n) fun a =>
    match a with
    | ⟨0, _⟩ => rfl

/-- A scalar broadcast to a one-column matrix reads the scalar. -/
theorem scalcol_apply (c : S_.Idx → EReal) (n : Fin 50000) :
    broadcastInDim S50000x1 ![] bcast_S_S50000x1 c (ix2 n (0 : Fin 1)) = c ix0 :=
  broadcastInDim_scalar_apply bcast_S_S50000x1 c _

/-- A scalar broadcast to a [50000,128] matrix reads the scalar. -/
theorem scal128_apply (c : S_.Idx → EReal) (n : Fin 50000) (j : Fin 128) :
    broadcastInDim S50000x128 ![] bcast_S_S50000x128 c (ix2 n j) = c ix0 :=
  broadcastInDim_scalar_apply bcast_S_S50000x128 c _

/-- A one-column matrix of per-row numbers broadcast along the row reads, at (n, d), row n's number. -/
theorem rowbcast_apply (x : S50000x1.Idx → EReal) (n : Fin 50000) (d : Fin 64) :
    broadcastInDim S50000x64 ![0, 1] bcast_S50000x1_S50000x64_0_1 x (ix2 n d) = x (ix2 n (0 : Fin 1)) :=
  broadcastInDim_apply ![0, 1] bcast_S50000x1_S50000x64_0_1 x (ix2 n d) (ix2 n (0 : Fin 1)) fun a =>
    match a with
    | ⟨0, _⟩ => rfl
    | ⟨1, _⟩ => rfl

end Cert.RNode

end
-- ==== Proof.RNodeLn.lean ====
import proofs.«135486_j17549236371616_1_alg».proof.Proof.RNodeOps
import proofs.«135486_j17549236371616_1_alg».proof.Proof.RNodeSpec

/-! # The reference's layer normalisation read at an entry

The reference normalises a [50000,64] array `a` row by row in twenty-four array operations: the row sums from the
initial word `0.0`, made a column and divided by a column of the word `64.0` (the mean); the mean broadcast along the
row and subtracted; the products of the centred array with itself summed along the row the same way and divided the
same way (the variance); the word `1e-5` added; the square root; the centred array (computed a second time from the
same mean) divided by the root broadcast along the row; the scale and the shift, each a 64-vector laid along every
row, multiplied and added.  Here those operations are composed once, for an arbitrary input array, and read at entry
(n, d): the result is the row-wise formula `ln` of the row `k ↦ a(n,k)`. -/

noncomputable section

namespace Cert.RNode

open Cert.ReferenceIdeal Cert.ReferenceIdeal.Gen
open Idealize.ShloMosaic Idealize.ShloMosaic.ValueIdx
open scoped BigOperators

/-- The column of row means: row sums (from `0.0`) as a column, over a column of `64.0`. -/
def meanCol (a : FVec Ideal S50000x64 .f32) : FVec Ideal S50000x1 .f32 :=
  Host.divf
    (broadcastInDim S50000x1 ![0] bcast_S50000_S50000x1_0
      (Host.reduceAdd a (constant S_ .f32 0x00000000#32 : FVec Ideal S_ .f32) reducesTo_S50000x64_S50000_d1 h_S_))
    (broadcastInDim S50000x1 ![] bcast_S_S50000x1 (constant S_ .f32 0x42800000#32 : FVec Ideal S_ .f32))

/-- The array minus its row means. -/
def centred (a : FVec Ideal S50000x64 .f32) : FVec Ideal S50000x64 .f32 :=
  subf a (broadcastInDim S50000x64 ![0, 1] bcast_S50000x1_S50000x64_0_1 (meanCol a))

/-- The column of row variances: row sums (from `0.0`) of the squared centred array as a column, over a column of
`64.0`. -/
def varCol (a : FVec Ideal S50000x64 .f32) : FVec Ideal S50000x1 .f32 :=
  Host.divf
    (broadcastInDim S50000x1 ![0] bcast_S50000_S50000x1_0
      (Host.reduceAdd (mulf (centred a) (centred a)) (constant S_ .f32 0x00000000#32 : FVec Ideal S_ .f32)
        reducesTo_S50000x64_S50000_d1 h_S_))
    (broadcastInDim S50000x1 ![] bcast_S_S50000x1 (constant S_ .f32 0x42800000#32 : FVec Ideal S_ .f32))

/-- The whole normalisation: centred array over the root of "variance + 1e-5", times the scale, plus the shift. -/
def lnArr (a : FVec Ideal S50000x64 .f32) (g b : FVec Ideal S64 .f32) : FVec Ideal S50000x64 .f32 :=
  addf
    (mulf
      (Host.divf (centred a)
        (broadcastInDim S50000x64 ![0, 1] bcast_S50000x1_S50000x64_0_1
          (Host.sqrt
            (addf (varCol a)
              (broadcastInDim S50000x1 ![] bcast_S_S50000x1 (constant S_ .f32 0x3727C5AC#32 : FVec Ideal S_ .f32))))))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 b))

/-- Row n's mean. -/
theorem meanCol_apply (a : FVec Ideal S50000x64 .f32) (n : Fin 50000) :
    meanCol a (ix2 n (0 : Fin 1)) = Cert.RNodeSpec.mu (fun k => a (ix2 n k)) := by
  unfold meanCol Cert.RNodeSpec.mu
  rw [hostDivf_apply, col_apply, rowsum_apply, scalcol_apply]
  rfl

/-- The centred array at (n, d). -/
theorem centred_apply (a : FVec Ideal S50000x64 .f32) (n : Fin 50000) (d : Fin 64) :
    centred a (ix2 n d) = a (ix2 n d) - Cert.RNodeSpec.mu (fun k => a (ix2 n k)) := by
  unfold centred
  rw [subf_apply, rowbcast_apply, meanCol_apply]

/-- Row n's variance. -/
theorem varCol_apply (a : FVec Ideal S50000x64 .f32) (n : Fin 50000) :
    varCol a (ix2 n (0 : Fin 1)) = Cert.RNodeSpec.var (fun k => a (ix2 n k)) := by
  unfold varCol Cert.RNodeSpec.var
  rw [hostDivf_apply, col_apply, rowsum_apply, scalcol_apply]
  simp only [mulf_apply, centred_apply]
  rfl

/-- The normalised array at (n, d) is the row-wise formula of row n. -/
theorem lnArr_apply (a : FVec Ideal S50000x64 .f32) (g b : FVec Ideal S64 .f32) (n : Fin 50000) (d : Fin 64) :
    lnArr a g b (ix2 n d) = Cert.RNodeSpec.ln (fun k => a (ix2 n k)) g b d := by
  unfold lnArr Cert.RNodeSpec.ln
  rw [addf_apply, mulf_apply, hostDivf_apply, centred_apply, rowbcast_apply, bias64_apply, bias64_apply]
  show Ideal.div _ (Ideal.sqrt (varCol a (ix2 n (0 : Fin 1))
      + broadcastInDim S50000x1 ![] bcast_S_S50000x1 (constant S_ .f32 0x3727C5AC#32 : FVec Ideal S_ .f32) (ix2 n (0 : Fin 1))))
    * _ + _ = _
  rw [varCol_apply, scalcol_apply]
  rfl

end Cert.RNode

end
-- ==== Proof.RNode.lean ====
import proofs.«135486_j17549236371616_1_alg».proof.Proof.RefLayer
import proofs.«135486_j17549236371616_1_alg».proof.Proof.RNodeLn

/-! # The node half of one reference layer, read at an entry

The stages after the attention output — output projection and bias, first residual, first layer normalisation, the
two products of the feed-forward block with its bias, `max(·, 0)` and second bias, second residual, second layer
normalisation — are read one after another at explicit coordinates (n, d).  The attention output (stage 81) stays an
opaque input array.  Each product is a sum over the contracted coordinate whose terms are rewritten by the previous
stage's entries; the two normalisations are the one composed normalisation of an array, applied to the two residuals.
The last stage at (n, d) is the row-wise formula `out` at row n, coordinate d. -/

noncomputable section

namespace Cert.RNode

open Cert.ReferenceIdeal Cert.ReferenceIdeal.Gen Cert.RefLayer
open Idealize.ShloMosaic Idealize.ShloMosaic.ValueIdx
open scoped BigOperators

variable (p : Cert.RefLayer.Params Ideal)

/-! ## Output projection and first residual (stages 82 – 86) -/

/-- The output projection at (n, d): the sum over k of the attention output (n,k) times wo(k,d). -/
theorem v82_apply (n : Fin 50000) (d : Fin 64) :
    v82 p (ix2 n d) = ∑ k : Fin 64, v81 p (ix2 n k) * p.wo (ix2 k d) :=
  dot_64_64_apply (v81 p) p.wo n d

/-- The projection's bias laid along every row. -/
theorem v84_apply (n : Fin 50000) (d : Fin 64) : v84 p (ix2 n d) = p.bo (ix1 d) :=
  bias64_apply p.bo n d

/-- Stage 85 is the projection plus its bias, entrywise. -/
theorem v85_def : v85 p = addf (v82 p) (v84 p) := rfl
/-- Stage 86 is the node features plus stage 85, entrywise. -/
theorem v86_def : v86 p = addf p.h (v85 p) := rfl

/-- The first residual at (n, d). -/
theorem v86_apply (n : Fin 50000) (d : Fin 64) :
    v86 p (ix2 n d) = Cert.RNodeSpec.a1 (v81 p) p.h p.wo p.bo n d := by
  rw [v86_def, addf_apply, v85_def, addf_apply, v82_apply, v84_apply]
  unfold Cert.RNodeSpec.a1 Cert.RNodeSpec.attn
  rfl

/-! ## First layer normalisation (stages 87 – 110) -/

/-- Stages 87 – 110 are the composed normalisation of the first residual with scale g1 and shift be1. -/
theorem v110_eq : v110 p = lnArr (v86 p) p.g1 p.be1 := rfl

/-- The first normalisation at (n, d). -/
theorem v110_apply (n : Fin 50000) (d : Fin 64) :
    v110 p (ix2 n d) = Cert.RNodeSpec.h1 (v81 p) p.h p.wo p.bo p.g1 p.be1 n d := by
  rw [v110_eq, lnArr_apply]
  unfold Cert.RNodeSpec.h1
  exact congrArg (fun a => Cert.RNodeSpec.ln a p.g1 p.be1 d) (funext fun k => v86_apply p n k)

/-! ## The feed-forward block and second residual (stages 111 – 120) -/

/-- The first product at (n, j): the sum over k of h₁(n,k) times w1(k,j). -/
theorem v111_apply (n : Fin 50000) (j : Fin 128) :
    v111 p (ix2 n j) = ∑ k : Fin 64, v110 p (ix2 n k) * p.w1 (ix2 k j) :=
  dot_64_128_apply (v110 p) p.w1 n j

/-- The hidden bias laid along every row. -/
theorem v113_apply (n : Fin 50000) (j : Fin 128) : v113 p (ix2 n j) = p.b1 (ix1 j) :=
  bias128_apply p.b1 n j

/-- The floor of the `max`: the word `0.0` everywhere. -/
theorem call1_v0_apply (n : Fin 50000) (j : Fin 128) : call1_v0 p (ix2 n j) = Cert.RNodeSpec.zero :=
  scal128_apply (call1_cst p) n j

/-- Stage 114 is the first product plus the hidden bias, entrywise. -/
theorem v114_def : v114 p = addf (v111 p) (v113 p) := rfl
/-- Stage 115 is the entrywise maximum of stage 114 and the zero array, in that order. -/
theorem v115_def : v115 p = maximumf (v114 p) (call1_v0 p) := rfl

/-- The hidden layer at (n, j). -/
theorem v115_apply (n : Fin 50000) (j : Fin 128) :
    v115 p (ix2 n j) = Cert.RNodeSpec.hid (v81 p) p.h p.wo p.bo p.g1 p.be1 p.w1 p.b1 n j := by
  rw [v115_def, maximumf_apply, v114_def, addf_apply, v111_apply, v113_apply, call1_v0_apply]
  unfold Cert.RNodeSpec.hid
  exact congrArg (fun s => max (s + p.b1 (ix1 j)) Cert.RNodeSpec.zero)
    (Finset.sum_congr rfl fun k _ => by rw [v110_apply])

/-- The second product at (n, d): the sum over j of the hidden layer (n,j) times w2(j,d). -/
theorem v116_apply (n : Fin 50000) (d : Fin 64) :
    v116 p (ix2 n d) = ∑ j : Fin 128, v115 p (ix2 n j) * p.w2 (ix2 j d) :=
  dot_128_64_apply (v115 p) p.w2 n d

/-- The output bias laid along every row. -/
theorem v118_apply (n : Fin 50000) (d : Fin 64) : v118 p (ix2 n d) = p.b2 (ix1 d) :=
  bias64_apply p.b2 n d

/-- Stage 119 is the second product plus the output bias, entrywise. -/
theorem v119_def : v119 p = addf (v116 p) (v118 p) := rfl
/-- Stage 120 is the first normalisation plus stage 119, entrywise. -/
theorem v120_def : v120 p = addf (v110 p) (v119 p) := rfl

/-- The second residual at (n, d). -/
theorem v120_apply (n : Fin 50000) (d : Fin 64) :
    v120 p (ix2 n d) = Cert.RNodeSpec.a2 (v81 p) p.h p.wo p.bo p.g1 p.be1 p.w1 p.b1 p.w2 p.b2 n d := by
  rw [v120_def, addf_apply, v119_def, addf_apply, v110_apply, v116_apply, v118_apply]
  unfold Cert.RNodeSpec.a2 Cert.RNodeSpec.ffn
  exact congrArg (fun s => Cert.RNodeSpec.h1 (v81 p) p.h p.wo p.bo p.g1 p.be1 n d + (s + p.b2 (ix1 d)))
    (Finset.sum_congr rfl fun j _ => by rw [v115_apply])

/-! ## Second layer normalisation (stages 121 – 144) -/

/-- Stages 121 – 144 are the composed normalisation of the second residual with scale g2 and shift be2. -/
theorem v144_eq : v144 p = lnArr (v120 p) p.g2 p.be2 := rfl

/-- THE LAYER'S UPDATED NODE FEATURES at (n, d): the row-wise formula at row n, coordinate d. -/
theorem v144_apply (n : Fin 50000) (d : Fin 64) :
    Cert.RefLayer.v144 p (ix2 n d)
      = Cert.RNodeSpec.out (Cert.RefLayer.v81 p) p.h p.wo p.bo p.g1 p.be1 p.w1 p.b1 p.w2 p.b2 p.g2 p.be2 n d := by
  rw [v144_eq, lnArr_apply]
  unfold Cert.RNodeSpec.out
  exact congrArg (fun a => Cert.RNodeSpec.ln a p.g2 p.be2 d) (funext fun k => v120_apply p n k)

end Cert.RNode

end
-- ==== Proof.KFinal.lean ====
import proofs.«135486_j17549236371616_1_alg».proof.Proof.KChain
import proofs.«135486_j17549236371616_1_alg».proof.Proof.KQkv0
import proofs.«135486_j17549236371616_1_alg».proof.Proof.KQkv3
import proofs.«135486_j17549236371616_1_alg».proof.Proof.KEdge1Score
import proofs.«135486_j17549236371616_1_alg».proof.Proof.KEdge1Msg
import proofs.«135486_j17549236371616_1_alg».proof.Proof.KEdge4Score
import proofs.«135486_j17549236371616_1_alg».proof.Proof.KEdge4Msg
import proofs.«135486_j17549236371616_1_alg».proof.Proof.KNode2Arr
import proofs.«135486_j17549236371616_1_alg».proof.Proof.KNode5Arr
import proofs.«135486_j17549236371616_1_alg».proof.Proof.KWeights
import proofs.«135486_j17549236371616_1_alg».proof.Proof.LayerSpec

/-! # The kernel program's result is the layer function applied twice

Region by region: the three projections of the node features; their rows gathered at the source and destination
columns; the per-edge stage with the one-hot head matrix and its transpose; the two segment sums; the node update.
Each region's output array is that region's function of what it finds in its windows, and what it finds is read
through the boundary fold; composed, a layer's node-update output is `Cert.Layer.layer` of the layer's arrays, and the
program's result is the second layer's, whose node features are the first layer's output. -/

set_option maxRecDepth 16384

noncomputable section

namespace Cert.KernelIdeal.Final

open Cert.KernelIdeal Cert.KernelIdeal.Gen Idealize.ShloMosaic Idealize.ShloMosaic.TcCoe Idealize.ShloMosaic.ValueIdx
open Cert.KernelIdeal.Chain

variable (m : (ℓ : Loc nD τ sig) → Buf (Elt Ideal) ℓ) (ρ : Dev nD → PrngReg) (c : Dev nD)

/-- The three index columns: source wrapped, destination wrapped, destination plain. -/
def srcC : IVec ⟨2, ![800000, 1]⟩ 32 := Cert.IndexCol.wrapCol 50000#32 bcast_S_S800000 bcast_S800000_S800000x1_0 (W1 m ρ c (Proc.devRef .tc main_v1))
def dstWC : IVec ⟨2, ![800000, 1]⟩ 32 := Cert.IndexCol.wrapCol 50000#32 bcast_S_S800000 bcast_S800000_S800000x1_0 (W1 m ρ c (Proc.devRef .tc main_v3))
def dstC : IVec ⟨2, ![800000, 1]⟩ 32 := Cert.IndexCol.col bcast_S800000_S800000x1_0 (W1 m ρ c (Proc.devRef .tc main_v3))

/-- The all-zero array the segment sums start from. -/
theorem zeros_apply (i : S50000x64.Idx) : (broadcastInDim S50000x64 ![] bcast_S_S50000x64 (constant (F := Ideal) S_ .f32 0x00000000#32)) i = Cert.KAttn.zero := rfl

/-- The first layer's output: the layer function of the launch arrays and the first layer's weights. -/
def L1 : (⟨2, ![50000, 64]⟩ : Shape).Idx → EReal := (Cert.Layer.layer (m ((c : Thread nD τ).loc main_arg0)) (m ((c : Thread nD τ).loc main_arg1)) (srcC m ρ c) (dstWC m ρ c) (dstC m ρ c) (Wt.mat 0 (m ((c : Thread nD τ).loc main_arg3))) (Wt.mat 0 (m ((c : Thread nD τ).loc main_arg4))) (Wt.mat 0 (m ((c : Thread nD τ).loc main_arg5))) (Wt.mat 0 (m ((c : Thread nD τ).loc main_arg6))) (Wt.mat 0 (m ((c : Thread nD τ).loc main_arg7))) (Wt.vec 0 (m ((c : Thread nD τ).loc main_arg8))) (Wt.vec 0 (m ((c : Thread nD τ).loc main_arg9))) (Wt.vec 0 (m ((c : Thread nD τ).loc main_arg10))) (Wt.mat1 0 (m ((c : Thread nD τ).loc main_arg11))) (Wt.vec1 0 (m ((c : Thread nD τ).loc main_arg12))) (Wt.mat2 0 (m ((c : Thread nD τ).loc main_arg13))) (Wt.vec 0 (m ((c : Thread nD τ).loc main_arg14))) (Wt.vec 0 (m ((c : Thread nD τ).loc main_arg15))) (Wt.vec 0 (m ((c : Thread nD τ).loc main_arg16))))

/-! ## Layer 1 -/

theorem Q1 : (dat0 (V1 m ρ) c).arrAt 4 cfg0.N = (Cert.KAttn.proj (m ((c : Thread nD τ).loc main_arg0)) (Wt.mat 0 (m ((c : Thread nD τ).loc main_arg3)))) := by
  rw [Cert.KernelIdeal.Qkv0.arr0_4 (V1 m ρ) c, Chain.V1_w0 m ρ c, Wt.V1_w1 m ρ c]; rfl
theorem K1 : (dat0 (V1 m ρ) c).arrAt 5 cfg0.N = (Cert.KAttn.proj (m ((c : Thread nD τ).loc main_arg0)) (Wt.mat 0 (m ((c : Thread nD τ).loc main_arg4)))) := by
  rw [Cert.KernelIdeal.Qkv0.arr0_5 (V1 m ρ) c, Chain.V1_w0 m ρ c, Wt.V1_w2 m ρ c]; rfl
theorem Vv1 : (dat0 (V1 m ρ) c).arrAt 6 cfg0.N = (Cert.KAttn.proj (m ((c : Thread nD τ).loc main_arg0)) (Wt.mat 0 (m ((c : Thread nD τ).loc main_arg6)))) := by
  rw [Cert.KernelIdeal.Qkv0.arr0_6 (V1 m ρ) c, Chain.V1_w0 m ρ c, Wt.V1_w3 m ρ c]; rfl

theorem Ks1 : V3 m ρ c (Pipeline.arrRef spec1 1) = Cert.KAttn.rows (Cert.KAttn.proj (m ((c : Thread nD τ).loc main_arg0)) (Wt.mat 0 (m ((c : Thread nD τ).loc main_arg4)))) (srcC m ρ c) := by
  rw [Chain.V3_w1 m ρ c, K1 m ρ c]; exact Cert.Layer.gather_eq_rows _ rfl rfl rfl rfl rfl rfl rfl _ _
theorem Qd1 : V3 m ρ c (Pipeline.arrRef spec1 2) = Cert.KAttn.rows (Cert.KAttn.proj (m ((c : Thread nD τ).loc main_arg0)) (Wt.mat 0 (m ((c : Thread nD τ).loc main_arg3)))) (dstWC m ρ c) := by
  rw [Chain.V3_w2 m ρ c, Q1 m ρ c]; exact Cert.Layer.gather_eq_rows _ rfl rfl rfl rfl rfl rfl rfl _ _
theorem Vs1 : V3 m ρ c (Pipeline.arrRef spec1 3) = Cert.KAttn.rows (Cert.KAttn.proj (m ((c : Thread nD τ).loc main_arg0)) (Wt.mat 0 (m ((c : Thread nD τ).loc main_arg6)))) (srcC m ρ c) := by
  rw [Chain.V3_w3 m ρ c, Vv1 m ρ c]; exact Cert.Layer.gather_eq_rows _ rfl rfl rfl rfl rfl rfl rfl _ _

set_option maxHeartbeats 4000000 in
theorem msg1 : (dat1 (V3 m ρ) c).arrAt 7 cfg1.N = (Cert.KAttn.msgs (m ((c : Thread nD τ).loc main_arg0)) (m ((c : Thread nD τ).loc main_arg1)) (srcC m ρ c) (dstWC m ρ c) (Wt.mat 0 (m ((c : Thread nD τ).loc main_arg3))) (Wt.mat 0 (m ((c : Thread nD τ).loc main_arg4))) (Wt.mat 0 (m ((c : Thread nD τ).loc main_arg5))) (Wt.mat 0 (m ((c : Thread nD τ).loc main_arg6))) Cert.KAttn.onehot Cert.KAttn.onehotT) := by
  rw [Cert.KernelIdeal.Edge1.arr1_7_eq (V3 m ρ) c, Chain.V3_w0 m ρ c, Ks1 m ρ c, Qd1 m ρ c, Vs1 m ρ c,
    Wt.V3_w4 m ρ c, Wt.V3_w5 m ρ c, Wt.V3_w6 m ρ c]; rfl
set_option maxHeartbeats 4000000 in
theorem scf1 : (dat1 (V3 m ρ) c).arrAt 8 cfg1.N = (Cert.KAttn.scores (m ((c : Thread nD τ).loc main_arg0)) (m ((c : Thread nD τ).loc main_arg1)) (srcC m ρ c) (dstWC m ρ c) (Wt.mat 0 (m ((c : Thread nD τ).loc main_arg3))) (Wt.mat 0 (m ((c : Thread nD τ).loc main_arg4))) (Wt.mat 0 (m ((c : Thread nD τ).loc main_arg5))) Cert.KAttn.onehot Cert.KAttn.onehotT) := by
  rw [Cert.KernelIdeal.Edge1.arr1_8_eq (V3 m ρ) c, Chain.V3_w0 m ρ c, Ks1 m ρ c, Qd1 m ρ c,
    Wt.V3_w4 m ρ c, Wt.V3_w5 m ρ c, Wt.V3_w6 m ρ c]; rfl

set_option maxHeartbeats 4000000 in
theorem wV1 : V5 m ρ c (Pipeline.arrRef spec2 1) = Cert.KAttn.seg (Cert.KAttn.msgs (m ((c : Thread nD τ).loc main_arg0)) (m ((c : Thread nD τ).loc main_arg1)) (srcC m ρ c) (dstWC m ρ c) (Wt.mat 0 (m ((c : Thread nD τ).loc main_arg3))) (Wt.mat 0 (m ((c : Thread nD τ).loc main_arg4))) (Wt.mat 0 (m ((c : Thread nD τ).loc main_arg5))) (Wt.mat 0 (m ((c : Thread nD τ).loc main_arg6))) Cert.KAttn.onehot Cert.KAttn.onehotT) (dstC m ρ c) := by
  rw [Chain.V5_w1 m ρ c, msg1 m ρ c]; exact Cert.Layer.scatter_eq_seg _ rfl rfl rfl rfl _ zeros_apply _ _
set_option maxHeartbeats 4000000 in
theorem Z1 : V5 m ρ c (Pipeline.arrRef spec2 2) = Cert.KAttn.seg (Cert.KAttn.scores (m ((c : Thread nD τ).loc main_arg0)) (m ((c : Thread nD τ).loc main_arg1)) (srcC m ρ c) (dstWC m ρ c) (Wt.mat 0 (m ((c : Thread nD τ).loc main_arg3))) (Wt.mat 0 (m ((c : Thread nD τ).loc main_arg4))) (Wt.mat 0 (m ((c : Thread nD τ).loc main_arg5))) Cert.KAttn.onehot Cert.KAttn.onehotT) (dstC m ρ c) := by
  rw [Chain.V5_w2 m ρ c, scf1 m ρ c]; exact Cert.Layer.scatter_eq_seg _ rfl rfl rfl rfl _ zeros_apply _ _

set_option maxHeartbeats 4000000 in
/-- Layer 1's node-update output is the layer function of its arrays. -/
theorem out1 : (dat2 (V5 m ρ) c).arrAt 13 cfg2.N = L1 m ρ c := by
  rw [Cert.KernelIdeal.Node2.arr2_13_fn (V5 m ρ) c, Chain.V5_w0 m ρ c, wV1 m ρ c, Z1 m ρ c,
    Wt.V5_w3 m ρ c, Wt.V5_w4 m ρ c, Wt.V5_w5 m ρ c, Wt.V5_w6 m ρ c, Wt.V5_w7 m ρ c, Wt.V5_w8 m ρ c,
    Wt.V5_w9 m ρ c, Wt.V5_w10 m ρ c, Wt.V5_w11 m ρ c, Wt.V5_w12 m ρ c]; rfl

/-! ## Layer 2 -/

set_option maxHeartbeats 4000000 in
theorem Q2 : (dat3 (V7 m ρ) c).arrAt 4 cfg3.N = (Cert.KAttn.proj (L1 m ρ c) (Wt.mat 1 (m ((c : Thread nD τ).loc main_arg3)))) := by
  rw [Cert.KernelIdeal.Qkv3.arr3_4 (V7 m ρ) c, Chain.V7_w0 m ρ c, out1 m ρ c, Wt.V7_w1 m ρ c]; rfl
set_option maxHeartbeats 4000000 in
theorem K2 : (dat3 (V7 m ρ) c).arrAt 5 cfg3.N = (Cert.KAttn.proj (L1 m ρ c) (Wt.mat 1 (m ((c : Thread nD τ).loc main_arg4)))) := by
  rw [Cert.KernelIdeal.Qkv3.arr3_5 (V7 m ρ) c, Chain.V7_w0 m ρ c, out1 m ρ c, Wt.V7_w2 m ρ c]; rfl
set_option maxHeartbeats 4000000 in
theorem Vv2 : (dat3 (V7 m ρ) c).arrAt 6 cfg3.N = (Cert.KAttn.proj (L1 m ρ c) (Wt.mat 1 (m ((c : Thread nD τ).loc main_arg6)))) := by
  rw [Cert.KernelIdeal.Qkv3.arr3_6 (V7 m ρ) c, Chain.V7_w0 m ρ c, out1 m ρ c, Wt.V7_w3 m ρ c]; rfl

set_option maxHeartbeats 4000000 in
theorem Ks2 : V9 m ρ c (Pipeline.arrRef spec4 1) = Cert.KAttn.rows (Cert.KAttn.proj (L1 m ρ c) (Wt.mat 1 (m ((c : Thread nD τ).loc main_arg4)))) (srcC m ρ c) := by
  rw [Chain.V9_w1 m ρ c, K2 m ρ c]; exact Cert.Layer.gather_eq_rows _ rfl rfl rfl rfl rfl rfl rfl _ _
set_option maxHeartbeats 4000000 in
theorem Qd2 : V9 m ρ c (Pipeline.arrRef spec4 2) = Cert.KAttn.rows (Cert.KAttn.proj (L1 m ρ c) (Wt.mat 1 (m ((c : Thread nD τ).loc main_arg3)))) (dstWC m ρ c) := by
  rw [Chain.V9_w2 m ρ c, Q2 m ρ c]; exact Cert.Layer.gather_eq_rows _ rfl rfl rfl rfl rfl rfl rfl _ _
set_option maxHeartbeats 4000000 in
theorem Vs2 : V9 m ρ c (Pipeline.arrRef spec4 3) = Cert.KAttn.rows (Cert.KAttn.proj (L1 m ρ c) (Wt.mat 1 (m ((c : Thread nD τ).loc main_arg6)))) (srcC m ρ c) := by
  rw [Chain.V9_w3 m ρ c, Vv2 m ρ c]; exact Cert.Layer.gather_eq_rows _ rfl rfl rfl rfl rfl rfl rfl _ _

set_option maxHeartbeats 4000000 in
theorem msg2 : (dat4 (V9 m ρ) c).arrAt 7 cfg4.N = (Cert.KAttn.msgs (L1 m ρ c) (m ((c : Thread nD τ).loc main_arg1)) (srcC m ρ c) (dstWC m ρ c) (Wt.mat 1 (m ((c : Thread nD τ).loc main_arg3))) (Wt.mat 1 (m ((c : Thread nD τ).loc main_arg4))) (Wt.mat 1 (m ((c : Thread nD τ).loc main_arg5))) (Wt.mat 1 (m ((c : Thread nD τ).loc main_arg6))) Cert.KAttn.onehot Cert.KAttn.onehotT) := by
  rw [Cert.KernelIdeal.Edge4.arr4_7_eq (V9 m ρ) c, Chain.V9_w0 m ρ c, Ks2 m ρ c, Qd2 m ρ c, Vs2 m ρ c,
    Wt.V9_w4 m ρ c, Wt.V9_w5 m ρ c, Wt.V9_w6 m ρ c]; rfl
set_option maxHeartbeats 4000000 in
theorem scf2 : (dat4 (V9 m ρ) c).arrAt 8 cfg4.N = (Cert.KAttn.scores (L1 m ρ c) (m ((c : Thread nD τ).loc main_arg1)) (srcC m ρ c) (dstWC m ρ c) (Wt.mat 1 (m ((c : Thread nD τ).loc main_arg3))) (Wt.mat 1 (m ((c : Thread nD τ).loc main_arg4))) (Wt.mat 1 (m ((c : Thread nD τ).loc main_arg5))) Cert.KAttn.onehot Cert.KAttn.onehotT) := by
  rw [Cert.KernelIdeal.Edge4.arr4_8_eq (V9 m ρ) c, Chain.V9_w0 m ρ c, Ks2 m ρ c, Qd2 m ρ c,
    Wt.V9_w4 m ρ c, Wt.V9_w5 m ρ c, Wt.V9_w6 m ρ c]; rfl

set_option maxHeartbeats 4000000 in
theorem wV2 : V11 m ρ c (Pipeline.arrRef spec5 1) = Cert.KAttn.seg (Cert.KAttn.msgs (L1 m ρ c) (m ((c : Thread nD τ).loc main_arg1)) (srcC m ρ c) (dstWC m ρ c) (Wt.mat 1 (m ((c : Thread nD τ).loc main_arg3))) (Wt.mat 1 (m ((c : Thread nD τ).loc main_arg4))) (Wt.mat 1 (m ((c : Thread nD τ).loc main_arg5))) (Wt.mat 1 (m ((c : Thread nD τ).loc main_arg6))) Cert.KAttn.onehot Cert.KAttn.onehotT) (dstC m ρ c) := by
  rw [Chain.V11_w1 m ρ c, msg2 m ρ c]; exact Cert.Layer.scatter_eq_seg _ rfl rfl rfl rfl _ zeros_apply _ _
set_option maxHeartbeats 4000000 in
theorem Z2 : V11 m ρ c (Pipeline.arrRef spec5 2) = Cert.KAttn.seg (Cert.KAttn.scores (L1 m ρ c) (m ((c : Thread nD τ).loc main_arg1)) (srcC m ρ c) (dstWC m ρ c) (Wt.mat 1 (m ((c : Thread nD τ).loc main_arg3))) (Wt.mat 1 (m ((c : Thread nD τ).loc main_arg4))) (Wt.mat 1 (m ((c : Thread nD τ).loc main_arg5))) Cert.KAttn.onehot Cert.KAttn.onehotT) (dstC m ρ c) := by
  rw [Chain.V11_w2 m ρ c, scf2 m ρ c]; exact Cert.Layer.scatter_eq_seg _ rfl rfl rfl rfl _ zeros_apply _ _

set_option maxHeartbeats 4000000 in
/-- Layer 2's node-update output is the layer function of its arrays. -/
theorem out2 : (dat5 (V11 m ρ) c).arrAt 13 cfg5.N = (Cert.Layer.layer (L1 m ρ c) (m ((c : Thread nD τ).loc main_arg1)) (srcC m ρ c) (dstWC m ρ c) (dstC m ρ c) (Wt.mat 1 (m ((c : Thread nD τ).loc main_arg3))) (Wt.mat 1 (m ((c : Thread nD τ).loc main_arg4))) (Wt.mat 1 (m ((c : Thread nD τ).loc main_arg5))) (Wt.mat 1 (m ((c : Thread nD τ).loc main_arg6))) (Wt.mat 1 (m ((c : Thread nD τ).loc main_arg7))) (Wt.vec 1 (m ((c : Thread nD τ).loc main_arg8))) (Wt.vec 1 (m ((c : Thread nD τ).loc main_arg9))) (Wt.vec 1 (m ((c : Thread nD τ).loc main_arg10))) (Wt.mat1 1 (m ((c : Thread nD τ).loc main_arg11))) (Wt.vec1 1 (m ((c : Thread nD τ).loc main_arg12))) (Wt.mat2 1 (m ((c : Thread nD τ).loc main_arg13))) (Wt.vec 1 (m ((c : Thread nD τ).loc main_arg14))) (Wt.vec 1 (m ((c : Thread nD τ).loc main_arg15))) (Wt.vec 1 (m ((c : Thread nD τ).loc main_arg16)))) := by
  rw [Cert.KernelIdeal.Node5.arr5_13_fn (V11 m ρ) c, Chain.V11_w0 m ρ c, out1 m ρ c, wV2 m ρ c, Z2 m ρ c,
    Wt.V11_w3 m ρ c, Wt.V11_w4 m ρ c, Wt.V11_w5 m ρ c, Wt.V11_w6 m ρ c, Wt.V11_w7 m ρ c, Wt.V11_w8 m ρ c,
    Wt.V11_w9 m ρ c, Wt.V11_w10 m ρ c, Wt.V11_w11 m ρ c, Wt.V11_w12 m ρ c]; rfl

/-- THE KERNEL PROGRAM'S RESULT. -/
theorem result : W12 m ρ c (Proc.devRef .tc main_v119) = (Cert.Layer.layer (L1 m ρ c) (m ((c : Thread nD τ).loc main_arg1)) (srcC m ρ c) (dstWC m ρ c) (dstC m ρ c) (Wt.mat 1 (m ((c : Thread nD τ).loc main_arg3))) (Wt.mat 1 (m ((c : Thread nD τ).loc main_arg4))) (Wt.mat 1 (m ((c : Thread nD τ).loc main_arg5))) (Wt.mat 1 (m ((c : Thread nD τ).loc main_arg6))) (Wt.mat 1 (m ((c : Thread nD τ).loc main_arg7))) (Wt.vec 1 (m ((c : Thread nD τ).loc main_arg8))) (Wt.vec 1 (m ((c : Thread nD τ).loc main_arg9))) (Wt.vec 1 (m ((c : Thread nD τ).loc main_arg10))) (Wt.mat1 1 (m ((c : Thread nD τ).loc main_arg11))) (Wt.vec1 1 (m ((c : Thread nD τ).loc main_arg12))) (Wt.mat2 1 (m ((c : Thread nD τ).loc main_arg13))) (Wt.vec 1 (m ((c : Thread nD τ).loc main_arg14))) (Wt.vec 1 (m ((c : Thread nD τ).loc main_arg15))) (Wt.vec 1 (m ((c : Thread nD τ).loc main_arg16)))) :=
  (Chain.W12_result m ρ c).trans (out2 m ρ c)

end Cert.KernelIdeal.Final

end
-- ==== Proof.lean ====
/- Equivalence over the extended reals of a two-layer graph-attention encoder — three kernels per layer (the Q/K/V
   projections; the per-edge score, clipped exponential and message; the output projection, feed-forward block and two
   layer norms), with the row gathers K[src], Q[dst], V[src] and the two segment sums in between — against its plain
   array-program reference.

   Every weakly fair execution of each of the three programs terminates without a fault and leaves the seventeen
   argument arrays as launched (the three frame claims); the idealization rewrote nothing (its ledger is empty); and the
   two idealized programs, run from memories agreeing on the arguments, end with equal result arrays.

   The value claim: each program's result array is named by its own run — the reference's as the fold of its 346 array
   operations over the launch memory, read one operation at a time, each value named once; the kernel program's as its
   boundary fold after the sixth region — and both are brought to ONE function, `Cert.Layer.layer`, applied twice:
   the node-update stage of the node features, the segment sum of the messages and the segment sum of the spread scores.
   * Kernel side, region by region: a region's output array is that region's function of what it finds in its windows
     (the body's stored value at an index; a block is the array's rows 5000·t + p, resp. 6400·t + p; the blocks cover the
     array), and what it finds is read through the boundary fold (weights are the layer's slice of the argument arrays,
     gathered windows the row gather of the projections, segment-sum windows the accumulating scatter into zeros).
   * Reference side: the 143 operations of a layer as stages, read at an index in two halves (attention, per head;
     node update, per row); the second layer is the first at other arrays.
   * The two spellings agree with no use of the precondition: the kernels' narrower float formats are the identity; a
     kernel matrix product into a zero accumulator is the contraction term by term; the score's product with the 64 × 4
     one-hot head matrix is the sum over a head's sixteen columns and the product with its transpose the broadcast back
     (only x·1 = x and x·0 = 0 are used); the factor 0.25 is the quotient by 4 exactly; the row gather of an [N, 64]
     matrix and the slab gather of the same data as [N, 4, 16] read the same clamped row, and the two segment sums add
     the same edges' contributions; a layer norm's quotient by √(mean of squares + ε) is the product with the
     reciprocal root, because that number is positive for EVERY extended-real row. -/
import proofs.«135486_j17549236371616_1_alg».proof.Defs
import proofs.«135486_j17549236371616_1_alg».proof.Proof.Gen.Kernel
import proofs.«135486_j17549236371616_1_alg».proof.Proof.Gen.Kernel.Skeleton
import proofs.«135486_j17549236371616_1_alg».proof.Proof.Gen.Kernel.Launch
import proofs.«135486_j17549236371616_1_alg».proof.Proof.Gen.Kernel.Points
import proofs.«135486_j17549236371616_1_alg».proof.Proof.Gen.Kernel.Frame
import proofs.«135486_j17549236371616_1_alg».proof.Proof.Gen.KernelIdeal
import proofs.«135486_j17549236371616_1_alg».proof.Proof.Gen.KernelIdeal.Skeleton
import proofs.«135486_j17549236371616_1_alg».proof.Proof.Gen.KernelIdeal.Launch
import proofs.«135486_j17549236371616_1_alg».proof.Proof.Gen.KernelIdeal.Points
import proofs.«135486_j17549236371616_1_alg».proof.Proof.Gen.KernelIdeal.Frame
import proofs.«135486_j17549236371616_1_alg».proof.Proof.Gen.ReferenceIdeal
import proofs.«135486_j17549236371616_1_alg».proof.Proof.Gen.Pre_finite_inputs
import proofs.«135486_j17549236371616_1_alg».proof.Proof.BridgeAttn
import proofs.«135486_j17549236371616_1_alg».proof.Proof.BridgeNode
import proofs.«135486_j17549236371616_1_alg».proof.Proof.FinalGlue
import proofs.«135486_j17549236371616_1_alg».proof.Proof.GlueLemmas
import proofs.«135486_j17549236371616_1_alg».proof.Proof.KAttnSpec
import proofs.«135486_j17549236371616_1_alg».proof.Proof.KChain
import proofs.«135486_j17549236371616_1_alg».proof.Proof.KEdge1Blk
import proofs.«135486_j17549236371616_1_alg».proof.Proof.KEdge1Msg
import proofs.«135486_j17549236371616_1_alg».proof.Proof.KEdge1Pay
import proofs.«135486_j17549236371616_1_alg».proof.Proof.KEdge1Score
import proofs.«135486_j17549236371616_1_alg».proof.Proof.KEdge4Blk
import proofs.«135486_j17549236371616_1_alg».proof.Proof.KEdge4Msg
import proofs.«135486_j17549236371616_1_alg».proof.Proof.KEdge4Pay
import proofs.«135486_j17549236371616_1_alg».proof.Proof.KEdge4Score
import proofs.«135486_j17549236371616_1_alg».proof.Proof.KEdgeMatmul
import proofs.«135486_j17549236371616_1_alg».proof.Proof.KEdgeSpec
import proofs.«135486_j17549236371616_1_alg».proof.Proof.KernelRun
import proofs.«135486_j17549236371616_1_alg».proof.Proof.KNode2Arr
import proofs.«135486_j17549236371616_1_alg».proof.Proof.KNode2Pay
import proofs.«135486_j17549236371616_1_alg».proof.Proof.KNode5Arr
import proofs.«135486_j17549236371616_1_alg».proof.Proof.KNode5Blocks
import proofs.«135486_j17549236371616_1_alg».proof.Proof.KNode5Pay
import proofs.«135486_j17549236371616_1_alg».proof.Proof.KNodeLocal
import proofs.«135486_j17549236371616_1_alg».proof.Proof.KNodeOps
import proofs.«135486_j17549236371616_1_alg».proof.Proof.KNodeRow
import proofs.«135486_j17549236371616_1_alg».proof.Proof.KNodeSpec
import proofs.«135486_j17549236371616_1_alg».proof.Proof.KQkv0Blocks
import proofs.«135486_j17549236371616_1_alg».proof.Proof.KQkv0
import proofs.«135486_j17549236371616_1_alg».proof.Proof.KQkv3Blocks
import proofs.«135486_j17549236371616_1_alg».proof.Proof.KQkv3
import proofs.«135486_j17549236371616_1_alg».proof.Proof.KQkvDot
import proofs.«135486_j17549236371616_1_alg».proof.Proof.KWeightsA
import proofs.«135486_j17549236371616_1_alg».proof.Proof.KWeightsG
import proofs.«135486_j17549236371616_1_alg».proof.Proof.KWeightsIdx
import proofs.«135486_j17549236371616_1_alg».proof.Proof.KWeightsKeep
import proofs.«135486_j17549236371616_1_alg».proof.Proof.KWeights
import proofs.«135486_j17549236371616_1_alg».proof.Proof.KWeightsN2
import proofs.«135486_j17549236371616_1_alg».proof.Proof.KWeightsN5
import proofs.«135486_j17549236371616_1_alg».proof.Proof.KWeightsSpec
import proofs.«135486_j17549236371616_1_alg».proof.Proof.LayerSpec
import proofs.«135486_j17549236371616_1_alg».proof.Proof.LibHeadSelect
import proofs.«135486_j17549236371616_1_alg».proof.Proof.LibHeadSplit
import proofs.«135486_j17549236371616_1_alg».proof.Proof.LibIndexCol
import proofs.«135486_j17549236371616_1_alg».proof.Proof.LibIndexSums
import proofs.«135486_j17549236371616_1_alg».proof.Proof.LibLayerSlice
import proofs.«135486_j17549236371616_1_alg».proof.Proof.LibLineRead
import proofs.«135486_j17549236371616_1_alg».proof.Proof.LibLineStep
import proofs.«135486_j17549236371616_1_alg».proof.Proof.LibNormScale
import proofs.«135486_j17549236371616_1_alg».proof.Proof.LibRowGather
import proofs.«135486_j17549236371616_1_alg».proof.Proof.LibRowScatter
import proofs.«135486_j17549236371616_1_alg».proof.Proof.LibSlabGather
import proofs.«135486_j17549236371616_1_alg».proof.Proof.LibSlabScatter
import proofs.«135486_j17549236371616_1_alg».proof.Proof.RAttnA
import proofs.«135486_j17549236371616_1_alg».proof.Proof.RAttnB
import proofs.«135486_j17549236371616_1_alg».proof.Proof.RAttnSpec
import proofs.«135486_j17549236371616_1_alg».proof.Proof.RefBridge
import proofs.«135486_j17549236371616_1_alg».proof.Proof.RefInputs
import proofs.«135486_j17549236371616_1_alg».proof.Proof.RefL1a
import proofs.«135486_j17549236371616_1_alg».proof.Proof.RefL1b
import proofs.«135486_j17549236371616_1_alg».proof.Proof.RefL1c
import proofs.«135486_j17549236371616_1_alg».proof.Proof.RefL1d
import proofs.«135486_j17549236371616_1_alg».proof.Proof.RefL2a
import proofs.«135486_j17549236371616_1_alg».proof.Proof.RefL2b
import proofs.«135486_j17549236371616_1_alg».proof.Proof.RefL2c
import proofs.«135486_j17549236371616_1_alg».proof.Proof.RefL2d
import proofs.«135486_j17549236371616_1_alg».proof.Proof.RefLayer
import proofs.«135486_j17549236371616_1_alg».proof.Proof.RefOps
import proofs.«135486_j17549236371616_1_alg».proof.Proof.RefRead
import proofs.«135486_j17549236371616_1_alg».proof.Proof.RefRunFold
import proofs.«135486_j17549236371616_1_alg».proof.Proof.RNode
import proofs.«135486_j17549236371616_1_alg».proof.Proof.RNodeLn
import proofs.«135486_j17549236371616_1_alg».proof.Proof.RNodeOps
import proofs.«135486_j17549236371616_1_alg».proof.Proof.RNodeSpec
import proofs.«135486_j17549236371616_1_alg».proof.Proof.KFinal
import Idealize.ShloMosaic.Adequacy
import Idealize.ShloMosaic.Init

noncomputable section

namespace Cert.Proof

open Idealize.ShloMosaic Idealize.ShloMosaic.TcCoe Idealize.SL.Sem

set_option maxHeartbeats 4000000 in
/-- The value claim: the kernel program's result array is named by its run (the boundary fold after the sixth region,
    read at the result buffer), the reference's by its own (the fold of its operations); both are the layer function
    applied twice to arrays that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W12 m ρ c (Proc.devRef .tc Cert.KernelIdeal.main_v119),
    Cert.KernelIdeal.RunValue.run_result (F := Ideal) m ρ, ?_⟩
  refine (θ_run Cert.ReferenceIdeal.defs _ _).mono (fun _ h c => ⟨(h c).1.trans ?_, (h c).2⟩)
    (Cert.ReferenceIdeal.RunFold.run (F := Ideal) m' ρ')
  obtain ⟨g0, g1, g2, g3, g4, g5, g6, g7, g8, g9, g10, g11, g12, g13, g14, g15, g16⟩ := hagree c
  have hK := Cert.KernelIdeal.Final.result m ρ c
  unfold Cert.KernelIdeal.Final.L1 Cert.KernelIdeal.Final.srcC Cert.KernelIdeal.Final.dstWC Cert.KernelIdeal.Final.dstC at hK
  exact Cert.FinalGlue.result_eq (V' := StableHlo.launchContents m' c)
    (kres := Cert.KernelIdeal.Gen.W12 m ρ c (Proc.devRef .tc Cert.KernelIdeal.main_v119))
    (X := (m ((c.tc : Thread Cert.KernelIdeal.nD Cert.KernelIdeal.τ).loc Cert.KernelIdeal.main_arg0))) (EA := (m ((c.tc : Thread Cert.KernelIdeal.nD Cert.KernelIdeal.τ).loc Cert.KernelIdeal.main_arg1))) (A2 := (m ((c.tc : Thread Cert.KernelIdeal.nD Cert.KernelIdeal.τ).loc Cert.KernelIdeal.main_arg2)))
    (A3 := (m ((c.tc : Thread Cert.KernelIdeal.nD Cert.KernelIdeal.τ).loc Cert.KernelIdeal.main_arg3)))
    (A4 := (m ((c.tc : Thread Cert.KernelIdeal.nD Cert.KernelIdeal.τ).loc Cert.KernelIdeal.main_arg4)))
    (A5 := (m ((c.tc : Thread Cert.KernelIdeal.nD Cert.KernelIdeal.τ).loc Cert.KernelIdeal.main_arg5)))
    (A6 := (m ((c.tc : Thread Cert.KernelIdeal.nD Cert.KernelIdeal.τ).loc Cert.KernelIdeal.main_arg6)))
    (A7 := (m ((c.tc : Thread Cert.KernelIdeal.nD Cert.KernelIdeal.τ).loc Cert.KernelIdeal.main_arg7)))
    (A8 := (m ((c.tc : Thread Cert.KernelIdeal.nD Cert.KernelIdeal.τ).loc Cert.KernelIdeal.main_arg8)))
    (A9 := (m ((c.tc : Thread Cert.KernelIdeal.nD Cert.KernelIdeal.τ).loc Cert.KernelIdeal.main_arg9)))
    (A10 := (m ((c.tc : Thread Cert.KernelIdeal.nD Cert.KernelIdeal.τ).loc Cert.KernelIdeal.main_arg10)))
    (A11 := (m ((c.tc : Thread Cert.KernelIdeal.nD Cert.KernelIdeal.τ).loc Cert.KernelIdeal.main_arg11)))
    (A12 := (m ((c.tc : Thread Cert.KernelIdeal.nD Cert.KernelIdeal.τ).loc Cert.KernelIdeal.main_arg12)))
    (A13 := (m ((c.tc : Thread Cert.KernelIdeal.nD Cert.KernelIdeal.τ).loc Cert.KernelIdeal.main_arg13)))
    (A14 := (m ((c.tc : Thread Cert.KernelIdeal.nD Cert.KernelIdeal.τ).loc Cert.KernelIdeal.main_arg14)))
    (A15 := (m ((c.tc : Thread Cert.KernelIdeal.nD Cert.KernelIdeal.τ).loc Cert.KernelIdeal.main_arg15)))
    (A16 := (m ((c.tc : Thread Cert.KernelIdeal.nD Cert.KernelIdeal.τ).loc Cert.KernelIdeal.main_arg16)))
    (sv := Cert.KernelIdeal.Gen.W1 m ρ c (Proc.devRef .tc Cert.KernelIdeal.main_v1))
    (dv := Cert.KernelIdeal.Gen.W1 m ρ c (Proc.devRef .tc Cert.KernelIdeal.main_v3))
    (hK := hK)
    (hsv := Cert.KernelIdeal.Wt.W1_v1_apply m ρ c) (hdv := Cert.KernelIdeal.Wt.W1_v3_apply m ρ c)
    (hL1 := Cert.ReferenceIdeal.RunFold.val_layer1 _) (hL2 := Cert.ReferenceIdeal.RunFold.val_layer2 _)
    (hlayer := fun p => Cert.RefBridge.layer_eq_of p (Cert.RNode.v144_apply p) (Cert.RAttn.v81_apply p)
      (fun n hd j => Cert.BridgeAttn.hattn_eq _ _ _ _ _ _ _ _ _ n hd j))
    (X' := (m' ((c.tc : Thread Cert.ReferenceIdeal.nD Cert.ReferenceIdeal.τ).loc Cert.ReferenceIdeal.main_arg0))) (EA' := (m' ((c.tc : Thread Cert.ReferenceIdeal.nD Cert.ReferenceIdeal.τ).loc Cert.ReferenceIdeal.main_arg1))) (A2' := (m' ((c.tc : Thread Cert.ReferenceIdeal.nD Cert.ReferenceIdeal.τ).loc Cert.ReferenceIdeal.main_arg2)))
    (A3' := (m' ((c.tc : Thread Cert.ReferenceIdeal.nD Cert.ReferenceIdeal.τ).loc Cert.ReferenceIdeal.main_arg3)))
    (A4' := (m' ((c.tc : Thread Cert.ReferenceIdeal.nD Cert.ReferenceIdeal.τ).loc Cert.ReferenceIdeal.main_arg4)))
    (A5' := (m' ((c.tc : Thread Cert.ReferenceIdeal.nD Cert.ReferenceIdeal.τ).loc Cert.ReferenceIdeal.main_arg5)))
    (A6' := (m' ((c.tc : Thread Cert.ReferenceIdeal.nD Cert.ReferenceIdeal.τ).loc Cert.ReferenceIdeal.main_arg6)))
    (A7' := (m' ((c.tc : Thread Cert.ReferenceIdeal.nD Cert.ReferenceIdeal.τ).loc Cert.ReferenceIdeal.main_arg7)))
    (A8' := (m' ((c.tc : Thread Cert.ReferenceIdeal.nD Cert.ReferenceIdeal.τ).loc Cert.ReferenceIdeal.main_arg8)))
    (A9' := (m' ((c.tc : Thread Cert.ReferenceIdeal.nD Cert.ReferenceIdeal.τ).loc Cert.ReferenceIdeal.main_arg9)))
    (A10' := (m' ((c.tc : Thread Cert.ReferenceIdeal.nD Cert.ReferenceIdeal.τ).loc Cert.ReferenceIdeal.main_arg10)))
    (A11' := (m' ((c.tc : Thread Cert.ReferenceIdeal.nD Cert.ReferenceIdeal.τ).loc Cert.ReferenceIdeal.main_arg11)))
    (A12' := (m' ((c.tc : Thread Cert.ReferenceIdeal.nD Cert.ReferenceIdeal.τ).loc Cert.ReferenceIdeal.main_arg12)))
    (A13' := (m' ((c.tc : Thread Cert.ReferenceIdeal.nD Cert.ReferenceIdeal.τ).loc Cert.ReferenceIdeal.main_arg13)))
    (A14' := (m' ((c.tc : Thread Cert.ReferenceIdeal.nD Cert.ReferenceIdeal.τ).loc Cert.ReferenceIdeal.main_arg14)))
    (A15' := (m' ((c.tc : Thread Cert.ReferenceIdeal.nD Cert.ReferenceIdeal.τ).loc Cert.ReferenceIdeal.main_arg15)))
    (A16' := (m' ((c.tc : Thread Cert.ReferenceIdeal.nD Cert.ReferenceIdeal.τ).loc Cert.ReferenceIdeal.main_arg16)))
    (hx := Cert.ReferenceIdeal.RunFold.val_arg0 _) (hea := Cert.ReferenceIdeal.RunFold.val_arg1 _)
    (hs := fun e => (Cert.ReferenceIdeal.RunFold.val_v1_apply _ e).trans (congrFun (Cert.ReferenceIdeal.RunFold.val_arg2 _) _))
    (hd := fun e => (Cert.ReferenceIdeal.RunFold.val_v3_apply _ e).trans (congrFun (Cert.ReferenceIdeal.RunFold.val_arg2 _) _))
    (hv5 := fun k d => (Cert.ReferenceIdeal.RunFold.val_v5_apply _ k d).trans (congrFun (Cert.ReferenceIdeal.RunFold.val_arg3 _) _))
    (hv7 := fun k d => (Cert.ReferenceIdeal.RunFold.val_v7_apply _ k d).trans (congrFun (Cert.ReferenceIdeal.RunFold.val_arg4 _) _))
    (hv9 := fun k d => (Cert.ReferenceIdeal.RunFold.val_v9_apply _ k d).trans (congrFun (Cert.ReferenceIdeal.RunFold.val_arg5 _) _))
    (hv11 := fun k d => (Cert.ReferenceIdeal.RunFold.val_v11_apply _ k d).trans (congrFun (Cert.ReferenceIdeal.RunFold.val_arg6 _) _))
    (hv13 := fun k d => (Cert.ReferenceIdeal.RunFold.val_v13_apply _ k d).trans (congrFun (Cert.ReferenceIdeal.RunFold.val_arg7 _) _))
    (hv21 := fun k d => (Cert.ReferenceIdeal.RunFold.val_v21_apply _ k d).trans (congrFun (Cert.ReferenceIdeal.RunFold.val_arg11 _) _))
    (hv25 := fun k d => (Cert.ReferenceIdeal.RunFold.val_v25_apply _ k d).trans (congrFun (Cert.ReferenceIdeal.RunFold.val_arg13 _) _))
    (hv146 := fun k d => (Cert.ReferenceIdeal.RunFold.val_v146_apply _ k d).trans (congrFun (Cert.ReferenceIdeal.RunFold.val_arg3 _) _))
    (hv148 := fun k d => (Cert.ReferenceIdeal.RunFold.val_v148_apply _ k d).trans (congrFun (Cert.ReferenceIdeal.RunFold.val_arg4 _) _))
    (hv150 := fun k d => (Cert.ReferenceIdeal.RunFold.val_v150_apply _ k d).trans (congrFun (Cert.ReferenceIdeal.RunFold.val_arg5 _) _))
    (hv152 := fun k d => (Cert.ReferenceIdeal.RunFold.val_v152_apply _ k d).trans (congrFun (Cert.ReferenceIdeal.RunFold.val_arg6 _) _))
    (hv154 := fun k d => (Cert.ReferenceIdeal.RunFold.val_v154_apply _ k d).trans (congrFun (Cert.ReferenceIdeal.RunFold.val_arg7 _) _))
    (hv162 := fun k d => (Cert.ReferenceIdeal.RunFold.val_v162_apply _ k d).trans (congrFun (Cert.ReferenceIdeal.RunFold.val_arg11 _) _))
    (hv166 := fun k d => (Cert.ReferenceIdeal.RunFold.val_v166_apply _ k d).trans (congrFun (Cert.ReferenceIdeal.RunFold.val_arg13 _) _))
    (hv15 := fun d => (Cert.ReferenceIdeal.RunFold.val_v15_apply _ d).trans (congrFun (Cert.ReferenceIdeal.RunFold.val_arg8 _) _))
    (hv17 := fun d => (Cert.ReferenceIdeal.RunFold.val_v17_apply _ d).trans (congrFun (Cert.ReferenceIdeal.RunFold.val_arg9 _) _))
    (hv19 := fun d => (Cert.ReferenceIdeal.RunFold.val_v19_apply _ d).trans (congrFun (Cert.ReferenceIdeal.RunFold.val_arg10 _) _))
    (hv23 := fun d => (Cert.ReferenceIdeal.RunFold.val_v23_apply _ d).trans (congrFun (Cert.ReferenceIdeal.RunFold.val_arg12 _) _))
    (hv27 := fun d => (Cert.ReferenceIdeal.RunFold.val_v27_apply _ d).trans (congrFun (Cert.ReferenceIdeal.RunFold.val_arg14 _) _))
    (hv29 := fun d => (Cert.ReferenceIdeal.RunFold.val_v29_apply _ d).trans (congrFun (Cert.ReferenceIdeal.RunFold.val_arg15 _) _))
    (hv31 := fun d => (Cert.ReferenceIdeal.RunFold.val_v31_apply _ d).trans (congrFun (Cert.ReferenceIdeal.RunFold.val_arg16 _) _))
    (hv156 := fun d => (Cert.ReferenceIdeal.RunFold.val_v156_apply _ d).trans (congrFun (Cert.ReferenceIdeal.RunFold.val_arg8 _) _))
    (hv158 := fun d => (Cert.ReferenceIdeal.RunFold.val_v158_apply _ d).trans (congrFun (Cert.ReferenceIdeal.RunFold.val_arg9 _) _))
    (hv160 := fun d => (Cert.ReferenceIdeal.RunFold.val_v160_apply _ d).trans (congrFun (Cert.ReferenceIdeal.RunFold.val_arg10 _) _))
    (hv164 := fun d => (Cert.ReferenceIdeal.RunFold.val_v164_apply _ d).trans (congrFun (Cert.ReferenceIdeal.RunFold.val_arg12 _) _))
    (hv168 := fun d => (Cert.ReferenceIdeal.RunFold.val_v168_apply _ d).trans (congrFun (Cert.ReferenceIdeal.RunFold.val_arg14 _) _))
    (hv170 := fun d => (Cert.ReferenceIdeal.RunFold.val_v170_apply _ d).trans (congrFun (Cert.ReferenceIdeal.RunFold.val_arg15 _) _))
    (hv172 := fun d => (Cert.ReferenceIdeal.RunFold.val_v172_apply _ d).trans (congrFun (Cert.ReferenceIdeal.RunFold.val_arg16 _) _))
    (aX := g0) (aEA := g1) (a2 := g2) (a3 := g3) (a4 := g4) (a5 := g5) (a6 := g6) (a7 := g7) (a8 := g8) (a9 := g9) (a10 := g10) (a11 := g11) (a12 := g12) (a13 := g13) (a14 := g14) (a15 := g15) (a16 := g16)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunFold.run (F := Ideal) m ρ),
  trivial,
  algebraic⟩

end Cert.Proof

end
